-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x128 : Shape := ⟨2, ![256, 128]⟩
abbrev S128x64 : Shape := ⟨2, ![128, 64]⟩
abbrev S64x4096 : Shape := ⟨2, ![64, 4096]⟩
abbrev S128 : Shape := ⟨1, ![128]⟩
abbrev S256 : Shape := ⟨1, ![256]⟩
abbrev S4096x8 : Shape := ⟨2, ![4096, 8]⟩
abbrev S4096x16 : Shape := ⟨2, ![4096, 16]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x4096 : S_.BroadcastsInDim S64x4096 (![] : Fin 0 → Fin S64x4096.rank)
  reducesTo_S64x4096_S_d0_1 : S64x4096.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x128 .f32) (main_arg8 : FVec F S256 .f32) (main_arg9 : FVec F S4096x4096 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  main_v48

def fn_part1 {F : FTy → Type} [FloatOps F] (main_arg4 : FVec F S64x4096 .f32) (main_arg5 : FVec F S128x64 .f32) (main_arg6 : FVec F S128 .f32) (main_arg7 : FVec F S256x128 .f32) (main_arg8 : FVec F S256 .f32) (main_arg9 : FVec F S4096x4096 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S4096x4096 .f32) (main_arg1 : FVec F S4096x256 .f32) (main_arg2 : FVec F S256x128 .f32) (main_arg3 : FVec F S128x64 .f32) (main_arg4 : FVec F S64x4096 .f32) (main_arg5 : FVec F S128x64 .f32) (main_arg6 : FVec F S128 .f32) (main_arg7 : FVec F S256x128 .f32) (main_arg8 : FVec F S256 .f32) (main_arg9 : FVec F S4096x4096 .f32) (main_arg10 : IVec S4096x8 32) (main_arg11 : IVec S4096x16 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_v13 main_v16
-- ==== Kernel.lean ====
abbrev S4096x4096 : Shape := ⟨2, ![4096, 4096]⟩
abbrev S4096x256 : Shape := ⟨2, ![4096, 256]⟩
abbrev S256x128 : Shape := ⟨2, ![256, 128]⟩
abbrev S128x64 : Shape := ⟨2, ![128, 64]⟩
abbrev S64x4096 : Shape := ⟨2, ![64, 4096]⟩
abbrev S128 : Shape := ⟨1, ![128]⟩
abbrev S256 : Shape := ⟨1, ![256]⟩
abbrev S4096x8 : Shape := ⟨2, ![4096, 8]⟩
abbrev S4096x16 : Shape := ⟨2, ![4096, 16]⟩
abbrev S4096x128 : Shape := ⟨2, ![4096, 128]⟩
abbrev S4096x64 : Shape := ⟨2, ![4096, 64]⟩
abbrev S1x1 : Shape := ⟨2, ![1, 1]⟩
abbrev S512x4096 : Shape := ⟨2, ![512, 4096]⟩
abbrev S512x64 : Shape := ⟨2, ![512, 64]⟩
abbrev S1x512x4096 : Shape := ⟨3, ![1, 512, 4096]⟩
abbrev S1 : Shape := ⟨1, ![1]⟩
abbrev S1x1x1 : Shape := ⟨3, ![1, 1, 1]⟩
abbrev S_ : Shape := ⟨0, ![]⟩
abbrev S64x128 : Shape := ⟨2, ![64, 128]⟩
abbrev S1x128 : Shape := ⟨2, ![1, 128]⟩
abbrev S128x256 : Shape := ⟨2, ![128, 256]⟩
abbrev S1x256 : Shape := ⟨2, ![1, 256]⟩
abbrev S4096 : Shape := ⟨1, ![4096]⟩
abbrev S4096x1 : Shape := ⟨2, ![4096, 1]⟩
abbrev S4096x8x1 : Shape := ⟨3, ![4096, 8, 1]⟩
abbrev S4096x8x2 : Shape := ⟨3, ![4096, 8, 2]⟩
abbrev S4096x16x1 : Shape := ⟨3, ![4096, 16, 1]⟩
abbrev S4096x16x2 : Shape := ⟨3, ![4096, 16, 2]⟩
abbrev S4096x4 : Shape := ⟨2, ![4096, 4]⟩
abbrev S512x256 : Shape := ⟨2, ![512, 256]⟩
abbrev S1024x256 : Shape := ⟨2, ![1024, 256]⟩
abbrev S512x1024 : Shape := ⟨2, ![512, 1024]⟩
abbrev S512x4 : Shape := ⟨2, ![512, 4]⟩
abbrev S256x1024 : Shape := ⟨2, ![256, 1024]⟩
abbrev S512 : Shape := ⟨1, ![512]⟩
abbrev S512x1 : Shape := ⟨2, ![512, 1]⟩
abbrev S6 : Shape := ⟨1, ![6]⟩

abbrev nBuf : Space → Nat
  | .hbm => 203
  | .vmem => 20
  | .smem => 0
  | _ => 0

abbrev hbmTy0_0 (i : Nat) : BufTy := match i % 128 with
  | 0 => ⟨S4096x4096, .f32⟩
  | 1 => ⟨S4096x256, .f32⟩
  | 2 => ⟨S256x128, .f32⟩
  | 3 => ⟨S128x64, .f32⟩
  | 4 => ⟨S64x4096, .f32⟩
  | 5 => ⟨S128x64, .f32⟩
  | 6 => ⟨S128, .f32⟩
  | 7 => ⟨S256x128, .f32⟩
  | 8 => ⟨S256, .f32⟩
  | 9 => ⟨S4096x4096, .f32⟩
  | 10 => ⟨S4096x8, .i32⟩
  | 11 => ⟨S4096x16, .i32⟩
  | 12 => ⟨S4096x128, .f32⟩
  | 13 => ⟨S4096x64, .f32⟩
  | 14 => ⟨S1x1, .f32⟩
  | 15 => ⟨S_, .f32⟩
  | 16 => ⟨S4096x64, .f32⟩
  | 17 => ⟨S64x128, .f32⟩
  | 18 => ⟨S4096x128, .f32⟩
  | 19 => ⟨S1x128, .f32⟩
  | 20 => ⟨S4096x128, .f32⟩
  | 21 => ⟨S4096x128, .f32⟩
  | 22 => ⟨S_, .f32⟩
  | 23 => ⟨S4096x128, .f32⟩
  | 24 => ⟨S4096x128, .i1⟩
  | 25 => ⟨S_, .f32⟩
  | 26 => ⟨S4096x128, .f32⟩
  | 27 => ⟨S4096x128, .i1⟩
  | 28 => ⟨S_, .f32⟩
  | 29 => ⟨S_, .f32⟩
  | 30 => ⟨S4096x128, .f32⟩
  | 31 => ⟨S4096x128, .f32⟩
  | 32 => ⟨S4096x128, .f32⟩
  | 33 => ⟨S_, .f32⟩
  | 34 => ⟨S4096x128, .f32⟩
  | 35 => ⟨S4096x128, .f32⟩
  | 36 => ⟨S4096x128, .f32⟩
  | 37 => ⟨S128x256, .f32⟩
  | 38 => ⟨S4096x256, .f32⟩
  | 39 => ⟨S1x256, .f32⟩
  | 40 => ⟨S4096x256, .f32⟩
  | 41 => ⟨S4096x256, .f32⟩
  | 42 => ⟨S4096x256, .f32⟩
  | 43 => ⟨S_, .f32⟩
  | 44 => ⟨S4096, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x256, .f32⟩
  | 51 => ⟨S4096x256, .f32⟩
  | 52 => ⟨S4096, .i32⟩
  | 53 => ⟨S4096x1, .i32⟩
  | 54 => ⟨S_, .f32⟩
  | 55 => ⟨S4096x4096, .f32⟩
  | 56 => ⟨S_, .i32⟩
  | 57 => ⟨S4096x1, .i32⟩
  | 58 => ⟨S4096x1, .i1⟩
  | 59 => ⟨S_, .i32⟩
  | 60 => ⟨S4096x1, .i32⟩
  | 61 => ⟨S4096x1, .i32⟩
  | 62 => ⟨S4096x1, .i32⟩
  | 63 => ⟨S_, .i32⟩
  | 64 => ⟨S4096x8, .i32⟩
  | 65 => ⟨S4096x8, .i1⟩
  | 66 => ⟨S_, .i32⟩
  | 67 => ⟨S4096x8, .i32⟩
  | 68 => ⟨S4096x8, .i32⟩
  | 69 => ⟨S4096x8, .i32⟩
  | 70 => ⟨S4096x8, .i32⟩
  | 71 => ⟨S4096x8x1, .i32⟩
  | 72 => ⟨S4096x8x1, .i32⟩
  | 73 => ⟨S4096x8x2, .i32⟩
  | 74 => ⟨S_, .f32⟩
  | 75 => ⟨S4096x8, .f32⟩
  | 76 => ⟨S4096x4096, .f32⟩
  | 77 => ⟨S4096, .i32⟩
  | 78 => ⟨S4096x1, .i32⟩
  | 79 => ⟨S_, .f32⟩
  | 80 => ⟨S4096x4096, .f32⟩
  | 81 => ⟨S_, .i32⟩
  | 82 => ⟨S4096x1, .i32⟩
  | 83 => ⟨S4096x1, .i1⟩
  | 84 => ⟨S_, .i32⟩
  | 85 => ⟨S4096x1, .i32⟩
  | 86 => ⟨S4096x1, .i32⟩
  | 87 => ⟨S4096x1, .i32⟩
  | 88 => ⟨S_, .i32⟩
  | 89 => ⟨S4096x16, .i32⟩
  | 90 => ⟨S4096x16, .i1⟩
  | 91 => ⟨S_, .i32⟩
  | 92 => ⟨S4096x16, .i32⟩
  | 93 => ⟨S4096x16, .i32⟩
  | 94 => ⟨S4096x16, .i32⟩
  | 95 => ⟨S4096x16, .i32⟩
  | 96 => ⟨S4096x16x1, .i32⟩
  | 97 => ⟨S4096x16x1, .i32⟩
  | 98 => ⟨S4096x16x2, .i32⟩
  | 99 => ⟨S_, .f32⟩
  | 100 => ⟨S4096x16, .f32⟩
  | 101 => ⟨S4096x4096, .f32⟩
  | 102 => ⟨S4096x4, .f32⟩
  | 103 => ⟨S4096x1, .f32⟩
  | 104 => ⟨S4096, .f32⟩
  | 105 => ⟨S4096x1, .f32⟩
  | 106 => ⟨S4096, .f32⟩
  | 107 => ⟨S4096x1, .f32⟩
  | 108 => ⟨S4096, .f32⟩
  | 109 => ⟨S4096x1, .f32⟩
  | 110 => ⟨S4096, .f32⟩
  | 111 => ⟨S4096, .f32⟩
  | 112 => ⟨S_, .f32⟩
  | 113 => ⟨S4096, .f32⟩
  | 114 => ⟨S4096, .i1⟩
  | 115 => ⟨S_, .f32⟩
  | 116 => ⟨S_, .f32⟩
  | 117 => ⟨S4096, .f32⟩
  | 118 => ⟨S4096, .f32⟩
  | 119 => ⟨S4096, .f32⟩
  | 120 => ⟨S_, .f32⟩
  | 121 => ⟨S_, .f32⟩
  | 122 => ⟨S_, .f32⟩
  | 123 => ⟨S_, .f32⟩
  | 124 => ⟨S_, .f32⟩
  | 125 => ⟨S4096, .f32⟩
  | 126 => ⟨S_, .f32⟩
  | 127 => ⟨S4096, .f32⟩
  | _ => ⟨S4096x4096, .f32⟩

abbrev hbmTy0_1 (i : Nat) : BufTy := match i % 128 with
  | 0 => ⟨S4096, .i1⟩
  | 1 => ⟨S_, .f32⟩
  | 2 => ⟨S_, .f32⟩
  | 3 => ⟨S4096, .f32⟩
  | 4 => ⟨S4096, .f32⟩
  | 5 => ⟨S4096, .f32⟩
  | 6 => ⟨S_, .f32⟩
  | 7 => ⟨S_, .f32⟩
  | 8 => ⟨S_, .f32⟩
  | 9 => ⟨S_, .f32⟩
  | 10 => ⟨S_, .f32⟩
  | 11 => ⟨S4096, .f32⟩
  | 12 => ⟨S_, .f32⟩
  | 13 => ⟨S4096, .f32⟩
  | 14 => ⟨S4096, .i1⟩
  | 15 => ⟨S_, .f32⟩
  | 16 => ⟨S_, .f32⟩
  | 17 => ⟨S4096, .f32⟩
  | 18 => ⟨S4096, .f32⟩
  | 19 => ⟨S4096, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S4096x256, .f32⟩
  | 27 => ⟨S4096x256, .f32⟩
  | 28 => ⟨S4096x256, .f32⟩
  | 29 => ⟨S_, .f32⟩
  | 30 => ⟨S_, .f32⟩
  | 31 => ⟨S_, .f32⟩
  | 32 => ⟨S_, .f32⟩
  | 33 => ⟨S_, .f32⟩
  | 34 => ⟨S256x128, .f32⟩
  | 35 => ⟨S256x128, .f32⟩
  | 36 => ⟨S256x128, .f32⟩
  | 37 => ⟨S_, .f32⟩
  | 38 => ⟨S_, .f32⟩
  | 39 => ⟨S_, .f32⟩
  | 40 => ⟨S_, .f32⟩
  | 41 => ⟨S128x64, .f32⟩
  | 42 => ⟨S128x64, .f32⟩
  | 43 => ⟨S128x64, .f32⟩
  | 44 => ⟨S_, .f32⟩
  | 45 => ⟨S_, .f32⟩
  | 46 => ⟨S_, .f32⟩
  | 47 => ⟨S_, .f32⟩
  | 48 => ⟨S64x4096, .f32⟩
  | 49 => ⟨S64x4096, .f32⟩
  | 50 => ⟨S64x4096, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S1, .f32⟩
  | 69 => ⟨S1, .f32⟩
  | 70 => ⟨S1, .f32⟩
  | 71 => ⟨S1, .f32⟩
  | 72 => ⟨S1, .f32⟩
  | 73 => ⟨S1, .f32⟩
  | 74 => ⟨S6, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S512x4096, .f32⟩
  | .local _ .vmem, ⟨1, _⟩ => ⟨S512x4096, .f32⟩
  | .local _ .vmem, ⟨2, _⟩ => ⟨S512x64, .f32⟩
  | .local _ .vmem, ⟨3, _⟩ => ⟨S512x64, .f32⟩
  | .local _ .vmem, ⟨4, _⟩ => ⟨S64x4096, .f32⟩
  | .local _ .vmem, ⟨5, _⟩ => ⟨S1x1, .f32⟩
  | .local _ .vmem, ⟨6, _⟩ => ⟨S1x1, .f32⟩
  | .local _ .vmem, ⟨7, _⟩ => ⟨S512x256, .f32⟩
  | .local _ .vmem, ⟨8, _⟩ => ⟨S512x256, .f32⟩
  | .local _ .vmem, ⟨9, _⟩ => ⟨S1024x256, .f32⟩
  | .local _ .vmem, ⟨10, _⟩ => ⟨S1024x256, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x4, .f32⟩
  | .local _ .vmem, ⟨18, _⟩ => ⟨S512x4, .f32⟩
  | .local _ .vmem, ⟨19, _⟩ => ⟨S512x4, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_cst_1 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_v4 : Ref sig .tc := ⟨.hbm, 31, rfl⟩
abbrev main_call0_v5 : Ref sig .tc := ⟨.hbm, 32, rfl⟩
abbrev main_call0_cst_2 : Ref sig .tc := ⟨.hbm, 33, rfl⟩
abbrev main_call0_v6 : Ref sig .tc := ⟨.hbm, 34, rfl⟩
abbrev main_call0_v7 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v16 : Ref sig .tc := ⟨.hbm, 46, rfl⟩
abbrev main_cst : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_0 : Ref sig .tc := ⟨.hbm, 54, rfl⟩
abbrev main_v23 : Ref sig .tc := ⟨.hbm, 55, rfl⟩
abbrev main_c : Ref sig .tc := ⟨.hbm, 56, rfl⟩
abbrev main_v24 : Ref sig .tc := ⟨.hbm, 57, rfl⟩
abbrev main_v25 : Ref sig .tc := ⟨.hbm, 58, rfl⟩
abbrev main_c_1 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_2 : Ref sig .tc := ⟨.hbm, 63, rfl⟩
abbrev main_v29 : Ref sig .tc := ⟨.hbm, 64, rfl⟩
abbrev main_v30 : Ref sig .tc := ⟨.hbm, 65, rfl⟩
abbrev main_c_3 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_4 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_5 : Ref sig .tc := ⟨.hbm, 79, rfl⟩
abbrev main_v42 : Ref sig .tc := ⟨.hbm, 80, rfl⟩
abbrev main_c_6 : Ref sig .tc := ⟨.hbm, 81, rfl⟩
abbrev main_v43 : Ref sig .tc := ⟨.hbm, 82, rfl⟩
abbrev main_v44 : Ref sig .tc := ⟨.hbm, 83, rfl⟩
abbrev main_c_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_c_8 : Ref sig .tc := ⟨.hbm, 88, rfl⟩
abbrev main_v48 : Ref sig .tc := ⟨.hbm, 89, rfl⟩
abbrev main_v49 : Ref sig .tc := ⟨.hbm, 90, rfl⟩
abbrev main_c_9 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_10 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_11 : Ref sig .tc := ⟨.hbm, 112, rfl⟩
abbrev main_v69 : Ref sig .tc := ⟨.hbm, 113, rfl⟩
abbrev main_v70 : Ref sig .tc := ⟨.hbm, 114, rfl⟩
abbrev main_cst_12 : Ref sig .tc := ⟨.hbm, 115, rfl⟩
abbrev main_call2_v0 : Ref sig .tc := ⟨.hbm, 116, rfl⟩
abbrev main_call2_v1 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_cst_15 : Ref sig .tc := ⟨.hbm, 126, rfl⟩
abbrev main_v77 : Ref sig .tc := ⟨.hbm, 127, rfl⟩
abbrev main_v78 : Ref sig .tc := ⟨.hbm, 128, rfl⟩
abbrev main_cst_16 : Ref sig .tc := ⟨.hbm, 129, rfl⟩
abbrev main_call3_v0 : Ref sig .tc := ⟨.hbm, 130, rfl⟩
abbrev main_call3_v1 : Ref sig .tc := ⟨.hbm, 131, rfl⟩
abbrev main_v79 : Ref sig .tc := ⟨.hbm, 132, rfl⟩
abbrev main_v80 : Ref sig .tc := ⟨.hbm, 133, rfl⟩
abbrev main_cst_17 : Ref sig .tc := ⟨.hbm, 134, rfl⟩
abbrev main_v81 : Ref sig .tc := ⟨.hbm, 135, rfl⟩
abbrev main_v82 : Ref sig .tc := ⟨.hbm, 136, rfl⟩
abbrev main_cst_18 : Ref sig .tc := ⟨.hbm, 137, rfl⟩
abbrev main_v83 : Ref sig .tc := ⟨.hbm, 138, rfl⟩
abbrev main_v84 : Ref sig .tc := ⟨.hbm, 139, rfl⟩
abbrev main_cst_19 : Ref sig .tc := ⟨.hbm, 140, rfl⟩
abbrev main_v85 : Ref sig .tc := ⟨.hbm, 141, rfl⟩
abbrev main_v86 : Ref sig .tc := ⟨.hbm, 142, rfl⟩
abbrev main_cst_20 : Ref sig .tc := ⟨.hbm, 143, rfl⟩
abbrev main_call4_v0 : Ref sig .tc := ⟨.hbm, 144, rfl⟩
abbrev main_call4_v1 : Ref sig .tc := ⟨.hbm, 145, rfl⟩
abbrev main_v87 : Ref sig .tc := ⟨.hbm, 146, rfl⟩
abbrev main_v88 : Ref sig .tc := ⟨.hbm, 147, rfl⟩
abbrev main_cst_21 : Ref sig .tc := ⟨.hbm, 148, rfl⟩
abbrev main_v89 : Ref sig .tc := ⟨.hbm, 149, rfl⟩
abbrev main_v90 : Ref sig .tc := ⟨.hbm, 150, rfl⟩
abbrev main_cst_22 : Ref sig .tc := ⟨.hbm, 151, rfl⟩
abbrev main_v91 : Ref sig .tc := ⟨.hbm, 152, rfl⟩
abbrev main_cst_23 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_24 : Ref sig .tc := ⟨.hbm, 157, rfl⟩
abbrev main_v95 : Ref sig .tc := ⟨.hbm, 158, rfl⟩
abbrev main_cst_25 : Ref sig .tc := ⟨.hbm, 159, rfl⟩
abbrev main_v96 : Ref sig .tc := ⟨.hbm, 160, rfl⟩
abbrev main_cst_26 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_cst_27 : Ref sig .tc := ⟨.hbm, 165, rfl⟩
abbrev main_v100 : Ref sig .tc := ⟨.hbm, 166, rfl⟩
abbrev main_v101 : Ref sig .tc := ⟨.hbm, 167, rfl⟩
abbrev main_cst_28 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_29 : Ref sig .tc := ⟨.hbm, 172, rfl⟩
abbrev main_v105 : Ref sig .tc := ⟨.hbm, 173, rfl⟩
abbrev main_v106 : Ref sig .tc := ⟨.hbm, 174, rfl⟩
abbrev main_cst_30 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_31 : Ref sig .tc := ⟨.hbm, 179, rfl⟩
abbrev main_v110 : Ref sig .tc := ⟨.hbm, 180, rfl⟩
abbrev main_v111 : Ref sig .tc := ⟨.hbm, 181, rfl⟩
abbrev main_cst_32 : Ref sig .tc := ⟨.hbm, 182, rfl⟩
abbrev main_v112 : Ref sig .tc := ⟨.hbm, 183, rfl⟩
abbrev main_cst_33 : Ref sig .tc := ⟨.hbm, 184, rfl⟩
abbrev main_v113 : Ref sig .tc := ⟨.hbm, 185, rfl⟩
abbrev main_v114 : Ref sig .tc := ⟨.hbm, 186, rfl⟩
abbrev main_cst_34 : Ref sig .tc := ⟨.hbm, 187, rfl⟩
abbrev main_v115 : Ref sig .tc := ⟨.hbm, 188, rfl⟩
abbrev main_v116 : Ref sig .tc := ⟨.hbm, 189, rfl⟩
abbrev main_cst_35 : Ref sig .tc := ⟨.hbm, 190, rfl⟩
abbrev main_v117 : Ref sig .tc := ⟨.hbm, 191, rfl⟩
abbrev main_v118 : Ref sig .tc := ⟨.hbm, 192, rfl⟩
abbrev main_cst_36 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_20 : BitVec 32 := 0#32
  let v40 : BitVec 1 := Scalar.cmpi .ne v39 c0_i32_20
  v40

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  transposes_S64x4096_S4096x64_1_0 : S64x4096.Transposes [1, 0] S4096x64
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S256x128_S128x256_1_0 : S256x128.Transposes [1, 0] S128x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S_S4096x4096 : S_.BroadcastsInDim S4096x4096 (![] : Fin 0 → Fin S4096x4096.rank)
  bcast_S_S4096x8 : S_.BroadcastsInDim S4096x8 (![] : Fin 0 → Fin S4096x8.rank)
  bcast_S4096x1_S4096x8_0_1 : S4096x1.BroadcastsInDim S4096x8 (![0, 1] : Fin 2 → Fin S4096x8.rank)
  bcast_S4096x8_S4096x8x1_0_1 : S4096x8.BroadcastsInDim S4096x8x1 (![0, 1] : Fin 2 → Fin S4096x8x1.rank)
  concatenates_S4096x8x1_S4096x8x1_S4096x8x2_d2 : Shape.Concatenates [S4096x8x1, S4096x8x1] S4096x8x2 2
  bcast_S_S4096x16 : S_.BroadcastsInDim S4096x16 (![] : Fin 0 → Fin S4096x16.rank)
  bcast_S4096x1_S4096x16_0_1 : S4096x1.BroadcastsInDim S4096x16 (![0, 1] : Fin 2 → Fin S4096x16.rank)
  bcast_S4096x16_S4096x16x1_0_1 : S4096x16.BroadcastsInDim S4096x16x1 (![0, 1] : Fin 2 → Fin S4096x16x1.rank)
  concatenates_S4096x16x1_S4096x16x1_S4096x16x2_d2 : Shape.Concatenates [S4096x16x1, S4096x16x1] S4096x16x2 2
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  reduces_S512x1024_S512 : S512x1024.Reduces [1] S512
  shapeCasts_S512_S512x1 : S512.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  natLt_1_32 : 1 < 32
  concatenates_S512x1_S512x1_S512x1_S512x1_S512x4_d1 : Shape.Concatenates [S512x1, S512x1, S512x1, S512x1] S512x4 1
  slices_S4096x4_S4096x1_0_0 : S4096x4.Slices ![0, 0] S4096x1
  shapeCasts_S4096x1_S4096 : S4096x1.ShapeCasts S4096
  slices_S4096x4_S4096x1_0_1 : S4096x4.Slices ![0, 1] S4096x1
  slices_S4096x4_S4096x1_0_2 : S4096x4.Slices ![0, 2] S4096x1
  slices_S4096x4_S4096x1_0_3 : S4096x4.Slices ![0, 3] S4096x1
  bcast_S_S4096 : S_.BroadcastsInDim S4096 (![] : Fin 0 → Fin S4096.rank)
  reducesTo_S4096_S_d0 : S4096.ReducesTo [0] S_
  bcast_S_S4096x256 : S_.BroadcastsInDim S4096x256 (![] : Fin 0 → Fin S4096x256.rank)
  reducesTo_S4096x256_S_d0_1 : S4096x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x4096 : S_.BroadcastsInDim S64x4096 (![] : Fin 0 → Fin S64x4096.rank)
  reducesTo_S64x4096_S_d0_1 : S64x4096.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0
  dot_S4096x256_S256x128_S4096x128_1_0_0_1_n_n_wf : DotDims.WF S4096x256 S256x128 S4096x128 [1] [0] [0] [1] [] []
  dot_S4096x128_S128x64_S4096x64_1_0_0_1_n_n_wf : DotDims.WF S4096x128 S128x64 S4096x64 [1] [0] [0] [1] [] []
  dot_S512x64_S64x4096_S512x4096_1_0_0_1_n_n_wf : DotDims.WF S512x64 S64x4096 S512x4096 [1] [0] [0] [1] [] []
  dot_S4096x64_S64x128_S4096x128_1_0_0_1_n_n_wf : DotDims.WF S4096x64 S64x128 S4096x128 [1] [0] [0] [1] [] []
  dot_S4096x128_S128x256_S4096x256_1_0_0_1_n_n_wf : DotDims.WF S4096x128 S128x256 S4096x256 [1] [0] [0] [1] [] []
  scatter_S4096x4096_S4096x8x2_S4096x8_n_01_01_2_wf : ScatterDims.WF S4096x4096 S4096x8x2 S4096x8 [] [0, 1] [0, 1] 2
  scatter_S4096x4096_S4096x16x2_S4096x16_n_01_01_2_wf : ScatterDims.WF S4096x4096 S4096x16x2 S4096x16 [] [0, 1] [0, 1] 2
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .f32 = 32 ∨ (Rect.block (s := S4096x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .f32 = 32 ∨ (Rect.block (s := S4096x4096) S512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S4096x4096.size a
  hwx1_4 : ∀ i : grid1.Coords, EltTy.bits .f32 = 32 ∨ (Rect.block (s := S4096x4096) S512x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x4.size a ≤ S4096x4.size a
  hwx1_5 : ∀ i : grid1.Coords, EltTy.bits .f32 = 32 ∨ (Rect.block (s := S4096x4) S512x4.size (cc1_transform_5 i) (hinb1_5 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def scatter_S4096x4096_S4096x8x2_S4096x8_n_01_01_2 : ScatterDims S4096x4096 S4096x8x2 S4096x8 where
  updateWindowDims := []
  insertedWindowDims := [0, 1]
  scatterDimsToOperandDims := [0, 1]
  indexVectorDim := 2
  wf := scatter_S4096x4096_S4096x8x2_S4096x8_n_01_01_2_wf
def scatter_S4096x4096_S4096x16x2_S4096x16_n_01_01_2 : ScatterDims S4096x4096 S4096x16x2 S4096x16 where
  updateWindowDims := []
  insertedWindowDims := [0, 1]
  scatterDimsToOperandDims := [0, 1]
  indexVectorDim := 2
  wf := scatter_S4096x4096_S4096x16x2_S4096x16_n_01_01_2_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v20) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S512x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v59) S512x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x128 : Shape := ⟨2, ![256, 128]⟩
abbrev S128x64 : Shape := ⟨2, ![128, 64]⟩
abbrev S64x4096 : Shape := ⟨2, ![64, 4096]⟩
abbrev S128 : Shape := ⟨1, ![128]⟩
abbrev S256 : Shape := ⟨1, ![256]⟩
abbrev S4096x8 : Shape := ⟨2, ![4096, 8]⟩
abbrev S4096x16 : Shape := ⟨2, ![4096, 16]⟩
abbrev S4096x128 : Shape := ⟨2, ![4096, 128]⟩
abbrev S4096x64 : Shape := ⟨2, ![4096, 64]⟩
abbrev S_ : Shape := ⟨0, ![]⟩
abbrev S64x128 : Shape := ⟨2, ![64, 128]⟩
abbrev S1x128 : Shape := ⟨2, ![1, 128]⟩
abbrev S128x256 : Shape := ⟨2, ![128, 256]⟩
abbrev S1x256 : Shape := ⟨2, ![1, 256]⟩
abbrev S4096 : Shape := ⟨1, ![4096]⟩
abbrev S4096x1 : Shape := ⟨2, ![4096, 1]⟩
abbrev S256x4096 : Shape := ⟨2, ![256, 4096]⟩
abbrev S4096x8x1 : Shape := ⟨3, ![4096, 8, 1]⟩
abbrev S4096x8x2 : Shape := ⟨3, ![4096, 8, 2]⟩
abbrev S4096x16x1 : Shape := ⟨3, ![4096, 16, 1]⟩
abbrev S4096x16x2 : Shape := ⟨3, ![4096, 16, 2]⟩
abbrev S1 : Shape := ⟨1, ![1]⟩
abbrev S6 : Shape := ⟨1, ![6]⟩

abbrev nBuf : Space → Nat
  | .hbm => 237
  | .vmem => 0
  | .smem => 0
  | _ => 0

abbrev hbmTy0_0 (i : Nat) : BufTy := match i % 128 with
  | 0 => ⟨S4096x4096, .f32⟩
  | 1 => ⟨S4096x256, .f32⟩
  | 2 => ⟨S256x128, .f32⟩
  | 3 => ⟨S128x64, .f32⟩
  | 4 => ⟨S64x4096, .f32⟩
  | 5 => ⟨S128x64, .f32⟩
  | 6 => ⟨S128, .f32⟩
  | 7 => ⟨S256x128, .f32⟩
  | 8 => ⟨S256, .f32⟩
  | 9 => ⟨S4096x4096, .f32⟩
  | 10 => ⟨S4096x8, .i32⟩
  | 11 => ⟨S4096x16, .i32⟩
  | 12 => ⟨S4096x128, .f32⟩
  | 13 => ⟨S4096x64, .f32⟩
  | 14 => ⟨S4096x4096, .f32⟩
  | 15 => ⟨S4096x4096, .f32⟩
  | 16 => ⟨S4096x4096, .f32⟩
  | 17 => ⟨S_, .f32⟩
  | 18 => ⟨S_, .f32⟩
  | 19 => ⟨S4096x64, .f32⟩
  | 20 => ⟨S64x128, .f32⟩
  | 21 => ⟨S4096x128, .f32⟩
  | 22 => ⟨S1x128, .f32⟩
  | 23 => ⟨S4096x128, .f32⟩
  | 24 => ⟨S4096x128, .f32⟩
  | 25 => ⟨S_, .f32⟩
  | 26 => ⟨S4096x128, .f32⟩
  | 27 => ⟨S4096x128, .i1⟩
  | 28 => ⟨S_, .f32⟩
  | 29 => ⟨S4096x128, .f32⟩
  | 30 => ⟨S4096x128, .i1⟩
  | 31 => ⟨S_, .f32⟩
  | 32 => ⟨S_, .f32⟩
  | 33 => ⟨S4096x128, .f32⟩
  | 34 => ⟨S4096x128, .f32⟩
  | 35 => ⟨S4096x128, .f32⟩
  | 36 => ⟨S_, .f32⟩
  | 37 => ⟨S4096x128, .f32⟩
  | 38 => ⟨S4096x128, .f32⟩
  | 39 => ⟨S4096x128, .f32⟩
  | 40 => ⟨S128x256, .f32⟩
  | 41 => ⟨S4096x256, .f32⟩
  | 42 => ⟨S1x256, .f32⟩
  | 43 => ⟨S4096x256, .f32⟩
  | 44 => ⟨S4096x256, .f32⟩
  | 45 => ⟨S4096x256, .f32⟩
  | 46 => ⟨S_, .f32⟩
  | 47 => ⟨S4096, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x256, .f32⟩
  | 54 => ⟨S4096x256, .f32⟩
  | 55 => ⟨S256x4096, .f32⟩
  | 56 => ⟨S4096x4096, .f32⟩
  | 57 => ⟨S_, .f32⟩
  | 58 => ⟨S4096x4096, .f32⟩
  | 59 => ⟨S4096x4096, .f32⟩
  | 60 => ⟨S4096x4096, .f32⟩
  | 61 => ⟨S4096, .i32⟩
  | 62 => ⟨S4096x1, .i32⟩
  | 63 => ⟨S_, .f32⟩
  | 64 => ⟨S4096x4096, .f32⟩
  | 65 => ⟨S_, .i32⟩
  | 66 => ⟨S4096x1, .i32⟩
  | 67 => ⟨S4096x1, .i1⟩
  | 68 => ⟨S_, .i32⟩
  | 69 => ⟨S4096x1, .i32⟩
  | 70 => ⟨S4096x1, .i32⟩
  | 71 => ⟨S4096x1, .i32⟩
  | 72 => ⟨S_, .i32⟩
  | 73 => ⟨S4096x8, .i32⟩
  | 74 => ⟨S4096x8, .i1⟩
  | 75 => ⟨S_, .i32⟩
  | 76 => ⟨S4096x8, .i32⟩
  | 77 => ⟨S4096x8, .i32⟩
  | 78 => ⟨S4096x8, .i32⟩
  | 79 => ⟨S4096x8, .i32⟩
  | 80 => ⟨S4096x8x1, .i32⟩
  | 81 => ⟨S4096x8x1, .i32⟩
  | 82 => ⟨S4096x8x2, .i32⟩
  | 83 => ⟨S_, .f32⟩
  | 84 => ⟨S4096x8, .f32⟩
  | 85 => ⟨S4096x4096, .f32⟩
  | 86 => ⟨S4096x4096, .f32⟩
  | 87 => ⟨S_, .f32⟩
  | 88 => ⟨S4096, .f32⟩
  | 89 => ⟨S_, .f32⟩
  | 90 => ⟨S4096x4096, .f32⟩
  | 91 => ⟨S4096x4096, .f32⟩
  | 92 => ⟨S4096x4096, .f32⟩
  | 93 => ⟨S_, .f32⟩
  | 94 => ⟨S4096, .f32⟩
  | 95 => ⟨S4096, .f32⟩
  | 96 => ⟨S4096, .f32⟩
  | 97 => ⟨S_, .f32⟩
  | 98 => ⟨S4096, .f32⟩
  | 99 => ⟨S4096, .i1⟩
  | 100 => ⟨S_, .f32⟩
  | 101 => ⟨S_, .f32⟩
  | 102 => ⟨S4096, .f32⟩
  | 103 => ⟨S4096, .f32⟩
  | 104 => ⟨S4096, .f32⟩
  | 105 => ⟨S_, .f32⟩
  | 106 => ⟨S_, .f32⟩
  | 107 => ⟨S_, .f32⟩
  | 108 => ⟨S_, .f32⟩
  | 109 => ⟨S_, .f32⟩
  | 110 => ⟨S4096, .i32⟩
  | 111 => ⟨S4096x1, .i32⟩
  | 112 => ⟨S_, .f32⟩
  | 113 => ⟨S4096x4096, .f32⟩
  | 114 => ⟨S_, .i32⟩
  | 115 => ⟨S4096x1, .i32⟩
  | 116 => ⟨S4096x1, .i1⟩
  | 117 => ⟨S_, .i32⟩
  | 118 => ⟨S4096x1, .i32⟩
  | 119 => ⟨S4096x1, .i32⟩
  | 120 => ⟨S4096x1, .i32⟩
  | 121 => ⟨S_, .i32⟩
  | 122 => ⟨S4096x16, .i32⟩
  | 123 => ⟨S4096x16, .i1⟩
  | 124 => ⟨S_, .i32⟩
  | 125 => ⟨S4096x16, .i32⟩
  | 126 => ⟨S4096x16, .i32⟩
  | 127 => ⟨S4096x16, .i32⟩
  | _ => ⟨S4096x4096, .f32⟩

abbrev hbmTy0_1 (i : Nat) : BufTy := match i % 128 with
  | 0 => ⟨S4096x16, .i32⟩
  | 1 => ⟨S4096x16x1, .i32⟩
  | 2 => ⟨S4096x16x1, .i32⟩
  | 3 => ⟨S4096x16x2, .i32⟩
  | 4 => ⟨S_, .f32⟩
  | 5 => ⟨S4096x16, .f32⟩
  | 6 => ⟨S4096x4096, .f32⟩
  | 7 => ⟨S4096x4096, .f32⟩
  | 8 => ⟨S_, .f32⟩
  | 9 => ⟨S4096, .f32⟩
  | 10 => ⟨S_, .f32⟩
  | 11 => ⟨S4096x4096, .f32⟩
  | 12 => ⟨S4096x4096, .f32⟩
  | 13 => ⟨S4096x4096, .f32⟩
  | 14 => ⟨S_, .f32⟩
  | 15 => ⟨S4096, .f32⟩
  | 16 => ⟨S4096, .f32⟩
  | 17 => ⟨S4096, .f32⟩
  | 18 => ⟨S_, .f32⟩
  | 19 => ⟨S4096, .f32⟩
  | 20 => ⟨S4096, .i1⟩
  | 21 => ⟨S_, .f32⟩
  | 22 => ⟨S_, .f32⟩
  | 23 => ⟨S4096, .f32⟩
  | 24 => ⟨S4096, .f32⟩
  | 25 => ⟨S4096, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4096x4096, .f32⟩
  | 33 => ⟨S4096x4096, .i1⟩
  | 34 => ⟨S4096x4096, .f32⟩
  | 35 => ⟨S4096x4096, .f32⟩
  | 36 => ⟨S_, .f32⟩
  | 37 => ⟨S4096, .f32⟩
  | 38 => ⟨S_, .f32⟩
  | 39 => ⟨S4096x4096, .f32⟩
  | 40 => ⟨S4096x4096, .f32⟩
  | 41 => ⟨S4096x4096, .f32⟩
  | 42 => ⟨S_, .f32⟩
  | 43 => ⟨S4096, .f32⟩
  | 44 => ⟨S4096, .f32⟩
  | 45 => ⟨S4096, .f32⟩
  | 46 => ⟨S_, .f32⟩
  | 47 => ⟨S4096, .f32⟩
  | 48 => ⟨S4096, .i1⟩
  | 49 => ⟨S_, .f32⟩
  | 50 => ⟨S_, .f32⟩
  | 51 => ⟨S4096, .f32⟩
  | 52 => ⟨S4096, .f32⟩
  | 53 => ⟨S4096, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S4096x256, .f32⟩
  | 61 => ⟨S4096x256, .f32⟩
  | 62 => ⟨S4096x256, .f32⟩
  | 63 => ⟨S_, .f32⟩
  | 64 => ⟨S_, .f32⟩
  | 65 => ⟨S_, .f32⟩
  | 66 => ⟨S_, .f32⟩
  | 67 => ⟨S_, .f32⟩
  | 68 => ⟨S256x128, .f32⟩
  | 69 => ⟨S256x128, .f32⟩
  | 70 => ⟨S256x128, .f32⟩
  | 71 => ⟨S_, .f32⟩
  | 72 => ⟨S_, .f32⟩
  | 73 => ⟨S_, .f32⟩
  | 74 => ⟨S_, .f32⟩
  | 75 => ⟨S128x64, .f32⟩
  | 76 => ⟨S128x64, .f32⟩
  | 77 => ⟨S128x64, .f32⟩
  | 78 => ⟨S_, .f32⟩
  | 79 => ⟨S_, .f32⟩
  | 80 => ⟨S_, .f32⟩
  | 81 => ⟨S_, .f32⟩
  | 82 => ⟨S64x4096, .f32⟩
  | 83 => ⟨S64x4096, .f32⟩
  | 84 => ⟨S64x4096, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S1, .f32⟩
  | 103 => ⟨S1, .f32⟩
  | 104 => ⟨S1, .f32⟩
  | 105 => ⟨S1, .f32⟩
  | 106 => ⟨S1, .f32⟩
  | 107 => ⟨S1, .f32⟩
  | 108 => ⟨S6, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_cst_1 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v4 : Ref sig .tc := ⟨.hbm, 34, rfl⟩
abbrev main_call0_v5 : Ref sig .tc := ⟨.hbm, 35, rfl⟩
abbrev main_call0_cst_2 : Ref sig .tc := ⟨.hbm, 36, rfl⟩
abbrev main_call0_v6 : Ref sig .tc := ⟨.hbm, 37, rfl⟩
abbrev main_call0_v7 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_call1_v2 : Ref sig .tc := ⟨.hbm, 48, rfl⟩
abbrev main_v18 : Ref sig .tc := ⟨.hbm, 49, rfl⟩
abbrev main_cst_0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_1 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_2 : Ref sig .tc := ⟨.hbm, 63, rfl⟩
abbrev main_v30 : Ref sig .tc := ⟨.hbm, 64, rfl⟩
abbrev main_c : Ref sig .tc := ⟨.hbm, 65, rfl⟩
abbrev main_v31 : Ref sig .tc := ⟨.hbm, 66, rfl⟩
abbrev main_v32 : Ref sig .tc := ⟨.hbm, 67, rfl⟩
abbrev main_c_3 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_c_4 : Ref sig .tc := ⟨.hbm, 72, rfl⟩
abbrev main_v36 : Ref sig .tc := ⟨.hbm, 73, rfl⟩
abbrev main_v37 : Ref sig .tc := ⟨.hbm, 74, rfl⟩
abbrev main_c_5 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_cst_8 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_9 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_10 : Ref sig .tc := ⟨.hbm, 97, rfl⟩
abbrev main_v55 : Ref sig .tc := ⟨.hbm, 98, rfl⟩
abbrev main_v56 : Ref sig .tc := ⟨.hbm, 99, rfl⟩
abbrev main_cst_11 : Ref sig .tc := ⟨.hbm, 100, rfl⟩
abbrev main_call2_v0 : Ref sig .tc := ⟨.hbm, 101, rfl⟩
abbrev main_call2_v1 : Ref sig .tc := ⟨.hbm, 102, rfl⟩
abbrev main_v57 : Ref sig .tc := ⟨.hbm, 103, rfl⟩
abbrev main_v58 : Ref sig .tc := ⟨.hbm, 104, rfl⟩
abbrev main_cst_12 : Ref sig .tc := ⟨.hbm, 105, rfl⟩
abbrev main_v59 : Ref sig .tc := ⟨.hbm, 106, rfl⟩
abbrev main_v60 : Ref sig .tc := ⟨.hbm, 107, rfl⟩
abbrev main_cst_13 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_14 : Ref sig .tc := ⟨.hbm, 112, rfl⟩
abbrev main_v64 : Ref sig .tc := ⟨.hbm, 113, rfl⟩
abbrev main_c_15 : Ref sig .tc := ⟨.hbm, 114, rfl⟩
abbrev main_v65 : Ref sig .tc := ⟨.hbm, 115, rfl⟩
abbrev main_v66 : Ref sig .tc := ⟨.hbm, 116, rfl⟩
abbrev main_c_16 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_c_17 : Ref sig .tc := ⟨.hbm, 121, rfl⟩
abbrev main_v70 : Ref sig .tc := ⟨.hbm, 122, rfl⟩
abbrev main_v71 : Ref sig .tc := ⟨.hbm, 123, rfl⟩
abbrev main_c_18 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_19 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_20 : Ref sig .tc := ⟨.hbm, 136, rfl⟩
abbrev main_v82 : Ref sig .tc := ⟨.hbm, 137, rfl⟩
abbrev main_cst_21 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_22 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_23 : Ref sig .tc := ⟨.hbm, 146, rfl⟩
abbrev main_v89 : Ref sig .tc := ⟨.hbm, 147, rfl⟩
abbrev main_v90 : Ref sig .tc := ⟨.hbm, 148, rfl⟩
abbrev main_cst_24 : Ref sig .tc := ⟨.hbm, 149, rfl⟩
abbrev main_call3_v0 : Ref sig .tc := ⟨.hbm, 150, rfl⟩
abbrev main_call3_v1 : Ref sig .tc := ⟨.hbm, 151, rfl⟩
abbrev main_v91 : Ref sig .tc := ⟨.hbm, 152, rfl⟩
abbrev main_v92 : Ref sig .tc := ⟨.hbm, 153, rfl⟩
abbrev main_cst_25 : Ref sig .tc := ⟨.hbm, 154, rfl⟩
abbrev main_v93 : Ref sig .tc := ⟨.hbm, 155, rfl⟩
abbrev main_v94 : Ref sig .tc := ⟨.hbm, 156, rfl⟩
abbrev main_cst_26 : Ref sig .tc := ⟨.hbm, 157, rfl⟩
abbrev main_v95 : Ref sig .tc := ⟨.hbm, 158, rfl⟩
abbrev main_cst_27 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_28 : Ref sig .tc := ⟨.hbm, 164, rfl⟩
abbrev main_v100 : Ref sig .tc := ⟨.hbm, 165, rfl⟩
abbrev main_cst_29 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_cst_30 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_cst_31 : Ref sig .tc := ⟨.hbm, 174, rfl⟩
abbrev main_v107 : Ref sig .tc := ⟨.hbm, 175, rfl⟩
abbrev main_v108 : Ref sig .tc := ⟨.hbm, 176, rfl⟩
abbrev main_cst_32 : Ref sig .tc := ⟨.hbm, 177, rfl⟩
abbrev main_call4_v0 : Ref sig .tc := ⟨.hbm, 178, rfl⟩
abbrev main_call4_v1 : Ref sig .tc := ⟨.hbm, 179, rfl⟩
abbrev main_v109 : Ref sig .tc := ⟨.hbm, 180, rfl⟩
abbrev main_v110 : Ref sig .tc := ⟨.hbm, 181, rfl⟩
abbrev main_cst_33 : Ref sig .tc := ⟨.hbm, 182, rfl⟩
abbrev main_v111 : Ref sig .tc := ⟨.hbm, 183, rfl⟩
abbrev main_v112 : Ref sig .tc := ⟨.hbm, 184, rfl⟩
abbrev main_cst_34 : Ref sig .tc := ⟨.hbm, 185, rfl⟩
abbrev main_v113 : Ref sig .tc := ⟨.hbm, 186, rfl⟩
abbrev main_cst_35 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_cst_36 : Ref sig .tc := ⟨.hbm, 191, rfl⟩
abbrev main_v117 : Ref sig .tc := ⟨.hbm, 192, rfl⟩
abbrev main_cst_37 : Ref sig .tc := ⟨.hbm, 193, rfl⟩
abbrev main_v118 : Ref sig .tc := ⟨.hbm, 194, rfl⟩
abbrev main_cst_38 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_cst_39 : Ref sig .tc := ⟨.hbm, 199, rfl⟩
abbrev main_v122 : Ref sig .tc := ⟨.hbm, 200, rfl⟩
abbrev main_v123 : Ref sig .tc := ⟨.hbm, 201, rfl⟩
abbrev main_cst_40 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_cst_41 : Ref sig .tc := ⟨.hbm, 206, rfl⟩
abbrev main_v127 : Ref sig .tc := ⟨.hbm, 207, rfl⟩
abbrev main_v128 : Ref sig .tc := ⟨.hbm, 208, rfl⟩
abbrev main_cst_42 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_cst_43 : Ref sig .tc := ⟨.hbm, 213, rfl⟩
abbrev main_v132 : Ref sig .tc := ⟨.hbm, 214, rfl⟩
abbrev main_v133 : Ref sig .tc := ⟨.hbm, 215, rfl⟩
abbrev main_cst_44 : Ref sig .tc := ⟨.hbm, 216, rfl⟩
abbrev main_v134 : Ref sig .tc := ⟨.hbm, 217, rfl⟩
abbrev main_cst_45 : Ref sig .tc := ⟨.hbm, 218, rfl⟩
abbrev main_v135 : Ref sig .tc := ⟨.hbm, 219, rfl⟩
abbrev main_v136 : Ref sig .tc := ⟨.hbm, 220, rfl⟩
abbrev main_cst_46 : Ref sig .tc := ⟨.hbm, 221, rfl⟩
abbrev main_v137 : Ref sig .tc := ⟨.hbm, 222, rfl⟩
abbrev main_v138 : Ref sig .tc := ⟨.hbm, 223, rfl⟩
abbrev main_cst_47 : Ref sig .tc := ⟨.hbm, 224, rfl⟩
abbrev main_v139 : Ref sig .tc := ⟨.hbm, 225, rfl⟩
abbrev main_v140 : Ref sig .tc := ⟨.hbm, 226, rfl⟩
abbrev main_cst_48 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  transposes_S64x4096_S4096x64_1_0 : S64x4096.Transposes [1, 0] S4096x64
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S256x128_S128x256_1_0 : S256x128.Transposes [1, 0] S128x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  bcast_S_S4096x8 : S_.BroadcastsInDim S4096x8 (![] : Fin 0 → Fin S4096x8.rank)
  bcast_S4096x1_S4096x8_0_1 : S4096x1.BroadcastsInDim S4096x8 (![0, 1] : Fin 2 → Fin S4096x8.rank)
  bcast_S4096x8_S4096x8x1_0_1 : S4096x8.BroadcastsInDim S4096x8x1 (![0, 1] : Fin 2 → Fin S4096x8x1.rank)
  concatenates_S4096x8x1_S4096x8x1_S4096x8x2_d2 : Shape.Concatenates [S4096x8x1, S4096x8x1] S4096x8x2 2
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  bcast_S4096x1_S4096x16_0_1 : S4096x1.BroadcastsInDim S4096x16 (![0, 1] : Fin 2 → Fin S4096x16.rank)
  bcast_S4096x16_S4096x16x1_0_1 : S4096x16.BroadcastsInDim S4096x16x1 (![0, 1] : Fin 2 → Fin S4096x16x1.rank)
  concatenates_S4096x16x1_S4096x16x1_S4096x16x2_d2 : Shape.Concatenates [S4096x16x1, S4096x16x1] S4096x16x2 2
  bcast_S_S4096x256 : S_.BroadcastsInDim S4096x256 (![] : Fin 0 → Fin S4096x256.rank)
  reducesTo_S4096x256_S_d0_1 : S4096x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x4096 : S_.BroadcastsInDim S64x4096 (![] : Fin 0 → Fin S64x4096.rank)
  reducesTo_S64x4096_S_d0_1 : S64x4096.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0
  dot_S4096x256_S256x128_S4096x128_1_0_0_1_n_n_wf : DotDims.WF S4096x256 S256x128 S4096x128 [1] [0] [0] [1] [] []
  dot_S4096x128_S128x64_S4096x64_1_0_0_1_n_n_wf : DotDims.WF S4096x128 S128x64 S4096x64 [1] [0] [0] [1] [] []
  dot_S4096x64_S64x4096_S4096x4096_1_0_0_1_n_n_wf : DotDims.WF S4096x64 S64x4096 S4096x4096 [1] [0] [0] [1] [] []
  dot_S4096x64_S64x128_S4096x128_1_0_0_1_n_n_wf : DotDims.WF S4096x64 S64x128 S4096x128 [1] [0] [0] [1] [] []
  dot_S4096x128_S128x256_S4096x256_1_0_0_1_n_n_wf : DotDims.WF S4096x128 S128x256 S4096x256 [1] [0] [0] [1] [] []
  dot_S4096x256_S256x4096_S4096x4096_1_0_0_1_n_n_wf : DotDims.WF S4096x256 S256x4096 S4096x4096 [1] [0] [0] [1] [] []
  scatter_S4096x4096_S4096x8x2_S4096x8_n_01_01_2_wf : ScatterDims.WF S4096x4096 S4096x8x2 S4096x8 [] [0, 1] [0, 1] 2
  scatter_S4096x4096_S4096x16x2_S4096x16_n_01_01_2_wf : ScatterDims.WF S4096x4096 S4096x16x2 S4096x16 [] [0, 1] [0, 1] 2

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S4096x4096_S4096x8x2_S4096x8_n_01_01_2 : ScatterDims S4096x4096 S4096x8x2 S4096x8 where
  updateWindowDims := []
  insertedWindowDims := [0, 1]
  scatterDimsToOperandDims := [0, 1]
  indexVectorDim := 2
  wf := scatter_S4096x4096_S4096x8x2_S4096x8_n_01_01_2_wf
def scatter_S4096x4096_S4096x16x2_S4096x16_n_01_01_2 : ScatterDims S4096x4096 S4096x16x2 S4096x16 where
  updateWindowDims := []
  insertedWindowDims := [0, 1]
  scatterDimsToOperandDims := [0, 1]
  indexVectorDim := 2
  wf := scatter_S4096x4096_S4096x16x2_S4096x16_n_01_01_2_wf

class Facts : Prop extends Facts₀ where

variable [Facts]
-- ==== Proof.KReg0Runs.lean ====
import proofs.«117839_j20658792694235_1_alg».proof.Proof.Gen.Kernel.Launch
import proofs.«117839_j20658792694235_1_alg».proof.Proof.Gen.Kernel.Skeleton
import proofs.«117839_j20658792694235_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The body's first conditional: the reduction axis is at its first point (the scalar chain of the comparison, substituted). -/
abbrev isFirst (i : grid0.Coords) : Prop :=
  (Scalar.cmpi .ne (Scalar.extui (Scalar.cmpi .eq (BitVec.ofNat 32 (i 0).val) 0#32)) 0#32) = 1#1
/-- It holds at point 0 only: decided over the eight points. -/
theorem isFirst_iff : ∀ t : Fin cfg0.N, isFirst (grid0.coords t) ↔ t.val = 0 :=
  (by decide +kernel : ∀ t : Fin grid0.N, isFirst (grid0.coords t) ↔ t.val = 0)

/-- The body's second conditional: the reduction axis is at its last point. -/
abbrev isLast (i : grid0.Coords) : Prop := k0_cond2 i = 1#1
/-- It holds at point 7 only: decided over the eight points. -/
theorem isLast_iff : ∀ t : Fin cfg0.N, isLast (grid0.coords t) ↔ t.val = 7 :=
  (by decide +kernel : ∀ t : Fin grid0.N, isLast (grid0.coords t) ↔ t.val = 7)

/-! ## Where the windows are idle -/

/-- The three inputs are live everywhere. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- Away from the last point the output window is idle, -/
theorem idle_out : ∀ t : Fin cfg0.N, ¬isLast (grid0.coords t) → cfg0.idle 3 (grid0.coords t) = true := by decide +kernel
/-- and its block is not written back there; -/
theorem noFlush_out : ∀ t : Fin cfg0.N, ¬isLast (grid0.coords t) → (cfg0.win 3).flush t = false := by decide +kernel
/-- at the last point it is live. -/
theorem live_out : ∀ t : Fin cfg0.N, isLast (grid0.coords t) → cfg0.idle 3 (grid0.coords t) = false := by decide +kernel

/-! ## The memrefs the body is called with -/

abbrev stg0 (t : Fin cfg0.N) : Memref sig .tc .vmem S512x4096 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S512x64 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S64x4096 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x1 .f32 := win0_3.stage (cfg0.slots t 3)
abbrev stg3_whole (t : Fin cfg0.N) : (stg3 t).IsWhole := hstage0_3 ((cfg0.slots t 3).cast nbuf0_3)
/-- The accumulator: a whole scoped buffer of one element, carried from point to point. -/
abbrev accM : Memref sig .tc .vmem S1x1 .f32 := Memref.whole cc0_scratch0
/-- The view through which the accumulator's contents are stated, -/
abbrev accV : View sig .tc .vmem S1x1 .f32 := accM.view
/-- and the one through which the output staging buffer's are (the window has one buffer). -/
abbrev outV : View sig .tc .vmem S1x1 .f32 := (Memref.whole cc0_stg3_0 : Memref sig .tc .vmem S1x1 .f32).view

/-! ## The region invariant of the launch, with the accumulator split off -/

/-- Every scoped buffer of the core that is neither a staging buffer of this region nor its accumulator, at some contents:
    the body never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The launch's invariant is: the accumulator at some contents, the other scoped buffers, and the generator register. -/
theorem PhiA_split (c : Dev nD) :
    (Pipeline.ΦA spec0 c : sProp 𝕄)
      = iprop(iprop((∃ d, owns (c : Thread nD τ) accM fullShare d) ∗ others c) ∗ (∃ r, prngReg c r)) := by
  unfold Pipeline.ΦA; rw [scopedRest0_eq]; unfold others; simp only [accM, owns_whole]; try rfl

/-! ## The body's run, case by case -/

set_option maxHeartbeats 1000000 in
/-- FIRST POINT (reset, no output store). On whole memrefs — the inputs at their contents, the output's buffer at contents
    handed back untouched, the accumulator at anything — the body runs to the continuation holding the inputs and the output's
    buffer as they were and the accumulator with the pieces `LS` written (the reset, then the sum). -/
noncomputable def runFirst (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : isFirst i) (hl : ¬isLast i)
    (x0 : Vec F S512x4096 .f32) (x1 : Vec F S512x64 .f32) (x2 : Vec F S64x4096 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__loss1_kernel i arg1 harg1 arg2 harg2 arg3 harg3 arg4 harg4 arg5 harg5) K } := by
  refine ⟨?_, fun xo E K => ?run⟩
  case run =>
    simp only [cc0__loss1_kernel_eq_skeleton]; unfold cc0__loss1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 1000000 in
/-- A MIDDLE POINT (no reset, no output store). The accumulator comes in at the contents `xs` the point before left; the
    body leaves it with the pieces `LS` written (the sum added), everything else as it was. -/
noncomputable def runMid (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : ¬isLast i)
    (x0 : Vec F S512x4096 .f32) (x1 : Vec F S512x64 .f32) (x2 : Vec F S64x4096 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__loss1_kernel i arg1 harg1 arg2 harg2 arg3 harg3 arg4 harg4 arg5 harg5) K } := by
  refine ⟨?_, fun xo E K => ?run⟩
  case run =>
    simp only [cc0__loss1_kernel_eq_skeleton]; unfold cc0__loss1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 1000000 in
/-- THE LAST POINT (no reset; the accumulator copied out). The accumulator comes in at `xs`, the output's buffer at anything;
    the body leaves the accumulator with the pieces `LS` and the output's buffer with the pieces `LO` written. -/
noncomputable def runLast (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i)
    (x0 : Vec F S512x4096 .f32) (x1 : Vec F S512x64 .f32) (x2 : Vec F S64x4096 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__loss1_kernel i arg1 harg1 arg2 harg2 arg3 harg3 arg4 harg4 arg5 harg5) K } := by
  refine ⟨?_, ?_, fun E K => ?run⟩
  case run =>
    simp only [cc0__loss1_kernel_eq_skeleton]; unfold cc0__loss1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2
    obtain rfl := harg5.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Reg0

end
-- ==== Proof.KReg0.lean ====
import proofs.«117839_j20658792694235_1_alg».proof.Proof.KReg0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- An input window's current staging buffer holds its block at every point, fetched there or not, for any proof data
    over these arrays whose body leaves the block in place. -/
theorem before_in0 {c : Dev nD} (d : Dat τ (Elt F) Unit ℕ (UR sig nD τ) ℕ cfg0 c) (hA : d.A 0 = V c (Proc.devRef .tc (Pipeline.arrRef spec0 0)))
    (hafter : ∀ t, d.after 0 t = iblk V c 0 t) (t : Fin cfg0.N) (e) : d.before 0 t e = iblk V c 0 t :=
  (d.before_in_eq_fetched 0 rfl (fun _ => rfl) (fun _ _ _ => rfl) (fun t => by rw [hafter]; unfold Dat.blockOf iblk; rw [hA]; try rfl) t e).trans
    (by unfold Dat.fetched Dat.blockOf iblk; rw [hA]; try rfl)
theorem before_in1 {c : Dev nD} (d : Dat τ (Elt F) Unit ℕ (UR sig nD τ) ℕ cfg0 c) (hA : d.A 1 = V c (Proc.devRef .tc (Pipeline.arrRef spec0 1)))
    (hafter : ∀ t, d.after 1 t = iblk V c 1 t) (t : Fin cfg0.N) (e) : d.before 1 t e = iblk V c 1 t :=
  (d.before_in_eq_fetched 1 rfl (fun _ => rfl) (fun _ _ _ => rfl) (fun t => by rw [hafter]; unfold Dat.blockOf iblk; rw [hA]; try rfl) t e).trans
    (by unfold Dat.fetched Dat.blockOf iblk; rw [hA]; try rfl)
theorem before_in2 {c : Dev nD} (d : Dat τ (Elt F) Unit ℕ (UR sig nD τ) ℕ cfg0 c) (hA : d.A 2 = V c (Proc.devRef .tc (Pipeline.arrRef spec0 2)))
    (hafter : ∀ t, d.after 2 t = iblk V c 2 t) (t : Fin cfg0.N) (e) : d.before 2 t e = iblk V c 2 t :=
  (d.before_in_eq_fetched 2 rfl (fun _ => rfl) (fun _ _ _ => rfl) (fun t => by rw [hafter]; unfold Dat.blockOf iblk; rw [hA]; try rfl) t e).trans
    (by unfold Dat.fetched Dat.blockOf iblk; rw [hA]; try rfl)

/-! ## What each case leaves: the found pieces cover the one-element buffers -/

theorem coverFirst (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : isFirst i) (hl : ¬isLast i) (x0 : Vec F S512x4096 .f32) (x1 : Vec F S512x64 .f32) (x2 : Vec F S64x4096 .f32) (y : S1x1.Idx) :
    ∃ pc ∈ (runFirst c i arg1 harg1 arg2 harg2 arg3 harg3 arg4 harg4 arg5 harg5 hf hl x0 x1 x2).1, y ∈ pc.1.set :=
  View.cover_of_tiledL (runFirst c i arg1 harg1 arg2 harg2 arg3 harg3 arg4 harg4 arg5 harg5 hf hl x0 x1 x2).1 S1x1.size (by sl_kernel_rfl) y

/-- What the first point leaves in the accumulator: its pieces read back. -/
def accFirst (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : isFirst i) (hl : ¬isLast i) (x0 : Vec F S512x4096 .f32) (x1 : Vec F S512x64 .f32) (x2 : Vec F S64x4096 .f32) : Vec F S1x1 .f32 :=
  accV.read (Elt F) (accV.writes (Elt F) accV.junk (runFirst c i arg1 harg1 arg2 harg2 arg3 harg3 arg4 harg4 arg5 harg5 hf hl x0 x1 x2).1)

theorem coverMid (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : ¬isLast i) (x0 : Vec F S512x4096 .f32) (x1 : Vec F S512x64 .f32) (x2 : Vec F S64x4096 .f32) (xs : Vec F S1x1 .f32) (y : S1x1.Idx) :
    ∃ pc ∈ (runMid c i arg1 harg1 arg2 harg2 arg3 harg3 arg4 harg4 arg5 harg5 hf hl x0 x1 x2 xs).1, y ∈ pc.1.set :=
  View.cover_of_tiledL (runMid c i arg1 harg1 arg2 harg2 arg3 harg3 arg4 harg4 arg5 harg5 hf hl x0 x1 x2 xs).1 S1x1.size (by sl_kernel_rfl) y

/-- What a middle point leaves in the accumulator. -/
def accMid (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : ¬isLast i) (x0 : Vec F S512x4096 .f32) (x1 : Vec F S512x64 .f32) (x2 : Vec F S64x4096 .f32) (xs : Vec F S1x1 .f32) : Vec F S1x1 .f32 :=
  accV.read (Elt F) (accV.writes (Elt F) accV.junk (runMid c i arg1 harg1 arg2 harg2 arg3 harg3 arg4 harg4 arg5 harg5 hf hl x0 x1 x2 xs).1)

theorem coverLast (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) (y : S1x1.Idx) :
    ∃ pc ∈ (runLast c i arg1 harg1 arg2 harg2 arg3 harg3 arg4 harg4 arg5 harg5 hf hl x0 x1 x2 xs).2.1, y ∈ pc.1.set :=
  View.cover_of_tiledL (runLast c i arg1 harg1 arg2 harg2 arg3 harg3 arg4 harg4 arg5 harg5 hf hl x0 x1 x2 xs).2.1 S1x1.size (by sl_kernel_rfl) y

/-- What the last point leaves in the accumulator, -/
def accLast (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) : Vec F S1x1 .f32 :=
  accV.read (Elt F) (accV.writes (Elt F) accV.junk (runLast c i arg1 harg1 arg2 harg2 arg3 harg3 arg4 harg4 arg5 harg5 hf hl x0 x1 x2 xs).2.1)

theorem coverOut (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) (y : S1x1.Idx) :
    ∃ pc ∈ (runLast c i arg1 harg1 arg2 harg2 arg3 harg3 arg4 harg4 arg5 harg5 hf hl x0 x1 x2 xs).1, y ∈ pc.1.set :=
  View.cover_of_tiledL (runLast c i arg1 harg1 arg2 harg2 arg3 harg3 arg4 harg4 arg5 harg5 hf hl x0 x1 x2 xs).1 S1x1.size (by sl_kernel_rfl) y

/-- and in the output's staging buffer. -/
def outLast (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) : Vec F S1x1 .f32 :=
  outV.read (Elt F) (outV.writes (Elt F) outV.junk (runLast c i arg1 harg1 arg2 harg2 arg3 harg3 arg4 harg4 arg5 harg5 hf hl x0 x1 x2 xs).1)

/-! ## What the accumulator and the output's buffer hold after each point -/

/-- THE ACCUMULATION. The accumulator after the body at position `n`: the first point's contents, then each later point's
    over what the point before left. -/
def accAt (c : Dev nD) : (n : ℕ) → n < cfg0.N → Vec F S1x1 .f32
  | 0, hn => accFirst c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) accM (Memref.isWhole_whole _) ((isFirst_iff ⟨0, hn⟩).mpr rfl)
      (fun h => (fun h' => by (try dsimp only at h'); omega) ((isLast_iff ⟨0, hn⟩).mp h)) (iblk V c 0 ⟨0, hn⟩) (iblk V c 1 ⟨0, hn⟩) (iblk V c 2 ⟨0, hn⟩)
  | n + 1, hn =>
    if h7 : n + 1 = 7 then
      accLast c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) (fun h => (fun h' => by (try dsimp only at h'); omega) ((isFirst_iff ⟨n + 1, hn⟩).mp h))
        ((isLast_iff ⟨n + 1, hn⟩).mpr h7) (iblk V c 0 ⟨n + 1, hn⟩) (iblk V c 1 ⟨n + 1, hn⟩) (iblk V c 2 ⟨n + 1, hn⟩) (accAt c n (Nat.lt_of_succ_lt hn))
    else
      accMid c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) (fun h => (fun h' => by (try dsimp only at h'); omega) ((isFirst_iff ⟨n + 1, hn⟩).mp h))
        (fun h => h7 ((isLast_iff ⟨n + 1, hn⟩).mp h)) (iblk V c 0 ⟨n + 1, hn⟩) (iblk V c 1 ⟨n + 1, hn⟩) (iblk V c 2 ⟨n + 1, hn⟩) (accAt c n (Nat.lt_of_succ_lt hn))

theorem accAt_first (c : Dev nD) (t : Fin cfg0.N) (h0 : t.val = 0) (h7 : ¬t.val = 7) :
    accAt V c t.val t.isLt = accFirst c (grid0.coords t) (stg0 t) (stg0_whole t) (stg1 t) (stg1_whole t) (stg2 t) (stg2_whole t) (stg3 t) (stg3_whole t) accM (Memref.isWhole_whole _) ((isFirst_iff t).mpr h0) (fun h => h7 ((isLast_iff t).mp h)) (iblk V c 0 t) (iblk V c 1 t) (iblk V c 2 t) := by
  obtain ⟨n, hn⟩ := t
  cases n with
  | zero => exact rfl
  | succ n => exact absurd h0 (Nat.succ_ne_zero n)

theorem accAt_mid (c : Dev nD) (t : Fin cfg0.N) (h0 : ¬t.val = 0) (h7 : ¬t.val = 7) :
    accAt V c t.val t.isLt = accMid c (grid0.coords t) (stg0 t) (stg0_whole t) (stg1 t) (stg1_whole t) (stg2 t) (stg2_whole t) (stg3 t) (stg3_whole t) accM (Memref.isWhole_whole _) (fun h => h0 ((isFirst_iff t).mp h)) (fun h => h7 ((isLast_iff t).mp h)) (iblk V c 0 t) (iblk V c 1 t) (iblk V c 2 t)
      (accAt V c (t.val - 1) (Nat.lt_of_le_of_lt (Nat.sub_le _ _) t.isLt)) := by
  obtain ⟨n, hn⟩ := t
  cases n with
  | zero => exact absurd rfl h0
  | succ n => exact (dif_neg h7).trans rfl

theorem accAt_last (c : Dev nD) (t : Fin cfg0.N) (h0 : ¬t.val = 0) (h7 : t.val = 7) :
    accAt V c t.val t.isLt = accLast c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h7) (iblk V c 0 t) (iblk V c 1 t) (iblk V c 2 t)
      (accAt V c (t.val - 1) (Nat.lt_of_le_of_lt (Nat.sub_le _ _) t.isLt)) := by
  obtain ⟨n, hn⟩ := t
  cases n with
  | zero => exact absurd rfl h0
  | succ n => exact (dif_pos h7).trans rfl

/-- The output's staging buffer after the body at point `t`: at the last point what that case stores; elsewhere the window is idle
    and nothing consults the value (the zero block stands in). -/
def outAt (c : Dev nD) (t : Fin cfg0.N) : Vec F S1x1 .f32 :=
  if h7 : t.val = 7 then
    outLast c (grid0.coords t) (stg0 t) (stg0_whole t) (stg1 t) (stg1_whole t) (stg2 t) (stg2_whole t) (stg3 t) (stg3_whole t) accM (Memref.isWhole_whole _) (fun h => (fun h' => by omega) ((isFirst_iff t).mp h)) ((isLast_iff t).mpr h7) (iblk V c 0 t) (iblk V c 1 t) (iblk V c 2 t)
      (accAt V c (t.val - 1) (Nat.lt_of_le_of_lt (Nat.sub_le _ _) t.isLt))
  else k0_pay1

theorem outAt_last (c : Dev nD) (t : Fin cfg0.N) (h0 : ¬t.val = 0) (h7 : t.val = 7) :
    outAt V c t = outLast c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h7) (iblk V c 0 t) (iblk V c 1 t) (iblk V c 2 t)
      (accAt V c (t.val - 1) (Nat.lt_of_le_of_lt (Nat.sub_le _ _) t.isLt)) := by
  unfold outAt; exact dif_pos h7

/-! ## The invariant -/

/-- The region invariant before position `n`: before the first point the launch's; afterwards the accumulator at what the point
    before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (accAt V c n hn) ∗ others c) ∗ (∃ r, prngReg c r)) := rfl

theorem PhiS_pos (c : Dev nD) (n : ℕ) (h : n ≤ cfg0.N) (hz : n ≠ 0) :
    PhiS V c n h = iprop(iprop(owns (c : Thread nD τ) accM fullShare (accAt V c (n - 1) (by omega)) ∗ others c) ∗ (∃ r, prngReg c r)) := by
  cases n with
  | zero => exact absurd rfl hz
  | succ n => rfl

/-! ## The proof data -/

/-- The proof data of the first pipeline on core `c`: the arrays as the region finds them; after the body at point `t` each
    input's buffer at its block and the output's at `outAt`; the invariant `PhiS`; nothing owed; full shares. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat V c).A w = V c (Proc.devRef .tc (Pipeline.arrRef spec0 w)) := by
  dsimp only [dat]

theorem owed_eq (c : Dev nD) (t) : (dat V c).owed t = 0 := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outAt V c t := by dsimp only [dat]

theorem before_0 (c : Dev nD) (t : Fin cfg0.N) (d) : (dat V c).before 0 t d = iblk V c 0 t :=
  before_in0 V (dat V c) (A_eq V c 0) (after_0 V c) t d
theorem before_1 (c : Dev nD) (t : Fin cfg0.N) (d) : (dat V c).before 1 t d = iblk V c 1 t :=
  before_in1 V (dat V c) (A_eq V c 1) (after_1 V c) t d
theorem before_2 (c : Dev nD) (t : Fin cfg0.N) (d) : (dat V c).before 2 t d = iblk V c 2 t :=
  before_in2 V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d))
    ∗ (∃ d, owns (c : Thread nD τ) (stg3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the closed forms say which of the three cases the point is in;
    that case's run applies: the invariant hands the body the accumulator (at anything at the first point, afterwards at what the
    point before left) and takes it back at this point's contents, the pieces covering it; the output's buffer comes back untouched
    away from the last point, and with the covering store's contents at it; nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg0.N = 8 from N_0)
  rw [show (dat V c).leavesExact 0 t = owns (c : Thread nD τ) (stg0 t) fullShare ((dat V c).after 0 t) from by
    unfold Dat.leavesExact; rw [live_in0 t], after_0]
  rw [show (dat V c).leavesExact 1 t = owns (c : Thread nD τ) (stg1 t) fullShare ((dat V c).after 1 t) from by
    unfold Dat.leavesExact; rw [live_in1 t], after_1]
  rw [show (dat V c).leavesExact 2 t = owns (c : Thread nD τ) (stg2 t) fullShare ((dat V c).after 2 t) from by
    unfold Dat.leavesExact; rw [live_in2 t], after_2]
  by_cases h0 : t.val = 0
  · have h7 : ¬t.val = 7 := by omega
    rw [Dat.leavesExact_idle (dat V c) 3 t (idle_out t (fun h => h7 ((isLast_iff t).mp h))) (noFlush_out t (fun h => h7 ((isLast_iff t).mp h)))]
    rw [accAt_first V c t h0 h7]
    unfold accFirst; (try dsimp only)
    rw [PhiS_castSucc V c t, PhiS_zero V c _ _ h0, PhiA_split]
    iintro ⟨⟨⟨HS, Hoth⟩, Hg⟩, Ho, ⟨%d0, H0⟩, ⟨%d1, H1⟩, ⟨%d2, H2⟩, ⟨%d3, H3⟩⟩
    iapply ((runFirst c (grid0.coords t) _ _ _ _ _ _ _ _ _ _ ((isFirst_iff t).mpr h0) (fun h => h7 ((isLast_iff t).mp h)) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · by_cases h7 : t.val = 7
    · rw [show (dat V c).leavesExact 3 t = owns (c : Thread nD τ) (stg3 t) fullShare ((dat V c).after 3 t) from by
        unfold Dat.leavesExact; rw [live_out t ((isLast_iff t).mpr h7)], after_3]
      rw [accAt_last V c t h0 h7, outAt_last V c t h0 h7]
      unfold accLast outLast; (try dsimp only)
      rw [PhiS_castSucc V c t, PhiS_pos V c _ _ h0]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOut c _ _ _ _ _ _ _ _ _ _ _ _ _ _ _ _ _)
    · rw [Dat.leavesExact_idle (dat V c) 3 t (idle_out t (fun h => h7 ((isLast_iff t).mp h))) (noFlush_out t (fun h => h7 ((isLast_iff t).mp h)))]
      rw [accAt_mid V c t h0 h7]
      unfold accMid; (try dsimp only)
      rw [PhiS_castSucc V c t, PhiS_pos V c _ _ h0]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h7 ((isLast_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_split]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 8 := N_0; omega)

end Cert.Kernel.Reg0

end
-- ==== Proof.KReg1Runs.lean ====
import proofs.«117839_j20658792694235_1_alg».proof.Proof.Gen.Kernel.Launch
import proofs.«117839_j20658792694235_1_alg».proof.Proof.Gen.Kernel.Skeleton
import proofs.«117839_j20658792694235_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-! ## The body's two conditions on the reduction coordinate -/

/-- The reduction coordinate is 0: the condition under which the body zeroes the accumulator. -/
abbrev condF (i : grid1.Coords) : Prop := (Scalar.cmpi .ne (Scalar.extui (Scalar.cmpi .eq (BitVec.ofNat 32 (i 1).val) 0#32)) 0#32) = 1#1
/-- It holds at the points ≡ 0 (mod 4). -/
theorem hcondF : ∀ t : Fin cfg1.N, condF (grid1.coords t) ↔ t.val % 4 = 0 :=
  (by decide +kernel : ∀ t : Fin grid1.N, condF (grid1.coords t) ↔ t.val % 4 = 0)
/-- The reduction coordinate is 3: the condition under which the body copies the accumulator out. -/
abbrev condL (i : grid1.Coords) : Prop := k1_cond2 i = 1#1
/-- It holds at the points ≡ 3 (mod 4). -/
theorem hcondL : ∀ t : Fin cfg1.N, condL (grid1.coords t) ↔ t.val % 4 = 3 :=
  (by decide +kernel : ∀ t : Fin grid1.N, condL (grid1.coords t) ↔ t.val % 4 = 3)

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem live4 : ∀ t : Fin cfg1.N, cfg1.idle 4 (grid1.coords t) = false := fun _ => rfl
/-- Away from the last points of the reduction axis the output window is idle and is not written back. -/
theorem idle5 : ∀ t : Fin cfg1.N, ¬condL (grid1.coords t) → cfg1.idle 5 (grid1.coords t) = true := by decide +kernel
theorem noFlush5 : ∀ t : Fin cfg1.N, ¬condL (grid1.coords t) → (cfg1.win 5).flush t = false := by decide +kernel
/-- At the last points it is live. -/
theorem live5 : ∀ t : Fin cfg1.N, condL (grid1.coords t) → cfg1.idle 5 (grid1.coords t) = false := by decide +kernel

/-! ## The memrefs the body is called with -/

abbrev ms0 (t : Fin cfg1.N) : Memref sig .tc .vmem S512x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x4 .f32 := win1_5.stage (cfg1.slots t 5)
abbrev hs5 (t : Fin cfg1.N) : (ms5 t).IsWhole := hstage1_5 ((cfg1.slots t 5).cast nbuf1_5)
/-- The accumulator: a whole scoped buffer of the kernel's own, passed beside the windows. -/
abbrev scM : Memref sig .tc .vmem S512x4 .f32 := Memref.whole cc1_scratch0
/-- The accumulator as a view: what it holds is stated through it. -/
abbrev VS : View sig .tc .vmem S512x4 .f32 := scM.view
/-- One staging buffer of the output window, through which its contents are stated. -/
abbrev VO : View sig .tc .vmem S512x4 .f32 := (Memref.whole cc1_stg5_0 : Memref sig .tc .vmem S512x4 .f32).view

/-- A scoped buffer of the core that this pipeline never touches, whole at some contents. -/
abbrev other (c : Dev nD) (b : Ref sig .tc) : sProp 𝕄 :=
  iprop(∃ f : Buf (Elt F) ((c : Thread nD τ).loc b), ((c : Thread nD τ).loc b) ↦{fullShare} f)

/-- What the region is entered with and left with: the core's scoped buffers that are none of this pipeline's staging
    buffers — seven the pipeline never touches and the accumulator, each at some contents — and the generator register. -/
theorem PhiA_eq (c : Dev nD) :
    (Pipeline.ΦA spec1 c : sProp 𝕄)
      = iprop(iprop(other c cc0_stg0_0 ∗ other c cc0_stg0_1 ∗ other c cc0_stg1_0 ∗ other c cc0_stg1_1 ∗ other c cc0_stg2_0 ∗ other c cc0_stg3_0 ∗ other c cc0_scratch0 ∗ (∃ d, owns (c : Thread nD τ) scM fullShare d)) ∗ (∃ r, prngReg c r)) := by
  unfold Pipeline.ΦA; rw [scopedRest1_eq]; simp only [scM, owns_whole]; try rfl

/-! ## The body on any whole memrefs, case by case -/

set_option maxHeartbeats 4000000 in
/-- The body at a first point of the reduction axis (the accumulator is zeroed, the output window is left alone): on whole
    memrefs, the five input buffers at their contents, the output's at contents handed back untouched, the accumulator at
    anything, it runs to the continuation with the accumulator's stores as a list of pieces. -/
noncomputable def runA (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : condF i) (hL : ¬condL i)
    (x0 : Vec F S512x256 .f32) (x1 : Vec F S1024x256 .f32) (x2 x3 x4 : Vec F S512x1024 .f32) :
    Σ' (L5 : List (View.Piece (Elt F) S512x4 .f32)), { LS : List (View.Piece (Elt F) S512x4 .f32) //
      ∀ (y5 : Vec F S512x4 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare y5 ∗ (∃ d, owns (c : Thread nD τ) a8 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare y5 ∗ (∃ f, a8.view.loc (c : Thread nD τ) ↦[a8.view.set]{fullShare} a8.view.writes (Elt F) f LS)) -∗ K ⟨⟩))
          ⊢ wp frame (wpE (defs₀ (F := F)) Variants.none c none) E (cc1__contrastive_kernel i a2 h2 a3 h3 a4 h4 a5 h5 a6 h6 a7 h7 a8 h8) K } := by
  refine ⟨[], ?_, fun y5 E K => ?run⟩
  case run =>
    simp only [cc1__contrastive_kernel_eq_skeleton]; unfold cc1__contrastive_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact HS

set_option maxHeartbeats 4000000 in
/-- The body at a middle point (no reset, no output store): the accumulator is handed at what the point before left. -/
noncomputable def runB (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : ¬condL i)
    (x0 : Vec F S512x256 .f32) (x1 : Vec F S1024x256 .f32) (x2 x3 x4 : Vec F S512x1024 .f32) (xs : Vec F S512x4 .f32) :
    Σ' (L5 : List (View.Piece (Elt F) S512x4 .f32)), { LS : List (View.Piece (Elt F) S512x4 .f32) //
      ∀ (y5 : Vec F S512x4 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare y5 ∗ owns (c : Thread nD τ) a8 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare y5 ∗ (∃ f, a8.view.loc (c : Thread nD τ) ↦[a8.view.set]{fullShare} a8.view.writes (Elt F) f LS)) -∗ K ⟨⟩))
          ⊢ wp frame (wpE (defs₀ (F := F)) Variants.none c none) E (cc1__contrastive_kernel i a2 h2 a3 h3 a4 h4 a5 h5 a6 h6 a7 h7 a8 h8) K } := by
  refine ⟨[], ?_, fun y5 E K => ?run⟩
  case run =>
    simp only [cc1__contrastive_kernel_eq_skeleton]; unfold cc1__contrastive_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact HS

set_option maxHeartbeats 4000000 in
/-- The body at a last point of the reduction axis (no reset; the accumulator is copied into the output's buffer). -/
noncomputable def runC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) :
    Σ' (L5 : List (View.Piece (Elt F) S512x4 .f32)), { LS : List (View.Piece (Elt F) S512x4 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f LS)) -∗ K ⟨⟩))
          ⊢ wp frame (wpE (defs₀ (F := F)) Variants.none c none) E (cc1__contrastive_kernel i a2 h2 a3 h3 a4 h4 a5 h5 a6 h6 a7 h7 a8 h8) K } := by
  refine ⟨?_, ?_, fun E K => ?run⟩
  case run =>
    simp only [cc1__contrastive_kernel_eq_skeleton]; unfold cc1__contrastive_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h8.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    iexists _; iexact HS

end Cert.Kernel.Reg1

end
-- ==== Proof.KReg1.lean ====
import proofs.«117839_j20658792694235_1_alg».proof.Proof.KReg1Runs

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Dev nD → Valuation τ sig (Elt F))

/-! ## What each case leaves in the accumulator and in the output's buffer -/

/-- At a first point the accumulator's stores tile it. -/
theorem scoverA (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : condF i) (hL : ¬condL i)
    (x0 : Vec F S512x256 .f32) (x1 : Vec F S1024x256 .f32) (x2 x3 x4 : Vec F S512x1024 .f32) (y : S512x4.Idx) :
    ∃ pc ∈ (runA c i a2 h2 a3 h3 a4 h4 a5 h5 a6 h6 a7 h7 a8 h8 hF hL x0 x1 x2 x3 x4).2.1, y ∈ pc.1.set :=
  View.cover_of_tiledL (runA c i a2 h2 a3 h3 a4 h4 a5 h5 a6 h6 a7 h7 a8 h8 hF hL x0 x1 x2 x3 x4).2.1 S512x4.size (by sl_kernel_rfl) y

/-- What a first point leaves in the accumulator: its stores read back. -/
def soutA (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : condF i) (hL : ¬condL i)
    (x0 : Vec F S512x256 .f32) (x1 : Vec F S1024x256 .f32) (x2 x3 x4 : Vec F S512x1024 .f32) : Vec F S512x4 .f32 :=
  VS.read (Elt F) (VS.writes (Elt F) VS.junk (runA c i a2 h2 a3 h3 a4 h4 a5 h5 a6 h6 a7 h7 a8 h8 hF hL x0 x1 x2 x3 x4).2.1)

/-- At a middle point the accumulator's stores tile it. -/
theorem scoverB (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : ¬condL i)
    (x0 : Vec F S512x256 .f32) (x1 : Vec F S1024x256 .f32) (x2 x3 x4 : Vec F S512x1024 .f32) (xs : Vec F S512x4 .f32) (y : S512x4.Idx) :
    ∃ pc ∈ (runB c i a2 h2 a3 h3 a4 h4 a5 h5 a6 h6 a7 h7 a8 h8 hF hL x0 x1 x2 x3 x4 xs).2.1, y ∈ pc.1.set :=
  View.cover_of_tiledL (runB c i a2 h2 a3 h3 a4 h4 a5 h5 a6 h6 a7 h7 a8 h8 hF hL x0 x1 x2 x3 x4 xs).2.1 S512x4.size (by sl_kernel_rfl) y

/-- What a middle point leaves in the accumulator. -/
def soutB (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : ¬condL i)
    (x0 : Vec F S512x256 .f32) (x1 : Vec F S1024x256 .f32) (x2 x3 x4 : Vec F S512x1024 .f32) (xs : Vec F S512x4 .f32) : Vec F S512x4 .f32 :=
  VS.read (Elt F) (VS.writes (Elt F) VS.junk (runB c i a2 h2 a3 h3 a4 h4 a5 h5 a6 h6 a7 h7 a8 h8 hF hL x0 x1 x2 x3 x4 xs).2.1)

/-- At a last point the accumulator's stores tile it. -/
theorem scoverC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) (y : S512x4.Idx) :
    ∃ pc ∈ (runC c i a2 h2 a3 h3 a4 h4 a5 h5 a6 h6 a7 h7 a8 h8 hF hL x0 x1 x2 x3 x4 xs).2.1, y ∈ pc.1.set :=
  View.cover_of_tiledL (runC c i a2 h2 a3 h3 a4 h4 a5 h5 a6 h6 a7 h7 a8 h8 hF hL x0 x1 x2 x3 x4 xs).2.1 S512x4.size (by sl_kernel_rfl) y

/-- What a last point leaves in the accumulator. -/
def soutC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) : Vec F S512x4 .f32 :=
  VS.read (Elt F) (VS.writes (Elt F) VS.junk (runC c i a2 h2 a3 h3 a4 h4 a5 h5 a6 h6 a7 h7 a8 h8 hF hL x0 x1 x2 x3 x4 xs).2.1)

/-- At a last point the stores into the output's buffer tile it. -/
theorem coverC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) (y : S512x4.Idx) :
    ∃ pc ∈ (runC c i a2 h2 a3 h3 a4 h4 a5 h5 a6 h6 a7 h7 a8 h8 hF hL x0 x1 x2 x3 x4 xs).1, y ∈ pc.1.set :=
  View.cover_of_tiledL (runC c i a2 h2 a3 h3 a4 h4 a5 h5 a6 h6 a7 h7 a8 h8 hF hL x0 x1 x2 x3 x4 xs).1 S512x4.size (by sl_kernel_rfl) y

/-- What a last point leaves in the output's buffer. -/
def outC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) : Vec F S512x4 .f32 :=
  VO.read (Elt F) (VO.writes (Elt F) VO.junk (runC c i a2 h2 a3 h3 a4 h4 a5 h5 a6 h6 a7 h7 a8 h8 hF hL x0 x1 x2 x3 x4 xs).1)

/-! ## Point by point -/

/-- THE ACCUMULATION: what the accumulator holds after the body at position `n` — at a first point of the reduction
    axis that case's contents, elsewhere the point's case over what the point before left. -/
def accAt (c : Dev nD) : (n : ℕ) → n < cfg1.N → Vec F S512x4 .f32
  | 0, hn => soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcondF ⟨0, hn⟩).mpr (Nat.zero_mod _)) (fun h => (fun h => by (try dsimp only at h); omega) ((hcondL ⟨0, hn⟩).mp h)) (blk V c 0 ⟨0, hn⟩) (blk V c 1 ⟨0, hn⟩) (blk V c 2 ⟨0, hn⟩) (blk V c 3 ⟨0, hn⟩) (blk V c 4 ⟨0, hn⟩)
  | n + 1, hn =>
    if h0 : (n + 1) % 4 = 0 then
      soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcondF ⟨n + 1, hn⟩).mpr h0) (fun h => (fun h => by (try dsimp only at h); omega) ((hcondL ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩)
    else
      if h1 : (n + 1) % 4 = 3 then
        soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcondF ⟨n + 1, hn⟩).mp h)) ((hcondL ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (accAt c n (Nat.lt_of_succ_lt hn))
      else
        soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcondF ⟨n + 1, hn⟩).mp h)) (fun h => h1 ((hcondL ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (accAt c n (Nat.lt_of_succ_lt hn))

/-- What the output's staging buffer holds after the body at position `n`: at a last point of the reduction axis that
    case's stores; elsewhere the window is idle and nothing consults this. -/
def outAt (c : Dev nD) (n : ℕ) (hn : n < cfg1.N) : Vec F S512x4 .f32 :=
  if h1 : n % 4 = 3 then
    outC c (grid1.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) scM (Memref.isWhole_whole _) (fun h => (fun h => by (try dsimp only at h); omega) ((hcondF ⟨n, hn⟩).mp h)) ((hcondL ⟨n, hn⟩).mpr h1) (blk V c 0 ⟨n, hn⟩) (blk V c 1 ⟨n, hn⟩) (blk V c 2 ⟨n, hn⟩) (blk V c 3 ⟨n, hn⟩) (blk V c 4 ⟨n, hn⟩) (accAt V c (n - 1) (Nat.lt_of_le_of_lt (Nat.sub_le _ _) hn))
  else VO.read (Elt F) VO.junk

theorem accAt_A (c : Dev nD) (t : Fin cfg1.N) (h0 : t.val % 4 = 0) (h1 : ¬t.val % 4 = 3) :
    accAt V c t.val t.isLt = soutA c (grid1.coords t) (ms0 t) (hs0 t) (ms1 t) (hs1 t) (ms2 t) (hs2 t) (ms3 t) (hs3 t) (ms4 t) (hs4 t) (ms5 t) (hs5 t) scM (Memref.isWhole_whole _) ((hcondF t).mpr h0) (fun h => h1 ((hcondL t).mp h)) (blk V c 0 t) (blk V c 1 t) (blk V c 2 t) (blk V c 3 t) (blk V c 4 t) := by
  obtain ⟨n, hn⟩ := t
  cases n with
  | zero => exact rfl
  | succ n => exact (dif_pos h0).trans rfl

theorem accAt_B (c : Dev nD) (t : Fin cfg1.N) (h0 : ¬t.val % 4 = 0) (h1 : ¬t.val % 4 = 3) :
    accAt V c t.val t.isLt = soutB c (grid1.coords t) (ms0 t) (hs0 t) (ms1 t) (hs1 t) (ms2 t) (hs2 t) (ms3 t) (hs3 t) (ms4 t) (hs4 t) (ms5 t) (hs5 t) scM (Memref.isWhole_whole _) (fun h => h0 ((hcondF t).mp h)) (fun h => h1 ((hcondL t).mp h)) (blk V c 0 t) (blk V c 1 t) (blk V c 2 t) (blk V c 3 t) (blk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 4 = 0) (h1 : t.val % 4 = 3) :
    accAt V c t.val t.isLt = soutC c (grid1.coords t) (ms0 t) (hs0 t) (ms1 t) (hs1 t) (ms2 t) (hs2 t) (ms3 t) (hs3 t) (ms4 t) (hs4 t) (ms5 t) (hs5 t) scM (Memref.isWhole_whole _) (fun h => h0 ((hcondF t).mp h)) ((hcondL t).mpr h1) (blk V c 0 t) (blk V c 1 t) (blk V c 2 t) (blk V c 3 t) (blk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem outAt_C (c : Dev nD) (t : Fin cfg1.N) (h0 : ¬t.val % 4 = 0) (h1 : t.val % 4 = 3) :
    outAt V c t.val t.isLt = outC c (grid1.coords t) (ms0 t) (hs0 t) (ms1 t) (hs1 t) (ms2 t) (hs2 t) (ms3 t) (hs3 t) (ms4 t) (hs4 t) (ms5 t) (hs5 t) scM (Memref.isWhole_whole _) (fun h => h0 ((hcondF t).mp h)) ((hcondL t).mpr h1) (blk V c 0 t) (blk V c 1 t) (blk V c 2 t) (blk V c 3 t) (blk V c 4 t) (accAt V c (t.val - 1) (Nat.lt_of_le_of_lt (Nat.sub_le _ _) t.isLt)) :=
  (dif_pos h1).trans rfl

/-- The region's invariant before position `n`: at the entry what the launch hands over; afterwards the same scoped
    buffers with the accumulator at what the point before left, the others at anything, and the generator register. -/
def PhiS (c : Dev nD) : (n : ℕ) → n ≤ cfg1.N → sProp 𝕄
  | 0, _ => Pipeline.ΦA spec1 c
  | n + 1, hn => iprop(iprop(other c cc0_stg0_0 ∗ other c cc0_stg0_1 ∗ other c cc0_stg1_0 ∗ other c cc0_stg1_1 ∗ other c cc0_stg2_0 ∗ other c cc0_stg3_0 ∗ other c cc0_scratch0 ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(other c cc0_stg0_0 ∗ other c cc0_stg0_1 ∗ other c cc0_stg1_0 ∗ other c cc0_stg1_1 ∗ other c cc0_stg2_0 ∗ other c cc0_stg3_0 ∗ other c cc0_scratch0 ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop(other c cc0_stg0_0 ∗ other c cc0_stg0_1 ∗ other c cc0_stg1_0 ∗ other c cc0_stg1_1 ∗ other c cc0_stg2_0 ∗ other c cc0_stg3_0 ∗ other c cc0_scratch0 ∗ owns (c : Thread nD τ) scM fullShare (accAt V c (n - 1) (by omega))) ∗ (∃ r, prngReg c r)) := by
  cases n with
  | zero => exact absurd rfl hz
  | succ n => rfl

/-! ## The proof data -/

/-- The proof data of the second pipeline on core `c`, over the contents `V c` of the core's unscoped buffers at the
    region's entry: each input's buffer keeps its block, the output's holds `outAt`, the invariant is `PhiS`; nothing is
    owed; the array two windows stage is held half and half. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg1.W) : (dat V c).A w = V c (Proc.devRef .tc (Pipeline.arrRef spec1 w)) := by
  dsimp only [dat]

theorem owed_eq (c : Dev nD) (t : Fin (cfg1.N + 1)) : (dat V c).owed t = 0 := by
  dsimp only [dat]

theorem q_eq0 (c : Dev nD) : (dat V c).q 0 = fullShare.left := by dsimp only [dat]
theorem q_eq1 (c : Dev nD) : (dat V c).q 1 = fullShare.right := by dsimp only [dat]
theorem share_eq0 (c : Dev nD) : (dat V c).share 0 = fullShare.left := by
  unfold Dat.share; rw [if_neg (by decide)]; dsimp only [dat]
theorem share_eq1 (c : Dev nD) : (dat V c).share 1 = fullShare.right := by
  unfold Dat.share; rw [if_neg (by decide)]; dsimp only [dat]
theorem share_eq2 (c : Dev nD) : (dat V c).share 2 = fullShare := by
  unfold Dat.share; rw [if_neg (by decide)]; dsimp only [dat]
theorem share_eq3 (c : Dev nD) : (dat V c).share 3 = fullShare := by
  unfold Dat.share; rw [if_neg (by decide)]; dsimp only [dat]
theorem share_eq4 (c : Dev nD) : (dat V c).share 4 = fullShare := by
  unfold Dat.share; rw [if_neg (by decide)]; dsimp only [dat]
theorem share_eq5 (c : Dev nD) : (dat V c).share 5 = fullShare := by
  unfold Dat.share; rw [if_pos (by decide)]
theorem share_eq (c : Dev nD) (w : Fin cfg1.W) (h0 : w ≠ 0) (h1 : w ≠ 1) : (dat V c).share w = fullShare := by
  match w, h0, h1 with
  | ⟨0, _⟩, h0, _ => exact absurd rfl h0
  | ⟨1, _⟩, _, h1 => exact absurd rfl h1
  | ⟨2, _⟩, _, _ => exact share_eq2 V c
  | ⟨3, _⟩, _, _ => exact share_eq3 V c
  | ⟨4, _⟩, _, _ => exact share_eq4 V c
  | ⟨5, _⟩, _, _ => exact share_eq5 V c

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = outAt V c t.val t.isLt := by dsimp only [dat]

/-- An input's current staging buffer holds its block at every point, fetched there or not: an unfetched window's
    block index has not moved, and the body leaves the block in place. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
/-- The body at any point: the inputs' buffers hold their blocks; the closed forms of the two conditions say which case the
    point is in; that case's run applies; the invariant hands the body the accumulator at what the point before left (at
    anything at a first point) and takes it back at this point's contents, the other scoped buffers pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  rw [show (dat V c).leavesExact 4 t = owns (c : Thread nD τ) (ms4 t) fullShare ((dat V c).after 4 t) from by
    unfold Dat.leavesExact; rw [live4 t], after_4]
  by_cases h0 : t.val % 4 = 0
  · have h1 : ¬t.val % 4 = 3 := by omega
    rw [Dat.leavesExact_idle (dat V c) 5 t (idle5 t (fun h => h1 ((hcondL t).mp h))) (noFlush5 t (fun h => h1 ((hcondL t).mp h)))]
    rw [accAt_A V c t h0 h1]
    unfold soutA; (try dsimp only)
    by_cases hz : t.val = 0
    ·
        rw [PhiS_castSucc V c t, PhiS_zero V c _ _ hz, PhiA_eq]
        iintro ⟨⟨⟨R0, R1, R2, R3, R4, R5, R6, HS⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ ((hcondF t).mpr h0) (fun h => h1 ((hcondL t).mp h)) (blk V c 0 t) (blk V c 1 t) (blk V c 2 t) (blk V c 3 t) (blk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [R0 R1 R2 R3 R4 R5 R6 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS
          ipureintro; exact View.read_writes_of_cover _ _ _ _ _ (scoverA c _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
    ·
        rw [PhiS_castSucc V c t, PhiS_pos V c _ _ hz]
        iintro ⟨⟨⟨R0, R1, R2, R3, R4, R5, R6, HS⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ ((hcondF t).mpr h0) (fun h => h1 ((hcondL t).mp h)) (blk V c 0 t) (blk V c 1 t) (blk V c 2 t) (blk V c 3 t) (blk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [R0 R1 R2 R3 R4 R5 R6 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS
          ipureintro; exact View.read_writes_of_cover _ _ _ _ _ (scoverA c _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dat V c).leavesExact 5 t = owns (c : Thread nD τ) (ms5 t) fullShare ((dat V c).after 5 t) from by
        unfold Dat.leavesExact; rw [live5 t ((hcondL t).mpr h1)], after_5]
      rw [accAt_C V c t h0 h1, outAt_C V c t h0 h1]
      unfold outC soutC; (try dsimp only)
      rw [PhiS_castSucc V c t, PhiS_pos V c _ _ hz]
      iintro ⟨⟨⟨R0, R1, R2, R3, R4, R5, R6, HS⟩, Hg⟩, Ho, ⟨%d0, H0⟩, ⟨%d1, H1⟩, ⟨%d2, H2⟩, ⟨%d3, H3⟩, ⟨%d4, H4⟩, ⟨%d5, H5⟩⟩
      iapply ((runC c (grid1.coords t) _ _ _ _ _ _ _ _ _ _ _ _ _ _ (fun h => h0 ((hcondF t).mp h)) ((hcondL t).mpr h1) (blk V c 0 t) (blk V c 1 t) (blk V c 2 t) (blk V c 3 t) (blk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [R0 R1 R2 R3 R4 R5 R6 HS Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS
        ipureintro; exact View.read_writes_of_cover _ _ _ _ _ (scoverC c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC c _ _ _ _ _ _ _ _ _ _ _ _ _ _ _ _ _ _ _ _ _ _ _)
    ·
      rw [Dat.leavesExact_idle (dat V c) 5 t (idle5 t (fun h => h1 ((hcondL t).mp h))) (noFlush5 t (fun h => h1 ((hcondL t).mp h)))]
      rw [accAt_B V c t h0 h1]
      unfold soutB; (try dsimp only)
      rw [PhiS_castSucc V c t, PhiS_pos V c _ _ hz]
      iintro ⟨⟨⟨R0, R1, R2, R3, R4, R5, R6, HS⟩, Hg⟩, Ho, ⟨%d0, H0⟩, ⟨%d1, H1⟩, ⟨%d2, H2⟩, ⟨%d3, H3⟩, ⟨%d4, H4⟩, ⟨%d5, H5⟩⟩
      iapply ((runB c (grid1.coords t) _ _ _ _ _ _ _ _ _ _ _ _ _ _ (fun h => h0 ((hcondF t).mp h)) (fun h => h1 ((hcondL t).mp h)) (blk V c 0 t) (blk V c 1 t) (blk V c 2 t) (blk V c 3 t) (blk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [R0 R1 R2 R3 R4 R5 R6 HS Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS
        ipureintro; exact View.read_writes_of_cover _ _ _ _ _ (scoverB c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R0, R1, R2, R3, R4, R5, R6, HS⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  iexists _; iexact HS

/-- The same after the last point. -/
theorem hout (c : Dev nD) : (dat V c).Φ (Fin.last cfg1.N) ⊢ Pipeline.ΦA spec1 c :=
  Phi_out V c _ (by rw [Fin.val_last]; have : cfg1.N = 32 := N_1; omega)

/-- The inputs are never written. -/
theorem arrAt_in (c : Dev nD) (w : Fin cfg1.W) (hw : w ≠ 5) (n) : (dat V c).arrAt w n = (dat V c).A w :=
  (dat V c).arrAt_in w (by
    match w, hw with
    | ⟨0, _⟩, _ => rfl
    | ⟨1, _⟩, _ => rfl
    | ⟨2, _⟩, _ => rfl
    | ⟨3, _⟩, _ => rfl
    | ⟨4, _⟩, _ => rfl
    | ⟨5, _⟩, hw => exact absurd rfl hw) n

end Cert.Kernel.Reg1

end
-- ==== Proof.KShare.lean ====
/-
  Region 1 of the kernel's program reads one array, the normalised rows, through two windows: a row block and a column
  block of the same matrix. The array's full share is therefore dealt between the two windows, the left half to one and
  the right half to the other, when the region is entered, and the halves rejoin when it is left. These are the two
  entailments, for any proof data of the region whose windows hold those shares.
-/
import proofs.«117839_j20658792694235_1_alg».proof.Proof.Gen.Kernel.Regions
import Idealize.ShloMosaic.Lib.Pipeline.Kit
import Idealize.ShloMosaic.Lib.Pipeline.RegionsLoop

set_option maxRecDepth 16384

noncomputable section

namespace Cert.Kernel.Share

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- Region 1's windows stage five buffers: windows 0 and 1 read the same one. -/
theorem arrRefs1 : (Finset.univ.image (Pipeline.arrRef spec1) : Finset (Ref sig .tc))
    = ([Pipeline.arrRef spec1 0, Pipeline.arrRef spec1 2, Pipeline.arrRef spec1 3, Pipeline.arrRef spec1 4, Pipeline.arrRef spec1 5] : List (Ref sig .tc)).toFinset := by decide

theorem arrRef1_shared : Pipeline.arrRef spec1 1 = Pipeline.arrRef spec1 0 := by decide

theorem arrRefs1_nodup : ([Pipeline.arrRef spec1 0, Pipeline.arrRef spec1 2, Pipeline.arrRef spec1 3, Pipeline.arrRef spec1 4, Pipeline.arrRef spec1 5] : List (Ref sig .tc)).Nodup := by decide

/-- One whole buffer of the core at the contents `V` names, at share `q`. -/
def bufAt (c : Dev nD) (V : (b : Ref sig .tc) → Buf (Elt F) ((c : Thread nD τ).loc b)) (q : PosShare TreeShare) (b : Ref sig .tc) : sProp 𝕄 :=
  ((c : Thread nD τ).loc b) ↦{q} V b

/-- The full share of a buffer is its left half and its right half. -/
theorem bufAt_halves (c : Dev nD) (V : (b : Ref sig .tc) → Buf (Elt F) ((c : Thread nD τ).loc b)) (b : Ref sig .tc) :
    (bufAt c V fullShare b : sProp 𝕄) ⊣⊢ iprop(bufAt c V fullShare.left b ∗ bufAt c V fullShare.right b) := by
  unfold bufAt; exact pointsTo_share (PosShare.mem_left_op_right fullShare)

/-- The five buffers behind the six windows, each whole at the full share. -/
theorem arrBufs1_eq (c : Dev nD) (V : (b : Ref sig .tc) → Buf (Elt F) ((c : Thread nD τ).loc b)) :
    (Pipeline.arrBufs spec1 c V : sProp 𝕄)
      = iprop(bufAt c V fullShare (Pipeline.arrRef spec1 0) ∗ bufAt c V fullShare (Pipeline.arrRef spec1 2) ∗ bufAt c V fullShare (Pipeline.arrRef spec1 3)
          ∗ bufAt c V fullShare (Pipeline.arrRef spec1 4) ∗ bufAt c V fullShare (Pipeline.arrRef spec1 5)) := by
  unfold Pipeline.arrBufs
  rw [bigSep_eq_bigSepL_of_eq _ arrRefs1 arrRefs1_nodup]
  simp only [bigSepL_cons_cons, bigSepL_singleton]
  rfl

/-- A whole-buffer assertion moves along an equation of references. -/
theorem pt_transport (c : Dev nD) (V : (b : Ref sig .tc) → Buf (Elt F) ((c : Thread nD τ).loc b)) (q : PosShare TreeShare)
    {b b' : Ref sig .tc} (e : b = b') :
    ((((c : Thread nD τ).loc b) ↦{q} V b) : sProp 𝕄) = (((c : Thread nD τ).loc b') ↦{q} V b') := by
  subst e; rfl

/-- The six windows' arrays are whole buffers, each at the share its window holds. -/
theorem arrays1_eq (c : Dev nD) (dat : Dat τ (Elt F) Unit ℕ (UR sig nD τ) ℕ cfg1 c)
    (Fa : (w : Fin cfg1.W) → Buf (Elt F) ((cfg1.win w).arr.view.loc (c : Thread nD τ))) :
    (dat.arrays Fa : sProp 𝕄)
      = bigSep Finset.univ fun w : Fin cfg1.W => (((c : Thread nD τ).loc (Pipeline.arrRef spec1 w)) ↦{dat.share w} Fa w : sProp 𝕄) := by
  have e : ∀ w : Fin cfg1.W, (cfg1.win w).arr.view.set = Finset.univ := fun w => (arr_whole1 w).set_eq_univ
  unfold Dat.arrays
  exact bigSep_congr fun w _ => by rw [e w]

/-- The same window by window, when the contents are the ones `V` names. -/
theorem arrays1_pt (c : Dev nD) (V : (b : Ref sig .tc) → Buf (Elt F) ((c : Thread nD τ).loc b))
    (dat : Dat τ (Elt F) Unit ℕ (UR sig nD τ) ℕ cfg1 c)
    (Fa : (w : Fin cfg1.W) → Buf (Elt F) ((cfg1.win w).arr.view.loc (c : Thread nD τ)))
    (hF : ∀ w, Fa w = V (Pipeline.arrRef spec1 w)) :
    (dat.arrays Fa : sProp 𝕄) = iprop(bufAt c V (dat.share 0) (Pipeline.arrRef spec1 0) ∗ bufAt c V (dat.share 1) (Pipeline.arrRef spec1 1) ∗ bufAt c V (dat.share 2) (Pipeline.arrRef spec1 2) ∗ bufAt c V (dat.share 3) (Pipeline.arrRef spec1 3) ∗ bufAt c V (dat.share 4) (Pipeline.arrRef spec1 4) ∗ bufAt c V (dat.share 5) (Pipeline.arrRef spec1 5)) := by
  rw [arrays1_eq, bigSep_congr (fun w _ => by rw [hF w]; rfl :
    ∀ w ∈ (Finset.univ : Finset (Fin cfg1.W)), ((((c : Thread nD τ).loc (Pipeline.arrRef spec1 w)) ↦{dat.share w} Fa w : sProp 𝕄)) = bufAt c V (dat.share w) (Pipeline.arrRef spec1 w)),
    bigSep_W1]

/-- ENTRY. The core's unscoped buffers at contents `V` give region 1's arrays — the shared array's full share dealt as
    its two halves to the two windows that read it — and the buffers no window stages. -/
theorem entry1 (c : Dev nD) (V : (b : Ref sig .tc) → Buf (Elt F) ((c : Thread nD τ).loc b))
    (dat : Dat τ (Elt F) Unit ℕ (UR sig nD τ) ℕ cfg1 c) (hA : ∀ w, dat.A w = V (Pipeline.arrRef spec1 w))
    (h0 : dat.share 0 = fullShare.left) (h1 : dat.share 1 = fullShare.right) (h2 : dat.share 2 = fullShare)
    (h3 : dat.share 3 = fullShare) (h4 : dat.share 4 = fullShare) (h5 : dat.share 5 = fullShare) :
    (unscopedBufs c V : sProp 𝕄) ⊢ iprop(dat.arrays (dat.arrAt · 0) ∗ Pipeline.unscopedRest spec1 c V) := by
  rw [Pipeline.unscopedBufs_split₀ (Pipeline.pin (pcfgs (F := F)) adm) 1 winFacts₀1.arr_unscoped c V]
  refine sep_mono ?_ .rfl
  show (Pipeline.arrBufs spec1 c V : sProp 𝕄) ⊢ _
  rw [arrBufs1_eq, arrays1_pt c V dat (dat.arrAt · 0) hA, h0, h1, h2, h3, h4, h5, arrRef1_shared]
  iintro ⟨H0, H2, H3, H4, H5⟩
  ihave H := (bufAt_halves c V (Pipeline.arrRef spec1 0)).1 $$ H0
  icases H with ⟨Hl, Hr⟩
  isplitl [Hl]; · iexact Hl
  isplitl [Hr]; · iexact Hr
  isplitl [H2]; · iexact H2
  isplitl [H3]; · iexact H3
  isplitl [H4]; · iexact H4
  iexact H5

/-- EXIT. Region 1's arrays at contents that are `V'` at every array, beside the other buffers at `V`, are the core's
    unscoped buffers at `V'` when `V'` and `V` agree off the arrays: the two halves of the shared array rejoin. -/
theorem exit1 (c : Dev nD) (V V' : (b : Ref sig .tc) → Buf (Elt F) ((c : Thread nD τ).loc b))
    (dat : Dat τ (Elt F) Unit ℕ (UR sig nD τ) ℕ cfg1 c)
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V b)
    (h0 : dat.share 0 = fullShare.left) (h1 : dat.share 1 = fullShare.right) (h2 : dat.share 2 = fullShare)
    (h3 : dat.share 3 = fullShare) (h4 : dat.share 4 = fullShare) (h5 : dat.share 5 = fullShare) :
    iprop(dat.arrays Fa ∗ Pipeline.unscopedRest spec1 c V) ⊢ (unscopedBufs c V' : sProp 𝕄) := by
  rw [Pipeline.unscopedBufs_split₀ (Pipeline.pin (pcfgs (F := F)) adm) 1 winFacts₀1.arr_unscoped c V']
  refine sep_mono ?_ (Entails.of_eq ?_)
  · show _ ⊢ (Pipeline.arrBufs spec1 c V' : sProp 𝕄)
    rw [arrBufs1_eq, arrays1_pt c V' dat Fa hF, h0, h1, h2, h3, h4, h5, arrRef1_shared]
    iintro ⟨Hl, Hr, H2, H3, H4, H5⟩
    isplitl [Hl Hr]
    · iapply (bufAt_halves c V' (Pipeline.arrRef spec1 0)).2
      isplitl [Hl]; · iexact Hl
      iexact Hr
    isplitl [H2]; · iexact H2
    isplitl [H3]; · iexact H3
    isplitl [H4]; · iexact H4
    iexact H5
  · unfold Pipeline.unscopedRest
    exact bigSep_congr fun b hb => by rw [hrest b (Finset.mem_sdiff.mp hb).2]

end Cert.Kernel.Share

end
-- ==== Proof.KRegions.lean ====
/-
  The program of two kernel regions as one run. Between two items of @main a core holds every unscoped buffer at a
  named valuation: the launch contents, then each host stretch applied, and after a region the region's output array at
  what its write-backs leave. Region 0 leaves in its 1x1 result the accumulated tile sums; region 1 leaves in its
  4096x4 result the four accumulated row sums of every row block. Both regions keep their input arrays; region 1 reads
  one array through two windows, so that array's full share is dealt between them at the entry and put back at the exit.
-/
import proofs.«117839_j20658792694235_1_alg».proof.Proof.Gen.Kernel.Regions
import proofs.«117839_j20658792694235_1_alg».proof.Proof.KReg0
import proofs.«117839_j20658792694235_1_alg».proof.Proof.KReg1
import proofs.«117839_j20658792694235_1_alg».proof.Proof.KShare
import Idealize.ShloMosaic.Lib.Pipeline.Kit
import Idealize.ShloMosaic.Lib.Pipeline.RegionsLoop

set_option maxRecDepth 16384

noncomputable section

namespace Cert.Kernel.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen Cert.Kernel.Share

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What rides beside the buffers, and what the regions leave -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers a core keeps its generator register at some state and owes nothing. -/
abbrev Rd (c : Dev nD) : sProp 𝕄 := iprop((∃ r, prngReg c r) ∗ ∃ W, owes (c : Thread nD τ) (0 : CellTallies nD τ sig Unit) W)
abbrev E : Fin 3 → Dev nD → sProp 𝕄 := fun _ c => Rd c

/-- What region 0 is entered from: the launch contents after the first host stretch. -/
abbrev ent0 : Dev nD → Valuation τ sig (Elt F) := fun c => V1 m c
/-- The 1x1 result of region 0 after its eight points. -/
def out0 (c : Dev nD) : Buf (Elt F) ((c : Thread nD τ).loc main_v2) := (Reg0.dat (ent0 m) c).arrAt 3 cfg0.N
/-- The regions' results with only region 0's named. -/
def outsA : Outs (F := F) := fun _ r c => if h : r = main_v2 then h ▸ out0 m c else m ((c : Thread nD τ).loc r)

theorem outsA_v2 (J : ℕ) (c : Dev nD) : outsA m J main_v2 c = out0 m c := by
  unfold outsA; rw [dif_pos rfl]

/-- What region 1 is entered from: region 0's result in place, then the five host stretches between the regions. -/
def ent1 : Dev nD → Valuation τ sig (Elt F) := fun c => V7 m (outsA m) c
/-- The 4096x4 result of region 1 after its thirty-two points. -/
def out1 (c : Dev nD) : Buf (Elt F) ((c : Thread nD τ).loc main_v59) := (Reg1.dat (ent1 m) c).arrAt 5 cfg1.N
/-- The regions' results, both named. -/
def outs : Outs (F := F) := fun J r c => if h : r = main_v59 then h ▸ out1 m c else outsA m J r c

theorem outs_v2 (J : ℕ) (c : Dev nD) : outs m J main_v2 c = out0 m c := by
  unfold outs; rw [dif_neg (by decide)]; exact outsA_v2 m J c
theorem outs_v59 (J : ℕ) (c : Dev nD) : outs m J main_v59 c = out1 m c := by
  unfold outs; rw [dif_pos rfl]

/-- After region 0 the two families agree. -/
theorem V2_eq (c : Dev nD) : V2 m (outs m) c = V2 m (outsA m) c := by
  show Function.update (V1 m c) main_v2 (outs m 2 main_v2 c) = Function.update (V1 m c) main_v2 (outsA m 2 main_v2 c)
  rw [outs_v2, outsA_v2]
/-- So region 1 is entered from the same contents under either. -/
theorem V7_eq (c : Dev nD) : V7 m (outs m) c = ent1 m c := by
  unfold ent1
  show StableHlo.after hostOps1_4 (StableHlo.after hostOps1_3 (StableHlo.after hostOps1_2 (StableHlo.after hostOps1_1
    (StableHlo.after hostOps1 (V2 m (outs m) c))))) = _
  rw [V2_eq]

/-! ## The proof data of both pipelines -/

/-- Each pipeline's proof data at its region's entry contents: a literal match on the pipeline. -/
def pdats : (p : Fin 2) → (c : Dev nD) → Dat τ (Elt F) Unit ℕ (UR sig nD τ) ℕ (cfgs p) c
  | ⟨0, _⟩ => fun c => Reg0.dat (ent0 m) c
  | ⟨1, _⟩ => fun c => Reg1.dat (ent1 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

/-- After region 0 each of its arrays holds what the write-backs leave: the three inputs what they held, the result
    the accumulated sum. -/
theorem hF0 (c : Dev nD) (w : Fin cfg0.W) : (pdats m 0 c).arrAt w cfg0.N = V2 m (outs m) c (Pipeline.arrRef spec0 w) := by
  show (Reg0.dat (ent0 m) c).arrAt w cfg0.N = Function.update (V1 m c) main_v2 (outs m 2 main_v2 c) (Pipeline.arrRef spec0 w)
  match w with
  | ⟨0, _⟩ => exact ((Reg0.dat (ent0 m) c).arrAt_in 0 rfl _).trans ((Reg0.A_eq (ent0 m) c 0).trans (Function.update_of_ne (StableHlo.devRef_ne_of_ne (by decide)) _ _).symm)
  | ⟨1, _⟩ => exact ((Reg0.dat (ent0 m) c).arrAt_in 1 rfl _).trans ((Reg0.A_eq (ent0 m) c 1).trans (Function.update_of_ne (StableHlo.devRef_ne_of_ne (by decide)) _ _).symm)
  | ⟨2, _⟩ => exact ((Reg0.dat (ent0 m) c).arrAt_in 2 rfl _).trans ((Reg0.A_eq (ent0 m) c 2).trans (Function.update_of_ne (StableHlo.devRef_ne_of_ne (by decide)) _ _).symm)
  | ⟨3, _⟩ =>
    refine Eq.trans (show _ = outs m 2 main_v2 c from (outs_v2 m 2 c).symm) ?_
    exact (Function.update_self (Proc.devRef (τ := τ) .tc main_v2) (outs m 2 main_v2 c) (V1 m c)).symm

/-- Every other unscoped buffer is as region 0 found it. -/
theorem hrest0 (c : Dev nD) : ∀ b, b ∉ Finset.univ.image (Pipeline.arrRef spec0) → V2 m (outs m) c b = V1 m c b :=
  fun b hb => Function.update_of_ne (StableHlo.devRef_ne_of_ne fun e : b = main_v2 => hb (by
    subst e; exact Finset.mem_image.mpr ⟨3, Finset.mem_univ _, rfl⟩)) _ _

set_option backward.isDefEq.respectTransparency.types false in
/-- Region 0 between the thread states before and after it: its four arrays are split out of the unscoped buffers and
    put back with the result at the accumulated sum; the generator register goes into the invariant and comes back;
    nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (ent0 m) c).loose
  hwaits := Pipeline.hwaits_of_owed_zero _ _ _ _ L lv 0 fun c t => Reg0.owed_eq (ent0 m) c t
  pre c := iprop(StableHlo.held (c : Thread nD τ) (Pipeline.ucRefs τ sig) (V1 m c) ∗ Rd c)
  post c := iprop(StableHlo.held (c : Thread nD τ) (Pipeline.ucRefs τ sig) (V2 m (outs m) c) ∗ Rd c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun w => Reg0.A_eq (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg0.hin (ent0 m) c)
    unfold Pipeline.ΦA
    iintro ⟨Hp, -, Hr⟩
    isplitl [Hr]; · iexact Hr
    iexact Hp
  hout c := by
    rw [Pipeline.ownSems0_none]
    refine (Reg0.hout (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

set_option maxHeartbeats 4000000 in
/-- After region 1 each of its arrays holds what the write-backs leave: the five inputs what they held, the result
    the accumulated row sums. -/
theorem hF1 (c : Dev nD) (w : Fin cfg1.W) : (pdats m 1 c).arrAt w cfg1.N = V8 m (outs m) c (Pipeline.arrRef spec1 w) := by
  show (Reg1.dat (ent1 m) c).arrAt w cfg1.N = Function.update (V7 m (outs m) c) main_v59 (outs m 8 main_v59 c) (Pipeline.arrRef spec1 w)
  rw [V7_eq]
  match w with
  | ⟨0, _⟩ => exact ((Reg1.dat (ent1 m) c).arrAt_in 0 rfl _).trans ((Reg1.A_eq (ent1 m) c 0).trans (Function.update_of_ne (StableHlo.devRef_ne_of_ne (by decide)) _ _).symm)
  | ⟨1, _⟩ => exact ((Reg1.dat (ent1 m) c).arrAt_in 1 rfl _).trans ((Reg1.A_eq (ent1 m) c 1).trans (Function.update_of_ne (StableHlo.devRef_ne_of_ne (by decide)) _ _).symm)
  | ⟨2, _⟩ => exact ((Reg1.dat (ent1 m) c).arrAt_in 2 rfl _).trans ((Reg1.A_eq (ent1 m) c 2).trans (Function.update_of_ne (StableHlo.devRef_ne_of_ne (by decide)) _ _).symm)
  | ⟨3, _⟩ => exact ((Reg1.dat (ent1 m) c).arrAt_in 3 rfl _).trans ((Reg1.A_eq (ent1 m) c 3).trans (Function.update_of_ne (StableHlo.devRef_ne_of_ne (by decide)) _ _).symm)
  | ⟨4, _⟩ => exact ((Reg1.dat (ent1 m) c).arrAt_in 4 rfl _).trans ((Reg1.A_eq (ent1 m) c 4).trans (Function.update_of_ne (StableHlo.devRef_ne_of_ne (by decide)) _ _).symm)
  | ⟨5, _⟩ =>
    refine Eq.trans (show _ = outs m 8 main_v59 c from (outs_v59 m 8 c).symm) ?_
    exact (Function.update_self (Proc.devRef (τ := τ) .tc main_v59) (outs m 8 main_v59 c) (ent1 m c)).symm

/-- Every other unscoped buffer is as region 1 found it. -/
theorem hrest1 (c : Dev nD) : ∀ b, b ∉ Finset.univ.image (Pipeline.arrRef spec1) → V8 m (outs m) c b = V7 m (outs m) c b :=
  fun b hb => Function.update_of_ne (StableHlo.devRef_ne_of_ne fun e : b = main_v59 => hb (by
    subst e; exact Finset.mem_image.mpr ⟨5, Finset.mem_univ _, rfl⟩)) _ _

set_option backward.isDefEq.respectTransparency.types false in
/-- Region 1 between the thread states before and after it. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (ent1 m) c).loose
  hwaits := Pipeline.hwaits_of_owed_zero _ _ _ _ L lv 1 fun c t => Reg1.owed_eq (ent1 m) c t
  pre c := iprop(StableHlo.held (c : Thread nD τ) (Pipeline.ucRefs τ sig) (V7 m (outs m) c) ∗ Rd c)
  post c := iprop(StableHlo.held (c : Thread nD τ) (Pipeline.ucRefs τ sig) (V8 m (outs m) c) ∗ Rd c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := entry1 c (fun b => V7 m (outs m) c b) (pdats m 1 c)
      (fun w => (Reg1.A_eq (ent1 m) c w).trans (by rw [V7_eq]))
      (Reg1.share_eq0 (ent1 m) c) (Reg1.share_eq1 (ent1 m) c) (Reg1.share_eq2 (ent1 m) c) (Reg1.share_eq3 (ent1 m) c)
      (Reg1.share_eq4 (ent1 m) c) (Reg1.share_eq5 (ent1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg1.hin (ent1 m) c)
    unfold Pipeline.ΦA
    iintro ⟨Hp, -, Hr⟩
    isplitl [Hr]; · iexact Hr
    iexact Hp
  hout c := by
    rw [Pipeline.ownSems0_none]
    refine (Reg1.hout (ent1 m) c).trans ?_
    unfold Pipeline.ΦA
    iintro ⟨Hr, Hp⟩
    isplitl [Hp]; · iexact Hp
    isplitr; · iempintro
    iexact Hr
  hexit c := by
    have hjoin := exit1 c (fun b => V7 m (outs m) c b) (fun b => V8 m (outs m) c b) (pdats m 1 c)
      ((pdats m 1 c).arrAt · cfg1.N) (hF1 m c) (hrest1 m c)
      (Reg1.share_eq0 (ent1 m) c) (Reg1.share_eq1 (ent1 m) c) (Reg1.share_eq2 (ent1 m) c) (Reg1.share_eq3 (ent1 m) c)
      (Reg1.share_eq4 (ent1 m) c) (Reg1.share_eq5 (ent1 m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, the frame, and the run with the result named -/

set_option backward.isDefEq.respectTransparency.types false in
/-- Every weakly fair execution from a memory with zero counters terminates, nothing faulting, with the argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.Kernel.Main

end
-- ==== Proof.KIReg0Runs.lean ====
import proofs.«117839_j20658792694235_1_alg».proof.Proof.Gen.KernelIdeal.Launch
import proofs.«117839_j20658792694235_1_alg».proof.Proof.Gen.KernelIdeal.Skeleton
import proofs.«117839_j20658792694235_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The body's first conditional: the reduction axis is at its first point (the scalar chain of the comparison, substituted). -/
abbrev isFirst (i : grid0.Coords) : Prop :=
  (Scalar.cmpi .ne (Scalar.extui (Scalar.cmpi .eq (BitVec.ofNat 32 (i 0).val) 0#32)) 0#32) = 1#1
/-- It holds at point 0 only: decided over the eight points. -/
theorem isFirst_iff : ∀ t : Fin cfg0.N, isFirst (grid0.coords t) ↔ t.val = 0 :=
  (by decide +kernel : ∀ t : Fin grid0.N, isFirst (grid0.coords t) ↔ t.val = 0)

/-- The body's second conditional: the reduction axis is at its last point. -/
abbrev isLast (i : grid0.Coords) : Prop := k0_cond2 i = 1#1
/-- It holds at point 7 only: decided over the eight points. -/
theorem isLast_iff : ∀ t : Fin cfg0.N, isLast (grid0.coords t) ↔ t.val = 7 :=
  (by decide +kernel : ∀ t : Fin grid0.N, isLast (grid0.coords t) ↔ t.val = 7)

/-! ## Where the windows are idle -/

/-- The three inputs are live everywhere. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- Away from the last point the output window is idle, -/
theorem idle_out : ∀ t : Fin cfg0.N, ¬isLast (grid0.coords t) → cfg0.idle 3 (grid0.coords t) = true := by decide +kernel
/-- and its block is not written back there; -/
theorem noFlush_out : ∀ t : Fin cfg0.N, ¬isLast (grid0.coords t) → (cfg0.win 3).flush t = false := by decide +kernel
/-- at the last point it is live. -/
theorem live_out : ∀ t : Fin cfg0.N, isLast (grid0.coords t) → cfg0.idle 3 (grid0.coords t) = false := by decide +kernel

/-! ## The memrefs the body is called with -/

abbrev stg0 (t : Fin cfg0.N) : Memref sig .tc .vmem S512x4096 .f32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S512x64 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S64x4096 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S1x1 .f32 := win0_3.stage (cfg0.slots t 3)
abbrev stg3_whole (t : Fin cfg0.N) : (stg3 t).IsWhole := hstage0_3 ((cfg0.slots t 3).cast nbuf0_3)
/-- The accumulator: a whole scoped buffer of one element, carried from point to point. -/
abbrev accM : Memref sig .tc .vmem S1x1 .f32 := Memref.whole cc0_scratch0
/-- The view through which the accumulator's contents are stated, -/
abbrev accV : View sig .tc .vmem S1x1 .f32 := accM.view
/-- and the one through which the output staging buffer's are (the window has one buffer). -/
abbrev outV : View sig .tc .vmem S1x1 .f32 := (Memref.whole cc0_stg3_0 : Memref sig .tc .vmem S1x1 .f32).view

/-! ## The region invariant of the launch, with the accumulator split off -/

/-- Every scoped buffer of the core that is neither a staging buffer of this region nor its accumulator, at some contents:
    the body never touches them. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The launch's invariant is: the accumulator at some contents, the other scoped buffers, and the generator register. -/
theorem PhiA_split (c : Dev nD) :
    (Pipeline.ΦA spec0 c : sProp 𝕄)
      = iprop(iprop((∃ d, owns (c : Thread nD τ) accM fullShare d) ∗ others c) ∗ (∃ r, prngReg c r)) := by
  unfold Pipeline.ΦA; rw [scopedRest0_eq]; unfold others; simp only [accM, owns_whole]; try rfl

/-! ## The body's run, case by case -/

set_option maxHeartbeats 1000000 in
/-- FIRST POINT (reset, no output store). On whole memrefs — the inputs at their contents, the output's buffer at contents
    handed back untouched, the accumulator at anything — the body runs to the continuation holding the inputs and the output's
    buffer as they were and the accumulator with the pieces `LS` written (the reset, then the sum). -/
noncomputable def runFirst (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : isFirst i) (hl : ¬isLast i)
    (x0 : Vec F S512x4096 .f32) (x1 : Vec F S512x64 .f32) (x2 : Vec F S64x4096 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__loss1_kernel i arg1 harg1 arg2 harg2 arg3 harg3 arg4 harg4 arg5 harg5) K } := by
  refine ⟨?_, fun xo E K => ?run⟩
  case run =>
    simp only [cc0__loss1_kernel_eq_skeleton]; unfold cc0__loss1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 1000000 in
/-- A MIDDLE POINT (no reset, no output store). The accumulator comes in at the contents `xs` the point before left; the
    body leaves it with the pieces `LS` written (the sum added), everything else as it was. -/
noncomputable def runMid (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : ¬isLast i)
    (x0 : Vec F S512x4096 .f32) (x1 : Vec F S512x64 .f32) (x2 : Vec F S64x4096 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__loss1_kernel i arg1 harg1 arg2 harg2 arg3 harg3 arg4 harg4 arg5 harg5) K } := by
  refine ⟨?_, fun xo E K => ?run⟩
  case run =>
    simp only [cc0__loss1_kernel_eq_skeleton]; unfold cc0__loss1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 1000000 in
/-- THE LAST POINT (no reset; the accumulator copied out). The accumulator comes in at `xs`, the output's buffer at anything;
    the body leaves the accumulator with the pieces `LS` and the output's buffer with the pieces `LO` written. -/
noncomputable def runLast (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i)
    (x0 : Vec F S512x4096 .f32) (x1 : Vec F S512x64 .f32) (x2 : Vec F S64x4096 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__loss1_kernel i arg1 harg1 arg2 harg2 arg3 harg3 arg4 harg4 arg5 harg5) K } := by
  refine ⟨?_, ?_, fun E K => ?run⟩
  case run =>
    simp only [cc0__loss1_kernel_eq_skeleton]; unfold cc0__loss1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2
    obtain rfl := harg5.eq_unread hfs
    sl_exec (disch := first | exact hf | exact hl)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Reg0

end
-- ==== Proof.KIReg0.lean ====
import proofs.«117839_j20658792694235_1_alg».proof.Proof.KIReg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- An input window's current staging buffer holds its block at every point, fetched there or not, for any proof data
    over these arrays whose body leaves the block in place. -/
theorem before_in0 {c : Dev nD} (d : Dat τ (Elt F) Unit ℕ (UR sig nD τ) ℕ cfg0 c) (hA : d.A 0 = V c (Proc.devRef .tc (Pipeline.arrRef spec0 0)))
    (hafter : ∀ t, d.after 0 t = iblk V c 0 t) (t : Fin cfg0.N) (e) : d.before 0 t e = iblk V c 0 t :=
  (d.before_in_eq_fetched 0 rfl (fun _ => rfl) (fun _ _ _ => rfl) (fun t => by rw [hafter]; unfold Dat.blockOf iblk; rw [hA]; try rfl) t e).trans
    (by unfold Dat.fetched Dat.blockOf iblk; rw [hA]; try rfl)
theorem before_in1 {c : Dev nD} (d : Dat τ (Elt F) Unit ℕ (UR sig nD τ) ℕ cfg0 c) (hA : d.A 1 = V c (Proc.devRef .tc (Pipeline.arrRef spec0 1)))
    (hafter : ∀ t, d.after 1 t = iblk V c 1 t) (t : Fin cfg0.N) (e) : d.before 1 t e = iblk V c 1 t :=
  (d.before_in_eq_fetched 1 rfl (fun _ => rfl) (fun _ _ _ => rfl) (fun t => by rw [hafter]; unfold Dat.blockOf iblk; rw [hA]; try rfl) t e).trans
    (by unfold Dat.fetched Dat.blockOf iblk; rw [hA]; try rfl)
theorem before_in2 {c : Dev nD} (d : Dat τ (Elt F) Unit ℕ (UR sig nD τ) ℕ cfg0 c) (hA : d.A 2 = V c (Proc.devRef .tc (Pipeline.arrRef spec0 2)))
    (hafter : ∀ t, d.after 2 t = iblk V c 2 t) (t : Fin cfg0.N) (e) : d.before 2 t e = iblk V c 2 t :=
  (d.before_in_eq_fetched 2 rfl (fun _ => rfl) (fun _ _ _ => rfl) (fun t => by rw [hafter]; unfold Dat.blockOf iblk; rw [hA]; try rfl) t e).trans
    (by unfold Dat.fetched Dat.blockOf iblk; rw [hA]; try rfl)

/-! ## What each case leaves: the found pieces cover the one-element buffers -/

theorem coverFirst (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : isFirst i) (hl : ¬isLast i) (x0 : Vec F S512x4096 .f32) (x1 : Vec F S512x64 .f32) (x2 : Vec F S64x4096 .f32) (y : S1x1.Idx) :
    ∃ pc ∈ (runFirst c i arg1 harg1 arg2 harg2 arg3 harg3 arg4 harg4 arg5 harg5 hf hl x0 x1 x2).1, y ∈ pc.1.set :=
  View.cover_of_tiledL (runFirst c i arg1 harg1 arg2 harg2 arg3 harg3 arg4 harg4 arg5 harg5 hf hl x0 x1 x2).1 S1x1.size (by sl_kernel_rfl) y

/-- What the first point leaves in the accumulator: its pieces read back. -/
def accFirst (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : isFirst i) (hl : ¬isLast i) (x0 : Vec F S512x4096 .f32) (x1 : Vec F S512x64 .f32) (x2 : Vec F S64x4096 .f32) : Vec F S1x1 .f32 :=
  accV.read (Elt F) (accV.writes (Elt F) accV.junk (runFirst c i arg1 harg1 arg2 harg2 arg3 harg3 arg4 harg4 arg5 harg5 hf hl x0 x1 x2).1)

theorem coverMid (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : ¬isLast i) (x0 : Vec F S512x4096 .f32) (x1 : Vec F S512x64 .f32) (x2 : Vec F S64x4096 .f32) (xs : Vec F S1x1 .f32) (y : S1x1.Idx) :
    ∃ pc ∈ (runMid c i arg1 harg1 arg2 harg2 arg3 harg3 arg4 harg4 arg5 harg5 hf hl x0 x1 x2 xs).1, y ∈ pc.1.set :=
  View.cover_of_tiledL (runMid c i arg1 harg1 arg2 harg2 arg3 harg3 arg4 harg4 arg5 harg5 hf hl x0 x1 x2 xs).1 S1x1.size (by sl_kernel_rfl) y

/-- What a middle point leaves in the accumulator. -/
def accMid (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : ¬isLast i) (x0 : Vec F S512x4096 .f32) (x1 : Vec F S512x64 .f32) (x2 : Vec F S64x4096 .f32) (xs : Vec F S1x1 .f32) : Vec F S1x1 .f32 :=
  accV.read (Elt F) (accV.writes (Elt F) accV.junk (runMid c i arg1 harg1 arg2 harg2 arg3 harg3 arg4 harg4 arg5 harg5 hf hl x0 x1 x2 xs).1)

theorem coverLast (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) (y : S1x1.Idx) :
    ∃ pc ∈ (runLast c i arg1 harg1 arg2 harg2 arg3 harg3 arg4 harg4 arg5 harg5 hf hl x0 x1 x2 xs).2.1, y ∈ pc.1.set :=
  View.cover_of_tiledL (runLast c i arg1 harg1 arg2 harg2 arg3 harg3 arg4 harg4 arg5 harg5 hf hl x0 x1 x2 xs).2.1 S1x1.size (by sl_kernel_rfl) y

/-- What the last point leaves in the accumulator, -/
def accLast (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) : Vec F S1x1 .f32 :=
  accV.read (Elt F) (accV.writes (Elt F) accV.junk (runLast c i arg1 harg1 arg2 harg2 arg3 harg3 arg4 harg4 arg5 harg5 hf hl x0 x1 x2 xs).2.1)

theorem coverOut (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) (y : S1x1.Idx) :
    ∃ pc ∈ (runLast c i arg1 harg1 arg2 harg2 arg3 harg3 arg4 harg4 arg5 harg5 hf hl x0 x1 x2 xs).1, y ∈ pc.1.set :=
  View.cover_of_tiledL (runLast c i arg1 harg1 arg2 harg2 arg3 harg3 arg4 harg4 arg5 harg5 hf hl x0 x1 x2 xs).1 S1x1.size (by sl_kernel_rfl) y

/-- and in the output's staging buffer. -/
def outLast (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) : Vec F S1x1 .f32 :=
  outV.read (Elt F) (outV.writes (Elt F) outV.junk (runLast c i arg1 harg1 arg2 harg2 arg3 harg3 arg4 harg4 arg5 harg5 hf hl x0 x1 x2 xs).1)

/-! ## What the accumulator and the output's buffer hold after each point -/

/-- THE ACCUMULATION. The accumulator after the body at position `n`: the first point's contents, then each later point's
    over what the point before left. -/
def accAt (c : Dev nD) : (n : ℕ) → n < cfg0.N → Vec F S1x1 .f32
  | 0, hn => accFirst c (grid0.coords ⟨0, hn⟩) (stg0 ⟨0, hn⟩) (stg0_whole ⟨0, hn⟩) (stg1 ⟨0, hn⟩) (stg1_whole ⟨0, hn⟩) (stg2 ⟨0, hn⟩) (stg2_whole ⟨0, hn⟩) (stg3 ⟨0, hn⟩) (stg3_whole ⟨0, hn⟩) accM (Memref.isWhole_whole _) ((isFirst_iff ⟨0, hn⟩).mpr rfl)
      (fun h => (fun h' => by (try dsimp only at h'); omega) ((isLast_iff ⟨0, hn⟩).mp h)) (iblk V c 0 ⟨0, hn⟩) (iblk V c 1 ⟨0, hn⟩) (iblk V c 2 ⟨0, hn⟩)
  | n + 1, hn =>
    if h7 : n + 1 = 7 then
      accLast c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) (fun h => (fun h' => by (try dsimp only at h'); omega) ((isFirst_iff ⟨n + 1, hn⟩).mp h))
        ((isLast_iff ⟨n + 1, hn⟩).mpr h7) (iblk V c 0 ⟨n + 1, hn⟩) (iblk V c 1 ⟨n + 1, hn⟩) (iblk V c 2 ⟨n + 1, hn⟩) (accAt c n (Nat.lt_of_succ_lt hn))
    else
      accMid c (grid0.coords ⟨n + 1, hn⟩) (stg0 ⟨n + 1, hn⟩) (stg0_whole ⟨n + 1, hn⟩) (stg1 ⟨n + 1, hn⟩) (stg1_whole ⟨n + 1, hn⟩) (stg2 ⟨n + 1, hn⟩) (stg2_whole ⟨n + 1, hn⟩) (stg3 ⟨n + 1, hn⟩) (stg3_whole ⟨n + 1, hn⟩) accM (Memref.isWhole_whole _) (fun h => (fun h' => by (try dsimp only at h'); omega) ((isFirst_iff ⟨n + 1, hn⟩).mp h))
        (fun h => h7 ((isLast_iff ⟨n + 1, hn⟩).mp h)) (iblk V c 0 ⟨n + 1, hn⟩) (iblk V c 1 ⟨n + 1, hn⟩) (iblk V c 2 ⟨n + 1, hn⟩) (accAt c n (Nat.lt_of_succ_lt hn))

theorem accAt_first (c : Dev nD) (t : Fin cfg0.N) (h0 : t.val = 0) (h7 : ¬t.val = 7) :
    accAt V c t.val t.isLt = accFirst c (grid0.coords t) (stg0 t) (stg0_whole t) (stg1 t) (stg1_whole t) (stg2 t) (stg2_whole t) (stg3 t) (stg3_whole t) accM (Memref.isWhole_whole _) ((isFirst_iff t).mpr h0) (fun h => h7 ((isLast_iff t).mp h)) (iblk V c 0 t) (iblk V c 1 t) (iblk V c 2 t) := by
  obtain ⟨n, hn⟩ := t
  cases n with
  | zero => exact rfl
  | succ n => exact absurd h0 (Nat.succ_ne_zero n)

theorem accAt_mid (c : Dev nD) (t : Fin cfg0.N) (h0 : ¬t.val = 0) (h7 : ¬t.val = 7) :
    accAt V c t.val t.isLt = accMid c (grid0.coords t) (stg0 t) (stg0_whole t) (stg1 t) (stg1_whole t) (stg2 t) (stg2_whole t) (stg3 t) (stg3_whole t) accM (Memref.isWhole_whole _) (fun h => h0 ((isFirst_iff t).mp h)) (fun h => h7 ((isLast_iff t).mp h)) (iblk V c 0 t) (iblk V c 1 t) (iblk V c 2 t)
      (accAt V c (t.val - 1) (Nat.lt_of_le_of_lt (Nat.sub_le _ _) t.isLt)) := by
  obtain ⟨n, hn⟩ := t
  cases n with
  | zero => exact absurd rfl h0
  | succ n => exact (dif_neg h7).trans rfl

theorem accAt_last (c : Dev nD) (t : Fin cfg0.N) (h0 : ¬t.val = 0) (h7 : t.val = 7) :
    accAt V c t.val t.isLt = accLast c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h7) (iblk V c 0 t) (iblk V c 1 t) (iblk V c 2 t)
      (accAt V c (t.val - 1) (Nat.lt_of_le_of_lt (Nat.sub_le _ _) t.isLt)) := by
  obtain ⟨n, hn⟩ := t
  cases n with
  | zero => exact absurd rfl h0
  | succ n => exact (dif_pos h7).trans rfl

/-- The output's staging buffer after the body at point `t`: at the last point what that case stores; elsewhere the window is idle
    and nothing consults the value (the zero block stands in). -/
def outAt (c : Dev nD) (t : Fin cfg0.N) : Vec F S1x1 .f32 :=
  if h7 : t.val = 7 then
    outLast c (grid0.coords t) (stg0 t) (stg0_whole t) (stg1 t) (stg1_whole t) (stg2 t) (stg2_whole t) (stg3 t) (stg3_whole t) accM (Memref.isWhole_whole _) (fun h => (fun h' => by omega) ((isFirst_iff t).mp h)) ((isLast_iff t).mpr h7) (iblk V c 0 t) (iblk V c 1 t) (iblk V c 2 t)
      (accAt V c (t.val - 1) (Nat.lt_of_le_of_lt (Nat.sub_le _ _) t.isLt))
  else k0_pay1

theorem outAt_last (c : Dev nD) (t : Fin cfg0.N) (h0 : ¬t.val = 0) (h7 : t.val = 7) :
    outAt V c t = outLast c (grid0.coords t) (stg0 t) (stg0_whole t) (stg1 t) (stg1_whole t) (stg2 t) (stg2_whole t) (stg3 t) (stg3_whole t) accM (Memref.isWhole_whole _) (fun h => h0 ((isFirst_iff t).mp h)) ((isLast_iff t).mpr h7) (iblk V c 0 t) (iblk V c 1 t) (iblk V c 2 t)
      (accAt V c (t.val - 1) (Nat.lt_of_le_of_lt (Nat.sub_le _ _) t.isLt)) := by
  unfold outAt; exact dif_pos h7

/-! ## The invariant -/

/-- The region invariant before position `n`: before the first point the launch's; afterwards the accumulator at what the point
    before left in it, the other scoped buffers at anything, the generator register at some state. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (accAt V c n hn) ∗ others c) ∗ (∃ r, prngReg c r)) := rfl

theorem PhiS_pos (c : Dev nD) (n : ℕ) (h : n ≤ cfg0.N) (hz : n ≠ 0) :
    PhiS V c n h = iprop(iprop(owns (c : Thread nD τ) accM fullShare (accAt V c (n - 1) (by omega)) ∗ others c) ∗ (∃ r, prngReg c r)) := by
  cases n with
  | zero => exact absurd rfl hz
  | succ n => rfl

/-! ## The proof data -/

/-- The proof data of the first pipeline on core `c`: the arrays as the region finds them; after the body at point `t` each
    input's buffer at its block and the output's at `outAt`; the invariant `PhiS`; nothing owed; full shares. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat V c).A w = V c (Proc.devRef .tc (Pipeline.arrRef spec0 w)) := by
  dsimp only [dat]

theorem owed_eq (c : Dev nD) (t) : (dat V c).owed t = 0 := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outAt V c t := by dsimp only [dat]

theorem before_0 (c : Dev nD) (t : Fin cfg0.N) (d) : (dat V c).before 0 t d = iblk V c 0 t :=
  before_in0 V (dat V c) (A_eq V c 0) (after_0 V c) t d
theorem before_1 (c : Dev nD) (t : Fin cfg0.N) (d) : (dat V c).before 1 t d = iblk V c 1 t :=
  before_in1 V (dat V c) (A_eq V c 1) (after_1 V c) t d
theorem before_2 (c : Dev nD) (t : Fin cfg0.N) (d) : (dat V c).before 2 t d = iblk V c 2 t :=
  before_in2 V (dat V c) (A_eq V c 2) (after_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (stg0 t) fullShare ((dat V c).before 0 t d))
    ∗ (∃ d, owns (c : Thread nD τ) (stg1 t) fullShare ((dat V c).before 1 t d))
    ∗ (∃ d, owns (c : Thread nD τ) (stg2 t) fullShare ((dat V c).before 2 t d))
    ∗ (∃ d, owns (c : Thread nD τ) (stg3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the closed forms say which of the three cases the point is in;
    that case's run applies: the invariant hands the body the accumulator (at anything at the first point, afterwards at what the
    point before left) and takes it back at this point's contents, the pieces covering it; the output's buffer comes back untouched
    away from the last point, and with the covering store's contents at it; nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg0.N = 8 from N_0)
  rw [show (dat V c).leavesExact 0 t = owns (c : Thread nD τ) (stg0 t) fullShare ((dat V c).after 0 t) from by
    unfold Dat.leavesExact; rw [live_in0 t], after_0]
  rw [show (dat V c).leavesExact 1 t = owns (c : Thread nD τ) (stg1 t) fullShare ((dat V c).after 1 t) from by
    unfold Dat.leavesExact; rw [live_in1 t], after_1]
  rw [show (dat V c).leavesExact 2 t = owns (c : Thread nD τ) (stg2 t) fullShare ((dat V c).after 2 t) from by
    unfold Dat.leavesExact; rw [live_in2 t], after_2]
  by_cases h0 : t.val = 0
  · have h7 : ¬t.val = 7 := by omega
    rw [Dat.leavesExact_idle (dat V c) 3 t (idle_out t (fun h => h7 ((isLast_iff t).mp h))) (noFlush_out t (fun h => h7 ((isLast_iff t).mp h)))]
    rw [accAt_first V c t h0 h7]
    unfold accFirst; (try dsimp only)
    rw [PhiS_castSucc V c t, PhiS_zero V c _ _ h0, PhiA_split]
    iintro ⟨⟨⟨HS, Hoth⟩, Hg⟩, Ho, ⟨%d0, H0⟩, ⟨%d1, H1⟩, ⟨%d2, H2⟩, ⟨%d3, H3⟩⟩
    iapply ((runFirst c (grid0.coords t) _ _ _ _ _ _ _ _ _ _ ((isFirst_iff t).mpr h0) (fun h => h7 ((isLast_iff t).mp h)) (iblk V c 0 t) (iblk V c 1 t) (iblk V c 2 t)).2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hoth Hg]
    · isplitl [HS Hoth]
      · isplitl [HS]
        · unfold owns; iexists _; isplitr
          swap; · iexact HS
          ipureintro; exact View.read_writes_of_cover _ _ _ _ _ (coverFirst c _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · by_cases h7 : t.val = 7
    · rw [show (dat V c).leavesExact 3 t = owns (c : Thread nD τ) (stg3 t) fullShare ((dat V c).after 3 t) from by
        unfold Dat.leavesExact; rw [live_out t ((isLast_iff t).mpr h7)], after_3]
      rw [accAt_last V c t h0 h7, outAt_last V c t h0 h7]
      unfold accLast outLast; (try dsimp only)
      rw [PhiS_castSucc V c t, PhiS_pos V c _ _ h0]
      iintro ⟨⟨⟨HS, Hoth⟩, Hg⟩, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h7) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOut c _ _ _ _ _ _ _ _ _ _ _ _ _ _ _ _ _)
    · rw [Dat.leavesExact_idle (dat V c) 3 t (idle_out t (fun h => h7 ((isLast_iff t).mp h))) (noFlush_out t (fun h => h7 ((isLast_iff t).mp h)))]
      rw [accAt_mid V c t h0 h7]
      unfold accMid; (try dsimp only)
      rw [PhiS_castSucc V c t, PhiS_pos V c _ _ h0]
      iintro ⟨⟨⟨HS, Hoth⟩, Hg⟩, Ho, ⟨%d0, H0⟩, ⟨%d1, H1⟩, ⟨%d2, H2⟩, ⟨%d3, H3⟩⟩
      iapply ((runMid c (grid0.coords t) _ _ _ _ _ _ _ _ _ _ (fun h => h0 ((isFirst_iff t).mp h)) (fun h => h7 ((isLast_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_split]
  iintro ⟨⟨HS, Hoth⟩, Hg⟩
  isplitl [HS Hoth]
  · isplitl [HS]
    · iexists _; iexact HS
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 8 := N_0; omega)

end Cert.KernelIdeal.Reg0

end
-- ==== Proof.KIReg1Runs.lean ====
import proofs.«117839_j20658792694235_1_alg».proof.Proof.Gen.KernelIdeal.Launch
import proofs.«117839_j20658792694235_1_alg».proof.Proof.Gen.KernelIdeal.Skeleton
import proofs.«117839_j20658792694235_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-! ## The body's two conditions on the reduction coordinate -/

/-- The reduction coordinate is 0: the condition under which the body zeroes the accumulator. -/
abbrev condF (i : grid1.Coords) : Prop := (Scalar.cmpi .ne (Scalar.extui (Scalar.cmpi .eq (BitVec.ofNat 32 (i 1).val) 0#32)) 0#32) = 1#1
/-- It holds at the points ≡ 0 (mod 4). -/
theorem hcondF : ∀ t : Fin cfg1.N, condF (grid1.coords t) ↔ t.val % 4 = 0 :=
  (by decide +kernel : ∀ t : Fin grid1.N, condF (grid1.coords t) ↔ t.val % 4 = 0)
/-- The reduction coordinate is 3: the condition under which the body copies the accumulator out. -/
abbrev condL (i : grid1.Coords) : Prop := k1_cond2 i = 1#1
/-- It holds at the points ≡ 3 (mod 4). -/
theorem hcondL : ∀ t : Fin cfg1.N, condL (grid1.coords t) ↔ t.val % 4 = 3 :=
  (by decide +kernel : ∀ t : Fin grid1.N, condL (grid1.coords t) ↔ t.val % 4 = 3)

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
theorem live4 : ∀ t : Fin cfg1.N, cfg1.idle 4 (grid1.coords t) = false := fun _ => rfl
/-- Away from the last points of the reduction axis the output window is idle and is not written back. -/
theorem idle5 : ∀ t : Fin cfg1.N, ¬condL (grid1.coords t) → cfg1.idle 5 (grid1.coords t) = true := by decide +kernel
theorem noFlush5 : ∀ t : Fin cfg1.N, ¬condL (grid1.coords t) → (cfg1.win 5).flush t = false := by decide +kernel
/-- At the last points it is live. -/
theorem live5 : ∀ t : Fin cfg1.N, condL (grid1.coords t) → cfg1.idle 5 (grid1.coords t) = false := by decide +kernel

/-! ## The memrefs the body is called with -/

abbrev ms0 (t : Fin cfg1.N) : Memref sig .tc .vmem S512x256 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x4 .f32 := win1_5.stage (cfg1.slots t 5)
abbrev hs5 (t : Fin cfg1.N) : (ms5 t).IsWhole := hstage1_5 ((cfg1.slots t 5).cast nbuf1_5)
/-- The accumulator: a whole scoped buffer of the kernel's own, passed beside the windows. -/
abbrev scM : Memref sig .tc .vmem S512x4 .f32 := Memref.whole cc1_scratch0
/-- The accumulator as a view: what it holds is stated through it. -/
abbrev VS : View sig .tc .vmem S512x4 .f32 := scM.view
/-- One staging buffer of the output window, through which its contents are stated. -/
abbrev VO : View sig .tc .vmem S512x4 .f32 := (Memref.whole cc1_stg5_0 : Memref sig .tc .vmem S512x4 .f32).view

/-- A scoped buffer of the core that this pipeline never touches, whole at some contents. -/
abbrev other (c : Dev nD) (b : Ref sig .tc) : sProp 𝕄 :=
  iprop(∃ f : Buf (Elt F) ((c : Thread nD τ).loc b), ((c : Thread nD τ).loc b) ↦{fullShare} f)

/-- What the region is entered with and left with: the core's scoped buffers that are none of this pipeline's staging
    buffers — seven the pipeline never touches and the accumulator, each at some contents — and the generator register. -/
theorem PhiA_eq (c : Dev nD) :
    (Pipeline.ΦA spec1 c : sProp 𝕄)
      = iprop(iprop(other c cc0_stg0_0 ∗ other c cc0_stg0_1 ∗ other c cc0_stg1_0 ∗ other c cc0_stg1_1 ∗ other c cc0_stg2_0 ∗ other c cc0_stg3_0 ∗ other c cc0_scratch0 ∗ (∃ d, owns (c : Thread nD τ) scM fullShare d)) ∗ (∃ r, prngReg c r)) := by
  unfold Pipeline.ΦA; rw [scopedRest1_eq]; simp only [scM, owns_whole]; try rfl

/-! ## The body on any whole memrefs, case by case -/

set_option maxHeartbeats 4000000 in
/-- The body at a first point of the reduction axis (the accumulator is zeroed, the output window is left alone): on whole
    memrefs, the five input buffers at their contents, the output's at contents handed back untouched, the accumulator at
    anything, it runs to the continuation with the accumulator's stores as a list of pieces. -/
noncomputable def runA (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : condF i) (hL : ¬condL i)
    (x0 : Vec F S512x256 .f32) (x1 : Vec F S1024x256 .f32) (x2 x3 x4 : Vec F S512x1024 .f32) :
    Σ' (L5 : List (View.Piece (Elt F) S512x4 .f32)), { LS : List (View.Piece (Elt F) S512x4 .f32) //
      ∀ (y5 : Vec F S512x4 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare y5 ∗ (∃ d, owns (c : Thread nD τ) a8 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare y5 ∗ (∃ f, a8.view.loc (c : Thread nD τ) ↦[a8.view.set]{fullShare} a8.view.writes (Elt F) f LS)) -∗ K ⟨⟩))
          ⊢ wp frame (wpE (defs₀ (F := F)) Variants.none c none) E (cc1__contrastive_kernel i a2 h2 a3 h3 a4 h4 a5 h5 a6 h6 a7 h7 a8 h8) K } := by
  refine ⟨[], ?_, fun y5 E K => ?run⟩
  case run =>
    simp only [cc1__contrastive_kernel_eq_skeleton]; unfold cc1__contrastive_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact HS

set_option maxHeartbeats 4000000 in
/-- The body at a middle point (no reset, no output store): the accumulator is handed at what the point before left. -/
noncomputable def runB (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : ¬condL i)
    (x0 : Vec F S512x256 .f32) (x1 : Vec F S1024x256 .f32) (x2 x3 x4 : Vec F S512x1024 .f32) (xs : Vec F S512x4 .f32) :
    Σ' (L5 : List (View.Piece (Elt F) S512x4 .f32)), { LS : List (View.Piece (Elt F) S512x4 .f32) //
      ∀ (y5 : Vec F S512x4 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare y5 ∗ owns (c : Thread nD τ) a8 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare y5 ∗ (∃ f, a8.view.loc (c : Thread nD τ) ↦[a8.view.set]{fullShare} a8.view.writes (Elt F) f LS)) -∗ K ⟨⟩))
          ⊢ wp frame (wpE (defs₀ (F := F)) Variants.none c none) E (cc1__contrastive_kernel i a2 h2 a3 h3 a4 h4 a5 h5 a6 h6 a7 h7 a8 h8) K } := by
  refine ⟨[], ?_, fun y5 E K => ?run⟩
  case run =>
    simp only [cc1__contrastive_kernel_eq_skeleton]; unfold cc1__contrastive_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact HS

set_option maxHeartbeats 4000000 in
/-- The body at a last point of the reduction axis (no reset; the accumulator is copied into the output's buffer). -/
noncomputable def runC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) :
    Σ' (L5 : List (View.Piece (Elt F) S512x4 .f32)), { LS : List (View.Piece (Elt F) S512x4 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f LS)) -∗ K ⟨⟩))
          ⊢ wp frame (wpE (defs₀ (F := F)) Variants.none c none) E (cc1__contrastive_kernel i a2 h2 a3 h3 a4 h4 a5 h5 a6 h6 a7 h7 a8 h8) K } := by
  refine ⟨?_, ?_, fun E K => ?run⟩
  case run =>
    simp only [cc1__contrastive_kernel_eq_skeleton]; unfold cc1__contrastive_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h8.eq_unread hfs
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    iexists _; iexact HS

end Cert.KernelIdeal.Reg1

end
-- ==== Proof.KIReg1.lean ====
import proofs.«117839_j20658792694235_1_alg».proof.Proof.KIReg1Runs

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-! ## What each case leaves in the accumulator and in the output's buffer -/

/-- At a first point the accumulator's stores tile it. -/
theorem scoverA (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : condF i) (hL : ¬condL i)
    (x0 : Vec F S512x256 .f32) (x1 : Vec F S1024x256 .f32) (x2 x3 x4 : Vec F S512x1024 .f32) (y : S512x4.Idx) :
    ∃ pc ∈ (runA c i a2 h2 a3 h3 a4 h4 a5 h5 a6 h6 a7 h7 a8 h8 hF hL x0 x1 x2 x3 x4).2.1, y ∈ pc.1.set :=
  View.cover_of_tiledL (runA c i a2 h2 a3 h3 a4 h4 a5 h5 a6 h6 a7 h7 a8 h8 hF hL x0 x1 x2 x3 x4).2.1 S512x4.size (by sl_kernel_rfl) y

/-- What a first point leaves in the accumulator: its stores read back. -/
def soutA (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : condF i) (hL : ¬condL i)
    (x0 : Vec F S512x256 .f32) (x1 : Vec F S1024x256 .f32) (x2 x3 x4 : Vec F S512x1024 .f32) : Vec F S512x4 .f32 :=
  VS.read (Elt F) (VS.writes (Elt F) VS.junk (runA c i a2 h2 a3 h3 a4 h4 a5 h5 a6 h6 a7 h7 a8 h8 hF hL x0 x1 x2 x3 x4).2.1)

/-- At a middle point the accumulator's stores tile it. -/
theorem scoverB (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : ¬condL i)
    (x0 : Vec F S512x256 .f32) (x1 : Vec F S1024x256 .f32) (x2 x3 x4 : Vec F S512x1024 .f32) (xs : Vec F S512x4 .f32) (y : S512x4.Idx) :
    ∃ pc ∈ (runB c i a2 h2 a3 h3 a4 h4 a5 h5 a6 h6 a7 h7 a8 h8 hF hL x0 x1 x2 x3 x4 xs).2.1, y ∈ pc.1.set :=
  View.cover_of_tiledL (runB c i a2 h2 a3 h3 a4 h4 a5 h5 a6 h6 a7 h7 a8 h8 hF hL x0 x1 x2 x3 x4 xs).2.1 S512x4.size (by sl_kernel_rfl) y

/-- What a middle point leaves in the accumulator. -/
def soutB (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : ¬condL i)
    (x0 : Vec F S512x256 .f32) (x1 : Vec F S1024x256 .f32) (x2 x3 x4 : Vec F S512x1024 .f32) (xs : Vec F S512x4 .f32) : Vec F S512x4 .f32 :=
  VS.read (Elt F) (VS.writes (Elt F) VS.junk (runB c i a2 h2 a3 h3 a4 h4 a5 h5 a6 h6 a7 h7 a8 h8 hF hL x0 x1 x2 x3 x4 xs).2.1)

/-- At a last point the accumulator's stores tile it. -/
theorem scoverC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) (y : S512x4.Idx) :
    ∃ pc ∈ (runC c i a2 h2 a3 h3 a4 h4 a5 h5 a6 h6 a7 h7 a8 h8 hF hL x0 x1 x2 x3 x4 xs).2.1, y ∈ pc.1.set :=
  View.cover_of_tiledL (runC c i a2 h2 a3 h3 a4 h4 a5 h5 a6 h6 a7 h7 a8 h8 hF hL x0 x1 x2 x3 x4 xs).2.1 S512x4.size (by sl_kernel_rfl) y

/-- What a last point leaves in the accumulator. -/
def soutC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) : Vec F S512x4 .f32 :=
  VS.read (Elt F) (VS.writes (Elt F) VS.junk (runC c i a2 h2 a3 h3 a4 h4 a5 h5 a6 h6 a7 h7 a8 h8 hF hL x0 x1 x2 x3 x4 xs).2.1)

/-- At a last point the stores into the output's buffer tile it. -/
theorem coverC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) (y : S512x4.Idx) :
    ∃ pc ∈ (runC c i a2 h2 a3 h3 a4 h4 a5 h5 a6 h6 a7 h7 a8 h8 hF hL x0 x1 x2 x3 x4 xs).1, y ∈ pc.1.set :=
  View.cover_of_tiledL (runC c i a2 h2 a3 h3 a4 h4 a5 h5 a6 h6 a7 h7 a8 h8 hF hL x0 x1 x2 x3 x4 xs).1 S512x4.size (by sl_kernel_rfl) y

/-- What a last point leaves in the output's buffer. -/
def outC (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i)
    (x0 : Vec F S512x256 .f32) (x1 : Vec F S1024x256 .f32) (x2 x3 x4 : Vec F S512x1024 .f32) (xs : Vec F S512x4 .f32) : Vec F S512x4 .f32 :=
  VO.read (Elt F) (VO.writes (Elt F) VO.junk (runC c i a2 h2 a3 h3 a4 h4 a5 h5 a6 h6 a7 h7 a8 h8 hF hL x0 x1 x2 x3 x4 xs).1)

/-! ## Point by point -/

/-- THE ACCUMULATION: what the accumulator holds after the body at position `n` — at a first point of the reduction
    axis that case's contents, elsewhere the point's case over what the point before left. -/
def accAt (c : Dev nD) : (n : ℕ) → n < cfg1.N → Vec F S512x4 .f32
  | 0, hn => soutA c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcondF ⟨0, hn⟩).mpr (Nat.zero_mod _)) (fun h => (fun h => by (try dsimp only at h); omega) ((hcondL ⟨0, hn⟩).mp h)) (blk V c 0 ⟨0, hn⟩) (blk V c 1 ⟨0, hn⟩) (blk V c 2 ⟨0, hn⟩) (blk V c 3 ⟨0, hn⟩) (blk V c 4 ⟨0, hn⟩)
  | n + 1, hn =>
    if h0 : (n + 1) % 4 = 0 then
      soutA c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) ((hcondF ⟨n + 1, hn⟩).mpr h0) (fun h => (fun h => by (try dsimp only at h); omega) ((hcondL ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩)
    else
      if h1 : (n + 1) % 4 = 3 then
        soutC c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcondF ⟨n + 1, hn⟩).mp h)) ((hcondL ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (accAt c n (Nat.lt_of_succ_lt hn))
      else
        soutB c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => h0 ((hcondF ⟨n + 1, hn⟩).mp h)) (fun h => h1 ((hcondL ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (accAt c n (Nat.lt_of_succ_lt hn))

/-- What the output's staging buffer holds after the body at position `n`: at a last point of the reduction axis that
    case's stores; elsewhere the window is idle and nothing consults this. -/
def outAt (c : Dev nD) (n : ℕ) (hn : n < cfg1.N) : Vec F S512x4 .f32 :=
  if h1 : n % 4 = 3 then
    outC c (grid1.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) (ms5 ⟨n, hn⟩) (hs5 ⟨n, hn⟩) scM (Memref.isWhole_whole _) (fun h => (fun h => by (try dsimp only at h); omega) ((hcondF ⟨n, hn⟩).mp h)) ((hcondL ⟨n, hn⟩).mpr h1) (blk V c 0 ⟨n, hn⟩) (blk V c 1 ⟨n, hn⟩) (blk V c 2 ⟨n, hn⟩) (blk V c 3 ⟨n, hn⟩) (blk V c 4 ⟨n, hn⟩) (accAt V c (n - 1) (Nat.lt_of_le_of_lt (Nat.sub_le _ _) hn))
  else VO.read (Elt F) VO.junk

theorem accAt_A (c : Dev nD) (t : Fin cfg1.N) (h0 : t.val % 4 = 0) (h1 : ¬t.val % 4 = 3) :
    accAt V c t.val t.isLt = soutA c (grid1.coords t) (ms0 t) (hs0 t) (ms1 t) (hs1 t) (ms2 t) (hs2 t) (ms3 t) (hs3 t) (ms4 t) (hs4 t) (ms5 t) (hs5 t) scM (Memref.isWhole_whole _) ((hcondF t).mpr h0) (fun h => h1 ((hcondL t).mp h)) (blk V c 0 t) (blk V c 1 t) (blk V c 2 t) (blk V c 3 t) (blk V c 4 t) := by
  obtain ⟨n, hn⟩ := t
  cases n with
  | zero => exact rfl
  | succ n => exact (dif_pos h0).trans rfl

theorem accAt_B (c : Dev nD) (t : Fin cfg1.N) (h0 : ¬t.val % 4 = 0) (h1 : ¬t.val % 4 = 3) :
    accAt V c t.val t.isLt = soutB c (grid1.coords t) (ms0 t) (hs0 t) (ms1 t) (hs1 t) (ms2 t) (hs2 t) (ms3 t) (hs3 t) (ms4 t) (hs4 t) (ms5 t) (hs5 t) scM (Memref.isWhole_whole _) (fun h => h0 ((hcondF t).mp h)) (fun h => h1 ((hcondL t).mp h)) (blk V c 0 t) (blk V c 1 t) (blk V c 2 t) (blk V c 3 t) (blk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 4 = 0) (h1 : t.val % 4 = 3) :
    accAt V c t.val t.isLt = soutC c (grid1.coords t) (ms0 t) (hs0 t) (ms1 t) (hs1 t) (ms2 t) (hs2 t) (ms3 t) (hs3 t) (ms4 t) (hs4 t) (ms5 t) (hs5 t) scM (Memref.isWhole_whole _) (fun h => h0 ((hcondF t).mp h)) ((hcondL t).mpr h1) (blk V c 0 t) (blk V c 1 t) (blk V c 2 t) (blk V c 3 t) (blk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem outAt_C (c : Dev nD) (t : Fin cfg1.N) (h0 : ¬t.val % 4 = 0) (h1 : t.val % 4 = 3) :
    outAt V c t.val t.isLt = outC c (grid1.coords t) (ms0 t) (hs0 t) (ms1 t) (hs1 t) (ms2 t) (hs2 t) (ms3 t) (hs3 t) (ms4 t) (hs4 t) (ms5 t) (hs5 t) scM (Memref.isWhole_whole _) (fun h => h0 ((hcondF t).mp h)) ((hcondL t).mpr h1) (blk V c 0 t) (blk V c 1 t) (blk V c 2 t) (blk V c 3 t) (blk V c 4 t) (accAt V c (t.val - 1) (Nat.lt_of_le_of_lt (Nat.sub_le _ _) t.isLt)) :=
  (dif_pos h1).trans rfl

/-- The region's invariant before position `n`: at the entry what the launch hands over; afterwards the same scoped
    buffers with the accumulator at what the point before left, the others at anything, and the generator register. -/
def PhiS (c : Dev nD) : (n : ℕ) → n ≤ cfg1.N → sProp 𝕄
  | 0, _ => Pipeline.ΦA spec1 c
  | n + 1, hn => iprop(iprop(other c cc0_stg0_0 ∗ other c cc0_stg0_1 ∗ other c cc0_stg1_0 ∗ other c cc0_stg1_1 ∗ other c cc0_stg2_0 ∗ other c cc0_stg3_0 ∗ other c cc0_scratch0 ∗ owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(other c cc0_stg0_0 ∗ other c cc0_stg0_1 ∗ other c cc0_stg1_0 ∗ other c cc0_stg1_1 ∗ other c cc0_stg2_0 ∗ other c cc0_stg3_0 ∗ other c cc0_scratch0 ∗ owns (c : Thread nD τ) scM fullShare (accAt V c n hn)) ∗ (∃ r, prngReg c r)) := rfl

theorem PhiS_pos (c : Dev nD) (n : ℕ) (h : n ≤ cfg1.N) (hz : n ≠ 0) :
    PhiS V c n h = iprop(iprop(other c cc0_stg0_0 ∗ other c cc0_stg0_1 ∗ other c cc0_stg1_0 ∗ other c cc0_stg1_1 ∗ other c cc0_stg2_0 ∗ other c cc0_stg3_0 ∗ other c cc0_scratch0 ∗ owns (c : Thread nD τ) scM fullShare (accAt V c (n - 1) (by omega))) ∗ (∃ r, prngReg c r)) := by
  cases n with
  | zero => exact absurd rfl hz
  | succ n => rfl

/-! ## The proof data -/

/-- The proof data of the second pipeline on core `c`, over the contents `V c` of the core's unscoped buffers at the
    region's entry: each input's buffer keeps its block, the output's holds `outAt`, the invariant is `PhiS`; nothing is
    owed; the array two windows stage is held half and half. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => outAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg1.W) : (dat V c).A w = V c (Proc.devRef .tc (Pipeline.arrRef spec1 w)) := by
  dsimp only [dat]

theorem owed_eq (c : Dev nD) (t : Fin (cfg1.N + 1)) : (dat V c).owed t = 0 := by
  dsimp only [dat]

theorem q_eq0 (c : Dev nD) : (dat V c).q 0 = fullShare.left := by dsimp only [dat]
theorem q_eq1 (c : Dev nD) : (dat V c).q 1 = fullShare.right := by dsimp only [dat]
theorem share_eq0 (c : Dev nD) : (dat V c).share 0 = fullShare.left := by
  unfold Dat.share; rw [if_neg (by decide)]; dsimp only [dat]
theorem share_eq1 (c : Dev nD) : (dat V c).share 1 = fullShare.right := by
  unfold Dat.share; rw [if_neg (by decide)]; dsimp only [dat]
theorem share_eq2 (c : Dev nD) : (dat V c).share 2 = fullShare := by
  unfold Dat.share; rw [if_neg (by decide)]; dsimp only [dat]
theorem share_eq3 (c : Dev nD) : (dat V c).share 3 = fullShare := by
  unfold Dat.share; rw [if_neg (by decide)]; dsimp only [dat]
theorem share_eq4 (c : Dev nD) : (dat V c).share 4 = fullShare := by
  unfold Dat.share; rw [if_neg (by decide)]; dsimp only [dat]
theorem share_eq5 (c : Dev nD) : (dat V c).share 5 = fullShare := by
  unfold Dat.share; rw [if_pos (by decide)]
theorem share_eq (c : Dev nD) (w : Fin cfg1.W) (h0 : w ≠ 0) (h1 : w ≠ 1) : (dat V c).share w = fullShare := by
  match w, h0, h1 with
  | ⟨0, _⟩, h0, _ => exact absurd rfl h0
  | ⟨1, _⟩, _, h1 => exact absurd rfl h1
  | ⟨2, _⟩, _, _ => exact share_eq2 V c
  | ⟨3, _⟩, _, _ => exact share_eq3 V c
  | ⟨4, _⟩, _, _ => exact share_eq4 V c
  | ⟨5, _⟩, _, _ => exact share_eq5 V c

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = outAt V c t.val t.isLt := by dsimp only [dat]

/-- An input's current staging buffer holds its block at every point, fetched there or not: an unfetched window's
    block index has not moved, and the body leaves the block in place. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
/-- The body at any point: the inputs' buffers hold their blocks; the closed forms of the two conditions say which case the
    point is in; that case's run applies; the invariant hands the body the accumulator at what the point before left (at
    anything at a first point) and takes it back at this point's contents, the other scoped buffers pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg1.N = 32 from N_1)
  rw [show (dat V c).leavesExact 0 t = owns (c : Thread nD τ) (ms0 t) fullShare ((dat V c).after 0 t) from by
    unfold Dat.leavesExact; rw [live0 t], after_0]
  rw [show (dat V c).leavesExact 1 t = owns (c : Thread nD τ) (ms1 t) fullShare ((dat V c).after 1 t) from by
    unfold Dat.leavesExact; rw [live1 t], after_1]
  rw [show (dat V c).leavesExact 2 t = owns (c : Thread nD τ) (ms2 t) fullShare ((dat V c).after 2 t) from by
    unfold Dat.leavesExact; rw [live2 t], after_2]
  rw [show (dat V c).leavesExact 3 t = owns (c : Thread nD τ) (ms3 t) fullShare ((dat V c).after 3 t) from by
    unfold Dat.leavesExact; rw [live3 t], after_3]
  rw [show (dat V c).leavesExact 4 t = owns (c : Thread nD τ) (ms4 t) fullShare ((dat V c).after 4 t) from by
    unfold Dat.leavesExact; rw [live4 t], after_4]
  by_cases h0 : t.val % 4 = 0
  · have h1 : ¬t.val % 4 = 3 := by omega
    rw [Dat.leavesExact_idle (dat V c) 5 t (idle5 t (fun h => h1 ((hcondL t).mp h))) (noFlush5 t (fun h => h1 ((hcondL t).mp h)))]
    rw [accAt_A V c t h0 h1]
    unfold soutA; (try dsimp only)
    by_cases hz : t.val = 0
    ·
        rw [PhiS_castSucc V c t, PhiS_zero V c _ _ hz, PhiA_eq]
        iintro ⟨⟨⟨R0, R1, R2, R3, R4, R5, R6, HS⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ ((hcondF t).mpr h0) (fun h => h1 ((hcondL t).mp h)) (blk V c 0 t) (blk V c 1 t) (blk V c 2 t) (blk V c 3 t) (blk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [R0 R1 R2 R3 R4 R5 R6 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS
          ipureintro; exact View.read_writes_of_cover _ _ _ _ _ (scoverA c _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
    ·
        rw [PhiS_castSucc V c t, PhiS_pos V c _ _ hz]
        iintro ⟨⟨⟨R0, R1, R2, R3, R4, R5, R6, HS⟩, Hg⟩, Ho, ⟨%d0, H0⟩, ⟨%d1, H1⟩, ⟨%d2, H2⟩, ⟨%d3, H3⟩, ⟨%d4, H4⟩, ⟨%d5, H5⟩⟩
        iapply ((runA c (grid1.coords t) _ _ _ _ _ _ _ _ _ _ _ _ _ _ ((hcondF t).mpr h0) (fun h => h1 ((hcondL t).mp h)) (blk V c 0 t) (blk V c 1 t) (blk V c 2 t) (blk V c 3 t) (blk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [R0 R1 R2 R3 R4 R5 R6 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS
          ipureintro; exact View.read_writes_of_cover _ _ _ _ _ (scoverA c _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dat V c).leavesExact 5 t = owns (c : Thread nD τ) (ms5 t) fullShare ((dat V c).after 5 t) from by
        unfold Dat.leavesExact; rw [live5 t ((hcondL t).mpr h1)], after_5]
      rw [accAt_C V c t h0 h1, outAt_C V c t h0 h1]
      unfold outC soutC; (try dsimp only)
      rw [PhiS_castSucc V c t, PhiS_pos V c _ _ hz]
      iintro ⟨⟨⟨R0, R1, R2, R3, R4, R5, R6, HS⟩, Hg⟩, Ho, ⟨%d0, H0⟩, ⟨%d1, H1⟩, ⟨%d2, H2⟩, ⟨%d3, H3⟩, ⟨%d4, H4⟩, ⟨%d5, H5⟩⟩
      iapply ((runC c (grid1.coords t) _ _ _ _ _ _ _ _ _ _ _ _ _ _ (fun h => h0 ((hcondF t).mp h)) ((hcondL t).mpr h1) (blk V c 0 t) (blk V c 1 t) (blk V c 2 t) (blk V c 3 t) (blk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [R0 R1 R2 R3 R4 R5 R6 HS Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS
        ipureintro; exact View.read_writes_of_cover _ _ _ _ _ (scoverC c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC c _ _ _ _ _ _ _ _ _ _ _ _ _ _ _ _ _ _ _ _ _ _ _)
    ·
      rw [Dat.leavesExact_idle (dat V c) 5 t (idle5 t (fun h => h1 ((hcondL t).mp h))) (noFlush5 t (fun h => h1 ((hcondL t).mp h)))]
      rw [accAt_B V c t h0 h1]
      unfold soutB; (try dsimp only)
      rw [PhiS_castSucc V c t, PhiS_pos V c _ _ hz]
      iintro ⟨⟨⟨R0, R1, R2, R3, R4, R5, R6, HS⟩, Hg⟩, Ho, ⟨%d0, H0⟩, ⟨%d1, H1⟩, ⟨%d2, H2⟩, ⟨%d3, H3⟩, ⟨%d4, H4⟩, ⟨%d5, H5⟩⟩
      iapply ((runB c (grid1.coords t) _ _ _ _ _ _ _ _ _ _ _ _ _ _ (fun h => h0 ((hcondF t).mp h)) (fun h => h1 ((hcondL t).mp h)) (blk V c 0 t) (blk V c 1 t) (blk V c 2 t) (blk V c 3 t) (blk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [R0 R1 R2 R3 R4 R5 R6 HS Hg]
      · isplitr [Hg]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        unfold owns; iexists _; isplitr
        swap; · iexact HS
        ipureintro; exact View.read_writes_of_cover _ _ _ _ _ (scoverB c _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R0, R1, R2, R3, R4, R5, R6, HS⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  iexists _; iexact HS

/-- The same after the last point. -/
theorem hout (c : Dev nD) : (dat V c).Φ (Fin.last cfg1.N) ⊢ Pipeline.ΦA spec1 c :=
  Phi_out V c _ (by rw [Fin.val_last]; have : cfg1.N = 32 := N_1; omega)

/-- The inputs are never written. -/
theorem arrAt_in (c : Dev nD) (w : Fin cfg1.W) (hw : w ≠ 5) (n) : (dat V c).arrAt w n = (dat V c).A w :=
  (dat V c).arrAt_in w (by
    match w, hw with
    | ⟨0, _⟩, _ => rfl
    | ⟨1, _⟩, _ => rfl
    | ⟨2, _⟩, _ => rfl
    | ⟨3, _⟩, _ => rfl
    | ⟨4, _⟩, _ => rfl
    | ⟨5, _⟩, hw => exact absurd rfl hw) n

end Cert.KernelIdeal.Reg1

end
-- ==== Proof.KIShare.lean ====
/-
  Region 1 of the kernel's program reads one array, the normalised rows, through two windows: a row block and a column
  block of the same matrix. The array's full share is therefore dealt between the two windows, the left half to one and
  the right half to the other, when the region is entered, and the halves rejoin when it is left. These are the two
  entailments, for any proof data of the region whose windows hold those shares.
-/
import proofs.«117839_j20658792694235_1_alg».proof.Proof.Gen.KernelIdeal.Regions
import Idealize.ShloMosaic.Lib.Pipeline.Kit
import Idealize.ShloMosaic.Lib.Pipeline.RegionsLoop

set_option maxRecDepth 16384

noncomputable section

namespace Cert.KernelIdeal.Share

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-- Region 1's windows stage five buffers: windows 0 and 1 read the same one. -/
theorem arrRefs1 : (Finset.univ.image (Pipeline.arrRef spec1) : Finset (Ref sig .tc))
    = ([Pipeline.arrRef spec1 0, Pipeline.arrRef spec1 2, Pipeline.arrRef spec1 3, Pipeline.arrRef spec1 4, Pipeline.arrRef spec1 5] : List (Ref sig .tc)).toFinset := by decide

theorem arrRef1_shared : Pipeline.arrRef spec1 1 = Pipeline.arrRef spec1 0 := by decide

theorem arrRefs1_nodup : ([Pipeline.arrRef spec1 0, Pipeline.arrRef spec1 2, Pipeline.arrRef spec1 3, Pipeline.arrRef spec1 4, Pipeline.arrRef spec1 5] : List (Ref sig .tc)).Nodup := by decide

/-- One whole buffer of the core at the contents `V` names, at share `q`. -/
def bufAt (c : Dev nD) (V : (b : Ref sig .tc) → Buf (Elt F) ((c : Thread nD τ).loc b)) (q : PosShare TreeShare) (b : Ref sig .tc) : sProp 𝕄 :=
  ((c : Thread nD τ).loc b) ↦{q} V b

/-- The full share of a buffer is its left half and its right half. -/
theorem bufAt_halves (c : Dev nD) (V : (b : Ref sig .tc) → Buf (Elt F) ((c : Thread nD τ).loc b)) (b : Ref sig .tc) :
    (bufAt c V fullShare b : sProp 𝕄) ⊣⊢ iprop(bufAt c V fullShare.left b ∗ bufAt c V fullShare.right b) := by
  unfold bufAt; exact pointsTo_share (PosShare.mem_left_op_right fullShare)

/-- The five buffers behind the six windows, each whole at the full share. -/
theorem arrBufs1_eq (c : Dev nD) (V : (b : Ref sig .tc) → Buf (Elt F) ((c : Thread nD τ).loc b)) :
    (Pipeline.arrBufs spec1 c V : sProp 𝕄)
      = iprop(bufAt c V fullShare (Pipeline.arrRef spec1 0) ∗ bufAt c V fullShare (Pipeline.arrRef spec1 2) ∗ bufAt c V fullShare (Pipeline.arrRef spec1 3)
          ∗ bufAt c V fullShare (Pipeline.arrRef spec1 4) ∗ bufAt c V fullShare (Pipeline.arrRef spec1 5)) := by
  unfold Pipeline.arrBufs
  rw [bigSep_eq_bigSepL_of_eq _ arrRefs1 arrRefs1_nodup]
  simp only [bigSepL_cons_cons, bigSepL_singleton]
  rfl

/-- A whole-buffer assertion moves along an equation of references. -/
theorem pt_transport (c : Dev nD) (V : (b : Ref sig .tc) → Buf (Elt F) ((c : Thread nD τ).loc b)) (q : PosShare TreeShare)
    {b b' : Ref sig .tc} (e : b = b') :
    ((((c : Thread nD τ).loc b) ↦{q} V b) : sProp 𝕄) = (((c : Thread nD τ).loc b') ↦{q} V b') := by
  subst e; rfl

/-- The six windows' arrays are whole buffers, each at the share its window holds. -/
theorem arrays1_eq (c : Dev nD) (dat : Dat τ (Elt F) Unit ℕ (UR sig nD τ) ℕ cfg1 c)
    (Fa : (w : Fin cfg1.W) → Buf (Elt F) ((cfg1.win w).arr.view.loc (c : Thread nD τ))) :
    (dat.arrays Fa : sProp 𝕄)
      = bigSep Finset.univ fun w : Fin cfg1.W => (((c : Thread nD τ).loc (Pipeline.arrRef spec1 w)) ↦{dat.share w} Fa w : sProp 𝕄) := by
  have e : ∀ w : Fin cfg1.W, (cfg1.win w).arr.view.set = Finset.univ := fun w => (arr_whole1 w).set_eq_univ
  unfold Dat.arrays
  exact bigSep_congr fun w _ => by rw [e w]

/-- The same window by window, when the contents are the ones `V` names. -/
theorem arrays1_pt (c : Dev nD) (V : (b : Ref sig .tc) → Buf (Elt F) ((c : Thread nD τ).loc b))
    (dat : Dat τ (Elt F) Unit ℕ (UR sig nD τ) ℕ cfg1 c)
    (Fa : (w : Fin cfg1.W) → Buf (Elt F) ((cfg1.win w).arr.view.loc (c : Thread nD τ)))
    (hF : ∀ w, Fa w = V (Pipeline.arrRef spec1 w)) :
    (dat.arrays Fa : sProp 𝕄) = iprop(bufAt c V (dat.share 0) (Pipeline.arrRef spec1 0) ∗ bufAt c V (dat.share 1) (Pipeline.arrRef spec1 1) ∗ bufAt c V (dat.share 2) (Pipeline.arrRef spec1 2) ∗ bufAt c V (dat.share 3) (Pipeline.arrRef spec1 3) ∗ bufAt c V (dat.share 4) (Pipeline.arrRef spec1 4) ∗ bufAt c V (dat.share 5) (Pipeline.arrRef spec1 5)) := by
  rw [arrays1_eq, bigSep_congr (fun w _ => by rw [hF w]; rfl :
    ∀ w ∈ (Finset.univ : Finset (Fin cfg1.W)), ((((c : Thread nD τ).loc (Pipeline.arrRef spec1 w)) ↦{dat.share w} Fa w : sProp 𝕄)) = bufAt c V (dat.share w) (Pipeline.arrRef spec1 w)),
    bigSep_W1]

/-- ENTRY. The core's unscoped buffers at contents `V` give region 1's arrays — the shared array's full share dealt as
    its two halves to the two windows that read it — and the buffers no window stages. -/
theorem entry1 (c : Dev nD) (V : (b : Ref sig .tc) → Buf (Elt F) ((c : Thread nD τ).loc b))
    (dat : Dat τ (Elt F) Unit ℕ (UR sig nD τ) ℕ cfg1 c) (hA : ∀ w, dat.A w = V (Pipeline.arrRef spec1 w))
    (h0 : dat.share 0 = fullShare.left) (h1 : dat.share 1 = fullShare.right) (h2 : dat.share 2 = fullShare)
    (h3 : dat.share 3 = fullShare) (h4 : dat.share 4 = fullShare) (h5 : dat.share 5 = fullShare) :
    (unscopedBufs c V : sProp 𝕄) ⊢ iprop(dat.arrays (dat.arrAt · 0) ∗ Pipeline.unscopedRest spec1 c V) := by
  rw [Pipeline.unscopedBufs_split₀ (Pipeline.pin (pcfgs (F := F)) adm) 1 winFacts₀1.arr_unscoped c V]
  refine sep_mono ?_ .rfl
  show (Pipeline.arrBufs spec1 c V : sProp 𝕄) ⊢ _
  rw [arrBufs1_eq, arrays1_pt c V dat (dat.arrAt · 0) hA, h0, h1, h2, h3, h4, h5, arrRef1_shared]
  iintro ⟨H0, H2, H3, H4, H5⟩
  ihave H := (bufAt_halves c V (Pipeline.arrRef spec1 0)).1 $$ H0
  icases H with ⟨Hl, Hr⟩
  isplitl [Hl]; · iexact Hl
  isplitl [Hr]; · iexact Hr
  isplitl [H2]; · iexact H2
  isplitl [H3]; · iexact H3
  isplitl [H4]; · iexact H4
  iexact H5

/-- EXIT. Region 1's arrays at contents that are `V'` at every array, beside the other buffers at `V`, are the core's
    unscoped buffers at `V'` when `V'` and `V` agree off the arrays: the two halves of the shared array rejoin. -/
theorem exit1 (c : Dev nD) (V V' : (b : Ref sig .tc) → Buf (Elt F) ((c : Thread nD τ).loc b))
    (dat : Dat τ (Elt F) Unit ℕ (UR sig nD τ) ℕ cfg1 c)
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V b)
    (h0 : dat.share 0 = fullShare.left) (h1 : dat.share 1 = fullShare.right) (h2 : dat.share 2 = fullShare)
    (h3 : dat.share 3 = fullShare) (h4 : dat.share 4 = fullShare) (h5 : dat.share 5 = fullShare) :
    iprop(dat.arrays Fa ∗ Pipeline.unscopedRest spec1 c V) ⊢ (unscopedBufs c V' : sProp 𝕄) := by
  rw [Pipeline.unscopedBufs_split₀ (Pipeline.pin (pcfgs (F := F)) adm) 1 winFacts₀1.arr_unscoped c V']
  refine sep_mono ?_ (Entails.of_eq ?_)
  · show _ ⊢ (Pipeline.arrBufs spec1 c V' : sProp 𝕄)
    rw [arrBufs1_eq, arrays1_pt c V' dat Fa hF, h0, h1, h2, h3, h4, h5, arrRef1_shared]
    iintro ⟨Hl, Hr, H2, H3, H4, H5⟩
    isplitl [Hl Hr]
    · iapply (bufAt_halves c V' (Pipeline.arrRef spec1 0)).2
      isplitl [Hl]; · iexact Hl
      iexact Hr
    isplitl [H2]; · iexact H2
    isplitl [H3]; · iexact H3
    isplitl [H4]; · iexact H4
    iexact H5
  · unfold Pipeline.unscopedRest
    exact bigSep_congr fun b hb => by rw [hrest b (Finset.mem_sdiff.mp hb).2]

end Cert.KernelIdeal.Share

end
-- ==== Proof.KIRegions.lean ====
/-
  The program of two kernel regions as one run. Between two items of @main a core holds every unscoped buffer at a
  named valuation: the launch contents, then each host stretch applied, and after a region the region's output array at
  what its write-backs leave. Region 0 leaves in its 1x1 result the accumulated tile sums; region 1 leaves in its
  4096x4 result the four accumulated row sums of every row block. Both regions keep their input arrays; region 1 reads
  one array through two windows, so that array's full share is dealt between them at the entry and put back at the exit.
-/
import proofs.«117839_j20658792694235_1_alg».proof.Proof.Gen.KernelIdeal.Regions
import proofs.«117839_j20658792694235_1_alg».proof.Proof.KIReg0
import proofs.«117839_j20658792694235_1_alg».proof.Proof.KIReg1
import proofs.«117839_j20658792694235_1_alg».proof.Proof.KIShare
import Idealize.ShloMosaic.Lib.Pipeline.Kit
import Idealize.ShloMosaic.Lib.Pipeline.RegionsLoop

set_option maxRecDepth 16384

noncomputable section

namespace Cert.KernelIdeal.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen Cert.KernelIdeal.Share

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What rides beside the buffers, and what the regions leave -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers a core keeps its generator register at some state and owes nothing. -/
abbrev Rd (c : Dev nD) : sProp 𝕄 := iprop((∃ r, prngReg c r) ∗ ∃ W, owes (c : Thread nD τ) (0 : CellTallies nD τ sig Unit) W)
abbrev E : Fin 3 → Dev nD → sProp 𝕄 := fun _ c => Rd c

/-- What region 0 is entered from: the launch contents after the first host stretch. -/
abbrev ent0 : Dev nD → Valuation τ sig (Elt F) := fun c => V1 m c
/-- The 1x1 result of region 0 after its eight points. -/
def out0 (c : Dev nD) : Buf (Elt F) ((c : Thread nD τ).loc main_v2) := (Reg0.dat (ent0 m) c).arrAt 3 cfg0.N
/-- The regions' results with only region 0's named. -/
def outsA : Outs (F := F) := fun _ r c => if h : r = main_v2 then h ▸ out0 m c else m ((c : Thread nD τ).loc r)

theorem outsA_v2 (J : ℕ) (c : Dev nD) : outsA m J main_v2 c = out0 m c := by
  unfold outsA; rw [dif_pos rfl]

/-- What region 1 is entered from: region 0's result in place, then the five host stretches between the regions. -/
def ent1 : Dev nD → Valuation τ sig (Elt F) := fun c => V7 m (outsA m) c
/-- The 4096x4 result of region 1 after its thirty-two points. -/
def out1 (c : Dev nD) : Buf (Elt F) ((c : Thread nD τ).loc main_v59) := (Reg1.dat (ent1 m) c).arrAt 5 cfg1.N
/-- The regions' results, both named. -/
def outs : Outs (F := F) := fun J r c => if h : r = main_v59 then h ▸ out1 m c else outsA m J r c

theorem outs_v2 (J : ℕ) (c : Dev nD) : outs m J main_v2 c = out0 m c := by
  unfold outs; rw [dif_neg (by decide)]; exact outsA_v2 m J c
theorem outs_v59 (J : ℕ) (c : Dev nD) : outs m J main_v59 c = out1 m c := by
  unfold outs; rw [dif_pos rfl]

/-- After region 0 the two families agree. -/
theorem V2_eq (c : Dev nD) : V2 m (outs m) c = V2 m (outsA m) c := by
  show Function.update (V1 m c) main_v2 (outs m 2 main_v2 c) = Function.update (V1 m c) main_v2 (outsA m 2 main_v2 c)
  rw [outs_v2, outsA_v2]
/-- So region 1 is entered from the same contents under either. -/
theorem V7_eq (c : Dev nD) : V7 m (outs m) c = ent1 m c := by
  unfold ent1
  show StableHlo.after hostOps1_4 (StableHlo.after hostOps1_3 (StableHlo.after hostOps1_2 (StableHlo.after hostOps1_1
    (StableHlo.after hostOps1 (V2 m (outs m) c))))) = _
  rw [V2_eq]

/-! ## The proof data of both pipelines -/

/-- Each pipeline's proof data at its region's entry contents: a literal match on the pipeline. -/
def pdats : (p : Fin 2) → (c : Dev nD) → Dat τ (Elt F) Unit ℕ (UR sig nD τ) ℕ (cfgs p) c
  | ⟨0, _⟩ => fun c => Reg0.dat (ent0 m) c
  | ⟨1, _⟩ => fun c => Reg1.dat (ent1 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 -/

/-- After region 0 each of its arrays holds what the write-backs leave: the three inputs what they held, the result
    the accumulated sum. -/
theorem hF0 (c : Dev nD) (w : Fin cfg0.W) : (pdats m 0 c).arrAt w cfg0.N = V2 m (outs m) c (Pipeline.arrRef spec0 w) := by
  show (Reg0.dat (ent0 m) c).arrAt w cfg0.N = Function.update (V1 m c) main_v2 (outs m 2 main_v2 c) (Pipeline.arrRef spec0 w)
  match w with
  | ⟨0, _⟩ => exact ((Reg0.dat (ent0 m) c).arrAt_in 0 rfl _).trans ((Reg0.A_eq (ent0 m) c 0).trans (Function.update_of_ne (StableHlo.devRef_ne_of_ne (by decide)) _ _).symm)
  | ⟨1, _⟩ => exact ((Reg0.dat (ent0 m) c).arrAt_in 1 rfl _).trans ((Reg0.A_eq (ent0 m) c 1).trans (Function.update_of_ne (StableHlo.devRef_ne_of_ne (by decide)) _ _).symm)
  | ⟨2, _⟩ => exact ((Reg0.dat (ent0 m) c).arrAt_in 2 rfl _).trans ((Reg0.A_eq (ent0 m) c 2).trans (Function.update_of_ne (StableHlo.devRef_ne_of_ne (by decide)) _ _).symm)
  | ⟨3, _⟩ =>
    refine Eq.trans (show _ = outs m 2 main_v2 c from (outs_v2 m 2 c).symm) ?_
    exact (Function.update_self (Proc.devRef (τ := τ) .tc main_v2) (outs m 2 main_v2 c) (V1 m c)).symm

/-- Every other unscoped buffer is as region 0 found it. -/
theorem hrest0 (c : Dev nD) : ∀ b, b ∉ Finset.univ.image (Pipeline.arrRef spec0) → V2 m (outs m) c b = V1 m c b :=
  fun b hb => Function.update_of_ne (StableHlo.devRef_ne_of_ne fun e : b = main_v2 => hb (by
    subst e; exact Finset.mem_image.mpr ⟨3, Finset.mem_univ _, rfl⟩)) _ _

set_option backward.isDefEq.respectTransparency.types false in
/-- Region 0 between the thread states before and after it: its four arrays are split out of the unscoped buffers and
    put back with the result at the accumulated sum; the generator register goes into the invariant and comes back;
    nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (ent0 m) c).loose
  hwaits := Pipeline.hwaits_of_owed_zero _ _ _ _ L lv 0 fun c t => Reg0.owed_eq (ent0 m) c t
  pre c := iprop(StableHlo.held (c : Thread nD τ) (Pipeline.ucRefs τ sig) (V1 m c) ∗ Rd c)
  post c := iprop(StableHlo.held (c : Thread nD τ) (Pipeline.ucRefs τ sig) (V2 m (outs m) c) ∗ Rd c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun w => Reg0.A_eq (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg0.hin (ent0 m) c)
    unfold Pipeline.ΦA
    iintro ⟨Hp, -, Hr⟩
    isplitl [Hr]; · iexact Hr
    iexact Hp
  hout c := by
    rw [Pipeline.ownSems0_none]
    refine (Reg0.hout (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

set_option maxHeartbeats 4000000 in
/-- After region 1 each of its arrays holds what the write-backs leave: the five inputs what they held, the result
    the accumulated row sums. -/
theorem hF1 (c : Dev nD) (w : Fin cfg1.W) : (pdats m 1 c).arrAt w cfg1.N = V8 m (outs m) c (Pipeline.arrRef spec1 w) := by
  show (Reg1.dat (ent1 m) c).arrAt w cfg1.N = Function.update (V7 m (outs m) c) main_v59 (outs m 8 main_v59 c) (Pipeline.arrRef spec1 w)
  rw [V7_eq]
  match w with
  | ⟨0, _⟩ => exact ((Reg1.dat (ent1 m) c).arrAt_in 0 rfl _).trans ((Reg1.A_eq (ent1 m) c 0).trans (Function.update_of_ne (StableHlo.devRef_ne_of_ne (by decide)) _ _).symm)
  | ⟨1, _⟩ => exact ((Reg1.dat (ent1 m) c).arrAt_in 1 rfl _).trans ((Reg1.A_eq (ent1 m) c 1).trans (Function.update_of_ne (StableHlo.devRef_ne_of_ne (by decide)) _ _).symm)
  | ⟨2, _⟩ => exact ((Reg1.dat (ent1 m) c).arrAt_in 2 rfl _).trans ((Reg1.A_eq (ent1 m) c 2).trans (Function.update_of_ne (StableHlo.devRef_ne_of_ne (by decide)) _ _).symm)
  | ⟨3, _⟩ => exact ((Reg1.dat (ent1 m) c).arrAt_in 3 rfl _).trans ((Reg1.A_eq (ent1 m) c 3).trans (Function.update_of_ne (StableHlo.devRef_ne_of_ne (by decide)) _ _).symm)
  | ⟨4, _⟩ => exact ((Reg1.dat (ent1 m) c).arrAt_in 4 rfl _).trans ((Reg1.A_eq (ent1 m) c 4).trans (Function.update_of_ne (StableHlo.devRef_ne_of_ne (by decide)) _ _).symm)
  | ⟨5, _⟩ =>
    refine Eq.trans (show _ = outs m 8 main_v59 c from (outs_v59 m 8 c).symm) ?_
    exact (Function.update_self (Proc.devRef (τ := τ) .tc main_v59) (outs m 8 main_v59 c) (ent1 m c)).symm

/-- Every other unscoped buffer is as region 1 found it. -/
theorem hrest1 (c : Dev nD) : ∀ b, b ∉ Finset.univ.image (Pipeline.arrRef spec1) → V8 m (outs m) c b = V7 m (outs m) c b :=
  fun b hb => Function.update_of_ne (StableHlo.devRef_ne_of_ne fun e : b = main_v59 => hb (by
    subst e; exact Finset.mem_image.mpr ⟨5, Finset.mem_univ _, rfl⟩)) _ _

set_option backward.isDefEq.respectTransparency.types false in
/-- Region 1 between the thread states before and after it. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Reg1.body_obligation (ent1 m) c).loose
  hwaits := Pipeline.hwaits_of_owed_zero _ _ _ _ L lv 1 fun c t => Reg1.owed_eq (ent1 m) c t
  pre c := iprop(StableHlo.held (c : Thread nD τ) (Pipeline.ucRefs τ sig) (V7 m (outs m) c) ∗ Rd c)
  post c := iprop(StableHlo.held (c : Thread nD τ) (Pipeline.ucRefs τ sig) (V8 m (outs m) c) ∗ Rd c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := entry1 c (fun b => V7 m (outs m) c b) (pdats m 1 c)
      (fun w => (Reg1.A_eq (ent1 m) c w).trans (by rw [V7_eq]))
      (Reg1.share_eq0 (ent1 m) c) (Reg1.share_eq1 (ent1 m) c) (Reg1.share_eq2 (ent1 m) c) (Reg1.share_eq3 (ent1 m) c)
      (Reg1.share_eq4 (ent1 m) c) (Reg1.share_eq5 (ent1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Reg1.hin (ent1 m) c)
    unfold Pipeline.ΦA
    iintro ⟨Hp, -, Hr⟩
    isplitl [Hr]; · iexact Hr
    iexact Hp
  hout c := by
    rw [Pipeline.ownSems0_none]
    refine (Reg1.hout (ent1 m) c).trans ?_
    unfold Pipeline.ΦA
    iintro ⟨Hr, Hp⟩
    isplitl [Hp]; · iexact Hp
    isplitr; · iempintro
    iexact Hr
  hexit c := by
    have hjoin := exit1 c (fun b => V7 m (outs m) c b) (fun b => V8 m (outs m) c b) (pdats m 1 c)
      ((pdats m 1 c).arrAt · cfg1.N) (hF1 m c) (hrest1 m c)
      (Reg1.share_eq0 (ent1 m) c) (Reg1.share_eq1 (ent1 m) c) (Reg1.share_eq2 (ent1 m) c) (Reg1.share_eq3 (ent1 m) c)
      (Reg1.share_eq4 (ent1 m) c) (Reg1.share_eq5 (ent1 m) c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, the frame, and the run with the result named -/

set_option backward.isDefEq.respectTransparency.types false in
/-- Every weakly fair execution from a memory with zero counters terminates, nothing faulting, with the argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.Main

end
-- ==== Proof.KIRun.lean ====
/-
  The run of the kernel's program with its result named: the last valuation — every host stretch applied in order to the
  launch contents and to what the two regions leave — read at the result buffer, beside the unchanged arguments.
-/
import proofs.«117839_j20658792694235_1_alg».proof.Proof.KIRegions

set_option maxRecDepth 16384

noncomputable section

namespace Cert.KernelIdeal.Main

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The same run with the program's result read off the last valuation beside the arguments. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v127) = V15 m outs c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, hpre0 c, hpost0 c, .rfl, .rfl, .rfl, .rfl, hpre1 c, hpost1 c, .rfl, .rfl, .rfl, .rfl, .rfl, .rfl, sep_mono .rfl (hE2 c)⟩)
    (hinit := ?_) (QY := fun c s => s.mem ((c.tc : Thread nD τ).loc main_v127) = V15 m outs c main_v127 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨h (Proc.devRef .tc main_v127) (Finset.mem_filter.mpr ⟨StableHlo.devRef_mem_tcRefs main_v127, by decide⟩),
        (h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c),
        (h (Proc.devRef .tc main_arg4) (Finset.mem_filter.mpr ⟨StableHlo.devRef_mem_tcRefs main_arg4, by decide⟩)).trans (V15_main_arg4 m outs c),
        (h (Proc.devRef .tc main_arg5) (Finset.mem_filter.mpr ⟨StableHlo.devRef_mem_tcRefs main_arg5, by decide⟩)).trans (V15_main_arg5 m outs c),
        (h (Proc.devRef .tc main_arg6) (Finset.mem_filter.mpr ⟨StableHlo.devRef_mem_tcRefs main_arg6, by decide⟩)).trans (V15_main_arg6 m outs c),
        (h (Proc.devRef .tc main_arg7) (Finset.mem_filter.mpr ⟨StableHlo.devRef_mem_tcRefs main_arg7, by decide⟩)).trans (V15_main_arg7 m outs c),
        (h (Proc.devRef .tc main_arg8) (Finset.mem_filter.mpr ⟨StableHlo.devRef_mem_tcRefs main_arg8, by decide⟩)).trans (V15_main_arg8 m outs c),
        (h (Proc.devRef .tc main_arg9) (Finset.mem_filter.mpr ⟨StableHlo.devRef_mem_tcRefs main_arg9, by decide⟩)).trans (V15_main_arg9 m outs c),
        (h (Proc.devRef .tc main_arg10) (Finset.mem_filter.mpr ⟨StableHlo.devRef_mem_tcRefs main_arg10, by decide⟩)).trans (V15_main_arg10 m outs c),
        (h (Proc.devRef .tc main_arg11) (Finset.mem_filter.mpr ⟨StableHlo.devRef_mem_tcRefs main_arg11, by decide⟩)).trans (V15_main_arg11 m outs c)⟩
    · iexact HSI

set_option backward.isDefEq.respectTransparency.types false in
/-- Every weakly fair execution terminates with the result buffer at the last valuation's contents — the host stretches
    applied to the launch contents and to what the two regions leave — and the arguments as launched. -/
theorem run_main : θ_run defs (onTc (τ := τ) (main (F := F))) ⟨m, fun _ => 0, ρ⟩ (fun r => ∀ c : Dev nD,
      r.2.mem ((c.tc : Thread nD τ).loc main_v127) = V15 m (outs m) c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.Main

end
-- ==== Proof.RefOps.lean ====
/- The reference program's @main as ONE list of its 225 host operations: the 197 of @main itself and, standing in
   the place of each of its five calls, the callee's operations over that call's buffer record (@elu's fifteen,
   its two calls of @_where and @_where_0 included; @norm's five; @_where_1's three, three times). The list is cut where
   @main is cut into four windows and at every call; each window is shown equal to the chain of its stretches by
   unfolding, the chains are joined, and a chain of straight lines is the straight line of the concatenation. -/
import proofs.«117839_j20658792694235_1_alg».proof.Proof.Gen.ReferenceIdeal
import Idealize.ShloMosaic.Lib.StableHlo.Run
import Idealize.ShloMosaic.Lib.Pipeline.Regions

noncomputable section

namespace Cert.ReferenceIdeal.RefRun

open Idealize.ShloMosaic Idealize.SL.Sem Cert.ReferenceIdeal Cert.ReferenceIdeal.Gen

variable {F : FTy → Type} [FloatOps F]

/-! ## Chains of straight lines -/

/-- The chain of straight lines is the straight line of their concatenation (`seq_append`, once per line). -/
theorem chain_map_seq {nD : Nat} {τ : Topo} {sig : RefSig} {Val : EltTy → Type} {Λ : Labels} :
    ∀ ls : List (List (HloOp τ sig Val)),
      Pipeline.chain (ls.map fun l => (StableHlo.seq l : Prog (TpuEff nD τ sig Val Λ .tc) PUnit)) = StableHlo.seq ls.flatten
  | [] => rfl
  | l :: ls => by
    rw [List.map_cons, Pipeline.chain_cons, chain_map_seq ls, List.flatten_cons, StableHlo.seq_append]

/-- A property of every element of every list holds of every element of the concatenation. -/
theorem forall_flatten {α : Type} {P : α → Prop} (ls : List (List α)) (h : ls.Forall fun l => l.Forall P) :
    ls.flatten.Forall P :=
  List.forall_iff_forall_mem.2 fun x hx => by
    obtain ⟨l, hl, hxl⟩ := List.mem_flatten.1 hx
    exact List.forall_iff_forall_mem.1 (List.forall_iff_forall_mem.1 h l hl) x hxl

/-- An operation whose one written buffer is the reference `y`, a member of the list `W`, writes inside `W`. -/
theorem writes_sub_of_mem {τ : Topo} {sig : RefSig} {Val : EltTy → Type} {W : List (Ref sig .tc)} {op : HloOp τ sig Val}
    (y : Ref sig .tc) (hw : op.writes = {Proc.devRef .tc y}) (hy : y ∈ W) :
    op.writes ⊆ (W.map (Proc.devRef (τ := τ) .tc)).toFinset := by
  rw [hw, Finset.singleton_subset_iff, List.mem_toFinset]
  exact List.mem_map.2 ⟨y, hy, rfl⟩

/-! ## The stretches -/

/-- 13 consecutive operations of @main (inside its window of statements 1 … 60): from the one writing main_v0 through the one writing main_v11. -/
abbrev w0s0 : List (HloOp τ sig (Elt F)) :=
  [ StableHlo.binary main_arg1 main_arg2 main_v0 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.binary main_v0 main_arg3 main_v1 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    StableHlo.binary main_v1 main_arg4 main_v2 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)),
    StableHlo.binary main_arg0 main_v2 main_v3 (subf : (⟨S4096x4096, .f32⟩ : BufTy).Contents (Elt F) → (⟨S4096x4096, .f32⟩ : BufTy).Contents (Elt F) → (⟨S4096x4096, .f32⟩ : BufTy).Contents (Elt F)),
    StableHlo.binary main_v3 main_v3 main_v4 (mulf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x00000000#32),
    StableHlo.binary main_v4 main_cst main_v5 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.unary main_arg4 main_v6 ((transpose S4096x64 [1, 0] · transposes_S64x4096_S4096x64_1_0) : (⟨S64x4096, .f32⟩ : BufTy).Contents (Elt F) → (⟨S4096x64, .f32⟩ : BufTy).Contents (Elt F)),
    StableHlo.unary main_arg5 main_v7 ((transpose S64x128 [1, 0] · transposes_S128x64_S64x128_1_0) : (⟨S128x64, .f32⟩ : BufTy).Contents (Elt F) → (⟨S64x128, .f32⟩ : BufTy).Contents (Elt F)),
    StableHlo.binary main_v6 main_v7 main_v8 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    StableHlo.unary main_arg6 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S4096x128 ![0, 1] bcast_S1x128_S4096x128_0_1 : (⟨S1x128, .f32⟩ : BufTy).Contents (Elt F) → (⟨S4096x128, .f32⟩ : BufTy).Contents (Elt F)),
    StableHlo.binary main_v8 main_v10 main_v11 (addf : (⟨S4096x128, .f32⟩ : BufTy).Contents (Elt F) → (⟨S4096x128, .f32⟩ : BufTy).Contents (Elt F) → (⟨S4096x128, .f32⟩ : BufTy).Contents (Elt F)) ]

/-- The 15 operations of the call of @elu over the record main_call0, the operations of its calls of @_where and @_where_0 in their place. -/
abbrev w0s1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S4096x128, .f32⟩) (broadcastInDim S4096x128 ![] bcast_S_S4096x128),
    StableHlo.TRef.binary (.of main_v11 : StableHlo.TRef sig ⟨S4096x128, .f32⟩) (.of main_call0_v0 : StableHlo.TRef sig ⟨S4096x128, .f32⟩) (.of main_call0_v1 : StableHlo.TRef sig ⟨S4096x128, .i1⟩) (cmpf .ogt),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v2 : StableHlo.TRef sig ⟨S4096x128, .f32⟩) (broadcastInDim S4096x128 ![] bcast_S_S4096x128),
    StableHlo.TRef.binary (.of main_v11 : StableHlo.TRef sig ⟨S4096x128, .f32⟩) (.of main_call0_v2 : StableHlo.TRef sig ⟨S4096x128, .f32⟩) (.of main_call0_v3 : StableHlo.TRef sig ⟨S4096x128, .i1⟩) (cmpf .ogt),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S4096x128, .f32⟩) (broadcastInDim S4096x128 ![] bcast_S_S4096x128),
    StableHlo.TRef.ternary (.of main_call0_v3 : StableHlo.TRef sig ⟨S4096x128, .i1⟩) (.of main_call0_call0_v1 : StableHlo.TRef sig ⟨S4096x128, .f32⟩) (.of main_v11 : StableHlo.TRef sig ⟨S4096x128, .f32⟩) (.of main_call0_v4 : StableHlo.TRef sig ⟨S4096x128, .f32⟩) select,
    StableHlo.TRef.unary (.of main_call0_v4 : StableHlo.TRef sig ⟨S4096x128, .f32⟩) (.of main_call0_v5 : StableHlo.TRef sig ⟨S4096x128, .f32⟩) Host.expm1,
    StableHlo.TRef.nullary (.of main_call0_cst_2 : StableHlo.TRef sig ⟨S_, .f32⟩) (constant S_ .f32 0x3F800000#32),
    StableHlo.TRef.unary (.of main_call0_cst_2 : StableHlo.TRef sig ⟨S_, .f32⟩) (.of main_call0_v6 : StableHlo.TRef sig ⟨S4096x128, .f32⟩) (broadcastInDim S4096x128 ![] bcast_S_S4096x128),
    StableHlo.TRef.binary (.of main_call0_v6 : StableHlo.TRef sig ⟨S4096x128, .f32⟩) (.of main_call0_v5 : StableHlo.TRef sig ⟨S4096x128, .f32⟩) (.of main_call0_v7 : StableHlo.TRef sig ⟨S4096x128, .f32⟩) mulf,
    StableHlo.TRef.ternary (.of main_call0_v1 : StableHlo.TRef sig ⟨S4096x128, .i1⟩) (.of main_v11 : StableHlo.TRef sig ⟨S4096x128, .f32⟩) (.of main_call0_v7 : StableHlo.TRef sig ⟨S4096x128, .f32⟩) (.of main_v12 : StableHlo.TRef sig ⟨S4096x128, .f32⟩) select ]

/-- 5 consecutive operations of @main (inside its window of statements 1 … 60): from the one writing main_v13 through the one writing main_v17. -/
abbrev w0s2 : List (HloOp τ sig (Elt F)) :=
  [ StableHlo.unary main_arg7 main_v13 ((transpose S128x256 [1, 0] · transposes_S256x128_S128x256_1_0) : (⟨S256x128, .f32⟩ : BufTy).Contents (Elt F) → (⟨S128x256, .f32⟩ : BufTy).Contents (Elt F)),
    StableHlo.binary main_v12 main_v13 main_v14 ((fun l r => Host.dotGeneral dot_S4096x128_S128x256_S4096x256_1_0_0_1_n_n none l r) : (⟨S4096x128, .f32⟩ : BufTy).Contents (Elt F) → (⟨S128x256, .f32⟩ : BufTy).Contents (Elt F) → (⟨S4096x256, .f32⟩ : BufTy).Contents (Elt F)),
    StableHlo.unary main_arg8 main_v15 (broadcastInDim S1x256 ![1] bcast_S256_S1x256_1 : (⟨S256, .f32⟩ : BufTy).Contents (Elt F) → (⟨S1x256, .f32⟩ : BufTy).Contents (Elt F)),
    StableHlo.unary main_v15 main_v16 (broadcastInDim S4096x256 ![0, 1] bcast_S1x256_S4096x256_0_1 : (⟨S1x256, .f32⟩ : BufTy).Contents (Elt F) → (⟨S4096x256, .f32⟩ : BufTy).Contents (Elt F)),
    StableHlo.binary main_v14 main_v16 main_v17 (addf : (⟨S4096x256, .f32⟩ : BufTy).Contents (Elt F) → (⟨S4096x256, .f32⟩ : BufTy).Contents (Elt F) → (⟨S4096x256, .f32⟩ : BufTy).Contents (Elt F)) ]

/-- The 5 operations of the call of @norm over the record main_call1 (it makes no call of its own). -/
abbrev w0s3 : List (HloOp τ sig (Elt F)) :=
  [ StableHlo.TRef.binary (.of main_v17 : StableHlo.TRef sig ⟨S4096x256, .f32⟩) (.of main_v17 : StableHlo.TRef sig ⟨S4096x256, .f32⟩) (.of main_call1_v0 : StableHlo.TRef sig ⟨S4096x256, .f32⟩) mulf,
    StableHlo.TRef.nullary (.of main_call1_cst : StableHlo.TRef sig ⟨S_, .f32⟩) (constant S_ .f32 0x00000000#32),
    StableHlo.TRef.binary (.of main_call1_v0 : StableHlo.TRef sig ⟨S4096x256, .f32⟩) (.of main_call1_cst : StableHlo.TRef sig ⟨S_, .f32⟩) (.of main_call1_v1 : StableHlo.TRef sig ⟨S4096, .f32⟩) (fun x v => Host.reduceAdd x v reducesTo_S4096x256_S4096_d1 h_S_),
    StableHlo.TRef.unary (.of main_call1_v1 : StableHlo.TRef sig ⟨S4096, .f32⟩) (.of main_call1_v2 : StableHlo.TRef sig ⟨S4096x1, .f32⟩) (broadcastInDim S4096x1 ![0] bcast_S4096_S4096x1_0),
    StableHlo.TRef.unary (.of main_call1_v2 : StableHlo.TRef sig ⟨S4096x1, .f32⟩) (.of main_v18 : StableHlo.TRef sig ⟨S4096x1, .f32⟩) Host.sqrt ]

/-- 40 consecutive operations of @main (inside its window of statements 1 … 60): from the one writing main_cst_0 through the one writing main_cst_8. -/
abbrev w0s4 : List (HloOp τ sig (Elt F)) :=
  [ StableHlo.nullary main_cst_0 (constant S_ .f32 0x2B8CBCCC#32),
    StableHlo.unary main_cst_0 main_v19 (broadcastInDim S4096x1 ![] bcast_S_S4096x1 : (⟨S_, .f32⟩ : BufTy).Contents (Elt F) → (⟨S4096x1, .f32⟩ : BufTy).Contents (Elt F)),
    StableHlo.binary main_v18 main_v19 main_v20 (maximumf : (⟨S4096x1, .f32⟩ : BufTy).Contents (Elt F) → (⟨S4096x1, .f32⟩ : BufTy).Contents (Elt F) → (⟨S4096x1, .f32⟩ : BufTy).Contents (Elt F)),
    StableHlo.unary main_v20 main_v21 (broadcastInDim S4096x256 ![0, 1] bcast_S4096x1_S4096x256_0_1 : (⟨S4096x1, .f32⟩ : BufTy).Contents (Elt F) → (⟨S4096x256, .f32⟩ : BufTy).Contents (Elt F)),
    StableHlo.binary main_v17 main_v21 main_v22 (Host.divf : (⟨S4096x256, .f32⟩ : BufTy).Contents (Elt F) → (⟨S4096x256, .f32⟩ : BufTy).Contents (Elt F) → (⟨S4096x256, .f32⟩ : BufTy).Contents (Elt F)),
    StableHlo.unary main_v22 main_v23 ((transpose S256x4096 [1, 0] · transposes_S4096x256_S256x4096_1_0) : (⟨S4096x256, .f32⟩ : BufTy).Contents (Elt F) → (⟨S256x4096, .f32⟩ : BufTy).Contents (Elt F)),
    StableHlo.binary main_v22 main_v23 main_v24 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    StableHlo.nullary main_cst_1 (constant S_ .f32 0x3F000000#32),
    StableHlo.unary main_cst_1 main_v25 (broadcastInDim S4096x4096 ![] bcast_S_S4096x4096 : (⟨S_, .f32⟩ : BufTy).Contents (Elt F) → (⟨S4096x4096, .f32⟩ : BufTy).Contents (Elt F)),
    StableHlo.binary main_v24 main_v25 main_v26 (Host.divf : (⟨S4096x4096, .f32⟩ : BufTy).Contents (Elt F) → (⟨S4096x4096, .f32⟩ : BufTy).Contents (Elt F) → (⟨S4096x4096, .f32⟩ : BufTy).Contents (Elt F)),
    StableHlo.unary main_v26 main_v27 (Host.exp : (⟨S4096x4096, .f32⟩ : BufTy).Contents (Elt F) → (⟨S4096x4096, .f32⟩ : BufTy).Contents (Elt F)),
    StableHlo.nullary main_v28 (iotaInDim S4096 32 0),
    StableHlo.unary main_v28 main_v29 (broadcastInDim S4096x1 ![0] bcast_S4096_S4096x1_0 : (⟨S4096, .i32⟩ : BufTy).Contents (Elt F) → (⟨S4096x1, .i32⟩ : BufTy).Contents (Elt F)),
    StableHlo.nullary main_cst_2 (constant S_ .f32 0x00000000#32),
    StableHlo.unary main_cst_2 main_v30 (broadcastInDim S4096x4096 ![] bcast_S_S4096x4096 : (⟨S_, .f32⟩ : BufTy).Contents (Elt F) → (⟨S4096x4096, .f32⟩ : BufTy).Contents (Elt F)),
    StableHlo.nullary main_c (constantI S_ 32 0#32),
    StableHlo.unary main_c main_v31 (broadcastInDim S4096x1 ![] bcast_S_S4096x1 : (⟨S_, .i32⟩ : BufTy).Contents (Elt F) → (⟨S4096x1, .i32⟩ : BufTy).Contents (Elt F)),
    StableHlo.binary main_v29 main_v31 main_v32 (cmpi .slt : (⟨S4096x1, .i32⟩ : BufTy).Contents (Elt F) → (⟨S4096x1, .i32⟩ : BufTy).Contents (Elt F) → (⟨S4096x1, .i1⟩ : BufTy).Contents (Elt F)),
    StableHlo.nullary main_c_3 (constantI S_ 32 4096#32),
    StableHlo.unary main_c_3 main_v33 (broadcastInDim S4096x1 ![] bcast_S_S4096x1 : (⟨S_, .i32⟩ : BufTy).Contents (Elt F) → (⟨S4096x1, .i32⟩ : BufTy).Contents (Elt F)),
    StableHlo.binary main_v29 main_v33 main_v34 (addi : (⟨S4096x1, .i32⟩ : BufTy).Contents (Elt F) → (⟨S4096x1, .i32⟩ : BufTy).Contents (Elt F) → (⟨S4096x1, .i32⟩ : BufTy).Contents (Elt F)),
    StableHlo.ternary main_v32 main_v34 main_v29 main_v35 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_4 (constantI S_ 32 0#32),
    StableHlo.unary main_c_4 main_v36 (broadcastInDim S4096x8 ![] bcast_S_S4096x8 : (⟨S_, .i32⟩ : BufTy).Contents (Elt F) → (⟨S4096x8, .i32⟩ : BufTy).Contents (Elt F)),
    StableHlo.binary main_arg10 main_v36 main_v37 (cmpi .slt : (⟨S4096x8, .i32⟩ : BufTy).Contents (Elt F) → (⟨S4096x8, .i32⟩ : BufTy).Contents (Elt F) → (⟨S4096x8, .i1⟩ : BufTy).Contents (Elt F)),
    StableHlo.nullary main_c_5 (constantI S_ 32 4096#32),
    StableHlo.unary main_c_5 main_v38 (broadcastInDim S4096x8 ![] bcast_S_S4096x8 : (⟨S_, .i32⟩ : BufTy).Contents (Elt F) → (⟨S4096x8, .i32⟩ : BufTy).Contents (Elt F)),
    StableHlo.binary main_arg10 main_v38 main_v39 (addi : (⟨S4096x8, .i32⟩ : BufTy).Contents (Elt F) → (⟨S4096x8, .i32⟩ : BufTy).Contents (Elt F) → (⟨S4096x8, .i32⟩ : BufTy).Contents (Elt F)),
    StableHlo.ternary main_v37 main_v39 main_arg10 main_v40 (select : (⟨S4096x8, .i1⟩ : BufTy).Contents (Elt F) → (⟨S4096x8, .i32⟩ : BufTy).Contents (Elt F) → (⟨S4096x8, .i32⟩ : BufTy).Contents (Elt F) → (⟨S4096x8, .i32⟩ : BufTy).Contents (Elt F)),
    StableHlo.unary main_v35 main_v41 (broadcastInDim S4096x8 ![0, 1] bcast_S4096x1_S4096x8_0_1 : (⟨S4096x1, .i32⟩ : BufTy).Contents (Elt F) → (⟨S4096x8, .i32⟩ : BufTy).Contents (Elt F)),
    StableHlo.unary main_v41 main_v42 (broadcastInDim S4096x8x1 ![0, 1] bcast_S4096x8_S4096x8x1_0_1 : (⟨S4096x8, .i32⟩ : BufTy).Contents (Elt F) → (⟨S4096x8x1, .i32⟩ : BufTy).Contents (Elt F)),
    StableHlo.unary main_v40 main_v43 (broadcastInDim S4096x8x1 ![0, 1] bcast_S4096x8_S4096x8x1_0_1 : (⟨S4096x8, .i32⟩ : BufTy).Contents (Elt F) → (⟨S4096x8x1, .i32⟩ : BufTy).Contents (Elt F)),
    StableHlo.binary main_v42 main_v43 main_v44 ((fun a b => concatenate S4096x8x2 2 [⟨S4096x8x1, a⟩, ⟨S4096x8x1, b⟩] concatenates_S4096x8x1_S4096x8x1_S4096x8x2_d2) : (⟨S4096x8x1, .i32⟩ : BufTy).Contents (Elt F) → (⟨S4096x8x1, .i32⟩ : BufTy).Contents (Elt F) → (⟨S4096x8x2, .i32⟩ : BufTy).Contents (Elt F)),
    StableHlo.nullary main_cst_6 (constant S_ .f32 0x3F800000#32),
    StableHlo.unary main_cst_6 main_v45 (broadcastInDim S4096x8 ![] bcast_S_S4096x8 : (⟨S_, .f32⟩ : BufTy).Contents (Elt F) → (⟨S4096x8, .f32⟩ : BufTy).Contents (Elt F)),
    StableHlo.ternary main_v30 main_v44 main_v45 main_v46 ((fun x i u => Host.scatter scatter_S4096x4096_S4096x8x2_S4096x8_n_01_01_2 (fun _ b => b) x i u) : (⟨S4096x4096, .f32⟩ : BufTy).Contents (Elt F) → (⟨S4096x8x2, .i32⟩ : BufTy).Contents (Elt F) → (⟨S4096x8, .f32⟩ : BufTy).Contents (Elt F) → (⟨S4096x4096, .f32⟩ : BufTy).Contents (Elt F)),
    StableHlo.binary main_v27 main_v46 main_v47 (mulf : (⟨S4096x4096, .f32⟩ : BufTy).Contents (Elt F) → (⟨S4096x4096, .f32⟩ : BufTy).Contents (Elt F) → (⟨S4096x4096, .f32⟩ : BufTy).Contents (Elt F)),
    StableHlo.nullary main_cst_7 (constant S_ .f32 0x00000000#32),
    StableHlo.binary main_v47 main_cst_7 main_v48 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_8 (constant S_ .f32 0x3F800000#32) ]

/-- 11 consecutive operations of @main (inside its window of statements 61 … 120): from the one writing main_v49 through the one writing main_cst_11. -/
abbrev w1s0 : List (HloOp τ sig (Elt F)) :=
  [ StableHlo.unary main_cst_8 main_v49 (broadcastInDim S4096x4096 ![] bcast_S_S4096x4096 : (⟨S_, .f32⟩ : BufTy).Contents (Elt F) → (⟨S4096x4096, .f32⟩ : BufTy).Contents (Elt F)),
    StableHlo.binary main_v49 main_v46 main_v50 (subf : (⟨S4096x4096, .f32⟩ : BufTy).Contents (Elt F) → (⟨S4096x4096, .f32⟩ : BufTy).Contents (Elt F) → (⟨S4096x4096, .f32⟩ : BufTy).Contents (Elt F)),
    StableHlo.binary main_v27 main_v50 main_v51 (mulf : (⟨S4096x4096, .f32⟩ : BufTy).Contents (Elt F) → (⟨S4096x4096, .f32⟩ : BufTy).Contents (Elt F) → (⟨S4096x4096, .f32⟩ : BufTy).Contents (Elt F)),
    StableHlo.nullary main_cst_9 (constant S_ .f32 0x00000000#32),
    StableHlo.binary main_v51 main_cst_9 main_v52 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.binary main_v48 main_v52 main_v53 (addf : (⟨S4096, .f32⟩ : BufTy).Contents (Elt F) → (⟨S4096, .f32⟩ : BufTy).Contents (Elt F) → (⟨S4096, .f32⟩ : BufTy).Contents (Elt F)),
    StableHlo.binary main_v48 main_v53 main_v54 (Host.divf : (⟨S4096, .f32⟩ : BufTy).Contents (Elt F) → (⟨S4096, .f32⟩ : BufTy).Contents (Elt F) → (⟨S4096, .f32⟩ : BufTy).Contents (Elt F)),
    StableHlo.nullary main_cst_10 (constant S_ .f32 0x00000000#32),
    StableHlo.unary main_cst_10 main_v55 (broadcastInDim S4096 ![] bcast_S_S4096 : (⟨S_, .f32⟩ : BufTy).Contents (Elt F) → (⟨S4096, .f32⟩ : BufTy).Contents (Elt F)),
    StableHlo.binary main_v54 main_v55 main_v56 (cmpf .oeq : (⟨S4096, .f32⟩ : BufTy).Contents (Elt F) → (⟨S4096, .f32⟩ : BufTy).Contents (Elt F) → (⟨S4096, .i1⟩ : BufTy).Contents (Elt F)),
    StableHlo.nullary main_cst_11 (constant S_ .f32 0x3F800000#32) ]

/-- The 3 operations of the call of @_where_1 over the record main_call2 (it makes no call of its own). -/
abbrev w1s1 : List (HloOp τ sig (Elt F)) :=
  [ StableHlo.TRef.unary (.of main_cst_11 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S4096, .f32⟩) (broadcastInDim S4096 ![] bcast_S_S4096),
    StableHlo.TRef.ternary (.of main_v56 : StableHlo.TRef sig ⟨S4096, .i1⟩) (.of main_call2_v1 : StableHlo.TRef sig ⟨S4096, .f32⟩) (.of main_v54 : StableHlo.TRef sig ⟨S4096, .f32⟩) (.of main_v57 : StableHlo.TRef sig ⟨S4096, .f32⟩) select ]

/-- 46 consecutive operations of @main (inside its window of statements 61 … 120): from the one writing main_v58 through the one writing main_cst_24. -/
abbrev w1s2 : List (HloOp τ sig (Elt F)) :=
  [ StableHlo.unary main_v57 main_v58 (Host.log : (⟨S4096, .f32⟩ : BufTy).Contents (Elt F) → (⟨S4096, .f32⟩ : BufTy).Contents (Elt F)),
    StableHlo.nullary main_cst_12 (constant S_ .f32 0x00000000#32),
    StableHlo.binary main_v58 main_cst_12 main_v59 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v59 main_v60 (Host.negf : (⟨S_, .f32⟩ : BufTy).Contents (Elt F) → (⟨S_, .f32⟩ : BufTy).Contents (Elt F)),
    StableHlo.nullary main_cst_13 (constant S_ .f32 0x45800000#32),
    StableHlo.binary main_v60 main_cst_13 main_v61 (Host.divf : (⟨S_, .f32⟩ : BufTy).Contents (Elt F) → (⟨S_, .f32⟩ : BufTy).Contents (Elt F) → (⟨S_, .f32⟩ : BufTy).Contents (Elt F)),
    StableHlo.nullary main_v62 (iotaInDim S4096 32 0),
    StableHlo.unary main_v62 main_v63 (broadcastInDim S4096x1 ![0] bcast_S4096_S4096x1_0 : (⟨S4096, .i32⟩ : BufTy).Contents (Elt F) → (⟨S4096x1, .i32⟩ : BufTy).Contents (Elt F)),
    StableHlo.nullary main_cst_14 (constant S_ .f32 0x00000000#32),
    StableHlo.unary main_cst_14 main_v64 (broadcastInDim S4096x4096 ![] bcast_S_S4096x4096 : (⟨S_, .f32⟩ : BufTy).Contents (Elt F) → (⟨S4096x4096, .f32⟩ : BufTy).Contents (Elt F)),
    StableHlo.nullary main_c_15 (constantI S_ 32 0#32),
    StableHlo.unary main_c_15 main_v65 (broadcastInDim S4096x1 ![] bcast_S_S4096x1 : (⟨S_, .i32⟩ : BufTy).Contents (Elt F) → (⟨S4096x1, .i32⟩ : BufTy).Contents (Elt F)),
    StableHlo.binary main_v63 main_v65 main_v66 (cmpi .slt : (⟨S4096x1, .i32⟩ : BufTy).Contents (Elt F) → (⟨S4096x1, .i32⟩ : BufTy).Contents (Elt F) → (⟨S4096x1, .i1⟩ : BufTy).Contents (Elt F)),
    StableHlo.nullary main_c_16 (constantI S_ 32 4096#32),
    StableHlo.unary main_c_16 main_v67 (broadcastInDim S4096x1 ![] bcast_S_S4096x1 : (⟨S_, .i32⟩ : BufTy).Contents (Elt F) → (⟨S4096x1, .i32⟩ : BufTy).Contents (Elt F)),
    StableHlo.binary main_v63 main_v67 main_v68 (addi : (⟨S4096x1, .i32⟩ : BufTy).Contents (Elt F) → (⟨S4096x1, .i32⟩ : BufTy).Contents (Elt F) → (⟨S4096x1, .i32⟩ : BufTy).Contents (Elt F)),
    StableHlo.ternary main_v66 main_v68 main_v63 main_v69 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_17 (constantI S_ 32 0#32),
    StableHlo.unary main_c_17 main_v70 (broadcastInDim S4096x16 ![] bcast_S_S4096x16 : (⟨S_, .i32⟩ : BufTy).Contents (Elt F) → (⟨S4096x16, .i32⟩ : BufTy).Contents (Elt F)),
    StableHlo.binary main_arg11 main_v70 main_v71 (cmpi .slt : (⟨S4096x16, .i32⟩ : BufTy).Contents (Elt F) → (⟨S4096x16, .i32⟩ : BufTy).Contents (Elt F) → (⟨S4096x16, .i1⟩ : BufTy).Contents (Elt F)),
    StableHlo.nullary main_c_18 (constantI S_ 32 4096#32),
    StableHlo.unary main_c_18 main_v72 (broadcastInDim S4096x16 ![] bcast_S_S4096x16 : (⟨S_, .i32⟩ : BufTy).Contents (Elt F) → (⟨S4096x16, .i32⟩ : BufTy).Contents (Elt F)),
    StableHlo.binary main_arg11 main_v72 main_v73 (addi : (⟨S4096x16, .i32⟩ : BufTy).Contents (Elt F) → (⟨S4096x16, .i32⟩ : BufTy).Contents (Elt F) → (⟨S4096x16, .i32⟩ : BufTy).Contents (Elt F)),
    StableHlo.ternary main_v71 main_v73 main_arg11 main_v74 (select : (⟨S4096x16, .i1⟩ : BufTy).Contents (Elt F) → (⟨S4096x16, .i32⟩ : BufTy).Contents (Elt F) → (⟨S4096x16, .i32⟩ : BufTy).Contents (Elt F) → (⟨S4096x16, .i32⟩ : BufTy).Contents (Elt F)),
    StableHlo.unary main_v69 main_v75 (broadcastInDim S4096x16 ![0, 1] bcast_S4096x1_S4096x16_0_1 : (⟨S4096x1, .i32⟩ : BufTy).Contents (Elt F) → (⟨S4096x16, .i32⟩ : BufTy).Contents (Elt F)),
    StableHlo.unary main_v75 main_v76 (broadcastInDim S4096x16x1 ![0, 1] bcast_S4096x16_S4096x16x1_0_1 : (⟨S4096x16, .i32⟩ : BufTy).Contents (Elt F) → (⟨S4096x16x1, .i32⟩ : BufTy).Contents (Elt F)),
    StableHlo.unary main_v74 main_v77 (broadcastInDim S4096x16x1 ![0, 1] bcast_S4096x16_S4096x16x1_0_1 : (⟨S4096x16, .i32⟩ : BufTy).Contents (Elt F) → (⟨S4096x16x1, .i32⟩ : BufTy).Contents (Elt F)),
    StableHlo.binary main_v76 main_v77 main_v78 ((fun a b => concatenate S4096x16x2 2 [⟨S4096x16x1, a⟩, ⟨S4096x16x1, b⟩] concatenates_S4096x16x1_S4096x16x1_S4096x16x2_d2) : (⟨S4096x16x1, .i32⟩ : BufTy).Contents (Elt F) → (⟨S4096x16x1, .i32⟩ : BufTy).Contents (Elt F) → (⟨S4096x16x2, .i32⟩ : BufTy).Contents (Elt F)),
    StableHlo.nullary main_cst_19 (constant S_ .f32 0x3F800000#32),
    StableHlo.unary main_cst_19 main_v79 (broadcastInDim S4096x16 ![] bcast_S_S4096x16 : (⟨S_, .f32⟩ : BufTy).Contents (Elt F) → (⟨S4096x16, .f32⟩ : BufTy).Contents (Elt F)),
    StableHlo.ternary main_v64 main_v78 main_v79 main_v80 ((fun x i u => Host.scatter scatter_S4096x4096_S4096x16x2_S4096x16_n_01_01_2 (fun _ b => b) x i u) : (⟨S4096x4096, .f32⟩ : BufTy).Contents (Elt F) → (⟨S4096x16x2, .i32⟩ : BufTy).Contents (Elt F) → (⟨S4096x16, .f32⟩ : BufTy).Contents (Elt F) → (⟨S4096x4096, .f32⟩ : BufTy).Contents (Elt F)),
    StableHlo.binary main_v27 main_v80 main_v81 (mulf : (⟨S4096x4096, .f32⟩ : BufTy).Contents (Elt F) → (⟨S4096x4096, .f32⟩ : BufTy).Contents (Elt F) → (⟨S4096x4096, .f32⟩ : BufTy).Contents (Elt F)),
    StableHlo.nullary main_cst_20 (constant S_ .f32 0x00000000#32),
    StableHlo.binary main_v81 main_cst_20 main_v82 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_21 (constant S_ .f32 0x3F800000#32),
    StableHlo.unary main_cst_21 main_v83 (broadcastInDim S4096x4096 ![] bcast_S_S4096x4096 : (⟨S_, .f32⟩ : BufTy).Contents (Elt F) → (⟨S4096x4096, .f32⟩ : BufTy).Contents (Elt F)),
    StableHlo.binary main_v83 main_v80 main_v84 (subf : (⟨S4096x4096, .f32⟩ : BufTy).Contents (Elt F) → (⟨S4096x4096, .f32⟩ : BufTy).Contents (Elt F) → (⟨S4096x4096, .f32⟩ : BufTy).Contents (Elt F)),
    StableHlo.binary main_v27 main_v84 main_v85 (mulf : (⟨S4096x4096, .f32⟩ : BufTy).Contents (Elt F) → (⟨S4096x4096, .f32⟩ : BufTy).Contents (Elt F) → (⟨S4096x4096, .f32⟩ : BufTy).Contents (Elt F)),
    StableHlo.nullary main_cst_22 (constant S_ .f32 0x00000000#32),
    StableHlo.binary main_v85 main_cst_22 main_v86 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.binary main_v82 main_v86 main_v87 (addf : (⟨S4096, .f32⟩ : BufTy).Contents (Elt F) → (⟨S4096, .f32⟩ : BufTy).Contents (Elt F) → (⟨S4096, .f32⟩ : BufTy).Contents (Elt F)),
    StableHlo.binary main_v82 main_v87 main_v88 (Host.divf : (⟨S4096, .f32⟩ : BufTy).Contents (Elt F) → (⟨S4096, .f32⟩ : BufTy).Contents (Elt F) → (⟨S4096, .f32⟩ : BufTy).Contents (Elt F)),
    StableHlo.nullary main_cst_23 (constant S_ .f32 0x00000000#32),
    StableHlo.unary main_cst_23 main_v89 (broadcastInDim S4096 ![] bcast_S_S4096 : (⟨S_, .f32⟩ : BufTy).Contents (Elt F) → (⟨S4096, .f32⟩ : BufTy).Contents (Elt F)),
    StableHlo.binary main_v88 main_v89 main_v90 (cmpf .oeq : (⟨S4096, .f32⟩ : BufTy).Contents (Elt F) → (⟨S4096, .f32⟩ : BufTy).Contents (Elt F) → (⟨S4096, .i1⟩ : BufTy).Contents (Elt F)),
    StableHlo.nullary main_cst_24 (constant S_ .f32 0x3F800000#32) ]

/-- The 3 operations of the call of @_where_1 over the record main_call3 (it makes no call of its own). -/
abbrev w1s3 : List (HloOp τ sig (Elt F)) :=
  [ StableHlo.TRef.unary (.of main_cst_24 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S4096, .f32⟩) (broadcastInDim S4096 ![] bcast_S_S4096),
    StableHlo.TRef.ternary (.of main_v90 : StableHlo.TRef sig ⟨S4096, .i1⟩) (.of main_call3_v1 : StableHlo.TRef sig ⟨S4096, .f32⟩) (.of main_v88 : StableHlo.TRef sig ⟨S4096, .f32⟩) (.of main_v91 : StableHlo.TRef sig ⟨S4096, .f32⟩) select ]

/-- One operation of @main (inside its window of statements 61 … 120): the one writing main_v92. -/
abbrev w1s4 : List (HloOp τ sig (Elt F)) :=
  [ StableHlo.unary main_v91 main_v92 (Host.log : (⟨S4096, .f32⟩ : BufTy).Contents (Elt F) → (⟨S4096, .f32⟩ : BufTy).Contents (Elt F)) ]

/-- 24 consecutive operations of @main (inside its window of statements 121 … 180): from the one writing main_cst_25 through the one writing main_cst_32. -/
abbrev w2s0 : List (HloOp τ sig (Elt F)) :=
  [ StableHlo.nullary main_cst_25 (constant S_ .f32 0x00000000#32),
    StableHlo.binary main_v92 main_cst_25 main_v93 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v93 main_v94 (Host.negf : (⟨S_, .f32⟩ : BufTy).Contents (Elt F) → (⟨S_, .f32⟩ : BufTy).Contents (Elt F)),
    StableHlo.nullary main_cst_26 (constant S_ .f32 0x45800000#32),
    StableHlo.binary main_v94 main_cst_26 main_v95 (Host.divf : (⟨S_, .f32⟩ : BufTy).Contents (Elt F) → (⟨S_, .f32⟩ : BufTy).Contents (Elt F) → (⟨S_, .f32⟩ : BufTy).Contents (Elt F)),
    StableHlo.nullary main_cst_27 (constant S_ .f32 0x3F666666#32),
    StableHlo.unary main_cst_27 main_v96 (broadcastInDim S4096x4096 ![] bcast_S_S4096x4096 : (⟨S_, .f32⟩ : BufTy).Contents (Elt F) → (⟨S4096x4096, .f32⟩ : BufTy).Contents (Elt F)),
    StableHlo.binary main_arg9 main_v96 main_v97 (cmpf .ogt : (⟨S4096x4096, .f32⟩ : BufTy).Contents (Elt F) → (⟨S4096x4096, .f32⟩ : BufTy).Contents (Elt F) → (⟨S4096x4096, .i1⟩ : BufTy).Contents (Elt F)),
    StableHlo.unary main_v97 main_v98 (uitofp .f32 : (⟨S4096x4096, .i1⟩ : BufTy).Contents (Elt F) → (⟨S4096x4096, .f32⟩ : BufTy).Contents (Elt F)),
    StableHlo.binary main_v27 main_v98 main_v99 (mulf : (⟨S4096x4096, .f32⟩ : BufTy).Contents (Elt F) → (⟨S4096x4096, .f32⟩ : BufTy).Contents (Elt F) → (⟨S4096x4096, .f32⟩ : BufTy).Contents (Elt F)),
    StableHlo.nullary main_cst_28 (constant S_ .f32 0x00000000#32),
    StableHlo.binary main_v99 main_cst_28 main_v100 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_29 (constant S_ .f32 0x3F800000#32),
    StableHlo.unary main_cst_29 main_v101 (broadcastInDim S4096x4096 ![] bcast_S_S4096x4096 : (⟨S_, .f32⟩ : BufTy).Contents (Elt F) → (⟨S4096x4096, .f32⟩ : BufTy).Contents (Elt F)),
    StableHlo.binary main_v101 main_v98 main_v102 (subf : (⟨S4096x4096, .f32⟩ : BufTy).Contents (Elt F) → (⟨S4096x4096, .f32⟩ : BufTy).Contents (Elt F) → (⟨S4096x4096, .f32⟩ : BufTy).Contents (Elt F)),
    StableHlo.binary main_v27 main_v102 main_v103 (mulf : (⟨S4096x4096, .f32⟩ : BufTy).Contents (Elt F) → (⟨S4096x4096, .f32⟩ : BufTy).Contents (Elt F) → (⟨S4096x4096, .f32⟩ : BufTy).Contents (Elt F)),
    StableHlo.nullary main_cst_30 (constant S_ .f32 0x00000000#32),
    StableHlo.binary main_v103 main_cst_30 main_v104 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.binary main_v100 main_v104 main_v105 (addf : (⟨S4096, .f32⟩ : BufTy).Contents (Elt F) → (⟨S4096, .f32⟩ : BufTy).Contents (Elt F) → (⟨S4096, .f32⟩ : BufTy).Contents (Elt F)),
    StableHlo.binary main_v100 main_v105 main_v106 (Host.divf : (⟨S4096, .f32⟩ : BufTy).Contents (Elt F) → (⟨S4096, .f32⟩ : BufTy).Contents (Elt F) → (⟨S4096, .f32⟩ : BufTy).Contents (Elt F)),
    StableHlo.nullary main_cst_31 (constant S_ .f32 0x00000000#32),
    StableHlo.unary main_cst_31 main_v107 (broadcastInDim S4096 ![] bcast_S_S4096 : (⟨S_, .f32⟩ : BufTy).Contents (Elt F) → (⟨S4096, .f32⟩ : BufTy).Contents (Elt F)),
    StableHlo.binary main_v106 main_v107 main_v108 (cmpf .oeq : (⟨S4096, .f32⟩ : BufTy).Contents (Elt F) → (⟨S4096, .f32⟩ : BufTy).Contents (Elt F) → (⟨S4096, .i1⟩ : BufTy).Contents (Elt F)),
    StableHlo.nullary main_cst_32 (constant S_ .f32 0x3F800000#32) ]

/-- The 3 operations of the call of @_where_1 over the record main_call4 (it makes no call of its own). -/
abbrev w2s1 : List (HloOp τ sig (Elt F)) :=
  [ StableHlo.TRef.unary (.of main_cst_32 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S4096, .f32⟩) (broadcastInDim S4096 ![] bcast_S_S4096),
    StableHlo.TRef.ternary (.of main_v108 : StableHlo.TRef sig ⟨S4096, .i1⟩) (.of main_call4_v1 : StableHlo.TRef sig ⟨S4096, .f32⟩) (.of main_v106 : StableHlo.TRef sig ⟨S4096, .f32⟩) (.of main_v109 : StableHlo.TRef sig ⟨S4096, .f32⟩) select ]

/-- 35 consecutive operations of @main (inside its window of statements 121 … 180): from the one writing main_v110 through the one writing main_v133. -/
abbrev w2s2 : List (HloOp τ sig (Elt F)) :=
  [ StableHlo.unary main_v109 main_v110 (Host.log : (⟨S4096, .f32⟩ : BufTy).Contents (Elt F) → (⟨S4096, .f32⟩ : BufTy).Contents (Elt F)),
    StableHlo.nullary main_cst_33 (constant S_ .f32 0x00000000#32),
    StableHlo.binary main_v110 main_cst_33 main_v111 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v111 main_v112 (Host.negf : (⟨S_, .f32⟩ : BufTy).Contents (Elt F) → (⟨S_, .f32⟩ : BufTy).Contents (Elt F)),
    StableHlo.nullary main_cst_34 (constant S_ .f32 0x45800000#32),
    StableHlo.binary main_v112 main_cst_34 main_v113 (Host.divf : (⟨S_, .f32⟩ : BufTy).Contents (Elt F) → (⟨S_, .f32⟩ : BufTy).Contents (Elt F) → (⟨S_, .f32⟩ : BufTy).Contents (Elt F)),
    StableHlo.nullary main_cst_35 (constant S_ .f32 0x00000000#32),
    StableHlo.unary main_cst_35 main_v114 (broadcastInDim S4096x256 ![] bcast_S_S4096x256 : (⟨S_, .f32⟩ : BufTy).Contents (Elt F) → (⟨S4096x256, .f32⟩ : BufTy).Contents (Elt F)),
    StableHlo.binary main_arg1 main_v114 main_v115 (minimumf : (⟨S4096x256, .f32⟩ : BufTy).Contents (Elt F) → (⟨S4096x256, .f32⟩ : BufTy).Contents (Elt F) → (⟨S4096x256, .f32⟩ : BufTy).Contents (Elt F)),
    StableHlo.binary main_v115 main_v115 main_v116 (mulf : (⟨S4096x256, .f32⟩ : BufTy).Contents (Elt F) → (⟨S4096x256, .f32⟩ : BufTy).Contents (Elt F) → (⟨S4096x256, .f32⟩ : BufTy).Contents (Elt F)),
    StableHlo.nullary main_cst_36 (constant S_ .f32 0x00000000#32),
    StableHlo.binary main_v116 main_cst_36 main_v117 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.nullary main_cst_37 (constant S_ .f32 0x00000000#32),
    StableHlo.binary main_cst_37 main_v117 main_v118 (addf : (⟨S_, .f32⟩ : BufTy).Contents (Elt F) → (⟨S_, .f32⟩ : BufTy).Contents (Elt F) → (⟨S_, .f32⟩ : BufTy).Contents (Elt F)),
    StableHlo.nullary main_cst_38 (constant S_ .f32 0x00000000#32),
    StableHlo.unary main_cst_38 main_v119 (broadcastInDim S256x128 ![] bcast_S_S256x128 : (⟨S_, .f32⟩ : BufTy).Contents (Elt F) → (⟨S256x128, .f32⟩ : BufTy).Contents (Elt F)),
    StableHlo.binary main_arg2 main_v119 main_v120 (minimumf : (⟨S256x128, .f32⟩ : BufTy).Contents (Elt F) → (⟨S256x128, .f32⟩ : BufTy).Contents (Elt F) → (⟨S256x128, .f32⟩ : BufTy).Contents (Elt F)),
    StableHlo.binary main_v120 main_v120 main_v121 (mulf : (⟨S256x128, .f32⟩ : BufTy).Contents (Elt F) → (⟨S256x128, .f32⟩ : BufTy).Contents (Elt F) → (⟨S256x128, .f32⟩ : BufTy).Contents (Elt F)),
    StableHlo.nullary main_cst_39 (constant S_ .f32 0x00000000#32),
    StableHlo.binary main_v121 main_cst_39 main_v122 ((fun x v => Host.reduceAdd x v reducesTo_S256x128_S_d0_1 h_S_) : (⟨S256x128, .f32⟩ : BufTy).Contents (Elt F) → (⟨S_, .f32⟩ : BufTy).Contents (Elt F) → (⟨S_, .f32⟩ : BufTy).Contents (Elt F)),
    StableHlo.binary main_v118 main_v122 main_v123 (addf : (⟨S_, .f32⟩ : BufTy).Contents (Elt F) → (⟨S_, .f32⟩ : BufTy).Contents (Elt F) → (⟨S_, .f32⟩ : BufTy).Contents (Elt F)),
    StableHlo.nullary main_cst_40 (constant S_ .f32 0x00000000#32),
    StableHlo.unary main_cst_40 main_v124 (broadcastInDim S128x64 ![] bcast_S_S128x64 : (⟨S_, .f32⟩ : BufTy).Contents (Elt F) → (⟨S128x64, .f32⟩ : BufTy).Contents (Elt F)),
    StableHlo.binary main_arg3 main_v124 main_v125 (minimumf : (⟨S128x64, .f32⟩ : BufTy).Contents (Elt F) → (⟨S128x64, .f32⟩ : BufTy).Contents (Elt F) → (⟨S128x64, .f32⟩ : BufTy).Contents (Elt F)),
    StableHlo.binary main_v125 main_v125 main_v126 (mulf : (⟨S128x64, .f32⟩ : BufTy).Contents (Elt F) → (⟨S128x64, .f32⟩ : BufTy).Contents (Elt F) → (⟨S128x64, .f32⟩ : BufTy).Contents (Elt F)),
    StableHlo.nullary main_cst_41 (constant S_ .f32 0x00000000#32),
    StableHlo.binary main_v126 main_cst_41 main_v127 ((fun x v => Host.reduceAdd x v reducesTo_S128x64_S_d0_1 h_S_) : (⟨S128x64, .f32⟩ : BufTy).Contents (Elt F) → (⟨S_, .f32⟩ : BufTy).Contents (Elt F) → (⟨S_, .f32⟩ : BufTy).Contents (Elt F)),
    StableHlo.binary main_v123 main_v127 main_v128 (addf : (⟨S_, .f32⟩ : BufTy).Contents (Elt F) → (⟨S_, .f32⟩ : BufTy).Contents (Elt F) → (⟨S_, .f32⟩ : BufTy).Contents (Elt F)),
    StableHlo.nullary main_cst_42 (constant S_ .f32 0x00000000#32),
    StableHlo.unary main_cst_42 main_v129 (broadcastInDim S64x4096 ![] bcast_S_S64x4096 : (⟨S_, .f32⟩ : BufTy).Contents (Elt F) → (⟨S64x4096, .f32⟩ : BufTy).Contents (Elt F)),
    StableHlo.binary main_arg4 main_v129 main_v130 (minimumf : (⟨S64x4096, .f32⟩ : BufTy).Contents (Elt F) → (⟨S64x4096, .f32⟩ : BufTy).Contents (Elt F) → (⟨S64x4096, .f32⟩ : BufTy).Contents (Elt F)),
    StableHlo.binary main_v130 main_v130 main_v131 (mulf : (⟨S64x4096, .f32⟩ : BufTy).Contents (Elt F) → (⟨S64x4096, .f32⟩ : BufTy).Contents (Elt F) → (⟨S64x4096, .f32⟩ : BufTy).Contents (Elt F)),
    StableHlo.nullary main_cst_43 (constant S_ .f32 0x00000000#32),
    StableHlo.binary main_v131 main_cst_43 main_v132 ((fun x v => Host.reduceAdd x v reducesTo_S64x4096_S_d0_1 h_S_) : (⟨S64x4096, .f32⟩ : BufTy).Contents (Elt F) → (⟨S_, .f32⟩ : BufTy).Contents (Elt F) → (⟨S_, .f32⟩ : BufTy).Contents (Elt F)),
    StableHlo.binary main_v128 main_v132 main_v133 (addf : (⟨S_, .f32⟩ : BufTy).Contents (Elt F) → (⟨S_, .f32⟩ : BufTy).Contents (Elt F) → (⟨S_, .f32⟩ : BufTy).Contents (Elt F)) ]

/-- 21 consecutive operations of @main (inside its window of statements 181 … 202): from the one writing main_cst_44 through the one writing main_v149. -/
abbrev w3s0 : List (HloOp τ sig (Elt F)) :=
  [ StableHlo.nullary main_cst_44 (constant S_ .f32 0x3F800000#32),
    StableHlo.binary main_cst_44 main_v5 main_v134 (mulf : (⟨S_, .f32⟩ : BufTy).Contents (Elt F) → (⟨S_, .f32⟩ : BufTy).Contents (Elt F) → (⟨S_, .f32⟩ : BufTy).Contents (Elt F)),
    StableHlo.nullary main_cst_45 (constant S_ .f32 0x3DCCCCCD#32),
    StableHlo.binary main_cst_45 main_v61 main_v135 (mulf : (⟨S_, .f32⟩ : BufTy).Contents (Elt F) → (⟨S_, .f32⟩ : BufTy).Contents (Elt F) → (⟨S_, .f32⟩ : BufTy).Contents (Elt F)),
    StableHlo.binary main_v134 main_v135 main_v136 (addf : (⟨S_, .f32⟩ : BufTy).Contents (Elt F) → (⟨S_, .f32⟩ : BufTy).Contents (Elt F) → (⟨S_, .f32⟩ : BufTy).Contents (Elt F)),
    StableHlo.nullary main_cst_46 (constant S_ .f32 0x3DCCCCCD#32),
    StableHlo.binary main_cst_46 main_v95 main_v137 (mulf : (⟨S_, .f32⟩ : BufTy).Contents (Elt F) → (⟨S_, .f32⟩ : BufTy).Contents (Elt F) → (⟨S_, .f32⟩ : BufTy).Contents (Elt F)),
    StableHlo.binary main_v136 main_v137 main_v138 (addf : (⟨S_, .f32⟩ : BufTy).Contents (Elt F) → (⟨S_, .f32⟩ : BufTy).Contents (Elt F) → (⟨S_, .f32⟩ : BufTy).Contents (Elt F)),
    StableHlo.nullary main_cst_47 (constant S_ .f32 0x3DCCCCCD#32),
    StableHlo.binary main_cst_47 main_v113 main_v139 (mulf : (⟨S_, .f32⟩ : BufTy).Contents (Elt F) → (⟨S_, .f32⟩ : BufTy).Contents (Elt F) → (⟨S_, .f32⟩ : BufTy).Contents (Elt F)),
    StableHlo.binary main_v138 main_v139 main_v140 (addf : (⟨S_, .f32⟩ : BufTy).Contents (Elt F) → (⟨S_, .f32⟩ : BufTy).Contents (Elt F) → (⟨S_, .f32⟩ : BufTy).Contents (Elt F)),
    StableHlo.nullary main_cst_48 (constant S_ .f32 0x3F800000#32),
    StableHlo.binary main_cst_48 main_v133 main_v141 (mulf : (⟨S_, .f32⟩ : BufTy).Contents (Elt F) → (⟨S_, .f32⟩ : BufTy).Contents (Elt F) → (⟨S_, .f32⟩ : BufTy).Contents (Elt F)),
    StableHlo.binary main_v140 main_v141 main_v142 (addf : (⟨S_, .f32⟩ : BufTy).Contents (Elt F) → (⟨S_, .f32⟩ : BufTy).Contents (Elt F) → (⟨S_, .f32⟩ : BufTy).Contents (Elt F)),
    StableHlo.unary main_v142 main_v143 (broadcastInDim S1 ![] bcast_S_S1 : (⟨S_, .f32⟩ : BufTy).Contents (Elt F) → (⟨S1, .f32⟩ : BufTy).Contents (Elt F)),
    StableHlo.unary main_v5 main_v144 (broadcastInDim S1 ![] bcast_S_S1 : (⟨S_, .f32⟩ : BufTy).Contents (Elt F) → (⟨S1, .f32⟩ : BufTy).Contents (Elt F)),
    StableHlo.unary main_v61 main_v145 (broadcastInDim S1 ![] bcast_S_S1 : (⟨S_, .f32⟩ : BufTy).Contents (Elt F) → (⟨S1, .f32⟩ : BufTy).Contents (Elt F)),
    StableHlo.unary main_v95 main_v146 (broadcastInDim S1 ![] bcast_S_S1 : (⟨S_, .f32⟩ : BufTy).Contents (Elt F) → (⟨S1, .f32⟩ : BufTy).Contents (Elt F)),
    StableHlo.unary main_v113 main_v147 (broadcastInDim S1 ![] bcast_S_S1 : (⟨S_, .f32⟩ : BufTy).Contents (Elt F) → (⟨S1, .f32⟩ : BufTy).Contents (Elt F)),
    StableHlo.unary main_v133 main_v148 (broadcastInDim S1 ![] bcast_S_S1 : (⟨S_, .f32⟩ : BufTy).Contents (Elt F) → (⟨S1, .f32⟩ : BufTy).Contents (Elt F)),
    StableHlo.nary ![main_v143, main_v144, main_v145, main_v146, main_v147, main_v148] main_v149 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]

/-! ## Each window is the chain of its stretches -/

/-- Statements 1 … 60: thirteen operations, @elu's call, five operations, @norm's call, forty operations; the last stretch in
    tail position. Both sides unfold to the same nest of `hlo` steps. -/
theorem part0_eq (c : Dev nD) : main_part0 (F := F) c = (Pipeline.chainK
  [ StableHlo.seq w0s0, StableHlo.seq w0s1, StableHlo.seq w0s2, StableHlo.seq w0s3 ]
  (StableHlo.seq w0s4) : Prog (TpuEff nD τ sig (Elt F) (Pipeline.Sig Λ₀ (Fin 0) fun p => (pcfgs (F := F) p).Adm) .tc) PUnit) := by
  chain_rfl

/-- Statements 61 … 120, likewise: two calls of @_where_1. -/
theorem part1_eq (c : Dev nD) : main_part1 (F := F) c = (Pipeline.chainK
  [ StableHlo.seq w1s0, StableHlo.seq w1s1, StableHlo.seq w1s2, StableHlo.seq w1s3 ]
  (StableHlo.seq w1s4) : Prog (TpuEff nD τ sig (Elt F) (Pipeline.Sig Λ₀ (Fin 0) fun p => (pcfgs (F := F) p).Adm) .tc) PUnit) := by
  chain_rfl

/-- Statements 121 … 180, likewise: one call of @_where_1. -/
theorem part2_eq (c : Dev nD) : main_part2 (F := F) c = (Pipeline.chainK
  [ StableHlo.seq w2s0, StableHlo.seq w2s1 ]
  (StableHlo.seq w2s2) : Prog (TpuEff nD τ sig (Elt F) (Pipeline.Sig Λ₀ (Fin 0) fun p => (pcfgs (F := F) p).Adm) .tc) PUnit) := by
  chain_rfl

/-- Statements 181 … 202: the last window ends in the return. -/
theorem part3_eq (c : Dev nD) : main_part3 (F := F) c = (Pipeline.chain
  [ StableHlo.seq w3s0 ] : Prog (TpuEff nD τ sig (Elt F) (Pipeline.Sig Λ₀ (Fin 0) fun p => (pcfgs (F := F) p).Adm) .tc) PUnit) := by
  chain_rfl

/-- @main is the chain of all fourteen stretches: the last window's chain, then each earlier window bound in front of it. -/
theorem main_chain (c : Dev nD) : main (F := F) c = (Pipeline.chain
  [ StableHlo.seq w0s0, StableHlo.seq w0s1, StableHlo.seq w0s2, StableHlo.seq w0s3, StableHlo.seq w0s4, StableHlo.seq w1s0, StableHlo.seq w1s1, StableHlo.seq w1s2, StableHlo.seq w1s3, StableHlo.seq w1s4, StableHlo.seq w2s0, StableHlo.seq w2s1, StableHlo.seq w2s2, StableHlo.seq w3s0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [part3_eq, part2_eq, Pipeline.chainK_bind_chain, part1_eq, Pipeline.chainK_bind_chain, part0_eq, Pipeline.chainK_bind_chain]
  rfl

/-! ## The whole list -/

/-- @main's operations in program order, every call's operations standing in the call's place. -/
abbrev ops : List (HloOp τ sig (Elt F)) :=
  [ StableHlo.binary main_arg1 main_arg2 main_v0 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    StableHlo.binary main_v0 main_arg3 main_v1 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    StableHlo.binary main_v1 main_arg4 main_v2 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)),
    StableHlo.binary main_arg0 main_v2 main_v3 (subf : (⟨S4096x4096, .f32⟩ : BufTy).Contents (Elt F) → (⟨S4096x4096, .f32⟩ : BufTy).Contents (Elt F) → (⟨S4096x4096, .f32⟩ : BufTy).Contents (Elt F)),
    StableHlo.binary main_v3 main_v3 main_v4 (mulf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x00000000#32),
    StableHlo.binary main_v4 main_cst main_v5 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.unary main_arg4 main_v6 ((transpose S4096x64 [1, 0] · transposes_S64x4096_S4096x64_1_0) : (⟨S64x4096, .f32⟩ : BufTy).Contents (Elt F) → (⟨S4096x64, .f32⟩ : BufTy).Contents (Elt F)),
    StableHlo.unary main_arg5 main_v7 ((transpose S64x128 [1, 0] · transposes_S128x64_S64x128_1_0) : (⟨S128x64, .f32⟩ : BufTy).Contents (Elt F) → (⟨S64x128, .f32⟩ : BufTy).Contents (Elt F)),
    StableHlo.binary main_v6 main_v7 main_v8 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    StableHlo.unary main_arg6 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S4096x128 ![0, 1] bcast_S1x128_S4096x128_0_1 : (⟨S1x128, .f32⟩ : BufTy).Contents (Elt F) → (⟨S4096x128, .f32⟩ : BufTy).Contents (Elt F)),
    StableHlo.binary main_v8 main_v10 main_v11 (addf : (⟨S4096x128, .f32⟩ : BufTy).Contents (Elt F) → (⟨S4096x128, .f32⟩ : BufTy).Contents (Elt F) → (⟨S4096x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S4096x128, .f32⟩) (broadcastInDim S4096x128 ![] bcast_S_S4096x128),
    StableHlo.TRef.binary (.of main_v11 : StableHlo.TRef sig ⟨S4096x128, .f32⟩) (.of main_call0_v0 : StableHlo.TRef sig ⟨S4096x128, .f32⟩) (.of main_call0_v1 : StableHlo.TRef sig ⟨S4096x128, .i1⟩) (cmpf .ogt),
    StableHlo.TRef.nullary (.of main_call0_cst_0 : StableHlo.TRef sig ⟨S_, .f32⟩) (constant S_ .f32 0x00000000#32),
    StableHlo.TRef.unary (.of main_call0_cst_0 : StableHlo.TRef sig ⟨S_, .f32⟩) (.of main_call0_v2 : StableHlo.TRef sig ⟨S4096x128, .f32⟩) (broadcastInDim S4096x128 ![] bcast_S_S4096x128),
    StableHlo.TRef.binary (.of main_v11 : StableHlo.TRef sig ⟨S4096x128, .f32⟩) (.of main_call0_v2 : StableHlo.TRef sig ⟨S4096x128, .f32⟩) (.of main_call0_v3 : StableHlo.TRef sig ⟨S4096x128, .i1⟩) (cmpf .ogt),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S4096x128, .f32⟩) (broadcastInDim S4096x128 ![] bcast_S_S4096x128),
    StableHlo.TRef.ternary (.of main_call0_v3 : StableHlo.TRef sig ⟨S4096x128, .i1⟩) (.of main_call0_call0_v1 : StableHlo.TRef sig ⟨S4096x128, .f32⟩) (.of main_v11 : StableHlo.TRef sig ⟨S4096x128, .f32⟩) (.of main_call0_v4 : StableHlo.TRef sig ⟨S4096x128, .f32⟩) select,
    StableHlo.TRef.unary (.of main_call0_v4 : StableHlo.TRef sig ⟨S4096x128, .f32⟩) (.of main_call0_v5 : StableHlo.TRef sig ⟨S4096x128, .f32⟩) Host.expm1,
    StableHlo.TRef.nullary (.of main_call0_cst_2 : StableHlo.TRef sig ⟨S_, .f32⟩) (constant S_ .f32 0x3F800000#32),
    StableHlo.TRef.unary (.of main_call0_cst_2 : StableHlo.TRef sig ⟨S_, .f32⟩) (.of main_call0_v6 : StableHlo.TRef sig ⟨S4096x128, .f32⟩) (broadcastInDim S4096x128 ![] bcast_S_S4096x128),
    StableHlo.TRef.binary (.of main_call0_v6 : StableHlo.TRef sig ⟨S4096x128, .f32⟩) (.of main_call0_v5 : StableHlo.TRef sig ⟨S4096x128, .f32⟩) (.of main_call0_v7 : StableHlo.TRef sig ⟨S4096x128, .f32⟩) mulf,
    StableHlo.TRef.ternary (.of main_call0_v1 : StableHlo.TRef sig ⟨S4096x128, .i1⟩) (.of main_v11 : StableHlo.TRef sig ⟨S4096x128, .f32⟩) (.of main_call0_v7 : StableHlo.TRef sig ⟨S4096x128, .f32⟩) (.of main_v12 : StableHlo.TRef sig ⟨S4096x128, .f32⟩) select,
    StableHlo.unary main_arg7 main_v13 ((transpose S128x256 [1, 0] · transposes_S256x128_S128x256_1_0) : (⟨S256x128, .f32⟩ : BufTy).Contents (Elt F) → (⟨S128x256, .f32⟩ : BufTy).Contents (Elt F)),
    StableHlo.binary main_v12 main_v13 main_v14 ((fun l r => Host.dotGeneral dot_S4096x128_S128x256_S4096x256_1_0_0_1_n_n none l r) : (⟨S4096x128, .f32⟩ : BufTy).Contents (Elt F) → (⟨S128x256, .f32⟩ : BufTy).Contents (Elt F) → (⟨S4096x256, .f32⟩ : BufTy).Contents (Elt F)),
    StableHlo.unary main_arg8 main_v15 (broadcastInDim S1x256 ![1] bcast_S256_S1x256_1 : (⟨S256, .f32⟩ : BufTy).Contents (Elt F) → (⟨S1x256, .f32⟩ : BufTy).Contents (Elt F)),
    StableHlo.unary main_v15 main_v16 (broadcastInDim S4096x256 ![0, 1] bcast_S1x256_S4096x256_0_1 : (⟨S1x256, .f32⟩ : BufTy).Contents (Elt F) → (⟨S4096x256, .f32⟩ : BufTy).Contents (Elt F)),
    StableHlo.binary main_v14 main_v16 main_v17 (addf : (⟨S4096x256, .f32⟩ : BufTy).Contents (Elt F) → (⟨S4096x256, .f32⟩ : BufTy).Contents (Elt F) → (⟨S4096x256, .f32⟩ : BufTy).Contents (Elt F)),
    StableHlo.TRef.binary (.of main_v17 : StableHlo.TRef sig ⟨S4096x256, .f32⟩) (.of main_v17 : StableHlo.TRef sig ⟨S4096x256, .f32⟩) (.of main_call1_v0 : StableHlo.TRef sig ⟨S4096x256, .f32⟩) mulf,
    StableHlo.TRef.nullary (.of main_call1_cst : StableHlo.TRef sig ⟨S_, .f32⟩) (constant S_ .f32 0x00000000#32),
    StableHlo.TRef.binary (.of main_call1_v0 : StableHlo.TRef sig ⟨S4096x256, .f32⟩) (.of main_call1_cst : StableHlo.TRef sig ⟨S_, .f32⟩) (.of main_call1_v1 : StableHlo.TRef sig ⟨S4096, .f32⟩) (fun x v => Host.reduceAdd x v reducesTo_S4096x256_S4096_d1 h_S_),
    StableHlo.TRef.unary (.of main_call1_v1 : StableHlo.TRef sig ⟨S4096, .f32⟩) (.of main_call1_v2 : StableHlo.TRef sig ⟨S4096x1, .f32⟩) (broadcastInDim S4096x1 ![0] bcast_S4096_S4096x1_0),
    StableHlo.TRef.unary (.of main_call1_v2 : StableHlo.TRef sig ⟨S4096x1, .f32⟩) (.of main_v18 : StableHlo.TRef sig ⟨S4096x1, .f32⟩) Host.sqrt,
    StableHlo.nullary main_cst_0 (constant S_ .f32 0x2B8CBCCC#32),
    StableHlo.unary main_cst_0 main_v19 (broadcastInDim S4096x1 ![] bcast_S_S4096x1 : (⟨S_, .f32⟩ : BufTy).Contents (Elt F) → (⟨S4096x1, .f32⟩ : BufTy).Contents (Elt F)),
    StableHlo.binary main_v18 main_v19 main_v20 (maximumf : (⟨S4096x1, .f32⟩ : BufTy).Contents (Elt F) → (⟨S4096x1, .f32⟩ : BufTy).Contents (Elt F) → (⟨S4096x1, .f32⟩ : BufTy).Contents (Elt F)),
    StableHlo.unary main_v20 main_v21 (broadcastInDim S4096x256 ![0, 1] bcast_S4096x1_S4096x256_0_1 : (⟨S4096x1, .f32⟩ : BufTy).Contents (Elt F) → (⟨S4096x256, .f32⟩ : BufTy).Contents (Elt F)),
    StableHlo.binary main_v17 main_v21 main_v22 (Host.divf : (⟨S4096x256, .f32⟩ : BufTy).Contents (Elt F) → (⟨S4096x256, .f32⟩ : BufTy).Contents (Elt F) → (⟨S4096x256, .f32⟩ : BufTy).Contents (Elt F)),
    StableHlo.unary main_v22 main_v23 ((transpose S256x4096 [1, 0] · transposes_S4096x256_S256x4096_1_0) : (⟨S4096x256, .f32⟩ : BufTy).Contents (Elt F) → (⟨S256x4096, .f32⟩ : BufTy).Contents (Elt F)),
    StableHlo.binary main_v22 main_v23 main_v24 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    StableHlo.nullary main_cst_1 (constant S_ .f32 0x3F000000#32),
    StableHlo.unary main_cst_1 main_v25 (broadcastInDim S4096x4096 ![] bcast_S_S4096x4096 : (⟨S_, .f32⟩ : BufTy).Contents (Elt F) → (⟨S4096x4096, .f32⟩ : BufTy).Contents (Elt F)),
    StableHlo.binary main_v24 main_v25 main_v26 (Host.divf : (⟨S4096x4096, .f32⟩ : BufTy).Contents (Elt F) → (⟨S4096x4096, .f32⟩ : BufTy).Contents (Elt F) → (⟨S4096x4096, .f32⟩ : BufTy).Contents (Elt F)),
    StableHlo.unary main_v26 main_v27 (Host.exp : (⟨S4096x4096, .f32⟩ : BufTy).Contents (Elt F) → (⟨S4096x4096, .f32⟩ : BufTy).Contents (Elt F)),
    StableHlo.nullary main_v28 (iotaInDim S4096 32 0),
    StableHlo.unary main_v28 main_v29 (broadcastInDim S4096x1 ![0] bcast_S4096_S4096x1_0 : (⟨S4096, .i32⟩ : BufTy).Contents (Elt F) → (⟨S4096x1, .i32⟩ : BufTy).Contents (Elt F)),
    StableHlo.nullary main_cst_2 (constant S_ .f32 0x00000000#32),
    StableHlo.unary main_cst_2 main_v30 (broadcastInDim S4096x4096 ![] bcast_S_S4096x4096 : (⟨S_, .f32⟩ : BufTy).Contents (Elt F) → (⟨S4096x4096, .f32⟩ : BufTy).Contents (Elt F)),
    StableHlo.nullary main_c (constantI S_ 32 0#32),
    StableHlo.unary main_c main_v31 (broadcastInDim S4096x1 ![] bcast_S_S4096x1 : (⟨S_, .i32⟩ : BufTy).Contents (Elt F) → (⟨S4096x1, .i32⟩ : BufTy).Contents (Elt F)),
    StableHlo.binary main_v29 main_v31 main_v32 (cmpi .slt : (⟨S4096x1, .i32⟩ : BufTy).Contents (Elt F) → (⟨S4096x1, .i32⟩ : BufTy).Contents (Elt F) → (⟨S4096x1, .i1⟩ : BufTy).Contents (Elt F)),
    StableHlo.nullary main_c_3 (constantI S_ 32 4096#32),
    StableHlo.unary main_c_3 main_v33 (broadcastInDim S4096x1 ![] bcast_S_S4096x1 : (⟨S_, .i32⟩ : BufTy).Contents (Elt F) → (⟨S4096x1, .i32⟩ : BufTy).Contents (Elt F)),
    StableHlo.binary main_v29 main_v33 main_v34 (addi : (⟨S4096x1, .i32⟩ : BufTy).Contents (Elt F) → (⟨S4096x1, .i32⟩ : BufTy).Contents (Elt F) → (⟨S4096x1, .i32⟩ : BufTy).Contents (Elt F)),
    StableHlo.ternary main_v32 main_v34 main_v29 main_v35 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_4 (constantI S_ 32 0#32),
    StableHlo.unary main_c_4 main_v36 (broadcastInDim S4096x8 ![] bcast_S_S4096x8 : (⟨S_, .i32⟩ : BufTy).Contents (Elt F) → (⟨S4096x8, .i32⟩ : BufTy).Contents (Elt F)),
    StableHlo.binary main_arg10 main_v36 main_v37 (cmpi .slt : (⟨S4096x8, .i32⟩ : BufTy).Contents (Elt F) → (⟨S4096x8, .i32⟩ : BufTy).Contents (Elt F) → (⟨S4096x8, .i1⟩ : BufTy).Contents (Elt F)),
    StableHlo.nullary main_c_5 (constantI S_ 32 4096#32),
    StableHlo.unary main_c_5 main_v38 (broadcastInDim S4096x8 ![] bcast_S_S4096x8 : (⟨S_, .i32⟩ : BufTy).Contents (Elt F) → (⟨S4096x8, .i32⟩ : BufTy).Contents (Elt F)),
    StableHlo.binary main_arg10 main_v38 main_v39 (addi : (⟨S4096x8, .i32⟩ : BufTy).Contents (Elt F) → (⟨S4096x8, .i32⟩ : BufTy).Contents (Elt F) → (⟨S4096x8, .i32⟩ : BufTy).Contents (Elt F)),
    StableHlo.ternary main_v37 main_v39 main_arg10 main_v40 (select : (⟨S4096x8, .i1⟩ : BufTy).Contents (Elt F) → (⟨S4096x8, .i32⟩ : BufTy).Contents (Elt F) → (⟨S4096x8, .i32⟩ : BufTy).Contents (Elt F) → (⟨S4096x8, .i32⟩ : BufTy).Contents (Elt F)),
    StableHlo.unary main_v35 main_v41 (broadcastInDim S4096x8 ![0, 1] bcast_S4096x1_S4096x8_0_1 : (⟨S4096x1, .i32⟩ : BufTy).Contents (Elt F) → (⟨S4096x8, .i32⟩ : BufTy).Contents (Elt F)),
    StableHlo.unary main_v41 main_v42 (broadcastInDim S4096x8x1 ![0, 1] bcast_S4096x8_S4096x8x1_0_1 : (⟨S4096x8, .i32⟩ : BufTy).Contents (Elt F) → (⟨S4096x8x1, .i32⟩ : BufTy).Contents (Elt F)),
    StableHlo.unary main_v40 main_v43 (broadcastInDim S4096x8x1 ![0, 1] bcast_S4096x8_S4096x8x1_0_1 : (⟨S4096x8, .i32⟩ : BufTy).Contents (Elt F) → (⟨S4096x8x1, .i32⟩ : BufTy).Contents (Elt F)),
    StableHlo.binary main_v42 main_v43 main_v44 ((fun a b => concatenate S4096x8x2 2 [⟨S4096x8x1, a⟩, ⟨S4096x8x1, b⟩] concatenates_S4096x8x1_S4096x8x1_S4096x8x2_d2) : (⟨S4096x8x1, .i32⟩ : BufTy).Contents (Elt F) → (⟨S4096x8x1, .i32⟩ : BufTy).Contents (Elt F) → (⟨S4096x8x2, .i32⟩ : BufTy).Contents (Elt F)),
    StableHlo.nullary main_cst_6 (constant S_ .f32 0x3F800000#32),
    StableHlo.unary main_cst_6 main_v45 (broadcastInDim S4096x8 ![] bcast_S_S4096x8 : (⟨S_, .f32⟩ : BufTy).Contents (Elt F) → (⟨S4096x8, .f32⟩ : BufTy).Contents (Elt F)),
    StableHlo.ternary main_v30 main_v44 main_v45 main_v46 ((fun x i u => Host.scatter scatter_S4096x4096_S4096x8x2_S4096x8_n_01_01_2 (fun _ b => b) x i u) : (⟨S4096x4096, .f32⟩ : BufTy).Contents (Elt F) → (⟨S4096x8x2, .i32⟩ : BufTy).Contents (Elt F) → (⟨S4096x8, .f32⟩ : BufTy).Contents (Elt F) → (⟨S4096x4096, .f32⟩ : BufTy).Contents (Elt F)),
    StableHlo.binary main_v27 main_v46 main_v47 (mulf : (⟨S4096x4096, .f32⟩ : BufTy).Contents (Elt F) → (⟨S4096x4096, .f32⟩ : BufTy).Contents (Elt F) → (⟨S4096x4096, .f32⟩ : BufTy).Contents (Elt F)),
    StableHlo.nullary main_cst_7 (constant S_ .f32 0x00000000#32),
    StableHlo.binary main_v47 main_cst_7 main_v48 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_8 (constant S_ .f32 0x3F800000#32),
    StableHlo.unary main_cst_8 main_v49 (broadcastInDim S4096x4096 ![] bcast_S_S4096x4096 : (⟨S_, .f32⟩ : BufTy).Contents (Elt F) → (⟨S4096x4096, .f32⟩ : BufTy).Contents (Elt F)),
    StableHlo.binary main_v49 main_v46 main_v50 (subf : (⟨S4096x4096, .f32⟩ : BufTy).Contents (Elt F) → (⟨S4096x4096, .f32⟩ : BufTy).Contents (Elt F) → (⟨S4096x4096, .f32⟩ : BufTy).Contents (Elt F)),
    StableHlo.binary main_v27 main_v50 main_v51 (mulf : (⟨S4096x4096, .f32⟩ : BufTy).Contents (Elt F) → (⟨S4096x4096, .f32⟩ : BufTy).Contents (Elt F) → (⟨S4096x4096, .f32⟩ : BufTy).Contents (Elt F)),
    StableHlo.nullary main_cst_9 (constant S_ .f32 0x00000000#32),
    StableHlo.binary main_v51 main_cst_9 main_v52 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.binary main_v48 main_v52 main_v53 (addf : (⟨S4096, .f32⟩ : BufTy).Contents (Elt F) → (⟨S4096, .f32⟩ : BufTy).Contents (Elt F) → (⟨S4096, .f32⟩ : BufTy).Contents (Elt F)),
    StableHlo.binary main_v48 main_v53 main_v54 (Host.divf : (⟨S4096, .f32⟩ : BufTy).Contents (Elt F) → (⟨S4096, .f32⟩ : BufTy).Contents (Elt F) → (⟨S4096, .f32⟩ : BufTy).Contents (Elt F)),
    StableHlo.nullary main_cst_10 (constant S_ .f32 0x00000000#32),
    StableHlo.unary main_cst_10 main_v55 (broadcastInDim S4096 ![] bcast_S_S4096 : (⟨S_, .f32⟩ : BufTy).Contents (Elt F) → (⟨S4096, .f32⟩ : BufTy).Contents (Elt F)),
    StableHlo.binary main_v54 main_v55 main_v56 (cmpf .oeq : (⟨S4096, .f32⟩ : BufTy).Contents (Elt F) → (⟨S4096, .f32⟩ : BufTy).Contents (Elt F) → (⟨S4096, .i1⟩ : BufTy).Contents (Elt F)),
    StableHlo.nullary main_cst_11 (constant S_ .f32 0x3F800000#32),
    StableHlo.TRef.unary (.of main_cst_11 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S4096, .f32⟩) (broadcastInDim S4096 ![] bcast_S_S4096),
    StableHlo.TRef.ternary (.of main_v56 : StableHlo.TRef sig ⟨S4096, .i1⟩) (.of main_call2_v1 : StableHlo.TRef sig ⟨S4096, .f32⟩) (.of main_v54 : StableHlo.TRef sig ⟨S4096, .f32⟩) (.of main_v57 : StableHlo.TRef sig ⟨S4096, .f32⟩) select,
    StableHlo.unary main_v57 main_v58 (Host.log : (⟨S4096, .f32⟩ : BufTy).Contents (Elt F) → (⟨S4096, .f32⟩ : BufTy).Contents (Elt F)),
    StableHlo.nullary main_cst_12 (constant S_ .f32 0x00000000#32),
    StableHlo.binary main_v58 main_cst_12 main_v59 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v59 main_v60 (Host.negf : (⟨S_, .f32⟩ : BufTy).Contents (Elt F) → (⟨S_, .f32⟩ : BufTy).Contents (Elt F)),
    StableHlo.nullary main_cst_13 (constant S_ .f32 0x45800000#32),
    StableHlo.binary main_v60 main_cst_13 main_v61 (Host.divf : (⟨S_, .f32⟩ : BufTy).Contents (Elt F) → (⟨S_, .f32⟩ : BufTy).Contents (Elt F) → (⟨S_, .f32⟩ : BufTy).Contents (Elt F)),
    StableHlo.nullary main_v62 (iotaInDim S4096 32 0),
    StableHlo.unary main_v62 main_v63 (broadcastInDim S4096x1 ![0] bcast_S4096_S4096x1_0 : (⟨S4096, .i32⟩ : BufTy).Contents (Elt F) → (⟨S4096x1, .i32⟩ : BufTy).Contents (Elt F)),
    StableHlo.nullary main_cst_14 (constant S_ .f32 0x00000000#32),
    StableHlo.unary main_cst_14 main_v64 (broadcastInDim S4096x4096 ![] bcast_S_S4096x4096 : (⟨S_, .f32⟩ : BufTy).Contents (Elt F) → (⟨S4096x4096, .f32⟩ : BufTy).Contents (Elt F)),
    StableHlo.nullary main_c_15 (constantI S_ 32 0#32),
    StableHlo.unary main_c_15 main_v65 (broadcastInDim S4096x1 ![] bcast_S_S4096x1 : (⟨S_, .i32⟩ : BufTy).Contents (Elt F) → (⟨S4096x1, .i32⟩ : BufTy).Contents (Elt F)),
    StableHlo.binary main_v63 main_v65 main_v66 (cmpi .slt : (⟨S4096x1, .i32⟩ : BufTy).Contents (Elt F) → (⟨S4096x1, .i32⟩ : BufTy).Contents (Elt F) → (⟨S4096x1, .i1⟩ : BufTy).Contents (Elt F)),
    StableHlo.nullary main_c_16 (constantI S_ 32 4096#32),
    StableHlo.unary main_c_16 main_v67 (broadcastInDim S4096x1 ![] bcast_S_S4096x1 : (⟨S_, .i32⟩ : BufTy).Contents (Elt F) → (⟨S4096x1, .i32⟩ : BufTy).Contents (Elt F)),
    StableHlo.binary main_v63 main_v67 main_v68 (addi : (⟨S4096x1, .i32⟩ : BufTy).Contents (Elt F) → (⟨S4096x1, .i32⟩ : BufTy).Contents (Elt F) → (⟨S4096x1, .i32⟩ : BufTy).Contents (Elt F)),
    StableHlo.ternary main_v66 main_v68 main_v63 main_v69 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_17 (constantI S_ 32 0#32),
    StableHlo.unary main_c_17 main_v70 (broadcastInDim S4096x16 ![] bcast_S_S4096x16 : (⟨S_, .i32⟩ : BufTy).Contents (Elt F) → (⟨S4096x16, .i32⟩ : BufTy).Contents (Elt F)),
    StableHlo.binary main_arg11 main_v70 main_v71 (cmpi .slt : (⟨S4096x16, .i32⟩ : BufTy).Contents (Elt F) → (⟨S4096x16, .i32⟩ : BufTy).Contents (Elt F) → (⟨S4096x16, .i1⟩ : BufTy).Contents (Elt F)),
    StableHlo.nullary main_c_18 (constantI S_ 32 4096#32),
    StableHlo.unary main_c_18 main_v72 (broadcastInDim S4096x16 ![] bcast_S_S4096x16 : (⟨S_, .i32⟩ : BufTy).Contents (Elt F) → (⟨S4096x16, .i32⟩ : BufTy).Contents (Elt F)),
    StableHlo.binary main_arg11 main_v72 main_v73 (addi : (⟨S4096x16, .i32⟩ : BufTy).Contents (Elt F) → (⟨S4096x16, .i32⟩ : BufTy).Contents (Elt F) → (⟨S4096x16, .i32⟩ : BufTy).Contents (Elt F)),
    StableHlo.ternary main_v71 main_v73 main_arg11 main_v74 (select : (⟨S4096x16, .i1⟩ : BufTy).Contents (Elt F) → (⟨S4096x16, .i32⟩ : BufTy).Contents (Elt F) → (⟨S4096x16, .i32⟩ : BufTy).Contents (Elt F) → (⟨S4096x16, .i32⟩ : BufTy).Contents (Elt F)),
    StableHlo.unary main_v69 main_v75 (broadcastInDim S4096x16 ![0, 1] bcast_S4096x1_S4096x16_0_1 : (⟨S4096x1, .i32⟩ : BufTy).Contents (Elt F) → (⟨S4096x16, .i32⟩ : BufTy).Contents (Elt F)),
    StableHlo.unary main_v75 main_v76 (broadcastInDim S4096x16x1 ![0, 1] bcast_S4096x16_S4096x16x1_0_1 : (⟨S4096x16, .i32⟩ : BufTy).Contents (Elt F) → (⟨S4096x16x1, .i32⟩ : BufTy).Contents (Elt F)),
    StableHlo.unary main_v74 main_v77 (broadcastInDim S4096x16x1 ![0, 1] bcast_S4096x16_S4096x16x1_0_1 : (⟨S4096x16, .i32⟩ : BufTy).Contents (Elt F) → (⟨S4096x16x1, .i32⟩ : BufTy).Contents (Elt F)),
    StableHlo.binary main_v76 main_v77 main_v78 ((fun a b => concatenate S4096x16x2 2 [⟨S4096x16x1, a⟩, ⟨S4096x16x1, b⟩] concatenates_S4096x16x1_S4096x16x1_S4096x16x2_d2) : (⟨S4096x16x1, .i32⟩ : BufTy).Contents (Elt F) → (⟨S4096x16x1, .i32⟩ : BufTy).Contents (Elt F) → (⟨S4096x16x2, .i32⟩ : BufTy).Contents (Elt F)),
    StableHlo.nullary main_cst_19 (constant S_ .f32 0x3F800000#32),
    StableHlo.unary main_cst_19 main_v79 (broadcastInDim S4096x16 ![] bcast_S_S4096x16 : (⟨S_, .f32⟩ : BufTy).Contents (Elt F) → (⟨S4096x16, .f32⟩ : BufTy).Contents (Elt F)),
    StableHlo.ternary main_v64 main_v78 main_v79 main_v80 ((fun x i u => Host.scatter scatter_S4096x4096_S4096x16x2_S4096x16_n_01_01_2 (fun _ b => b) x i u) : (⟨S4096x4096, .f32⟩ : BufTy).Contents (Elt F) → (⟨S4096x16x2, .i32⟩ : BufTy).Contents (Elt F) → (⟨S4096x16, .f32⟩ : BufTy).Contents (Elt F) → (⟨S4096x4096, .f32⟩ : BufTy).Contents (Elt F)),
    StableHlo.binary main_v27 main_v80 main_v81 (mulf : (⟨S4096x4096, .f32⟩ : BufTy).Contents (Elt F) → (⟨S4096x4096, .f32⟩ : BufTy).Contents (Elt F) → (⟨S4096x4096, .f32⟩ : BufTy).Contents (Elt F)),
    StableHlo.nullary main_cst_20 (constant S_ .f32 0x00000000#32),
    StableHlo.binary main_v81 main_cst_20 main_v82 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_21 (constant S_ .f32 0x3F800000#32),
    StableHlo.unary main_cst_21 main_v83 (broadcastInDim S4096x4096 ![] bcast_S_S4096x4096 : (⟨S_, .f32⟩ : BufTy).Contents (Elt F) → (⟨S4096x4096, .f32⟩ : BufTy).Contents (Elt F)),
    StableHlo.binary main_v83 main_v80 main_v84 (subf : (⟨S4096x4096, .f32⟩ : BufTy).Contents (Elt F) → (⟨S4096x4096, .f32⟩ : BufTy).Contents (Elt F) → (⟨S4096x4096, .f32⟩ : BufTy).Contents (Elt F)),
    StableHlo.binary main_v27 main_v84 main_v85 (mulf : (⟨S4096x4096, .f32⟩ : BufTy).Contents (Elt F) → (⟨S4096x4096, .f32⟩ : BufTy).Contents (Elt F) → (⟨S4096x4096, .f32⟩ : BufTy).Contents (Elt F)),
    StableHlo.nullary main_cst_22 (constant S_ .f32 0x00000000#32),
    StableHlo.binary main_v85 main_cst_22 main_v86 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.binary main_v82 main_v86 main_v87 (addf : (⟨S4096, .f32⟩ : BufTy).Contents (Elt F) → (⟨S4096, .f32⟩ : BufTy).Contents (Elt F) → (⟨S4096, .f32⟩ : BufTy).Contents (Elt F)),
    StableHlo.binary main_v82 main_v87 main_v88 (Host.divf : (⟨S4096, .f32⟩ : BufTy).Contents (Elt F) → (⟨S4096, .f32⟩ : BufTy).Contents (Elt F) → (⟨S4096, .f32⟩ : BufTy).Contents (Elt F)),
    StableHlo.nullary main_cst_23 (constant S_ .f32 0x00000000#32),
    StableHlo.unary main_cst_23 main_v89 (broadcastInDim S4096 ![] bcast_S_S4096 : (⟨S_, .f32⟩ : BufTy).Contents (Elt F) → (⟨S4096, .f32⟩ : BufTy).Contents (Elt F)),
    StableHlo.binary main_v88 main_v89 main_v90 (cmpf .oeq : (⟨S4096, .f32⟩ : BufTy).Contents (Elt F) → (⟨S4096, .f32⟩ : BufTy).Contents (Elt F) → (⟨S4096, .i1⟩ : BufTy).Contents (Elt F)),
    StableHlo.nullary main_cst_24 (constant S_ .f32 0x3F800000#32),
    StableHlo.TRef.unary (.of main_cst_24 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S4096, .f32⟩) (broadcastInDim S4096 ![] bcast_S_S4096),
    StableHlo.TRef.ternary (.of main_v90 : StableHlo.TRef sig ⟨S4096, .i1⟩) (.of main_call3_v1 : StableHlo.TRef sig ⟨S4096, .f32⟩) (.of main_v88 : StableHlo.TRef sig ⟨S4096, .f32⟩) (.of main_v91 : StableHlo.TRef sig ⟨S4096, .f32⟩) select,
    StableHlo.unary main_v91 main_v92 (Host.log : (⟨S4096, .f32⟩ : BufTy).Contents (Elt F) → (⟨S4096, .f32⟩ : BufTy).Contents (Elt F)),
    StableHlo.nullary main_cst_25 (constant S_ .f32 0x00000000#32),
    StableHlo.binary main_v92 main_cst_25 main_v93 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v93 main_v94 (Host.negf : (⟨S_, .f32⟩ : BufTy).Contents (Elt F) → (⟨S_, .f32⟩ : BufTy).Contents (Elt F)),
    StableHlo.nullary main_cst_26 (constant S_ .f32 0x45800000#32),
    StableHlo.binary main_v94 main_cst_26 main_v95 (Host.divf : (⟨S_, .f32⟩ : BufTy).Contents (Elt F) → (⟨S_, .f32⟩ : BufTy).Contents (Elt F) → (⟨S_, .f32⟩ : BufTy).Contents (Elt F)),
    StableHlo.nullary main_cst_27 (constant S_ .f32 0x3F666666#32),
    StableHlo.unary main_cst_27 main_v96 (broadcastInDim S4096x4096 ![] bcast_S_S4096x4096 : (⟨S_, .f32⟩ : BufTy).Contents (Elt F) → (⟨S4096x4096, .f32⟩ : BufTy).Contents (Elt F)),
    StableHlo.binary main_arg9 main_v96 main_v97 (cmpf .ogt : (⟨S4096x4096, .f32⟩ : BufTy).Contents (Elt F) → (⟨S4096x4096, .f32⟩ : BufTy).Contents (Elt F) → (⟨S4096x4096, .i1⟩ : BufTy).Contents (Elt F)),
    StableHlo.unary main_v97 main_v98 (uitofp .f32 : (⟨S4096x4096, .i1⟩ : BufTy).Contents (Elt F) → (⟨S4096x4096, .f32⟩ : BufTy).Contents (Elt F)),
    StableHlo.binary main_v27 main_v98 main_v99 (mulf : (⟨S4096x4096, .f32⟩ : BufTy).Contents (Elt F) → (⟨S4096x4096, .f32⟩ : BufTy).Contents (Elt F) → (⟨S4096x4096, .f32⟩ : BufTy).Contents (Elt F)),
    StableHlo.nullary main_cst_28 (constant S_ .f32 0x00000000#32),
    StableHlo.binary main_v99 main_cst_28 main_v100 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_29 (constant S_ .f32 0x3F800000#32),
    StableHlo.unary main_cst_29 main_v101 (broadcastInDim S4096x4096 ![] bcast_S_S4096x4096 : (⟨S_, .f32⟩ : BufTy).Contents (Elt F) → (⟨S4096x4096, .f32⟩ : BufTy).Contents (Elt F)),
    StableHlo.binary main_v101 main_v98 main_v102 (subf : (⟨S4096x4096, .f32⟩ : BufTy).Contents (Elt F) → (⟨S4096x4096, .f32⟩ : BufTy).Contents (Elt F) → (⟨S4096x4096, .f32⟩ : BufTy).Contents (Elt F)),
    StableHlo.binary main_v27 main_v102 main_v103 (mulf : (⟨S4096x4096, .f32⟩ : BufTy).Contents (Elt F) → (⟨S4096x4096, .f32⟩ : BufTy).Contents (Elt F) → (⟨S4096x4096, .f32⟩ : BufTy).Contents (Elt F)),
    StableHlo.nullary main_cst_30 (constant S_ .f32 0x00000000#32),
    StableHlo.binary main_v103 main_cst_30 main_v104 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.binary main_v100 main_v104 main_v105 (addf : (⟨S4096, .f32⟩ : BufTy).Contents (Elt F) → (⟨S4096, .f32⟩ : BufTy).Contents (Elt F) → (⟨S4096, .f32⟩ : BufTy).Contents (Elt F)),
    StableHlo.binary main_v100 main_v105 main_v106 (Host.divf : (⟨S4096, .f32⟩ : BufTy).Contents (Elt F) → (⟨S4096, .f32⟩ : BufTy).Contents (Elt F) → (⟨S4096, .f32⟩ : BufTy).Contents (Elt F)),
    StableHlo.nullary main_cst_31 (constant S_ .f32 0x00000000#32),
    StableHlo.unary main_cst_31 main_v107 (broadcastInDim S4096 ![] bcast_S_S4096 : (⟨S_, .f32⟩ : BufTy).Contents (Elt F) → (⟨S4096, .f32⟩ : BufTy).Contents (Elt F)),
    StableHlo.binary main_v106 main_v107 main_v108 (cmpf .oeq : (⟨S4096, .f32⟩ : BufTy).Contents (Elt F) → (⟨S4096, .f32⟩ : BufTy).Contents (Elt F) → (⟨S4096, .i1⟩ : BufTy).Contents (Elt F)),
    StableHlo.nullary main_cst_32 (constant S_ .f32 0x3F800000#32),
    StableHlo.TRef.unary (.of main_cst_32 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S4096, .f32⟩) (broadcastInDim S4096 ![] bcast_S_S4096),
    StableHlo.TRef.ternary (.of main_v108 : StableHlo.TRef sig ⟨S4096, .i1⟩) (.of main_call4_v1 : StableHlo.TRef sig ⟨S4096, .f32⟩) (.of main_v106 : StableHlo.TRef sig ⟨S4096, .f32⟩) (.of main_v109 : StableHlo.TRef sig ⟨S4096, .f32⟩) select,
    StableHlo.unary main_v109 main_v110 (Host.log : (⟨S4096, .f32⟩ : BufTy).Contents (Elt F) → (⟨S4096, .f32⟩ : BufTy).Contents (Elt F)),
    StableHlo.nullary main_cst_33 (constant S_ .f32 0x00000000#32),
    StableHlo.binary main_v110 main_cst_33 main_v111 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v111 main_v112 (Host.negf : (⟨S_, .f32⟩ : BufTy).Contents (Elt F) → (⟨S_, .f32⟩ : BufTy).Contents (Elt F)),
    StableHlo.nullary main_cst_34 (constant S_ .f32 0x45800000#32),
    StableHlo.binary main_v112 main_cst_34 main_v113 (Host.divf : (⟨S_, .f32⟩ : BufTy).Contents (Elt F) → (⟨S_, .f32⟩ : BufTy).Contents (Elt F) → (⟨S_, .f32⟩ : BufTy).Contents (Elt F)),
    StableHlo.nullary main_cst_35 (constant S_ .f32 0x00000000#32),
    StableHlo.unary main_cst_35 main_v114 (broadcastInDim S4096x256 ![] bcast_S_S4096x256 : (⟨S_, .f32⟩ : BufTy).Contents (Elt F) → (⟨S4096x256, .f32⟩ : BufTy).Contents (Elt F)),
    StableHlo.binary main_arg1 main_v114 main_v115 (minimumf : (⟨S4096x256, .f32⟩ : BufTy).Contents (Elt F) → (⟨S4096x256, .f32⟩ : BufTy).Contents (Elt F) → (⟨S4096x256, .f32⟩ : BufTy).Contents (Elt F)),
    StableHlo.binary main_v115 main_v115 main_v116 (mulf : (⟨S4096x256, .f32⟩ : BufTy).Contents (Elt F) → (⟨S4096x256, .f32⟩ : BufTy).Contents (Elt F) → (⟨S4096x256, .f32⟩ : BufTy).Contents (Elt F)),
    StableHlo.nullary main_cst_36 (constant S_ .f32 0x00000000#32),
    StableHlo.binary main_v116 main_cst_36 main_v117 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.nullary main_cst_37 (constant S_ .f32 0x00000000#32),
    StableHlo.binary main_cst_37 main_v117 main_v118 (addf : (⟨S_, .f32⟩ : BufTy).Contents (Elt F) → (⟨S_, .f32⟩ : BufTy).Contents (Elt F) → (⟨S_, .f32⟩ : BufTy).Contents (Elt F)),
    StableHlo.nullary main_cst_38 (constant S_ .f32 0x00000000#32),
    StableHlo.unary main_cst_38 main_v119 (broadcastInDim S256x128 ![] bcast_S_S256x128 : (⟨S_, .f32⟩ : BufTy).Contents (Elt F) → (⟨S256x128, .f32⟩ : BufTy).Contents (Elt F)),
    StableHlo.binary main_arg2 main_v119 main_v120 (minimumf : (⟨S256x128, .f32⟩ : BufTy).Contents (Elt F) → (⟨S256x128, .f32⟩ : BufTy).Contents (Elt F) → (⟨S256x128, .f32⟩ : BufTy).Contents (Elt F)),
    StableHlo.binary main_v120 main_v120 main_v121 (mulf : (⟨S256x128, .f32⟩ : BufTy).Contents (Elt F) → (⟨S256x128, .f32⟩ : BufTy).Contents (Elt F) → (⟨S256x128, .f32⟩ : BufTy).Contents (Elt F)),
    StableHlo.nullary main_cst_39 (constant S_ .f32 0x00000000#32),
    StableHlo.binary main_v121 main_cst_39 main_v122 ((fun x v => Host.reduceAdd x v reducesTo_S256x128_S_d0_1 h_S_) : (⟨S256x128, .f32⟩ : BufTy).Contents (Elt F) → (⟨S_, .f32⟩ : BufTy).Contents (Elt F) → (⟨S_, .f32⟩ : BufTy).Contents (Elt F)),
    StableHlo.binary main_v118 main_v122 main_v123 (addf : (⟨S_, .f32⟩ : BufTy).Contents (Elt F) → (⟨S_, .f32⟩ : BufTy).Contents (Elt F) → (⟨S_, .f32⟩ : BufTy).Contents (Elt F)),
    StableHlo.nullary main_cst_40 (constant S_ .f32 0x00000000#32),
    StableHlo.unary main_cst_40 main_v124 (broadcastInDim S128x64 ![] bcast_S_S128x64 : (⟨S_, .f32⟩ : BufTy).Contents (Elt F) → (⟨S128x64, .f32⟩ : BufTy).Contents (Elt F)),
    StableHlo.binary main_arg3 main_v124 main_v125 (minimumf : (⟨S128x64, .f32⟩ : BufTy).Contents (Elt F) → (⟨S128x64, .f32⟩ : BufTy).Contents (Elt F) → (⟨S128x64, .f32⟩ : BufTy).Contents (Elt F)),
    StableHlo.binary main_v125 main_v125 main_v126 (mulf : (⟨S128x64, .f32⟩ : BufTy).Contents (Elt F) → (⟨S128x64, .f32⟩ : BufTy).Contents (Elt F) → (⟨S128x64, .f32⟩ : BufTy).Contents (Elt F)),
    StableHlo.nullary main_cst_41 (constant S_ .f32 0x00000000#32),
    StableHlo.binary main_v126 main_cst_41 main_v127 ((fun x v => Host.reduceAdd x v reducesTo_S128x64_S_d0_1 h_S_) : (⟨S128x64, .f32⟩ : BufTy).Contents (Elt F) → (⟨S_, .f32⟩ : BufTy).Contents (Elt F) → (⟨S_, .f32⟩ : BufTy).Contents (Elt F)),
    StableHlo.binary main_v123 main_v127 main_v128 (addf : (⟨S_, .f32⟩ : BufTy).Contents (Elt F) → (⟨S_, .f32⟩ : BufTy).Contents (Elt F) → (⟨S_, .f32⟩ : BufTy).Contents (Elt F)),
    StableHlo.nullary main_cst_42 (constant S_ .f32 0x00000000#32),
    StableHlo.unary main_cst_42 main_v129 (broadcastInDim S64x4096 ![] bcast_S_S64x4096 : (⟨S_, .f32⟩ : BufTy).Contents (Elt F) → (⟨S64x4096, .f32⟩ : BufTy).Contents (Elt F)),
    StableHlo.binary main_arg4 main_v129 main_v130 (minimumf : (⟨S64x4096, .f32⟩ : BufTy).Contents (Elt F) → (⟨S64x4096, .f32⟩ : BufTy).Contents (Elt F) → (⟨S64x4096, .f32⟩ : BufTy).Contents (Elt F)),
    StableHlo.binary main_v130 main_v130 main_v131 (mulf : (⟨S64x4096, .f32⟩ : BufTy).Contents (Elt F) → (⟨S64x4096, .f32⟩ : BufTy).Contents (Elt F) → (⟨S64x4096, .f32⟩ : BufTy).Contents (Elt F)),
    StableHlo.nullary main_cst_43 (constant S_ .f32 0x00000000#32),
    StableHlo.binary main_v131 main_cst_43 main_v132 ((fun x v => Host.reduceAdd x v reducesTo_S64x4096_S_d0_1 h_S_) : (⟨S64x4096, .f32⟩ : BufTy).Contents (Elt F) → (⟨S_, .f32⟩ : BufTy).Contents (Elt F) → (⟨S_, .f32⟩ : BufTy).Contents (Elt F)),
    StableHlo.binary main_v128 main_v132 main_v133 (addf : (⟨S_, .f32⟩ : BufTy).Contents (Elt F) → (⟨S_, .f32⟩ : BufTy).Contents (Elt F) → (⟨S_, .f32⟩ : BufTy).Contents (Elt F)),
    StableHlo.nullary main_cst_44 (constant S_ .f32 0x3F800000#32),
    StableHlo.binary main_cst_44 main_v5 main_v134 (mulf : (⟨S_, .f32⟩ : BufTy).Contents (Elt F) → (⟨S_, .f32⟩ : BufTy).Contents (Elt F) → (⟨S_, .f32⟩ : BufTy).Contents (Elt F)),
    StableHlo.nullary main_cst_45 (constant S_ .f32 0x3DCCCCCD#32),
    StableHlo.binary main_cst_45 main_v61 main_v135 (mulf : (⟨S_, .f32⟩ : BufTy).Contents (Elt F) → (⟨S_, .f32⟩ : BufTy).Contents (Elt F) → (⟨S_, .f32⟩ : BufTy).Contents (Elt F)),
    StableHlo.binary main_v134 main_v135 main_v136 (addf : (⟨S_, .f32⟩ : BufTy).Contents (Elt F) → (⟨S_, .f32⟩ : BufTy).Contents (Elt F) → (⟨S_, .f32⟩ : BufTy).Contents (Elt F)),
    StableHlo.nullary main_cst_46 (constant S_ .f32 0x3DCCCCCD#32),
    StableHlo.binary main_cst_46 main_v95 main_v137 (mulf : (⟨S_, .f32⟩ : BufTy).Contents (Elt F) → (⟨S_, .f32⟩ : BufTy).Contents (Elt F) → (⟨S_, .f32⟩ : BufTy).Contents (Elt F)),
    StableHlo.binary main_v136 main_v137 main_v138 (addf : (⟨S_, .f32⟩ : BufTy).Contents (Elt F) → (⟨S_, .f32⟩ : BufTy).Contents (Elt F) → (⟨S_, .f32⟩ : BufTy).Contents (Elt F)),
    StableHlo.nullary main_cst_47 (constant S_ .f32 0x3DCCCCCD#32),
    StableHlo.binary main_cst_47 main_v113 main_v139 (mulf : (⟨S_, .f32⟩ : BufTy).Contents (Elt F) → (⟨S_, .f32⟩ : BufTy).Contents (Elt F) → (⟨S_, .f32⟩ : BufTy).Contents (Elt F)),
    StableHlo.binary main_v138 main_v139 main_v140 (addf : (⟨S_, .f32⟩ : BufTy).Contents (Elt F) → (⟨S_, .f32⟩ : BufTy).Contents (Elt F) → (⟨S_, .f32⟩ : BufTy).Contents (Elt F)),
    StableHlo.nullary main_cst_48 (constant S_ .f32 0x3F800000#32),
    StableHlo.binary main_cst_48 main_v133 main_v141 (mulf : (⟨S_, .f32⟩ : BufTy).Contents (Elt F) → (⟨S_, .f32⟩ : BufTy).Contents (Elt F) → (⟨S_, .f32⟩ : BufTy).Contents (Elt F)),
    StableHlo.binary main_v140 main_v141 main_v142 (addf : (⟨S_, .f32⟩ : BufTy).Contents (Elt F) → (⟨S_, .f32⟩ : BufTy).Contents (Elt F) → (⟨S_, .f32⟩ : BufTy).Contents (Elt F)),
    StableHlo.unary main_v142 main_v143 (broadcastInDim S1 ![] bcast_S_S1 : (⟨S_, .f32⟩ : BufTy).Contents (Elt F) → (⟨S1, .f32⟩ : BufTy).Contents (Elt F)),
    StableHlo.unary main_v5 main_v144 (broadcastInDim S1 ![] bcast_S_S1 : (⟨S_, .f32⟩ : BufTy).Contents (Elt F) → (⟨S1, .f32⟩ : BufTy).Contents (Elt F)),
    StableHlo.unary main_v61 main_v145 (broadcastInDim S1 ![] bcast_S_S1 : (⟨S_, .f32⟩ : BufTy).Contents (Elt F) → (⟨S1, .f32⟩ : BufTy).Contents (Elt F)),
    StableHlo.unary main_v95 main_v146 (broadcastInDim S1 ![] bcast_S_S1 : (⟨S_, .f32⟩ : BufTy).Contents (Elt F) → (⟨S1, .f32⟩ : BufTy).Contents (Elt F)),
    StableHlo.unary main_v113 main_v147 (broadcastInDim S1 ![] bcast_S_S1 : (⟨S_, .f32⟩ : BufTy).Contents (Elt F) → (⟨S1, .f32⟩ : BufTy).Contents (Elt F)),
    StableHlo.unary main_v133 main_v148 (broadcastInDim S1 ![] bcast_S_S1 : (⟨S_, .f32⟩ : BufTy).Contents (Elt F) → (⟨S1, .f32⟩ : BufTy).Contents (Elt F)),
    StableHlo.nary ![main_v143, main_v144, main_v145, main_v146, main_v147, main_v148] main_v149 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]

/-- The list is the stretches end to end. -/
theorem ops_eq : [w0s0, w0s1, w0s2, w0s3, w0s4, w1s0, w1s1, w1s2, w1s3, w1s4, w2s0, w2s1, w2s2, w3s0].flatten = (ops : List (HloOp τ sig (Elt F))) := by
  chain_rfl

/-- The same, as appends. -/
theorem ops_eq_append : (ops : List (HloOp τ sig (Elt F))) = w0s0 ++ w0s1 ++ w0s2 ++ w0s3 ++ w0s4 ++ w1s0 ++ w1s1 ++ w1s2 ++ w1s3 ++ w1s4 ++ w2s0 ++ w2s1 ++ w2s2 ++ w3s0 := by
  chain_rfl

/-- @main is that straight line. -/
theorem main_eq (c : Dev nD) : main (F := F) c = StableHlo.seq ops :=
  (main_chain c).trans ((chain_map_seq [w0s0, w0s1, w0s2, w0s3, w0s4, w1s0, w1s1, w1s2, w1s3, w1s4, w2s0, w2s1, w2s2, w3s0]).trans (congrArg StableHlo.seq ops_eq))

end Cert.ReferenceIdeal.RefRun

end
-- ==== Proof.RefRun.lean ====
/- The run of the reference program: @main is the straight line `ops` (RefOps), so from any memory with zero counters
   every weakly fair execution terminates with each buffer at the fold of the operations over the launch contents
   (`run_seq`); the result buffer is stated at that fold, and each argument buffer, which no operation writes, is
   unchanged. -/
import proofs.«117839_j20658792694235_1_alg».proof.Proof.Gen.ReferenceIdeal
import proofs.«117839_j20658792694235_1_alg».proof.Proof.RefOps
import Idealize.ShloMosaic.Lib.StableHlo.Run
import Idealize.ShloMosaic.Lib.Pipeline.Regions

noncomputable section

namespace Cert.ReferenceIdeal.RefRun

open Idealize.ShloMosaic Idealize.ShloMosaic.TcCoe Idealize.SL.Sem Cert.ReferenceIdeal Cert.ReferenceIdeal.Gen

variable {F : FTy → Type} [FloatOps F]

/-! ## Side conditions of the run, stretch by stretch -/

/-- The buffers the operations write, in program order: one per operation, all distinct, none an argument of @main. -/
abbrev written : List (Ref sig .tc) :=
  [ main_v0, main_v1, main_v2, main_v3, main_v4, main_cst, main_v5, main_v6,
    main_v7, main_v8, main_v9, main_v10, main_v11, main_call0_cst, main_call0_v0, main_call0_v1,
    main_call0_cst_0, main_call0_v2, main_call0_v3, main_call0_cst_1, main_call0_call0_v0, main_call0_call0_v1, main_call0_v4, main_call0_v5,
    main_call0_cst_2, main_call0_v6, main_call0_v7, main_v12, main_v13, main_v14, main_v15, main_v16,
    main_v17, main_call1_v0, main_call1_cst, main_call1_v1, main_call1_v2, main_v18, main_cst_0, main_v19,
    main_v20, main_v21, main_v22, main_v23, main_v24, main_cst_1, main_v25, main_v26,
    main_v27, main_v28, main_v29, main_cst_2, main_v30, main_c, main_v31, main_v32,
    main_c_3, main_v33, main_v34, main_v35, main_c_4, main_v36, main_v37, main_c_5,
    main_v38, main_v39, main_v40, main_v41, main_v42, main_v43, main_v44, main_cst_6,
    main_v45, main_v46, main_v47, main_cst_7, main_v48, main_cst_8, main_v49, main_v50,
    main_v51, main_cst_9, main_v52, main_v53, main_v54, main_cst_10, main_v55, main_v56,
    main_cst_11, main_call2_v0, main_call2_v1, main_v57, main_v58, main_cst_12, main_v59, main_v60,
    main_cst_13, main_v61, main_v62, main_v63, main_cst_14, main_v64, main_c_15, main_v65,
    main_v66, main_c_16, main_v67, main_v68, main_v69, main_c_17, main_v70, main_v71,
    main_c_18, main_v72, main_v73, main_v74, main_v75, main_v76, main_v77, main_v78,
    main_cst_19, main_v79, main_v80, main_v81, main_cst_20, main_v82, main_cst_21, main_v83,
    main_v84, main_v85, main_cst_22, main_v86, main_v87, main_v88, main_cst_23, main_v89,
    main_v90, main_cst_24, main_call3_v0, main_call3_v1, main_v91, main_v92, main_cst_25, main_v93,
    main_v94, main_cst_26, main_v95, main_cst_27, main_v96, main_v97, main_v98, main_v99,
    main_cst_28, main_v100, main_cst_29, main_v101, main_v102, main_v103, main_cst_30, main_v104,
    main_v105, main_v106, main_cst_31, main_v107, main_v108, main_cst_32, main_call4_v0, main_call4_v1,
    main_v109, main_v110, main_cst_33, main_v111, main_v112, main_cst_34, main_v113, main_cst_35,
    main_v114, main_v115, main_v116, main_cst_36, main_v117, main_cst_37, main_v118, main_cst_38,
    main_v119, main_v120, main_v121, main_cst_39, main_v122, main_v123, main_cst_40, main_v124,
    main_v125, main_v126, main_cst_41, main_v127, main_v128, main_cst_42, main_v129, main_v130,
    main_v131, main_cst_43, main_v132, main_v133, main_cst_44, main_v134, main_cst_45, main_v135,
    main_v136, main_cst_46, main_v137, main_v138, main_cst_47, main_v139, main_v140, main_cst_48,
    main_v141, main_v142, main_v143, main_v144, main_v145, main_v146, main_v147, main_v148,
    main_v149 ]

theorem w0s0_sub : (w0s0 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem w0s0_fresh : (w0s0 : List (HloOp τ sig (Elt F))).Forall fun op => op.fresh = ∅ :=
  ⟨rfl, rfl, rfl, rfl, rfl, rfl, rfl, rfl, rfl, rfl, rfl, rfl, rfl⟩
theorem w0s0_writes : (w0s0 : List (HloOp τ sig (Elt F))).Forall fun op => op.writes ⊆ (written.map (Proc.devRef (τ := τ) .tc)).toFinset :=
  ⟨writes_sub_of_mem main_v0 rfl (by decide), writes_sub_of_mem main_v1 rfl (by decide), writes_sub_of_mem main_v2 rfl (by decide), writes_sub_of_mem main_v3 rfl (by decide), writes_sub_of_mem main_v4 rfl (by decide), writes_sub_of_mem main_cst rfl (by decide), writes_sub_of_mem main_v5 rfl (by decide), writes_sub_of_mem main_v6 rfl (by decide), writes_sub_of_mem main_v7 rfl (by decide), writes_sub_of_mem main_v8 rfl (by decide), writes_sub_of_mem main_v9 rfl (by decide), writes_sub_of_mem main_v10 rfl (by decide), writes_sub_of_mem main_v11 rfl (by decide)⟩

theorem w0s1_sub : (w0s1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem w0s1_fresh : (w0s1 : List (HloOp τ sig (Elt F))).Forall fun op => op.fresh = ∅ :=
  ⟨rfl, rfl, rfl, rfl, rfl, rfl, rfl, rfl, rfl, rfl, rfl, rfl, rfl, rfl, rfl⟩
theorem w0s1_writes : (w0s1 : List (HloOp τ sig (Elt F))).Forall fun op => op.writes ⊆ (written.map (Proc.devRef (τ := τ) .tc)).toFinset :=
  ⟨writes_sub_of_mem main_call0_cst rfl (by decide), writes_sub_of_mem main_call0_v0 rfl (by decide), writes_sub_of_mem main_call0_v1 rfl (by decide), writes_sub_of_mem main_call0_cst_0 rfl (by decide), writes_sub_of_mem main_call0_v2 rfl (by decide), writes_sub_of_mem main_call0_v3 rfl (by decide), writes_sub_of_mem main_call0_cst_1 rfl (by decide), writes_sub_of_mem main_call0_call0_v0 rfl (by decide), writes_sub_of_mem main_call0_call0_v1 rfl (by decide), writes_sub_of_mem main_call0_v4 rfl (by decide), writes_sub_of_mem main_call0_v5 rfl (by decide), writes_sub_of_mem main_call0_cst_2 rfl (by decide), writes_sub_of_mem main_call0_v6 rfl (by decide), writes_sub_of_mem main_call0_v7 rfl (by decide), writes_sub_of_mem main_v12 rfl (by decide)⟩

theorem w0s2_sub : (w0s2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩
theorem w0s2_fresh : (w0s2 : List (HloOp τ sig (Elt F))).Forall fun op => op.fresh = ∅ :=
  ⟨rfl, rfl, rfl, rfl, rfl⟩
theorem w0s2_writes : (w0s2 : List (HloOp τ sig (Elt F))).Forall fun op => op.writes ⊆ (written.map (Proc.devRef (τ := τ) .tc)).toFinset :=
  ⟨writes_sub_of_mem main_v13 rfl (by decide), writes_sub_of_mem main_v14 rfl (by decide), writes_sub_of_mem main_v15 rfl (by decide), writes_sub_of_mem main_v16 rfl (by decide), writes_sub_of_mem main_v17 rfl (by decide)⟩

theorem w0s3_sub : (w0s3 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
theorem w0s3_fresh : (w0s3 : List (HloOp τ sig (Elt F))).Forall fun op => op.fresh = ∅ :=
  ⟨rfl, rfl, rfl, rfl, rfl⟩
theorem w0s3_writes : (w0s3 : List (HloOp τ sig (Elt F))).Forall fun op => op.writes ⊆ (written.map (Proc.devRef (τ := τ) .tc)).toFinset :=
  ⟨writes_sub_of_mem main_call1_v0 rfl (by decide), writes_sub_of_mem main_call1_cst rfl (by decide), writes_sub_of_mem main_call1_v1 rfl (by decide), writes_sub_of_mem main_call1_v2 rfl (by decide), writes_sub_of_mem main_v18 rfl (by decide)⟩

theorem w0s4_sub : (w0s4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.nullary_bufs_sub .., StableHlo.unary_bufs_sub .., StableHlo.ternary_bufs_sub .., StableHlo.binary_bufs_sub .., StableHlo.nullary_bufs_sub .., StableHlo.binary_bufs_sub .., StableHlo.nullary_bufs_sub ..⟩
theorem w0s4_fresh : (w0s4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem w0s4_writes : (w0s4 : List (HloOp τ sig (Elt F))).Forall fun op => op.writes ⊆ (written.map (Proc.devRef (τ := τ) .tc)).toFinset :=
  ⟨writes_sub_of_mem main_cst_0 rfl (by decide), writes_sub_of_mem main_v19 rfl (by decide), writes_sub_of_mem main_v20 rfl (by decide), writes_sub_of_mem main_v21 rfl (by decide), writes_sub_of_mem main_v22 rfl (by decide), writes_sub_of_mem main_v23 rfl (by decide), writes_sub_of_mem main_v24 rfl (by decide), writes_sub_of_mem main_cst_1 rfl (by decide), writes_sub_of_mem main_v25 rfl (by decide), writes_sub_of_mem main_v26 rfl (by decide), writes_sub_of_mem main_v27 rfl (by decide), writes_sub_of_mem main_v28 rfl (by decide), writes_sub_of_mem main_v29 rfl (by decide), writes_sub_of_mem main_cst_2 rfl (by decide), writes_sub_of_mem main_v30 rfl (by decide), writes_sub_of_mem main_c rfl (by decide), writes_sub_of_mem main_v31 rfl (by decide), writes_sub_of_mem main_v32 rfl (by decide), writes_sub_of_mem main_c_3 rfl (by decide), writes_sub_of_mem main_v33 rfl (by decide), writes_sub_of_mem main_v34 rfl (by decide), writes_sub_of_mem main_v35 rfl (by decide), writes_sub_of_mem main_c_4 rfl (by decide), writes_sub_of_mem main_v36 rfl (by decide), writes_sub_of_mem main_v37 rfl (by decide), writes_sub_of_mem main_c_5 rfl (by decide), writes_sub_of_mem main_v38 rfl (by decide), writes_sub_of_mem main_v39 rfl (by decide), writes_sub_of_mem main_v40 rfl (by decide), writes_sub_of_mem main_v41 rfl (by decide), writes_sub_of_mem main_v42 rfl (by decide), writes_sub_of_mem main_v43 rfl (by decide), writes_sub_of_mem main_v44 rfl (by decide), writes_sub_of_mem main_cst_6 rfl (by decide), writes_sub_of_mem main_v45 rfl (by decide), writes_sub_of_mem main_v46 rfl (by decide), writes_sub_of_mem main_v47 rfl (by decide), writes_sub_of_mem main_cst_7 rfl (by decide), writes_sub_of_mem main_v48 rfl (by decide), writes_sub_of_mem main_cst_8 rfl (by decide)⟩

theorem w1s0_sub : (w1s0 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub ..⟩
theorem w1s0_fresh : (w1s0 : List (HloOp τ sig (Elt F))).Forall fun op => op.fresh = ∅ :=
  ⟨rfl, rfl, rfl, rfl, rfl, rfl, rfl, rfl, rfl, rfl, rfl⟩
theorem w1s0_writes : (w1s0 : List (HloOp τ sig (Elt F))).Forall fun op => op.writes ⊆ (written.map (Proc.devRef (τ := τ) .tc)).toFinset :=
  ⟨writes_sub_of_mem main_v49 rfl (by decide), writes_sub_of_mem main_v50 rfl (by decide), writes_sub_of_mem main_v51 rfl (by decide), writes_sub_of_mem main_cst_9 rfl (by decide), writes_sub_of_mem main_v52 rfl (by decide), writes_sub_of_mem main_v53 rfl (by decide), writes_sub_of_mem main_v54 rfl (by decide), writes_sub_of_mem main_cst_10 rfl (by decide), writes_sub_of_mem main_v55 rfl (by decide), writes_sub_of_mem main_v56 rfl (by decide), writes_sub_of_mem main_cst_11 rfl (by decide)⟩

theorem w1s1_sub : (w1s1 : List (HloOp τ sig (Elt F))).Forall fun op => op.bufs ⊆ StableHlo.tcRefs τ sig :=
  ⟨StableHlo.unary_bufs_sub .., StableHlo.unary_bufs_sub .., StableHlo.ternary_bufs_sub ..⟩
theorem w1s1_fresh : (w1s1 : List (HloOp τ sig (Elt F))).Forall fun op => op.fresh = ∅ :=
  ⟨rfl, rfl, rfl⟩
theorem w1s1_writes : (w1s1 : List (HloOp τ sig (Elt F))).Forall fun op => op.writes ⊆ (written.map (Proc.devRef (τ := τ) .tc)).toFinset :=
  ⟨writes_sub_of_mem main_call2_v0 rfl (by decide), writes_sub_of_mem main_call2_v1 rfl (by decide), writes_sub_of_mem main_v57 rfl (by decide)⟩

theorem w1s2_sub : (w1s2 : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.nullary_bufs_sub .., StableHlo.unary_bufs_sub .., StableHlo.ternary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub ..⟩
theorem w1s2_fresh : (w1s2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem w1s2_writes : (w1s2 : List (HloOp τ sig (Elt F))).Forall fun op => op.writes ⊆ (written.map (Proc.devRef (τ := τ) .tc)).toFinset :=
  ⟨writes_sub_of_mem main_v58 rfl (by decide), writes_sub_of_mem main_cst_12 rfl (by decide), writes_sub_of_mem main_v59 rfl (by decide), writes_sub_of_mem main_v60 rfl (by decide), writes_sub_of_mem main_cst_13 rfl (by decide), writes_sub_of_mem main_v61 rfl (by decide), writes_sub_of_mem main_v62 rfl (by decide), writes_sub_of_mem main_v63 rfl (by decide), writes_sub_of_mem main_cst_14 rfl (by decide), writes_sub_of_mem main_v64 rfl (by decide), writes_sub_of_mem main_c_15 rfl (by decide), writes_sub_of_mem main_v65 rfl (by decide), writes_sub_of_mem main_v66 rfl (by decide), writes_sub_of_mem main_c_16 rfl (by decide), writes_sub_of_mem main_v67 rfl (by decide), writes_sub_of_mem main_v68 rfl (by decide), writes_sub_of_mem main_v69 rfl (by decide), writes_sub_of_mem main_c_17 rfl (by decide), writes_sub_of_mem main_v70 rfl (by decide), writes_sub_of_mem main_v71 rfl (by decide), writes_sub_of_mem main_c_18 rfl (by decide), writes_sub_of_mem main_v72 rfl (by decide), writes_sub_of_mem main_v73 rfl (by decide), writes_sub_of_mem main_v74 rfl (by decide), writes_sub_of_mem main_v75 rfl (by decide), writes_sub_of_mem main_v76 rfl (by decide), writes_sub_of_mem main_v77 rfl (by decide), writes_sub_of_mem main_v78 rfl (by decide), writes_sub_of_mem main_cst_19 rfl (by decide), writes_sub_of_mem main_v79 rfl (by decide), writes_sub_of_mem main_v80 rfl (by decide), writes_sub_of_mem main_v81 rfl (by decide), writes_sub_of_mem main_cst_20 rfl (by decide), writes_sub_of_mem main_v82 rfl (by decide), writes_sub_of_mem main_cst_21 rfl (by decide), writes_sub_of_mem main_v83 rfl (by decide), writes_sub_of_mem main_v84 rfl (by decide), writes_sub_of_mem main_v85 rfl (by decide), writes_sub_of_mem main_cst_22 rfl (by decide), writes_sub_of_mem main_v86 rfl (by decide), writes_sub_of_mem main_v87 rfl (by decide), writes_sub_of_mem main_v88 rfl (by decide), writes_sub_of_mem main_cst_23 rfl (by decide), writes_sub_of_mem main_v89 rfl (by decide), writes_sub_of_mem main_v90 rfl (by decide), writes_sub_of_mem main_cst_24 rfl (by decide)⟩

theorem w1s3_sub : (w1s3 : List (HloOp τ sig (Elt F))).Forall fun op => op.bufs ⊆ StableHlo.tcRefs τ sig :=
  ⟨StableHlo.unary_bufs_sub .., StableHlo.unary_bufs_sub .., StableHlo.ternary_bufs_sub ..⟩
theorem w1s3_fresh : (w1s3 : List (HloOp τ sig (Elt F))).Forall fun op => op.fresh = ∅ :=
  ⟨rfl, rfl, rfl⟩
theorem w1s3_writes : (w1s3 : List (HloOp τ sig (Elt F))).Forall fun op => op.writes ⊆ (written.map (Proc.devRef (τ := τ) .tc)).toFinset :=
  ⟨writes_sub_of_mem main_call3_v0 rfl (by decide), writes_sub_of_mem main_call3_v1 rfl (by decide), writes_sub_of_mem main_v91 rfl (by decide)⟩

theorem w1s4_sub : (w1s4 : List (HloOp τ sig (Elt F))).Forall fun op => op.bufs ⊆ StableHlo.tcRefs τ sig :=
  StableHlo.unary_bufs_sub ..
theorem w1s4_fresh : (w1s4 : List (HloOp τ sig (Elt F))).Forall fun op => op.fresh = ∅ :=
  rfl
theorem w1s4_writes : (w1s4 : List (HloOp τ sig (Elt F))).Forall fun op => op.writes ⊆ (written.map (Proc.devRef (τ := τ) .tc)).toFinset :=
  writes_sub_of_mem main_v92 rfl (by decide)

theorem w2s0_sub : (w2s0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub ..⟩
theorem w2s0_fresh : (w2s0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem w2s0_writes : (w2s0 : List (HloOp τ sig (Elt F))).Forall fun op => op.writes ⊆ (written.map (Proc.devRef (τ := τ) .tc)).toFinset :=
  ⟨writes_sub_of_mem main_cst_25 rfl (by decide), writes_sub_of_mem main_v93 rfl (by decide), writes_sub_of_mem main_v94 rfl (by decide), writes_sub_of_mem main_cst_26 rfl (by decide), writes_sub_of_mem main_v95 rfl (by decide), writes_sub_of_mem main_cst_27 rfl (by decide), writes_sub_of_mem main_v96 rfl (by decide), writes_sub_of_mem main_v97 rfl (by decide), writes_sub_of_mem main_v98 rfl (by decide), writes_sub_of_mem main_v99 rfl (by decide), writes_sub_of_mem main_cst_28 rfl (by decide), writes_sub_of_mem main_v100 rfl (by decide), writes_sub_of_mem main_cst_29 rfl (by decide), writes_sub_of_mem main_v101 rfl (by decide), writes_sub_of_mem main_v102 rfl (by decide), writes_sub_of_mem main_v103 rfl (by decide), writes_sub_of_mem main_cst_30 rfl (by decide), writes_sub_of_mem main_v104 rfl (by decide), writes_sub_of_mem main_v105 rfl (by decide), writes_sub_of_mem main_v106 rfl (by decide), writes_sub_of_mem main_cst_31 rfl (by decide), writes_sub_of_mem main_v107 rfl (by decide), writes_sub_of_mem main_v108 rfl (by decide), writes_sub_of_mem main_cst_32 rfl (by decide)⟩

theorem w2s1_sub : (w2s1 : List (HloOp τ sig (Elt F))).Forall fun op => op.bufs ⊆ StableHlo.tcRefs τ sig :=
  ⟨StableHlo.unary_bufs_sub .., StableHlo.unary_bufs_sub .., StableHlo.ternary_bufs_sub ..⟩
theorem w2s1_fresh : (w2s1 : List (HloOp τ sig (Elt F))).Forall fun op => op.fresh = ∅ :=
  ⟨rfl, rfl, rfl⟩
theorem w2s1_writes : (w2s1 : List (HloOp τ sig (Elt F))).Forall fun op => op.writes ⊆ (written.map (Proc.devRef (τ := τ) .tc)).toFinset :=
  ⟨writes_sub_of_mem main_call4_v0 rfl (by decide), writes_sub_of_mem main_call4_v1 rfl (by decide), writes_sub_of_mem main_v109 rfl (by decide)⟩

theorem w2s2_sub : (w2s2 : List (HloOp τ sig (Elt F))).Forall fun op => op.bufs ⊆ StableHlo.tcRefs τ sig :=
  ⟨StableHlo.unary_bufs_sub .., StableHlo.nullary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.binary_bufs_sub ..⟩
theorem w2s2_fresh : (w2s2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem w2s2_writes : (w2s2 : List (HloOp τ sig (Elt F))).Forall fun op => op.writes ⊆ (written.map (Proc.devRef (τ := τ) .tc)).toFinset :=
  ⟨writes_sub_of_mem main_v110 rfl (by decide), writes_sub_of_mem main_cst_33 rfl (by decide), writes_sub_of_mem main_v111 rfl (by decide), writes_sub_of_mem main_v112 rfl (by decide), writes_sub_of_mem main_cst_34 rfl (by decide), writes_sub_of_mem main_v113 rfl (by decide), writes_sub_of_mem main_cst_35 rfl (by decide), writes_sub_of_mem main_v114 rfl (by decide), writes_sub_of_mem main_v115 rfl (by decide), writes_sub_of_mem main_v116 rfl (by decide), writes_sub_of_mem main_cst_36 rfl (by decide), writes_sub_of_mem main_v117 rfl (by decide), writes_sub_of_mem main_cst_37 rfl (by decide), writes_sub_of_mem main_v118 rfl (by decide), writes_sub_of_mem main_cst_38 rfl (by decide), writes_sub_of_mem main_v119 rfl (by decide), writes_sub_of_mem main_v120 rfl (by decide), writes_sub_of_mem main_v121 rfl (by decide), writes_sub_of_mem main_cst_39 rfl (by decide), writes_sub_of_mem main_v122 rfl (by decide), writes_sub_of_mem main_v123 rfl (by decide), writes_sub_of_mem main_cst_40 rfl (by decide), writes_sub_of_mem main_v124 rfl (by decide), writes_sub_of_mem main_v125 rfl (by decide), writes_sub_of_mem main_v126 rfl (by decide), writes_sub_of_mem main_cst_41 rfl (by decide), writes_sub_of_mem main_v127 rfl (by decide), writes_sub_of_mem main_v128 rfl (by decide), writes_sub_of_mem main_cst_42 rfl (by decide), writes_sub_of_mem main_v129 rfl (by decide), writes_sub_of_mem main_v130 rfl (by decide), writes_sub_of_mem main_v131 rfl (by decide), writes_sub_of_mem main_cst_43 rfl (by decide), writes_sub_of_mem main_v132 rfl (by decide), writes_sub_of_mem main_v133 rfl (by decide)⟩

theorem w3s0_sub : (w3s0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩
theorem w3s0_fresh : (w3s0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem w3s0_writes : (w3s0 : List (HloOp τ sig (Elt F))).Forall fun op => op.writes ⊆ (written.map (Proc.devRef (τ := τ) .tc)).toFinset :=
  ⟨writes_sub_of_mem main_cst_44 rfl (by decide), writes_sub_of_mem main_v134 rfl (by decide), writes_sub_of_mem main_cst_45 rfl (by decide), writes_sub_of_mem main_v135 rfl (by decide), writes_sub_of_mem main_v136 rfl (by decide), writes_sub_of_mem main_cst_46 rfl (by decide), writes_sub_of_mem main_v137 rfl (by decide), writes_sub_of_mem main_v138 rfl (by decide), writes_sub_of_mem main_cst_47 rfl (by decide), writes_sub_of_mem main_v139 rfl (by decide), writes_sub_of_mem main_v140 rfl (by decide), writes_sub_of_mem main_cst_48 rfl (by decide), writes_sub_of_mem main_v141 rfl (by decide), writes_sub_of_mem main_v142 rfl (by decide), writes_sub_of_mem main_v143 rfl (by decide), writes_sub_of_mem main_v144 rfl (by decide), writes_sub_of_mem main_v145 rfl (by decide), writes_sub_of_mem main_v146 rfl (by decide), writes_sub_of_mem main_v147 rfl (by decide), writes_sub_of_mem main_v148 rfl (by decide), writes_sub_of_mem main_v149 rfl (by decide)⟩

/-! ## The same of the whole list -/

/-- Every operation touches TensorCore references only. -/
theorem ops_sub : (ops : List (HloOp τ sig (Elt F))).Forall fun op => op.bufs ⊆ StableHlo.tcRefs τ sig := by
  have h := forall_flatten [w0s0, w0s1, w0s2, w0s3, w0s4, w1s0, w1s1, w1s2, w1s3, w1s4, w2s0, w2s1, w2s2, w3s0] (P := fun op : HloOp τ sig (Elt F) => op.bufs ⊆ StableHlo.tcRefs τ sig)
    ⟨w0s0_sub, w0s1_sub, w0s2_sub, w0s3_sub, w0s4_sub, w1s0_sub, w1s1_sub, w1s2_sub, w1s3_sub, w1s4_sub, w2s0_sub, w2s1_sub, w2s2_sub, w3s0_sub⟩
  rwa [ops_eq] at h

/-- Every operation determines all it writes. -/
theorem ops_fresh : (ops : List (HloOp τ sig (Elt F))).Forall fun op => op.fresh = ∅ := by
  have h := forall_flatten [w0s0, w0s1, w0s2, w0s3, w0s4, w1s0, w1s1, w1s2, w1s3, w1s4, w2s0, w2s1, w2s2, w3s0] (P := fun op : HloOp τ sig (Elt F) => op.fresh = ∅)
    ⟨w0s0_fresh, w0s1_fresh, w0s2_fresh, w0s3_fresh, w0s4_fresh, w1s0_fresh, w1s1_fresh, w1s2_fresh, w1s3_fresh, w1s4_fresh, w2s0_fresh, w2s1_fresh, w2s2_fresh, w3s0_fresh⟩
  rwa [ops_eq] at h

/-- Every operation writes inside `written`. -/
theorem ops_writes : (ops : List (HloOp τ sig (Elt F))).Forall fun op => op.writes ⊆ (written.map (Proc.devRef (τ := τ) .tc)).toFinset := by
  have h := forall_flatten [w0s0, w0s1, w0s2, w0s3, w0s4, w1s0, w1s1, w1s2, w1s3, w1s4, w2s0, w2s1, w2s2, w3s0]
    (P := fun op : HloOp τ sig (Elt F) => op.writes ⊆ (written.map (Proc.devRef (τ := τ) .tc)).toFinset)
    ⟨w0s0_writes, w0s1_writes, w0s2_writes, w0s3_writes, w0s4_writes, w1s0_writes, w1s1_writes, w1s2_writes, w1s3_writes, w1s4_writes, w2s0_writes, w2s1_writes, w2s2_writes, w3s0_writes⟩
  rwa [ops_eq] at h

/-- A reference outside `written` holds after the operations what it held before. -/
theorem after_ops_of_not_written (V : Valuation τ sig (Elt F)) {r : Ref sig .tc} (hr : r ∉ written) :
    StableHlo.after ops V (Proc.devRef .tc r) = V (Proc.devRef .tc r) :=
  StableHlo.after_of_writes_sub ops V ops_writes hr

/-! ## The fold, stretch by stretch -/

/-- The fold over two lines end to end is the second's fold after the first's. -/
theorem after_append {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by rw [List.cons_append, StableHlo.after_cons, StableHlo.after_cons, after_append l₁ l₂]

/-- The whole fold as the fourteen stretches' folds, innermost first. -/
theorem after_ops (V : Valuation τ sig (Elt F)) :
    StableHlo.after ops V
      = StableHlo.after w3s0 (StableHlo.after w2s2 (StableHlo.after w2s1 (StableHlo.after w2s0 (StableHlo.after w1s4 (StableHlo.after w1s3 (StableHlo.after w1s2 (StableHlo.after w1s1 (StableHlo.after w1s0 (StableHlo.after w0s4 (StableHlo.after w0s3 (StableHlo.after w0s2 (StableHlo.after w0s1 (StableHlo.after w0s0 (V)))))))))))))) := by
  rw [ops_eq_append]
  simp only [after_append]

/-! ## The run -/

/-- The signature scopes no TensorCore buffer. -/
theorem scopedRefs_eq : (Finset.univ.filter fun b : Ref sig .tc => b.isScoped) = ∅ := by decide
/-- It has no semaphore at all. -/
theorem scopedSems_eq : (Finset.univ.filter fun sm : SemLoc sig => sm.isScoped .tc) = ∅ := by decide

/-- On every device, for any float values, from any memory with zero counters: every weakly fair execution of @main
    terminates with the result buffer at the operations' fold over the launch contents and the twelve arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v149) = StableHlo.after ops (fun b => m (c, b)) (Proc.devRef .tc main_v149)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun _ h c => ⟨h c main_v149,
      (h c main_arg0).trans (after_ops_of_not_written _ (by decide)),
      (h c main_arg1).trans (after_ops_of_not_written _ (by decide)),
      (h c main_arg2).trans (after_ops_of_not_written _ (by decide)),
      (h c main_arg3).trans (after_ops_of_not_written _ (by decide)),
      (h c main_arg4).trans (after_ops_of_not_written _ (by decide)),
      (h c main_arg5).trans (after_ops_of_not_written _ (by decide)),
      (h c main_arg6).trans (after_ops_of_not_written _ (by decide)),
      (h c main_arg7).trans (after_ops_of_not_written _ (by decide)),
      (h c main_arg8).trans (after_ops_of_not_written _ (by decide)),
      (h c main_arg9).trans (after_ops_of_not_written _ (by decide)),
      (h c main_arg10).trans (after_ops_of_not_written _ (by decide)),
      (h c main_arg11).trans (after_ops_of_not_written _ (by decide))⟩)
    (StableHlo.run_seq scopedRefs_eq scopedSems_eq defs main (fun _ => ops) main_eq (fun _ => ops_sub) m ρ
      (fun _ => List.forall_iff_forall_mem.1 ops_fresh))

/-- The frame alone: @main runs and leaves its twelve arguments as they were. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun _ h c => (h c).2) (run m ρ)

end Cert.ReferenceIdeal.RefRun

end
-- ==== Proof.Spec.lean ====
import proofs.«117839_j20658792694235_1_alg».proof.KernelIdeal
import Idealize.ShloMosaic.PureOps

/-! The host side of the program as pure functions of array contents.

Every definition below is one shared sub-computation, written with exactly the operations the
program applies on the host, in the order it applies them.  The shape records (dot dimensions,
scatter dimensions, broadcast, slice, reshape and reduction facts) are the ones the program itself
cites, which is why this module sits on top of the program's vocabulary. -/

noncomputable section

namespace Cert.Spec

open Idealize.ShloMosaic
open Cert.KernelIdeal
open Cert.KernelIdeal.Facts₀

variable {F : FTy → Type} [FloatOps F] [Facts₀]

/-- The factor chain: (a1 · a2) · a3, a 4096×64 matrix. -/
def Mof (a1 : FVec F S4096x256 .f32) (a2 : FVec F S256x128 .f32) (a3 : FVec F S128x64 .f32) : FVec F S4096x64 .f32 :=
  Host.dotGeneral dot_S4096x128_S128x64_S4096x64_1_0_0_1_n_n none
    (Host.dotGeneral dot_S4096x256_S256x128_S4096x128_1_0_0_1_n_n none a1 a2) a3

/-! ## The embedding and its row normalisation -/

/-- First affine layer: a4ᵀ · a5ᵀ plus the bias a6 broadcast along the rows. -/
def lin1 (a4 : FVec F S64x4096 .f32) (a5 : FVec F S128x64 .f32) (a6 : FVec F S128 .f32) : FVec F S4096x128 .f32 :=
  addf
    (Host.dotGeneral dot_S4096x64_S64x128_S4096x128_1_0_0_1_n_n none
      (transpose S4096x64 [1, 0] a4 transposes_S64x4096_S4096x64_1_0)
      (transpose S64x128 [1, 0] a5 transposes_S128x64_S64x128_1_0))
    (broadcastInDim S4096x128 ![0, 1] bcast_S1x128_S4096x128_0_1
      (broadcastInDim S1x128 ![1] bcast_S128_S1x128_1 a6))

/-- The exponential linear unit, elementwise: x where x > 0, otherwise 1 · expm1 of (0 where x > 0, else x). -/
def elu (x : FVec F S4096x128 .f32) : FVec F S4096x128 .f32 :=
  select
    (cmpf .ogt x (broadcastInDim S4096x128 ![] bcast_S_S4096x128 (constant S_ .f32 0x00000000#32)))
    x
    (mulf
      (broadcastInDim S4096x128 ![] bcast_S_S4096x128 (constant S_ .f32 0x3F800000#32))
      (Host.expm1
        (select
          (cmpf .ogt x (broadcastInDim S4096x128 ![] bcast_S_S4096x128 (constant S_ .f32 0x00000000#32)))
          (broadcastInDim S4096x128 ![] bcast_S_S4096x128 (id (constant S_ .f32 0x00000000#32)))
          x)))

/-- Second affine layer: h · a7ᵀ plus the bias a8 broadcast along the rows. -/
def lin2 (h : FVec F S4096x128 .f32) (a7 : FVec F S256x128 .f32) (a8 : FVec F S256 .f32) : FVec F S4096x256 .f32 :=
  addf
    (Host.dotGeneral dot_S4096x128_S128x256_S4096x256_1_0_0_1_n_n none h
      (transpose S128x256 [1, 0] a7 transposes_S256x128_S128x256_1_0))
    (broadcastInDim S4096x256 ![0, 1] bcast_S1x256_S4096x256_0_1
      (broadcastInDim S1x256 ![1] bcast_S256_S1x256_1 a8))

/-- The Euclidean norm of every row, kept as a column: sqrt of the row sums of squares. -/
def rowNorm (z : FVec F S4096x256 .f32) : FVec F S4096x1 .f32 :=
  Host.sqrt
    (broadcastInDim S4096x1 ![0] bcast_S4096_S4096x1_0
      (Host.reduceAdd (mulf z z) (constant S_ .f32 0x00000000#32) reducesTo_S4096x256_S4096_d1 h_S_))

/-- Every row divided by the larger of its norm and 1e-12. -/
def l2rows (z : FVec F S4096x256 .f32) : FVec F S4096x256 .f32 :=
  Host.divf z
    (broadcastInDim S4096x256 ![0, 1] bcast_S4096x1_S4096x256_0_1
      (maximumf (rowNorm z)
        (broadcastInDim S4096x1 ![] bcast_S_S4096x1 (constant S_ .f32 0x2B8CBCCC#32))))

/-- The normalised embedding of the projection head. -/
def hnOf (a4 : FVec F S64x4096 .f32) (a5 : FVec F S128x64 .f32) (a6 : FVec F S128 .f32)
    (a7 : FVec F S256x128 .f32) (a8 : FVec F S256 .f32) : FVec F S4096x256 .f32 :=
  l2rows (lin2 (elu (lin1 a4 a5 a6)) a7 a8)

/-! ## The two index masks -/

/-- The row number of every row as a column, wrapped into range (a negative entry gets 4096 added). -/
def rowIx : IVec S4096x1 32 :=
  select
    (cmpi .slt (broadcastInDim S4096x1 ![0] bcast_S4096_S4096x1_0 (iotaInDim S4096 32 0))
      (broadcastInDim S4096x1 ![] bcast_S_S4096x1 (constantI S_ 32 0#32)))
    (addi (broadcastInDim S4096x1 ![0] bcast_S4096_S4096x1_0 (iotaInDim S4096 32 0))
      (broadcastInDim S4096x1 ![] bcast_S_S4096x1 (constantI S_ 32 4096#32)))
    (broadcastInDim S4096x1 ![0] bcast_S4096_S4096x1_0 (iotaInDim S4096 32 0))

/-- The 4096×4096 array that is 1 at (i, idx i k) for the eight columns k and 0 elsewhere. -/
def maskOf8 (idx : IVec S4096x8 32) : FVec F S4096x4096 .f32 :=
  Host.scatter scatter_S4096x4096_S4096x8x2_S4096x8_n_01_01_2 (fun _ b => b)
    (broadcastInDim S4096x4096 ![] bcast_S_S4096x4096 (constant S_ .f32 0x00000000#32))
    (concatenate S4096x8x2 2
      [⟨S4096x8x1, broadcastInDim S4096x8x1 ![0, 1] bcast_S4096x8_S4096x8x1_0_1
          (broadcastInDim S4096x8 ![0, 1] bcast_S4096x1_S4096x8_0_1 rowIx)⟩,
       ⟨S4096x8x1, broadcastInDim S4096x8x1 ![0, 1] bcast_S4096x8_S4096x8x1_0_1
          (select
            (cmpi .slt idx (broadcastInDim S4096x8 ![] bcast_S_S4096x8 (constantI S_ 32 0#32)))
            (addi idx (broadcastInDim S4096x8 ![] bcast_S_S4096x8 (constantI S_ 32 4096#32)))
            idx)⟩]
      concatenates_S4096x8x1_S4096x8x1_S4096x8x2_d2)
    (broadcastInDim S4096x8 ![] bcast_S_S4096x8 (constant S_ .f32 0x3F800000#32))

/-- The same over sixteen columns. -/
def maskOf16 (idx : IVec S4096x16 32) : FVec F S4096x4096 .f32 :=
  Host.scatter scatter_S4096x4096_S4096x16x2_S4096x16_n_01_01_2 (fun _ b => b)
    (broadcastInDim S4096x4096 ![] bcast_S_S4096x4096 (constant S_ .f32 0x00000000#32))
    (concatenate S4096x16x2 2
      [⟨S4096x16x1, broadcastInDim S4096x16x1 ![0, 1] bcast_S4096x16_S4096x16x1_0_1
          (broadcastInDim S4096x16 ![0, 1] bcast_S4096x1_S4096x16_0_1 rowIx)⟩,
       ⟨S4096x16x1, broadcastInDim S4096x16x1 ![0, 1] bcast_S4096x16_S4096x16x1_0_1
          (select
            (cmpi .slt idx (broadcastInDim S4096x16 ![] bcast_S_S4096x16 (constantI S_ 32 0#32)))
            (addi idx (broadcastInDim S4096x16 ![] bcast_S_S4096x16 (constantI S_ 32 4096#32)))
            idx)⟩]
      concatenates_S4096x16x1_S4096x16x1_S4096x16x2_d2)
    (broadcastInDim S4096x16 ![] bcast_S_S4096x16 (constant S_ .f32 0x3F800000#32))

/-! ## The contrastive tail -/

/-- From the per-row ratio to the loss: replace exact zeros by 1, minus the sum of logs, over 4096. -/
def finish (cl : FVec F S4096 .f32) : FVec F S_ .f32 :=
  Host.divf
    (Host.negf
      (Host.reduceAdd
        (Host.log
          (select
            (cmpf .oeq cl (broadcastInDim S4096 ![] bcast_S_S4096 (constant S_ .f32 0x00000000#32)))
            (broadcastInDim S4096 ![] bcast_S_S4096 (id (constant S_ .f32 0x3F800000#32)))
            cl))
        (constant S_ .f32 0x00000000#32) reducesTo_S4096_S_d0 h_S_))
    (constant S_ .f32 0x45800000#32)

/-- Column k of the 4096×4 statistics as a vector. -/
def col0 (st : FVec F S4096x4 .f32) : FVec F S4096 .f32 :=
  shapeCast S4096 (extractStridedSlice S4096x1 ![0, 0] st slices_S4096x4_S4096x1_0_0) shapeCasts_S4096x1_S4096
def col1 (st : FVec F S4096x4 .f32) : FVec F S4096 .f32 :=
  shapeCast S4096 (extractStridedSlice S4096x1 ![0, 1] st slices_S4096x4_S4096x1_0_1) shapeCasts_S4096x1_S4096
def col2 (st : FVec F S4096x4 .f32) : FVec F S4096 .f32 :=
  shapeCast S4096 (extractStridedSlice S4096x1 ![0, 2] st slices_S4096x4_S4096x1_0_2) shapeCasts_S4096x1_S4096
def col3 (st : FVec F S4096x4 .f32) : FVec F S4096 .f32 :=
  shapeCast S4096 (extractStridedSlice S4096x1 ![0, 3] st slices_S4096x4_S4096x1_0_3) shapeCasts_S4096x1_S4096

/-! ## The non-negativity penalty -/

/-- Sum over the four factors of the sum of squares of their negative parts, added left to right from 0. -/
def loss5Of (a1 : FVec F S4096x256 .f32) (a2 : FVec F S256x128 .f32) (a3 : FVec F S128x64 .f32)
    (a4 : FVec F S64x4096 .f32) : FVec F S_ .f32 :=
  addf
    (addf
      (addf
        (addf (constant S_ .f32 0x00000000#32)
          (Host.reduceAdd
            (mulf (minimumf a1 (broadcastInDim S4096x256 ![] bcast_S_S4096x256 (constant S_ .f32 0x00000000#32)))
                  (minimumf a1 (broadcastInDim S4096x256 ![] bcast_S_S4096x256 (constant S_ .f32 0x00000000#32))))
            (constant S_ .f32 0x00000000#32) reducesTo_S4096x256_S_d0_1 h_S_))
        (Host.reduceAdd
          (mulf (minimumf a2 (broadcastInDim S256x128 ![] bcast_S_S256x128 (constant S_ .f32 0x00000000#32)))
                (minimumf a2 (broadcastInDim S256x128 ![] bcast_S_S256x128 (constant S_ .f32 0x00000000#32))))
          (constant S_ .f32 0x00000000#32) reducesTo_S256x128_S_d0_1 h_S_))
      (Host.reduceAdd
        (mulf (minimumf a3 (broadcastInDim S128x64 ![] bcast_S_S128x64 (constant S_ .f32 0x00000000#32)))
              (minimumf a3 (broadcastInDim S128x64 ![] bcast_S_S128x64 (constant S_ .f32 0x00000000#32))))
        (constant S_ .f32 0x00000000#32) reducesTo_S128x64_S_d0_1 h_S_))
    (Host.reduceAdd
      (mulf (minimumf a4 (broadcastInDim S64x4096 ![] bcast_S_S64x4096 (constant S_ .f32 0x00000000#32)))
            (minimumf a4 (broadcastInDim S64x4096 ![] bcast_S_S64x4096 (constant S_ .f32 0x00000000#32))))
      (constant S_ .f32 0x00000000#32) reducesTo_S64x4096_S_d0_1 h_S_)

/-! ## The weighted total and the six results -/

/-- 1·l1 + 0.1·l2 + 0.1·l3 + 0.1·l4 + 1·l5, left to right. -/
def total (l1 l2 l3 l4 l5 : FVec F S_ .f32) : FVec F S_ .f32 :=
  addf
    (addf
      (addf
        (addf (mulf (constant S_ .f32 0x3F800000#32) l1) (mulf (constant S_ .f32 0x3DCCCCCD#32) l2))
        (mulf (constant S_ .f32 0x3DCCCCCD#32) l3))
      (mulf (constant S_ .f32 0x3DCCCCCD#32) l4))
    (mulf (constant S_ .f32 0x3F800000#32) l5)

/-- The six results in order: the total, then the five losses. -/
def combine (l1 l2 l3 l4 l5 : FVec F S_ .f32) : FVec F S6 .f32 :=
  concatenate S6 0
    [⟨S1, broadcastInDim S1 ![] bcast_S_S1 (total l1 l2 l3 l4 l5)⟩,
     ⟨S1, broadcastInDim S1 ![] bcast_S_S1 l1⟩,
     ⟨S1, broadcastInDim S1 ![] bcast_S_S1 l2⟩,
     ⟨S1, broadcastInDim S1 ![] bcast_S_S1 l3⟩,
     ⟨S1, broadcastInDim S1 ![] bcast_S_S1 l4⟩,
     ⟨S1, broadcastInDim S1 ![] bcast_S_S1 l5⟩]
    concatenates_S1_S1_S1_S1_S1_S1_S6_d0

/-- A 1×1 array read as a scalar. -/
def scalarOf (x : FVec F S1x1 .f32) : FVec F S_ .f32 :=
  shapeCast S_ x shapeCasts_S1x1_S_

end Cert.Spec
-- ==== Proof.KITail.lean ====
import proofs.«117839_j20658792694235_1_alg».proof.Proof.Gen.KernelIdeal.Regions
import proofs.«117839_j20658792694235_1_alg».proof.Proof.Spec
import Idealize.ShloMosaic.Lib.StableHlo.Run

/-! What the host stretches of the program leave in the buffers, read as the pure functions of
the specification module applied to the launch contents and to what the two kernel regions leave
behind. -/

set_option maxRecDepth 4096
set_option pp.maxSteps 5000
set_option pp.deepTerms false

noncomputable section

namespace Cert.KernelIdeal.Tail

open Cert.KernelIdeal Cert.KernelIdeal.Gen
open Idealize.ShloMosaic Idealize.ShloMosaic.TcCoe
open Idealize.ShloMosaic.StableHlo

variable {F : FTy → Type} [FloatOps F]
variable (m : (ℓ : Loc nD τ sig) → Buf (Elt F) ℓ) (outs : Outs (F := F)) (c : Dev nD)

/-! ## The stretch before the first region -/

/-- No stretch writes an argument: the first argument is as launched. -/
theorem V1_arg0 : V1 m c main_arg0 = m ((c : Thread nD τ).loc main_arg0) :=
  (V1_of m c main_arg0 (by decide)).trans rfl

theorem V1_arg4 : V1 m c main_arg4 = m ((c : Thread nD τ).loc main_arg4) :=
  (V1_of m c main_arg4 (by decide)).trans rfl

/-- The first stretch is the factor chain of arguments 1, 2, 3. -/
theorem V1_v1 : (V1 m c main_v1 : FVec F S4096x64 .f32)
    = Spec.Mof (m ((c : Thread nD τ).loc main_arg1)) (m ((c : Thread nD τ).loc main_arg2)) (m ((c : Thread nD τ).loc main_arg3)) := by
  dsimp only [V1, V0, hostOps0]
  after_results
  rfl

/-! ## Each stretch over an arbitrary valuation

The valuations between items are nested folds; every stretch is first read over an arbitrary
valuation W standing for what the earlier items left. -/

section Stretch

variable (W : Valuation τ sig (Elt F))

/-- The first affine layer. -/
theorem s1_v9 : (after hostOps1 W main_v9 : FVec F S4096x128 .f32) = Spec.lin1 (W main_arg4) (W main_arg5) (W main_arg6) := by
  dsimp only [hostOps1]
  after_results
  rfl

/-- The 1×1 result of the first region read as a scalar. -/
theorem s1_v3 : (after hostOps1 W main_v3 : FVec F S_ .f32) = Spec.scalarOf (W main_v2) := by
  dsimp only [hostOps1]
  after_results
  rfl

/-- The exponential linear unit. -/
theorem s1_1_v10 : (after hostOps1_1 W main_v10 : FVec F S4096x128 .f32) = Spec.elu (W main_v9) := by
  dsimp only [hostOps1_1]
  after_results
  rfl

/-- The second affine layer. -/
theorem s1_2_v15 : (after hostOps1_2 W main_v15 : FVec F S4096x256 .f32) = Spec.lin2 (W main_v10) (W main_arg7) (W main_arg8) := by
  dsimp only [hostOps1_2]
  after_results
  rfl

/-- The row norms. -/
theorem s1_3_v16 : (after hostOps1_3 W main_v16 : FVec F S4096x1 .f32) = Spec.rowNorm (W main_v15) := by
  dsimp only [hostOps1_3]
  after_results
  rfl

end Stretch

section Stretch14

variable (W : Valuation τ sig (Elt F))

/-- The rows divided by the larger of their norm and 1e-12. -/
theorem s1_4_v20 : (after hostOps1_4 W main_v20 : FVec F S4096x256 .f32)
    = Host.divf (W main_v15)
        (broadcastInDim S4096x256 ![0, 1] Facts₀.bcast_S4096x1_S4096x256_0_1
          (maximumf (W main_v16)
            (broadcastInDim S4096x1 ![] Facts₀.bcast_S_S4096x1 (constant S_ .f32 0x2B8CBCCC#32)))) := by
  dsimp only [hostOps1_4]
  after_results_simp

/-- The mask of the eight-column index table. -/
theorem s1_4_v39 : (after hostOps1_4 W main_v39 : FVec F S4096x4096 .f32) = Spec.maskOf8 (W main_arg10) := by
  dsimp only [hostOps1_4]
  after_results_simp
  rfl

/-- The mask of the sixteen-column index table. -/
theorem s1_4_v58 : (after hostOps1_4 W main_v58 : FVec F S4096x4096 .f32) = Spec.maskOf16 (W main_arg11) := by
  dsimp only [hostOps1_4]
  after_results_simp
  rfl

end Stretch14

/-! ## Reading a launch argument through the items -/

/-- A reference no item up to the first region writes holds its launch contents after it. -/
theorem V2_in (r : Ref sig .tc) (h2 : r ∉ ([main_v2] : List (Ref sig .tc))) (h1 : r ∉ hostOps0_W) :
    V2 m outs c r = m ((c : Thread nD τ).loc r) :=
  (V2_of m outs c r h2).trans ((V1_of m c r h1).trans rfl)

theorem V3_in (r : Ref sig .tc) (h3 : r ∉ hostOps1_W) (h2 : r ∉ ([main_v2] : List (Ref sig .tc))) (h1 : r ∉ hostOps0_W) :
    V3 m outs c r = m ((c : Thread nD τ).loc r) :=
  (V3_of m outs c r h3).trans (V2_in m outs c r h2 h1)

theorem V4_in (r : Ref sig .tc) (h4 : r ∉ hostOps1_1_W) (h3 : r ∉ hostOps1_W)
    (h2 : r ∉ ([main_v2] : List (Ref sig .tc))) (h1 : r ∉ hostOps0_W) :
    V4 m outs c r = m ((c : Thread nD τ).loc r) :=
  (V4_of m outs c r h4).trans (V3_in m outs c r h3 h2 h1)

theorem V6_in (r : Ref sig .tc) (h6 : r ∉ hostOps1_3_W) (h5 : r ∉ hostOps1_2_W) (h4 : r ∉ hostOps1_1_W) (h3 : r ∉ hostOps1_W)
    (h2 : r ∉ ([main_v2] : List (Ref sig .tc))) (h1 : r ∉ hostOps0_W) :
    V6 m outs c r = m ((c : Thread nD τ).loc r) :=
  (V6_of m outs c r h6).trans ((V5_of m outs c r h5).trans (V4_in m outs c r h4 h3 h2 h1))

theorem V7_in (r : Ref sig .tc) (h7 : r ∉ hostOps1_4_W) (h6 : r ∉ hostOps1_3_W) (h5 : r ∉ hostOps1_2_W) (h4 : r ∉ hostOps1_1_W)
    (h3 : r ∉ hostOps1_W) (h2 : r ∉ ([main_v2] : List (Ref sig .tc))) (h1 : r ∉ hostOps0_W) :
    V7 m outs c r = m ((c : Thread nD τ).loc r) :=
  (V7_of m outs c r h7).trans (V6_in m outs c r h6 h5 h4 h3 h2 h1)

theorem V7_arg9 : V7 m outs c main_arg9 = m ((c : Thread nD τ).loc main_arg9) :=
  V7_in m outs c main_arg9 (by decide) (by decide) (by decide) (by decide) (by decide) (by decide) (by decide)

/-! ## What the second region reads -/

theorem V3_v9 : (V3 m outs c main_v9 : FVec F S4096x128 .f32)
    = Spec.lin1 (m ((c : Thread nD τ).loc main_arg4)) (m ((c : Thread nD τ).loc main_arg5)) (m ((c : Thread nD τ).loc main_arg6)) := by
  refine (s1_v9 (V2 m outs c)).trans ?_
  rw [V2_in m outs c main_arg4 (by decide) (by decide), V2_in m outs c main_arg5 (by decide) (by decide),
    V2_in m outs c main_arg6 (by decide) (by decide)]

theorem V4_v10 : (V4 m outs c main_v10 : FVec F S4096x128 .f32)
    = Spec.elu (Spec.lin1 (m ((c : Thread nD τ).loc main_arg4)) (m ((c : Thread nD τ).loc main_arg5)) (m ((c : Thread nD τ).loc main_arg6))) := by
  refine (s1_1_v10 (V3 m outs c)).trans ?_
  rw [V3_v9]

theorem V5_v15 : (V5 m outs c main_v15 : FVec F S4096x256 .f32)
    = Spec.lin2 (Spec.elu (Spec.lin1 (m ((c : Thread nD τ).loc main_arg4)) (m ((c : Thread nD τ).loc main_arg5)) (m ((c : Thread nD τ).loc main_arg6))))
        (m ((c : Thread nD τ).loc main_arg7)) (m ((c : Thread nD τ).loc main_arg8)) := by
  refine (s1_2_v15 (V4 m outs c)).trans ?_
  rw [V4_v10, V4_in m outs c main_arg7 (by decide) (by decide) (by decide) (by decide),
    V4_in m outs c main_arg8 (by decide) (by decide) (by decide) (by decide)]

theorem V6_v16 : (V6 m outs c main_v16 : FVec F S4096x1 .f32) = Spec.rowNorm (V5 m outs c main_v15) :=
  s1_3_v16 (V5 m outs c)

/-- The normalised embedding the second region reads. -/
theorem V7_v20 : (V7 m outs c main_v20 : FVec F S4096x256 .f32)
    = Spec.hnOf (m ((c : Thread nD τ).loc main_arg4)) (m ((c : Thread nD τ).loc main_arg5)) (m ((c : Thread nD τ).loc main_arg6))
        (m ((c : Thread nD τ).loc main_arg7)) (m ((c : Thread nD τ).loc main_arg8)) := by
  refine (s1_4_v20 (V6 m outs c)).trans ?_
  rw [V6_v16, V6_of m outs c main_v15 (by decide), V5_v15]
  rfl

/-- The eight-column mask the second region reads. -/
theorem V7_v39 : (V7 m outs c main_v39 : FVec F S4096x4096 .f32) = Spec.maskOf8 (m ((c : Thread nD τ).loc main_arg10)) := by
  refine (s1_4_v39 (V6 m outs c)).trans ?_
  rw [V6_in m outs c main_arg10 (by decide) (by decide) (by decide) (by decide) (by decide) (by decide)]

/-- The sixteen-column mask the second region reads. -/
theorem V7_v58 : (V7 m outs c main_v58 : FVec F S4096x4096 .f32) = Spec.maskOf16 (m ((c : Thread nD τ).loc main_arg11)) := by
  refine (s1_4_v58 (V6 m outs c)).trans ?_
  rw [V6_in m outs c main_arg11 (by decide) (by decide) (by decide) (by decide) (by decide) (by decide)]

/-! ## The stretches after the second region, over an arbitrary valuation -/

/-- Minus the sum of the logarithms, over 4096. -/
def logMean (x : FVec F S4096 .f32) : FVec F S_ .f32 :=
  Host.divf
    (Host.negf (Host.reduceAdd (Host.log x) (constant S_ .f32 0x00000000#32) Facts₀.reducesTo_S4096_S_d0 Facts₀.h_S_))
    (constant S_ .f32 0x45800000#32)

/-- Where the ratio is an exact zero. -/
def isZero (cl : FVec F S4096 .f32) : IVec S4096 1 :=
  cmpf .oeq cl (broadcastInDim S4096 ![] Facts₀.bcast_S_S4096 (constant S_ .f32 0x00000000#32))

/-- The marked entries replaced by a scalar. -/
def putAt (b : IVec S4096 1) (one : FVec F S_ .f32) (cl : FVec F S4096 .f32) : FVec F S4096 .f32 :=
  select b (broadcastInDim S4096 ![] Facts₀.bcast_S_S4096 (id one)) cl

theorem finish_eq (cl : FVec F S4096 .f32) :
    Spec.finish cl = logMean (putAt (isZero cl) (constant S_ .f32 0x3F800000#32) cl) := rfl

section Tail

variable (W : Valuation τ sig (Elt F))

theorem s2_v61 : (after hostOps2 W main_v61 : FVec F S4096 .f32) = Spec.col0 (W main_v59) := by
  dsimp only [hostOps2]
  after_results
  rfl

theorem s2_v65 : (after hostOps2 W main_v65 : FVec F S4096 .f32) = Spec.col2 (W main_v59) := by
  dsimp only [hostOps2]
  after_results
  rfl

theorem s2_v67 : (after hostOps2 W main_v67 : FVec F S4096 .f32) = Spec.col3 (W main_v59) := by
  dsimp only [hostOps2]
  after_results
  rfl

theorem s2_v68 : (after hostOps2 W main_v68 : FVec F S4096 .f32)
    = Host.divf (Spec.col1 (W main_v59)) (Spec.col0 (W main_v59)) := by
  dsimp only [hostOps2]
  after_results
  rfl

theorem s2_v70 : (after hostOps2 W main_v70 : IVec S4096 1)
    = isZero (Host.divf (Spec.col1 (W main_v59)) (Spec.col0 (W main_v59))) := by
  dsimp only [hostOps2]
  after_results
  rfl

theorem s2_cst12 : (after hostOps2 W main_cst_12 : FVec F S_ .f32) = constant S_ .f32 0x3F800000#32 := by
  dsimp only [hostOps2]
  after_results

theorem s2_1_v71 : (after hostOps2_1 W main_v71 : FVec F S4096 .f32)
    = putAt (W main_v70) (W main_cst_12) (W main_v68) := by
  dsimp only [hostOps2_1]
  after_results
  rfl

theorem s2_2_v75 : (after hostOps2_2 W main_v75 : FVec F S_ .f32) = logMean (W main_v71) := by
  dsimp only [hostOps2_2]
  after_results
  rfl

theorem s2_2_v76 : (after hostOps2_2 W main_v76 : FVec F S4096 .f32) = Host.divf (W main_v65) (W main_v61) := by
  dsimp only [hostOps2_2]
  after_results

theorem s2_2_v78 : (after hostOps2_2 W main_v78 : IVec S4096 1) = isZero (Host.divf (W main_v65) (W main_v61)) := by
  dsimp only [hostOps2_2]
  after_results
  rfl

theorem s2_2_cst16 : (after hostOps2_2 W main_cst_16 : FVec F S_ .f32) = constant S_ .f32 0x3F800000#32 := by
  dsimp only [hostOps2_2]
  after_results

theorem s2_3_v79 : (after hostOps2_3 W main_v79 : FVec F S4096 .f32)
    = putAt (W main_v78) (W main_cst_16) (W main_v76) := by
  dsimp only [hostOps2_3]
  after_results
  rfl

theorem s2_4_v83 : (after hostOps2_4 W main_v83 : FVec F S_ .f32) = logMean (W main_v79) := by
  dsimp only [hostOps2_4]
  after_results
  rfl

theorem s2_4_v84 : (after hostOps2_4 W main_v84 : FVec F S4096 .f32) = Host.divf (W main_v67) (W main_v61) := by
  dsimp only [hostOps2_4]
  after_results

theorem s2_4_v86 : (after hostOps2_4 W main_v86 : IVec S4096 1) = isZero (Host.divf (W main_v67) (W main_v61)) := by
  dsimp only [hostOps2_4]
  after_results
  rfl

theorem s2_4_cst20 : (after hostOps2_4 W main_cst_20 : FVec F S_ .f32) = constant S_ .f32 0x3F800000#32 := by
  dsimp only [hostOps2_4]
  after_results

theorem s2_5_v87 : (after hostOps2_5 W main_v87 : FVec F S4096 .f32)
    = putAt (W main_v86) (W main_cst_20) (W main_v84) := by
  dsimp only [hostOps2_5]
  after_results
  rfl

end Tail

section Tail6

variable (W : Valuation τ sig (Elt F))

/-- The last stretch: the third loss, the penalty, the weighted total and the six results. -/
theorem s2_6_v127 : (after hostOps2_6 W main_v127 : FVec F S6 .f32)
    = Spec.combine (W main_v3) (W main_v75) (W main_v83) (logMean (W main_v87))
        (Spec.loss5Of (W main_arg1) (W main_arg2) (W main_arg3) (W main_arg4)) := by
  dsimp only [hostOps2_6]
  simp (disch := decide) only [after_cons, after_nil,
      nullary_result', unary_result', binary_result', ternary_result', reshape_result', nary_result',
      nullary_result_ne', unary_result_ne', binary_result_ne', ternary_result_ne', reshape_result_ne', nary_result_ne',
      Matrix.cons_val]
  rfl

end Tail6

/-! ## The result -/

/-- What the first region leaves in its 1×1 result buffer. -/
theorem V2_v2 : V2 m outs c main_v2 = outs 2 main_v2 c :=
  Function.update_self _ _ _

/-- What the second region leaves in its 4096×4 result buffer. -/
theorem V8_v59 : V8 m outs c main_v59 = outs 8 main_v59 c :=
  Function.update_self _ _ _

/-- A reference no item after the second region's entry writes, up to the last stretch's entry. -/
theorem V14_eq_V7 (r : Ref sig .tc) (h14 : r ∉ hostOps2_5_W) (h13 : r ∉ hostOps2_4_W) (h12 : r ∉ hostOps2_3_W)
    (h11 : r ∉ hostOps2_2_W) (h10 : r ∉ hostOps2_1_W) (h9 : r ∉ hostOps2_W) (h8 : r ∉ ([main_v59] : List (Ref sig .tc))) :
    V14 m outs c r = V7 m outs c r :=
  (V14_of m outs c r h14).trans <| (V13_of m outs c r h13).trans <| (V12_of m outs c r h12).trans <|
    (V11_of m outs c r h11).trans <| (V10_of m outs c r h10).trans <| (V9_of m outs c r h9).trans (V8_of m outs c r h8)

theorem V14_in (r : Ref sig .tc) (h14 : r ∉ hostOps2_5_W) (h13 : r ∉ hostOps2_4_W) (h12 : r ∉ hostOps2_3_W)
    (h11 : r ∉ hostOps2_2_W) (h10 : r ∉ hostOps2_1_W) (h9 : r ∉ hostOps2_W) (h8 : r ∉ ([main_v59] : List (Ref sig .tc)))
    (h7 : r ∉ hostOps1_4_W) (h6 : r ∉ hostOps1_3_W) (h5 : r ∉ hostOps1_2_W) (h4 : r ∉ hostOps1_1_W)
    (h3 : r ∉ hostOps1_W) (h2 : r ∉ ([main_v2] : List (Ref sig .tc))) (h1 : r ∉ hostOps0_W) :
    V14 m outs c r = m ((c : Thread nD τ).loc r) :=
  (V14_eq_V7 m outs c r h14 h13 h12 h11 h10 h9 h8).trans (V7_in m outs c r h7 h6 h5 h4 h3 h2 h1)

/-- The first loss, as the last stretch reads it: the first region's result as a scalar. -/
theorem V14_v3 : (V14 m outs c main_v3 : FVec F S_ .f32) = Spec.scalarOf (outs 2 main_v2 c) := by
  refine (V14_eq_V7 m outs c main_v3 (by decide) (by decide) (by decide) (by decide) (by decide) (by decide) (by decide)).trans ?_
  refine (V7_of m outs c main_v3 (by decide)).trans <| (V6_of m outs c main_v3 (by decide)).trans <|
    (V5_of m outs c main_v3 (by decide)).trans <| (V4_of m outs c main_v3 (by decide)).trans ?_
  refine (s1_v3 (V2 m outs c)).trans ?_
  rw [V2_v2]

/-- The three ratios of the statistics' columns. -/
theorem V9_v61 : (V9 m outs c main_v61 : FVec F S4096 .f32) = Spec.col0 (outs 8 main_v59 c) := by
  refine (s2_v61 (V8 m outs c)).trans ?_
  rw [V8_v59]

theorem V9_v65 : (V9 m outs c main_v65 : FVec F S4096 .f32) = Spec.col2 (outs 8 main_v59 c) := by
  refine (s2_v65 (V8 m outs c)).trans ?_
  rw [V8_v59]

theorem V9_v67 : (V9 m outs c main_v67 : FVec F S4096 .f32) = Spec.col3 (outs 8 main_v59 c) := by
  refine (s2_v67 (V8 m outs c)).trans ?_
  rw [V8_v59]

theorem V9_v68 : (V9 m outs c main_v68 : FVec F S4096 .f32)
    = Host.divf (Spec.col1 (outs 8 main_v59 c)) (Spec.col0 (outs 8 main_v59 c)) := by
  refine (s2_v68 (V8 m outs c)).trans ?_
  rw [V8_v59]

theorem V9_v70 : (V9 m outs c main_v70 : IVec S4096 1)
    = isZero (Host.divf (Spec.col1 (outs 8 main_v59 c)) (Spec.col0 (outs 8 main_v59 c))) := by
  refine (s2_v70 (V8 m outs c)).trans ?_
  rw [V8_v59]

/-- The second loss. -/
theorem V11_v75 : (V11 m outs c main_v75 : FVec F S_ .f32)
    = Spec.finish (Host.divf (Spec.col1 (outs 8 main_v59 c)) (Spec.col0 (outs 8 main_v59 c))) := by
  refine (s2_2_v75 (V10 m outs c)).trans ?_
  rw [show (V10 m outs c main_v71 : FVec F S4096 .f32) = _ from s2_1_v71 (V9 m outs c),
    V9_v70, V9_v68, show (V9 m outs c main_cst_12 : FVec F S_ .f32) = _ from s2_cst12 (V8 m outs c), finish_eq]

/-- The third loss. -/
theorem V13_v83 : (V13 m outs c main_v83 : FVec F S_ .f32)
    = Spec.finish (Host.divf (Spec.col2 (outs 8 main_v59 c)) (Spec.col0 (outs 8 main_v59 c))) := by
  refine (s2_4_v83 (V12 m outs c)).trans ?_
  rw [show (V12 m outs c main_v79 : FVec F S4096 .f32) = _ from s2_3_v79 (V11 m outs c),
    show (V11 m outs c main_v78 : IVec S4096 1) = _ from s2_2_v78 (V10 m outs c),
    show (V11 m outs c main_v76 : FVec F S4096 .f32) = _ from s2_2_v76 (V10 m outs c),
    show (V11 m outs c main_cst_16 : FVec F S_ .f32) = _ from s2_2_cst16 (V10 m outs c),
    V10_of m outs c main_v65 (by decide), V10_of m outs c main_v61 (by decide), V9_v65, V9_v61, finish_eq]

/-- The ratio and its zeros for the fourth loss, as the last stretch but one reads them. -/
theorem V14_v87 : (V14 m outs c main_v87 : FVec F S4096 .f32)
    = putAt (isZero (Host.divf (Spec.col3 (outs 8 main_v59 c)) (Spec.col0 (outs 8 main_v59 c))))
        (constant S_ .f32 0x3F800000#32)
        (Host.divf (Spec.col3 (outs 8 main_v59 c)) (Spec.col0 (outs 8 main_v59 c))) := by
  refine (s2_5_v87 (V13 m outs c)).trans ?_
  rw [show (V13 m outs c main_v86 : IVec S4096 1) = _ from s2_4_v86 (V12 m outs c),
    show (V13 m outs c main_v84 : FVec F S4096 .f32) = _ from s2_4_v84 (V12 m outs c),
    show (V13 m outs c main_cst_20 : FVec F S_ .f32) = _ from s2_4_cst20 (V12 m outs c),
    V12_of m outs c main_v67 (by decide), V11_of m outs c main_v67 (by decide), V10_of m outs c main_v67 (by decide),
    V12_of m outs c main_v61 (by decide), V11_of m outs c main_v61 (by decide), V10_of m outs c main_v61 (by decide),
    V9_v67, V9_v61]

/-- The six results: the weighted total, then the five losses, over the launch contents and what the
    two regions leave. -/
theorem V15_v127 : (V15 m outs c main_v127 : FVec F S6 .f32)
    = Spec.combine (Spec.scalarOf (outs 2 main_v2 c))
        (Spec.finish (Host.divf (Spec.col1 (outs 8 main_v59 c)) (Spec.col0 (outs 8 main_v59 c))))
        (Spec.finish (Host.divf (Spec.col2 (outs 8 main_v59 c)) (Spec.col0 (outs 8 main_v59 c))))
        (Spec.finish (Host.divf (Spec.col3 (outs 8 main_v59 c)) (Spec.col0 (outs 8 main_v59 c))))
        (Spec.loss5Of (m ((c : Thread nD τ).loc main_arg1)) (m ((c : Thread nD τ).loc main_arg2))
          (m ((c : Thread nD τ).loc main_arg3)) (m ((c : Thread nD τ).loc main_arg4))) := by
  refine (s2_6_v127 (V14 m outs c)).trans ?_
  rw [V14_v3, V14_v87, ← finish_eq,
    V14_of m outs c main_v75 (by decide), V13_of m outs c main_v75 (by decide), V12_of m outs c main_v75 (by decide), V11_v75,
    V14_of m outs c main_v83 (by decide), V13_v83,
    V14_in m outs c main_arg1 (by decide) (by decide) (by decide) (by decide) (by decide) (by decide) (by decide)
      (by decide) (by decide) (by decide) (by decide) (by decide) (by decide) (by decide),
    V14_in m outs c main_arg2 (by decide) (by decide) (by decide) (by decide) (by decide) (by decide) (by decide)
      (by decide) (by decide) (by decide) (by decide) (by decide) (by decide) (by decide),
    V14_in m outs c main_arg3 (by decide) (by decide) (by decide) (by decide) (by decide) (by decide) (by decide)
      (by decide) (by decide) (by decide) (by decide) (by decide) (by decide) (by decide),
    V14_in m outs c main_arg4 (by decide) (by decide) (by decide) (by decide) (by decide) (by decide) (by decide)
      (by decide) (by decide) (by decide) (by decide) (by decide) (by decide) (by decide)]

end Cert.KernelIdeal.Tail
-- ==== Proof.KIReg0Value.lean ====
import proofs.«117839_j20658792694235_1_alg».proof.Proof.KIReg0
import Idealize.ShloMosaic.Lib.Pipeline.Value
import Idealize.ShloMosaic.Lib.Tactic
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

theorem hz : (![0, 0] : Fin 2 → Nat) = fun _ => 0 := funext fun a => by fin_cases a <;> rfl

/-- A middle point leaves the accumulator at the body's payload over the three input blocks and what it held. -/
theorem accMid_eq (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : ¬isLast i) (x0 : Vec F S512x4096 .f32) (x1 : Vec F S512x64 .f32) (x2 : Vec F S64x4096 .f32) (xs : Vec F S1x1 .f32) :
    accMid c i arg1 harg1 arg2 harg2 arg3 harg3 arg4 harg4 arg5 harg5 hf hl x0 x1 x2 xs = k0_pay2 x1 x2 x0 xs := by
  unfold accMid
  rw [View.read_writes_eq_canon _ _ _ (coverMid c i arg1 harg1 arg2 harg2 arg3 harg3 arg4 harg4 arg5 harg5 hf hl x0 x1 x2 xs)]
  unfold runMid
  dsimp only
  rw [View.canon_unit_zero hz]
  simp only [View.readAt_eq_ld, harg1.read_unread, harg2.read_unread, harg3.read_unread, harg5.read_unread,
    View.ld_unit_zero (S := S512x4096) hz, View.ld_unit_zero (S := S512x64) hz, View.ld_unit_zero (S := S64x4096) hz,
    View.ld_unit_zero (S := S1x1) hz]

/-- The first point leaves it at the payload over the blocks and the zero the reset stored. -/
theorem accFirst_eq (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : isFirst i) (hl : ¬isLast i) (x0 : Vec F S512x4096 .f32) (x1 : Vec F S512x64 .f32) (x2 : Vec F S64x4096 .f32) :
    accFirst c i arg1 harg1 arg2 harg2 arg3 harg3 arg4 harg4 arg5 harg5 hf hl x0 x1 x2 = k0_pay2 x1 x2 x0 k0_pay1 := by
  unfold accFirst
  rw [View.read_writes_eq_canon _ _ _ (coverFirst c i arg1 harg1 arg2 harg2 arg3 harg3 arg4 harg4 arg5 harg5 hf hl x0 x1 x2)]
  unfold runFirst
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S512x4096) hz, View.ld_unit_zero (S := S512x64) hz, View.ld_unit_zero (S := S64x4096) hz,
    View.ld_unit_zero (S := S1x1) hz]

/-- The last point leaves the accumulator at the payload, -/
theorem accLast_eq (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) :
    accLast c i arg1 harg1 arg2 harg2 arg3 harg3 arg4 harg4 arg5 harg5 hf hl x0 x1 x2 xs = k0_pay2 x1 x2 x0 xs := by
  unfold accLast
  rw [View.read_writes_eq_canon _ _ _ (coverLast c i arg1 harg1 arg2 harg2 arg3 harg3 arg4 harg4 arg5 harg5 hf hl x0 x1 x2 xs)]
  unfold runLast
  dsimp only
  sl_unfold_words
  rw [View.canon_unit_zero hz]
  simp only [View.readAt_eq_ld, harg1.read_unread, harg2.read_unread, harg3.read_unread, harg5.read_unread,
    View.ld_unit_zero (S := S512x4096) hz, View.ld_unit_zero (S := S512x64) hz, View.ld_unit_zero (S := S64x4096) hz,
    View.ld_unit_zero (S := S1x1) hz]

/-- and copies it into the output's staging buffer. -/
theorem outLast_eq (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S64x4096 .f32) (harg3 : arg3.IsWhole) (arg4 : Memref sig .tc .vmem S1x1 .f32) (harg4 : arg4.IsWhole) (arg5 : Memref sig .tc .vmem S1x1 .f32) (harg5 : arg5.IsWhole) (hf : ¬isFirst i) (hl : isLast i) (x0 : Vec F S512x4096 .f32) (x1 : Vec F S512x64 .f32) (x2 : Vec F S64x4096 .f32) (xs : Vec F S1x1 .f32) :
    outLast c i arg1 harg1 arg2 harg2 arg3 harg3 arg4 harg4 arg5 harg5 hf hl x0 x1 x2 xs = k0_pay2 x1 x2 x0 xs := by
  unfold outLast
  rw [View.read_writes_eq_canon _ _ _ (coverOut c i arg1 harg1 arg2 harg2 arg3 harg3 arg4 harg4 arg5 harg5 hf hl x0 x1 x2 xs)]
  unfold runLast
  dsimp only
  sl_unfold_words
  rw [View.canon_unit_zero hz, View.readCov_unit_zero (S := S1x1) _ hz]
  simp only [View.readAt_eq_ld, harg1.read_unread, harg2.read_unread, harg3.read_unread, harg5.read_unread,
    View.ld_unit_zero (S := S512x4096) hz, View.ld_unit_zero (S := S512x64) hz, View.ld_unit_zero (S := S64x4096) hz,
    View.ld_unit_zero (S := S1x1) hz]

/-! ## The blocks and the fold -/

/-- The three input blocks at point `t`, read off the arrays as the region finds them. -/
def blkA (c : Dev nD) (t : Fin cfg0.N) : Vec F S512x4096 .f32 := iblk V c 0 t
def blkM (c : Dev nD) (t : Fin cfg0.N) : Vec F S512x64 .f32 := iblk V c 1 t
def blkV (c : Dev nD) (t : Fin cfg0.N) : Vec F S64x4096 .f32 := iblk V c 2 t

/-- Position `n` as a point of the grid (the grid has eight points; larger `n` are clamped and never consulted). -/
def pt (n : ℕ) : Fin cfg0.N := ⟨min n 7, by have : cfg0.N = 8 := N_0; omega⟩

theorem pt_eq (n : ℕ) (hn : n < cfg0.N) : pt n = ⟨n, hn⟩ := by
  have : cfg0.N = 8 := N_0
  exact Fin.ext (by show min n 7 = n; omega)

/-- THE FOLD, in point order: the payload at the first point over the zero, then at each point over the sum so far. -/
def acc (c : Dev nD) : ℕ → FVec F S1x1 .f32
  | 0 => k0_pay2 (blkM V c (pt 0)) (blkV V c (pt 0)) (blkA V c (pt 0)) k0_pay1
  | n + 1 => k0_pay2 (blkM V c (pt (n + 1))) (blkV V c (pt (n + 1))) (blkA V c (pt (n + 1))) (acc c n)

/-- What the accumulator holds after the body at position `n` is the fold there: by induction on the point. -/
theorem accAt_eq (c : Dev nD) : ∀ (n : ℕ) (hn : n < cfg0.N), accAt V c n hn = acc V c n
  | 0, hn => by
    have h7 : ¬(⟨0, hn⟩ : Fin cfg0.N).val = 7 := by dsimp only; omega
    rw [accAt_first V c ⟨0, hn⟩ rfl h7, accFirst_eq]
    show _ = k0_pay2 (blkM V c (pt 0)) (blkV V c (pt 0)) (blkA V c (pt 0)) k0_pay1
    rw [pt_eq 0 hn]; rfl
  | n + 1, hn => by
    have hN : cfg0.N = 8 := N_0
    have h0 : ¬(⟨n + 1, hn⟩ : Fin cfg0.N).val = 0 := by dsimp only; omega
    show _ = k0_pay2 (blkM V c (pt (n + 1))) (blkV V c (pt (n + 1))) (blkA V c (pt (n + 1))) (acc V c n)
    rw [pt_eq (n + 1) hn, ← accAt_eq c n (Nat.lt_of_succ_lt hn)]
    by_cases h7 : (⟨n + 1, hn⟩ : Fin cfg0.N).val = 7
    · rw [accAt_last V c ⟨n + 1, hn⟩ h0 h7, accLast_eq]; rfl
    · rw [accAt_mid V c ⟨n + 1, hn⟩ h0 h7, accMid_eq]; rfl

/-! ## The result array -/

/-- At the last point the output's buffer holds the whole fold. -/
theorem outAt_seven (c : Dev nD) (t : Fin cfg0.N) (h7 : t.val = 7) : outAt V c t = acc V c 7 := by
  have h0 : ¬t.val = 0 := by omega
  rw [outAt_last V c t h0 h7, outLast_eq, accAt_eq]
  obtain ⟨n, hn⟩ := t
  dsimp only at h7
  subst h7
  show _ = k0_pay2 (blkM V c (pt 7)) (blkV V c (pt 7)) (blkA V c (pt 7)) (acc V c 6)
  rw [pt_eq 7 hn]; rfl

/-- The fold after the last point, as contents of the result array (its one block is the array). -/
abbrev result (c : Dev nD) : Buf (Elt F) ((c : Thread nD τ).loc main_v2) := acc V c 7

/-- The one write-back, at the last point, writes it: block (0, 0) of the one-element array read at zero offsets is the array. -/
theorem flushed_eq (c : Dev nD) (t : Fin cfg0.N) (hf : (cfg0.win 3).flush t = true) :
    (dat V c).flushed 3 t = ((cfg0.win 3).blk t).view.read (Elt F) (result V c) := by
  have hN : cfg0.N = 8 := N_0
  have h7 : t.val = 7 := by have := (flush0_3 t).mp hf; have := t.isLt; omega
  obtain rfl : t = t0_7 := Fin.ext h7
  show (cfg0.win 3).cut (grid0.coords t0_7) ((dat V c).after 3 t0_7) = _
  rw [after_3, outAt_seven V c t0_7 rfl]
  have hz' : (fun a => win0_3.index t0_7 a * main_v2.ty.shape.size a) = fun _ => 0 := funext fun a => by fin_cases a <;> decide
  exact (Memref.read_access_unit_zero (Elt F) main_v2 hz' (fun a => by rw [congrFun hz' a]; simp) (result V c)).symm

/-- So the result array ends holding the fold after the last point. -/
theorem final (c : Dev nD) : (dat V c).arrAt 3 cfg0.N = result V c :=
  (dat V c).arrAt_eq_of_cover 3 (result V c) (flushed_eq V c) fun i =>
    ⟨t0_7, (flush0_3 t0_7).mpr rfl, by
      show i ∈ ((View.whole main_v2).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

/-- The inputs' arrays are never written. -/
theorem arrAt_in (c : Dev nD) (w : Fin cfg0.W) (hw : w ≠ 3) (n : ℕ) : (dat V c).arrAt w n = (dat V c).A w :=
  (dat V c).arrAt_in w (by fin_cases w <;> first | rfl | exact absurd rfl hw) n

/-! ## The blocks at an index -/

open Idealize.ShloMosaic.ValueIdx in
/-- Block `t` of the first argument is its rows `512 t … 512 t + 511`, all columns. -/
theorem blkA_apply (c : Dev nD) (t : Fin cfg0.N) (r : Fin 512) (k : Fin 4096) :
    blkA V c t (ix2 r k) = V c (Proc.devRef .tc main_arg0) (ix2 (⟨512 * t.val + r.val, by have := t.isLt; have : cfg0.N = 8 := N_0; have := r.isLt; omega⟩ : Fin 4096) k) := by
  have hi : win0_0.index t 0 = t.val ∧ win0_0.index t 1 = 0 := by
    rcases fin_N0 t with rfl | rfl | rfl | rfl | rfl | rfl | rfl | rfl <;> decide
  unfold blkA iblk
  rw [View.read_apply]
  show V c (Proc.devRef .tc main_arg0) _ = V c (Proc.devRef .tc main_arg0) _
  congr 1
  funext a
  apply Fin.ext
  match a with
  | ⟨0, _⟩ => show win0_0.index t 0 * 512 + 1 * r.val = 512 * t.val + r.val; rw [hi.1]; omega
  | ⟨1, _⟩ => show win0_0.index t 1 * 4096 + 1 * k.val = k.val; rw [hi.2]; omega

open Idealize.ShloMosaic.ValueIdx in
/-- Block `t` of the second operand is its rows `512 t … 512 t + 511`, all 64 columns. -/
theorem blkM_apply (c : Dev nD) (t : Fin cfg0.N) (r : Fin 512) (k : Fin 64) :
    blkM V c t (ix2 r k) = V c (Proc.devRef .tc main_v1) (ix2 (⟨512 * t.val + r.val, by have := t.isLt; have : cfg0.N = 8 := N_0; have := r.isLt; omega⟩ : Fin 4096) k) := by
  have hi : win0_1.index t 0 = t.val ∧ win0_1.index t 1 = 0 := by
    rcases fin_N0 t with rfl | rfl | rfl | rfl | rfl | rfl | rfl | rfl <;> decide
  unfold blkM iblk
  rw [View.read_apply]
  show V c (Proc.devRef .tc main_v1) _ = V c (Proc.devRef .tc main_v1) _
  congr 1
  funext a
  apply Fin.ext
  match a with
  | ⟨0, _⟩ => show win0_1.index t 0 * 512 + 1 * r.val = 512 * t.val + r.val; rw [hi.1]; omega
  | ⟨1, _⟩ => show win0_1.index t 1 * 64 + 1 * k.val = k.val; rw [hi.2]; omega

open Idealize.ShloMosaic.ValueIdx in
/-- The third operand's one block is the whole array, at every point. -/
theorem blkV_apply (c : Dev nD) (t : Fin cfg0.N) (r : Fin 64) (k : Fin 4096) :
    blkV V c t (ix2 r k) = V c (Proc.devRef .tc main_arg4) (ix2 r k) := by
  have hi : win0_2.index t 0 = 0 ∧ win0_2.index t 1 = 0 := by
    rcases fin_N0 t with rfl | rfl | rfl | rfl | rfl | rfl | rfl | rfl <;> decide
  unfold blkV iblk
  rw [View.read_apply]
  show V c (Proc.devRef .tc main_arg4) _ = V c (Proc.devRef .tc main_arg4) _
  congr 1
  funext a
  apply Fin.ext
  match a with
  | ⟨0, _⟩ => show win0_2.index t 0 * 64 + 1 * r.val = r.val; rw [hi.1]; omega
  | ⟨1, _⟩ => show win0_2.index t 1 * 4096 + 1 * k.val = k.val; rw [hi.2]; omega

end Cert.KernelIdeal.Reg0

end
-- ==== Proof.LibBlockSum.lean ====
/-
  A sum over consecutive blocks is the sum over all the terms.

  A contraction of length B * n computed B terms at a time — block i contributes the terms B * i, ..., B * i + B - 1,
  and the n partial sums are added — is the whole contraction: on an additive commutative monoid the order and the
  grouping of the terms do not matter. Stated for a sequence f : ℕ → M, with the blocks enumerated by Finset.range n
  and the terms inside a block by Fin B, and once more with the inner term given as a function of (block, position).
-/
import Mathlib.Algebra.BigOperators.Fin
import Mathlib.Data.Fintype.BigOperators
import Idealize.ShloMosaic.Lib.ValueIdx

namespace Cert.BlockSum

open scoped BigOperators

/-- The sum over n consecutive blocks of B terms each, block i being the terms at B * i + j for j below B, is the sum
    over all B * n terms. -/
theorem sum_blocks {M : Type*} [AddCommMonoid M] (f : ℕ → M) (B n : ℕ) :
    ∑ i ∈ Finset.range n, ∑ j : Fin B, f (B * i + j.val) = ∑ J : Fin (B * n), f J.val := by
  induction n with
  | zero => simp
  | succ n ih =>
    rw [Finset.sum_range_succ, ih, Fin.sum_univ_eq_sum_range (fun k => f k) (B * n),
      Fin.sum_univ_eq_sum_range (fun k => f (B * n + k)) B, Fin.sum_univ_eq_sum_range (fun k => f k) (B * (n + 1)),
      Nat.mul_succ, Finset.sum_range_add]

/-- The same with the term of block i at position j given as g i j, equal to the term of f at B * i + j. -/
theorem sum_blocks_of_eq {M : Type*} [AddCommMonoid M] (f : ℕ → M) (B n : ℕ) (g : ℕ → Fin B → M)
    (h : ∀ i j, g i j = f (B * i + j.val)) :
    ∑ i ∈ Finset.range n, ∑ j : Fin B, g i j = ∑ J : Fin (B * n), f J.val := by
  rw [← sum_blocks f B n]
  exact Finset.sum_congr rfl fun i _ => Finset.sum_congr rfl fun j _ => h i j

end Cert.BlockSum
-- ==== Proof.Algebra.lean ====
/-
  Algebra on the extended reals for a masked, blocked row sum and a tiled total.

  A 0/1 mask m splits each term x into x * m and x * (1 - m), at the infinities too, so the masked sum and the
  complementary masked sum of a row add up to the plain sum of the row. On an additive commutative monoid a sum taken
  by consecutive blocks, accumulated one block after another from zero, is the one sum over all the terms: four column
  blocks of 1024 for a row of 4096, and eight row tiles of 512 rows for a 4096 x 4096 array. Scaling by the real two
  is dividing by the real one half. A one-bit word read as a float, signed after widening or unsigned, is 0 or 1.
  None of these laws needs a finiteness assumption.
-/
import Mathlib.Data.EReal.Inv
import Mathlib.Algebra.BigOperators.Fin
import Idealize.ShloMosaic.PureOps.Ideal
import Idealize.ShloMosaic.PureOps.Ideal.Laws
import Idealize.ShloMosaic.Lib.ValueIdx
import proofs.«117839_j20658792694235_1_alg».proof.Proof.LibBlockSum

noncomputable section

namespace Cert.Alg

open scoped BigOperators
open Idealize.ShloMosaic

/-! ### A 0/1 mask splits a term, and a row -/

/-- With a mask value m that is 0 or 1, the masked part x * m and the complementary part x * (1 - m) add up to x,
    for every extended real x (an infinity included: x * 0 = 0 there too, and 1 - 1 = 0, 1 - 0 = 1). -/
theorem mask_split (x m : EReal) (hm : m = 0 ∨ m = 1) : x * m + x * (1 - m) = x := by
  have h11 : (1 : EReal) - 1 = 0 := by
    rw [← EReal.coe_one, ← EReal.coe_sub, sub_self, EReal.coe_zero]
  rcases hm with rfl | rfl
  · rw [mul_zero, sub_zero, mul_one, zero_add]
  · rw [mul_one, h11, mul_zero, add_zero]

/-- The masked sum and the complementary masked sum of a row, each started from zero, add up to the plain sum of
    the row: termwise by the split of one entry, and a sum of sums is the sum of the termwise sums. -/
theorem pos_add_neg {n : ℕ} (e m : Fin n → EReal) (hm : ∀ c, m c = 0 ∨ m c = 1) :
    (0 + ∑ c, e c * m c) + (0 + ∑ c, e c * (1 - m c)) = ∑ c, e c := by
  rw [zero_add, zero_add, ← Finset.sum_add_distrib]
  exact Finset.sum_congr rfl fun c _ => mask_split (e c) (m c) (hm c)

/-- The quotient of the masked sum by the masked sum plus the complementary masked sum is the quotient of the masked
    sum by the plain sum of the row: the two denominators are the same extended real. -/
theorem ratio_eq {n : ℕ} (e m : Fin n → EReal) (hm : ∀ c, m c = 0 ∨ m c = 1) :
    Ideal.div (0 + ∑ c, e c * m c) ((0 + ∑ c, e c * m c) + (0 + ∑ c, e c * (1 - m c)))
      = Ideal.div (∑ c, e c * m c) (∑ c, e c) := by
  rw [pos_add_neg e m hm, zero_add]

/-! ### Sums by consecutive blocks -/

/-- A sequence on the naturals that agrees with f below 4096 (and is zero from there on). -/
def ext4096 {M : Type*} [Zero M] (f : Fin 4096 → M) (k : ℕ) : M := if h : k < 4096 then f ⟨k, h⟩ else 0

/-- Below 4096 the extended sequence is f. -/
theorem ext4096_lt {M : Type*} [Zero M] (f : Fin 4096 → M) (k : ℕ) (h : k < 4096) : ext4096 f k = f ⟨k, h⟩ :=
  dif_pos h

/-- The sum of the extended sequence over its first 4096 terms, the count written as a product B * n, is the sum
    of f. -/
theorem sum_ext4096 {M : Type*} [AddCommMonoid M] (f : Fin 4096 → M) (B n : ℕ) (hBn : B * n = 4096) :
    ∑ J : Fin (B * n), ext4096 f J.val = ∑ c : Fin 4096, f c := by
  rw [← Fin.sum_congr' (fun c : Fin 4096 => f c) hBn]
  exact Finset.sum_congr rfl fun J _ => ext4096_lt f J.val (by have := J.isLt; omega)

/-- Four consecutive column blocks of 1024 terms, accumulated from zero one block after another, give the sum over all
    4096 columns. -/
theorem blocks4 (f : Fin 4096 → EReal) :
    (((0 + ∑ s : Fin 1024, f ⟨s.val, by omega⟩) + ∑ s : Fin 1024, f ⟨1024 + s.val, by omega⟩)
      + ∑ s : Fin 1024, f ⟨2048 + s.val, by omega⟩) + ∑ s : Fin 1024, f ⟨3072 + s.val, by omega⟩
      = ∑ c : Fin 4096, f c := by
  rw [← sum_ext4096 f 1024 4 (by norm_num), ← Cert.BlockSum.sum_blocks (ext4096 f) 1024 4, Finset.sum_range_succ,
    Finset.sum_range_succ, Finset.sum_range_succ, Finset.sum_range_one, zero_add]
  refine congrArg₂ (· + ·) (congrArg₂ (· + ·) (congrArg₂ (· + ·) ?_ ?_) ?_) ?_
  · exact Finset.sum_congr rfl fun s _ => by
      rw [ext4096_lt f _ (by have := s.isLt; omega)]; exact congrArg f (Fin.ext (by simp))
  · exact Finset.sum_congr rfl fun s _ => (ext4096_lt f (1024 * 1 + s.val) (by have := s.isLt; omega)).symm
  · exact Finset.sum_congr rfl fun s _ => (ext4096_lt f (1024 * 2 + s.val) (by have := s.isLt; omega)).symm
  · exact Finset.sum_congr rfl fun s _ => (ext4096_lt f (1024 * 3 + s.val) (by have := s.isLt; omega)).symm

/-- The same with the four block sums given as values b 0, ..., b 3, block t being the columns 1024 * t + s. -/
theorem blocks4_of (f : Fin 4096 → EReal) (b : Fin 4 → EReal)
    (hb : ∀ t : Fin 4, b t = ∑ s : Fin 1024, f ⟨1024 * t.val + s.val, by omega⟩) :
    (((0 + b 0) + b 1) + b 2) + b 3 = ∑ c : Fin 4096, f c := by
  rw [← blocks4 f, hb 0, hb 1, hb 2, hb 3]
  refine congrArg₂ (· + ·) (congrArg₂ (· + ·) (congrArg₂ (· + ·) (congrArg₂ (· + ·) rfl ?_) rfl) rfl) rfl
  exact Finset.sum_congr rfl fun s _ => congrArg f (Fin.ext (by simp))

/-- Accumulating the terms s 0, s 1, ..., s n one after another onto zero. -/
def accum (s : ℕ → EReal) : ℕ → EReal
  | 0 => 0 + s 0
  | n + 1 => accum s n + s (n + 1)

/-- The accumulated value is zero plus the sum of the terms: addition is associative. -/
theorem accum_eq (s : ℕ → EReal) (n : ℕ) : accum s n = 0 + ∑ i ∈ Finset.range (n + 1), s i := by
  induction n with
  | zero => rw [accum, Finset.sum_range_one]
  | succ n ih => rw [accum, ih, Finset.sum_range_succ _ (n + 1), add_assoc]

/-- The sum of row tile t of a 4096 x 4096 array: its 512 rows 512 * t + r, all 4096 columns. -/
def tileSum (g : Fin 4096 → Fin 4096 → EReal) (t : Fin 8) : EReal :=
  ∑ r : Fin 512, ∑ k : Fin 4096, g ⟨512 * t.val + r.val, by omega⟩ k

/-- The eight row tiles, as a sequence on the naturals (tile t for t below 8; the value beyond is not used). -/
def tileSeq (g : Fin 4096 → Fin 4096 → EReal) (t : ℕ) : EReal :=
  ∑ r : Fin 512, ∑ k : Fin 4096, ext4096 g (512 * t + r.val) k

theorem tileSeq_lt (g : Fin 4096 → Fin 4096 → EReal) (t : Fin 8) : tileSeq g t.val = tileSum g t :=
  Finset.sum_congr rfl fun r _ => Finset.sum_congr rfl fun k _ =>
    congrFun (ext4096_lt g (512 * t.val + r.val) (by have := r.isLt; omega)) k

/-- The sum over the eight row tiles of the tile sums is the sum over the whole array. -/
theorem sum_tileSeq (g : Fin 4096 → Fin 4096 → EReal) :
    ∑ t ∈ Finset.range 8, tileSeq g t = ∑ r : Fin 4096, ∑ k : Fin 4096, g r k := by
  have key := Cert.BlockSum.sum_blocks (fun i => ∑ k : Fin 4096, ext4096 g i k) 512 8
  have hR := sum_ext4096 (fun r : Fin 4096 => ∑ k : Fin 4096, g r k) 512 8 (by norm_num)
  rw [← hR]
  refine Eq.trans key (Finset.sum_congr rfl fun J _ => ?_)
  rw [ext4096_lt (fun r : Fin 4096 => ∑ k : Fin 4096, g r k) J.val (by have := J.isLt; omega),
    ext4096_lt g J.val (by have := J.isLt; omega)]

/-- The eight tile sums accumulated from zero one tile after another are zero plus the sum over the whole array. -/
theorem tiles8 (g : Fin 4096 → Fin 4096 → EReal) :
    accum (tileSeq g) 7 = 0 + ∑ r : Fin 4096, ∑ k : Fin 4096, g r k := by
  rw [accum_eq, sum_tileSeq]

/-- The same written out: ((0 + tile 0) + tile 1) + ... + tile 7. -/
theorem tiles8_explicit (g : Fin 4096 → Fin 4096 → EReal) :
    (((((((0 + tileSum g 0) + tileSum g 1) + tileSum g 2) + tileSum g 3) + tileSum g 4) + tileSum g 5)
      + tileSum g 6) + tileSum g 7 = 0 + ∑ r : Fin 4096, ∑ k : Fin 4096, g r k := by
  rw [← tiles8 g, ← tileSeq_lt g 0, ← tileSeq_lt g 1, ← tileSeq_lt g 2, ← tileSeq_lt g 3, ← tileSeq_lt g 4,
    ← tileSeq_lt g 5, ← tileSeq_lt g 6, ← tileSeq_lt g 7]
  rfl

/-- The same with the eight tile sums given as values s 0, ..., s 7. -/
theorem tiles8_of (g : Fin 4096 → Fin 4096 → EReal) (s : Fin 8 → EReal) (hs : ∀ t : Fin 8, s t = tileSum g t) :
    (((((((0 + s 0) + s 1) + s 2) + s 3) + s 4) + s 5) + s 6) + s 7
      = 0 + ∑ r : Fin 4096, ∑ k : Fin 4096, g r k := by
  rw [hs 0, hs 1, hs 2, hs 3, hs 4, hs 5, hs 6, hs 7, tiles8_explicit]

/-! ### Three f32 words as extended reals, and scaling by two against dividing by a half -/

/-- The f32 word 0x40000000 is the real number two. -/
theorem ofBits_two : Ideal.ofBits .f32 0x40000000#32 = ((2 : ℝ) : EReal) := by
  simp [Ideal.ofBits, Ideal.ieee, -EReal.coe_mul]; norm_num

/-- The f32 word 0x3F000000 is the real number one half. -/
theorem ofBits_half : Ideal.ofBits .f32 0x3F000000#32 = ((1 / 2 : ℝ) : EReal) := by
  simp [Ideal.ofBits, Ideal.ieee, -EReal.coe_mul]; norm_num

/-- The f32 word 0x3F800000 is one. -/
theorem ofBits_one : Ideal.ofBits .f32 0x3F800000#32 = 1 := by
  rw [show (1 : EReal) = ((1 : ℝ) : EReal) by norm_cast]
  simp [Ideal.ofBits, Ideal.ieee, -EReal.coe_mul]; norm_num

/-- Multiplying by the word two is dividing by the word one half, for every extended real x: a half is a non-zero
    real, so the quotient is the product with its reciprocal, and the reciprocal of a half is two. -/
theorem scale_two_eq_div_half (x : EReal) :
    x * Ideal.ofBits .f32 0x40000000#32 = Ideal.div x (Ideal.ofBits .f32 0x3F000000#32) := by
  rw [ofBits_two, ofBits_half, Ideal.div_coe (by norm_num : (1 / 2 : ℝ) ≠ 0)]
  norm_num

/-- The same in the spelling of the operations: the vector product with the scalar word two is the host quotient
    by the word one half. -/
theorem mulf_two_eq_hostDivf_half (x : Ideal .f32) :
    FloatOps.mulf x (Scalar.ofBits (F := Ideal) .f32 0x40000000#32)
      = FloatOps.hostDivf x (FloatOps.ofBits (F := Ideal) .f32 0x3F000000#32) :=
  scale_two_eq_div_half x

/-! ### A one-bit word as a float -/

/-- A one-bit word is 0 or 1. -/
theorem bit_cases (b : BitVec 1) : b = 0#1 ∨ b = 1#1 := by
  have h := b.isLt
  rcases Nat.lt_or_ge b.toNat 1 with h0 | h1
  · left; apply BitVec.eq_of_toNat_eq; simp; omega
  · right; apply BitVec.eq_of_toNat_eq; simp; omega

/-- The unsigned reading of the one-bit word 0 is the extended real zero. -/
theorem uitofp_bit_zero : FloatOps.uitofp (F := Ideal) .f32 (0#1) = (0 : EReal) := by
  show (((0#1 : BitVec 1).toNat : ℝ) : EReal) = 0
  simp

/-- The unsigned reading of the one-bit word 1 is the extended real one. -/
theorem uitofp_bit_one : FloatOps.uitofp (F := Ideal) .f32 (1#1) = (1 : EReal) := by
  show (((1#1 : BitVec 1).toNat : ℝ) : EReal) = 1
  simp

/-- The unsigned reading of a one-bit word is 0 or 1. -/
theorem uitofp_bit (b : BitVec 1) :
    FloatOps.uitofp (F := Ideal) .f32 b = (0 : EReal) ∨ FloatOps.uitofp (F := Ideal) .f32 b = (1 : EReal) := by
  rcases bit_cases b with rfl | rfl
  · exact Or.inl uitofp_bit_zero
  · exact Or.inr uitofp_bit_one

/-- A one-bit word widened with zeros to 32 bits and read as a signed integer is the same extended real as the
    word read unsigned: the widened word is below 2, so its sign bit is clear. -/
theorem sitofp_extui_eq_uitofp (b : BitVec 1) :
    FloatOps.sitofp (F := Ideal) .f32 (b.setWidth 32) = FloatOps.uitofp (F := Ideal) .f32 b := by
  show ((((b.setWidth 32).toInt : ℤ) : ℝ) : EReal) = ((b.toNat : ℝ) : EReal)
  rcases bit_cases b with rfl | rfl <;> simp

/-- The signed reading of the widened one-bit word is 0 or 1. -/
theorem sitofp_extui_bit (b : BitVec 1) :
    FloatOps.sitofp (F := Ideal) .f32 (b.setWidth 32) = (0 : EReal)
      ∨ FloatOps.sitofp (F := Ideal) .f32 (b.setWidth 32) = (1 : EReal) := by
  rw [sitofp_extui_eq_uitofp]; exact uitofp_bit b

end Cert.Alg

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.Payloads.lean ====
/-
  The stored values of the two kernels read at an index, on the extended reals.

  The squared-residual kernel's step stores the carried total plus the tile's sum over rows and columns of
  (target − Σ i, lhs · rhs)²; its first step stores zero. The contrastive kernel's step stores, per row r, four
  columns: the carried value plus the row sum over 1024 columns s of e(r, s), of e(r, s) · w₁(r, s), of e(r, s) · w₂(r, s)
  and of e(r, s) · mask(r, s), where e(r, s) is the exponential of twice the inner product of row r of the first operand
  with row s of the second, and the mask is the 0/1 answer of a comparison read as a float; its first step stores zero.
  Each statement names the one extended real an output element is, with every index written by coordinates.
-/
import proofs.«117839_j20658792694235_1_alg».proof.Proof.Gen.KernelIdeal.Skeleton
import proofs.«117839_j20658792694235_1_alg».proof.Proof.Algebra
import proofs.«117839_j20658792694235_1_alg».proof.Proof.LibDotRead
import proofs.«117839_j20658792694235_1_alg».proof.Proof.LibLayoutRead
import Idealize.ShloMosaic.PureOps.Ideal.Laws
import Idealize.ShloMosaic.Lib.ValueIdx
import Idealize.ShloMosaic.Lib.Pipeline.Value
import Idealize.ShloMosaic.Lib.ValueLayout

noncomputable section

namespace Cert.Pay

open scoped BigOperators
open Idealize.ShloMosaic Idealize.ShloMosaic.ValueIdx Cert.KernelIdeal Cert.KernelIdeal.Gen

/-! ### The two products' dimension records are plain row-by-column products -/

/-- The residual product's record: the left operand is read at (row, contraction), the right one at (contraction, column). -/
theorem plain_resid : Cert.DotRead.Plain dot_S512x64_S64x4096_S512x4096_1_0_0_1_n_n where
  rank := rfl
  size := rfl
  lhs0 := fun i q => by simp [DotDims.lhsIdx, dot_S512x64_S64x4096_S512x4096_1_0_0_1_n_n]; rfl
  lhs1 := fun i q => DotDims.lhsIdx_val_of_single _ rfl i q
  rhs0 := fun i q => DotDims.rhsIdx_val_of_single _ rfl i q
  rhs1 := fun i q => by simp [DotDims.rhsIdx, dot_S512x64_S64x4096_S512x4096_1_0_0_1_n_n]; rfl

/-- The similarity product's record, likewise. -/
theorem plain_sim : Cert.DotRead.Plain dot_S512x256_S256x1024_S512x1024_1_0_0_1_n_n where
  rank := rfl
  size := rfl
  lhs0 := fun i q => by simp [DotDims.lhsIdx, dot_S512x256_S256x1024_S512x1024_1_0_0_1_n_n]; rfl
  lhs1 := fun i q => DotDims.lhsIdx_val_of_single _ rfl i q
  rhs0 := fun i q => DotDims.rhsIdx_val_of_single _ rfl i q
  rhs1 := fun i q => by simp [DotDims.rhsIdx, dot_S512x256_S256x1024_S512x1024_1_0_0_1_n_n]; rfl

/-! ### The payloads that store zero or pass a value through -/

/-- The first step's stored accumulator is zero at every index. -/
theorem k0_pay1_apply (j : S1x1.Idx) : k0_pay1 (F := Ideal) j = 0 := by
  unfold k0_pay1
  exact (congrFun (shapeCast_self _ _) j).trans Ideal.ofBits_zero_f32

/-- The first step's stored row sums are zero at every index. -/
theorem k1_pay2_apply (j : S512x4.Idx) : k1_pay2 (F := Ideal) j = 0 := by
  unfold k1_pay2
  exact (congrFun (shapeCast_self _ _) j).trans Ideal.ofBits_zero_f32

/-- The stored row sums are the value computed before them. -/
theorem k1_pay1_apply (v34 : FVec Ideal S512x4 .f32) : k1_pay1 (F := Ideal) v34 = v34 := by
  unfold k1_pay1
  exact shapeCast_self _ _

/-! ### The squared residual, summed over a tile -/

/-- The total of a [1, 512, 4096] array that is a [512, 4096] array under a cast: the double sum over rows and columns
    (a cast only renames positions, and a sum does not depend on the names). -/
theorem total_cast (x : FVec Ideal S512x4096 .f32) (hc : S512x4096.ShapeCasts S1x512x4096)
    (hr : S1x512x4096.Reduces [1, 2] S1) (hacc : (0x00000000#32 : BitVec 32) = 0x00000000#32) (j : S1.Idx) :
    multiReduction (F := Ideal) .add [1, 2] S1 (shapeCast S1x512x4096 x hc) 0x00000000#32 hr (.inl rfl) hacc j
      = ∑ r : Fin 512, ∑ k : Fin 4096, x (ix2 r k) :=
  (Ideal.multiReduction_add_total (shapeCast S1x512x4096 x hc) 0x00000000#32 hr
      (fun b => match b with | ⟨0, _⟩ => rfl) (.inl rfl) hacc j).trans
    ((Equiv.sum_comp (Shape.reshapeEquiv hc) x).trans (sum_idx2 x))

/-- The one element of a [1] vector seen as [1, 1, 1] is that vector at the matching position. -/
theorem extract_cast (x : FVec Ideal S1 .f32) (h : S1.ShapeCasts S1x1x1)
    (h' : ∀ a, (![0, 0, 0] : Fin 3 → Nat) a < S1x1x1.size a) :
    extractAt ![0, 0, 0] (shapeCast S1x1x1 x h) h' = x (Shape.reshapeEquiv h fun a => ⟨![0, 0, 0] a, h' a⟩) := rfl

/-- The residual at (r, k): the target entry minus the product's entry Σ i, lhs (r, i) · rhs (i, k). -/
theorem resid_apply (w3 : FVec Ideal S512x64 .f32) (v5 : FVec Ideal S64x4096 .f32) (v7 : FVec Ideal S512x4096 .f32)
    (r : Fin 512) (k : Fin 4096) :
    (subf (F := Ideal) v7 (matmul dot_S512x64_S64x4096_S512x4096_1_0_0_1_n_n none w3 v5
        (constant (F := Ideal) S512x4096 .f32 0x00000000#32))) (ix2 r k)
      = v7 (ix2 r k) - ∑ i : Fin 64, w3 (ix2 r i) * v5 (ix2 i k) :=
  (subf_apply _ _ (ix2 r k)).trans
    (congrArg (fun z : EReal => v7 (ix2 r k) - z) (Cert.DotRead.matmul_zero_apply _ plain_resid none w3 v5 r k))

/-- One step of the squared-residual kernel: the carried total plus the tile's sum of squared residuals, the residual
    at (r, k) being the target entry minus the product's entry Σ i, lhs (r, i) · rhs (i, k). -/
theorem k0_pay2_apply (v3 : FVec Ideal S512x64 .f32) (v5 : FVec Ideal S64x4096 .f32) (v7 : FVec Ideal S512x4096 .f32)
    (v9 : FVec Ideal S1x1 .f32) (j : S1x1.Idx) :
    k0_pay2 (F := Ideal) v3 v5 v7 v9 j
      = v9 j + ∑ r : Fin 512, ∑ k : Fin 4096,
          (v7 (ix2 r k) - ∑ i : Fin 64, v3 (ix2 r i) * v5 (ix2 i k))
            * (v7 (ix2 r k) - ∑ i : Fin 64, v3 (ix2 r i) * v5 (ix2 i k)) := by
  unfold k0_pay2
  refine (congrFun (shapeCast_self _ _) j).trans ?_
  refine (addf_apply _ _ j).trans ?_
  refine congrArg (fun z : EReal => v9 j + z) ?_
  refine (broadcast_apply _ j).trans ?_
  refine (extract_cast _ _ _).trans ?_
  refine (total_cast _ _ _ rfl _).trans ?_
  refine Finset.sum_congr rfl fun r _ => Finset.sum_congr rfl fun k _ => ?_
  refine (mulf_apply _ _ (ix2 r k)).trans ?_
  have hw : shapeCast S512x64 v3 shapeCasts_S512x64_S512x64 = v3 := shapeCast_self _ _
  have hd := (resid_apply (shapeCast S512x64 v3 shapeCasts_S512x64_S512x64) v5 v7 r k).trans
    (congrArg (fun w : FVec Ideal S512x64 .f32 => v7 (ix2 r k) - ∑ i : Fin 64, w (ix2 r i) * v5 (ix2 i k)) hw)
  exact congrArg₂ (fun a b : EReal => a * b) hd hd

/-! ### The contrastive row sums -/

/-- The exponential of twice the similarity of row r of the first operand with row s of the second. -/
def simExp (v3 : FVec Ideal S512x256 .f32) (v5 : FVec Ideal S1024x256 .f32) (r : Fin 512) (s : Fin 1024) : EReal :=
  Ideal.exp ((∑ k : Fin 256, v3 (ix2 r k) * v5 (ix2 s k)) * Ideal.ofBits .f32 0x40000000#32)

/-- The mask entry at (r, s) as the float it is converted to: the one-bit answer of "the label entry exceeds the
    threshold word", widened with zeros to 32 bits and read as a signed integer. -/
def maskAt (v24 : FVec Ideal S512x1024 .f32) (r : Fin 512) (s : Fin 1024) : EReal :=
  FloatOps.sitofp (F := Ideal) .f32
    ((FloatOps.cmpf (F := Ideal) (φ := .f32) .ogt (v24 (ix2 r s)) (Ideal.ofBits .f32 0x3F666666#32)).setWidth 32)

/-- The mask entry is 0 or 1. -/
theorem maskAt_bit (v24 : FVec Ideal S512x1024 .f32) (r : Fin 512) (s : Fin 1024) :
    maskAt v24 r s = 0 ∨ maskAt v24 r s = 1 :=
  Cert.Alg.sitofp_extui_bit _

/-- The mask entry is the unsigned reading of the one-bit answer. -/
theorem maskAt_eq_uitofp (v24 : FVec Ideal S512x1024 .f32) (r : Fin 512) (s : Fin 1024) :
    maskAt v24 r s = FloatOps.uitofp (F := Ideal) .f32
      (FloatOps.cmpf (F := Ideal) (φ := .f32) .ogt (v24 (ix2 r s)) (Ideal.ofBits .f32 0x3F666666#32)) :=
  Cert.Alg.sitofp_extui_eq_uitofp _

/-- The similarity entry (r, s): row r of the first operand against row s of the second, which enters the product
    transposed. -/
theorem sim_apply (w3 : FVec Ideal S512x256 .f32) (w5 : FVec Ideal S1024x256 .f32)
    (hT : S1024x256.Transposes [1, 0] S256x1024) (r : Fin 512) (s : Fin 1024) :
    (matmul dot_S512x256_S256x1024_S512x1024_1_0_0_1_n_n none w3 (transpose S256x1024 [1, 0] w5 hT)
        (constant (F := Ideal) S512x1024 .f32 0x00000000#32)) (ix2 r s)
      = ∑ k : Fin 256, w3 (ix2 r k) * w5 (ix2 s k) :=
  (Cert.DotRead.matmul_zero_apply _ plain_sim none w3 (transpose S256x1024 [1, 0] w5 hT) r s).trans
    (Finset.sum_congr rfl fun k _ =>
      congrArg (fun z : EReal => w3 (ix2 r k) * z) (transpose_ix2_apply w5 hT k s))

/-- The exponentiated, scaled similarity at (r, s). -/
theorem simexp_apply (w3 : FVec Ideal S512x256 .f32) (w5 : FVec Ideal S1024x256 .f32)
    (hT : S1024x256.Transposes [1, 0] S256x1024) (r : Fin 512) (s : Fin 1024) :
    (exp (F := Ideal) (mulf (matmul dot_S512x256_S256x1024_S512x1024_1_0_0_1_n_n none w3
        (transpose S256x1024 [1, 0] w5 hT) (constant (F := Ideal) S512x1024 .f32 0x00000000#32))
        (broadcast S512x1024 (Scalar.ofBits (F := Ideal) .f32 0x40000000#32)))) (ix2 r s)
      = simExp w3 w5 r s :=
  congrArg Ideal.exp ((mulf_apply _ _ (ix2 r s)).trans
    (congrArg (fun z : EReal => z * Ideal.ofBits .f32 0x40000000#32) (sim_apply w3 w5 hT r s)))

/-- A column of row sums: the lane sum of a matrix, seen as a column, reads at row r the sum of that row. -/
theorem col_apply (src : FVec Ideal S512x1024 .f32) (hr : S512x1024.Reduces [1] S512) (hc : S512.ShapeCasts S512x1)
    (hacc : (0x00000000#32 : BitVec 32) = 0x00000000#32) (r : Fin 512) (u : Fin 1) :
    shapeCast S512x1 (multiReduction (F := Ideal) .add [1] S512 src 0x00000000#32 hr (.inl rfl) hacc) hc (ix2 r u)
      = ∑ s : Fin 1024, src (ix2 r s) :=
  (Cert.LayoutRead.cast_col _ hc r u).trans (Cert.LayoutRead.rowsum src hr r)

/-- Four columns side by side: column 0 of the result is the first piece. -/
theorem concat4_col0 (x0 x1 x2 x3 : FVec Ideal S512x1 .f32)
    (h : Shape.Concatenates [S512x1, S512x1, S512x1, S512x1] S512x4 1) (r : Fin 512) :
    concatenate S512x4 1 [⟨S512x1, x0⟩, ⟨S512x1, x1⟩, ⟨S512x1, x2⟩, ⟨S512x1, x3⟩] h (ix2 r (0 : Fin 4))
      = x0 (ix2 r (0 : Fin 1)) :=
  concatenate_apply_piece (1 : Fin S512x4.rank) [⟨S512x1, x0⟩, ⟨S512x1, x1⟩, ⟨S512x1, x2⟩, ⟨S512x1, x3⟩] h (ix2 r (0 : Fin 4)) 0 (by simp) S512x1 x0 rfl rfl 0 rfl
    (ix2 r (0 : Fin 1)) (fun b hb => match b, hb with | ⟨0, _⟩, _ => rfl | ⟨1, _⟩, hb => absurd (Fin.ext rfl) hb) rfl

/-- Column 1 is the second piece. -/
theorem concat4_col1 (x0 x1 x2 x3 : FVec Ideal S512x1 .f32)
    (h : Shape.Concatenates [S512x1, S512x1, S512x1, S512x1] S512x4 1) (r : Fin 512) :
    concatenate S512x4 1 [⟨S512x1, x0⟩, ⟨S512x1, x1⟩, ⟨S512x1, x2⟩, ⟨S512x1, x3⟩] h (ix2 r (1 : Fin 4))
      = x1 (ix2 r (0 : Fin 1)) :=
  concatenate_apply_piece (1 : Fin S512x4.rank) [⟨S512x1, x0⟩, ⟨S512x1, x1⟩, ⟨S512x1, x2⟩, ⟨S512x1, x3⟩] h (ix2 r (1 : Fin 4)) 1 (by simp) S512x1 x1 rfl rfl 1 rfl
    (ix2 r (0 : Fin 1)) (fun b hb => match b, hb with | ⟨0, _⟩, _ => rfl | ⟨1, _⟩, hb => absurd (Fin.ext rfl) hb) rfl

/-- Column 2 is the third piece. -/
theorem concat4_col2 (x0 x1 x2 x3 : FVec Ideal S512x1 .f32)
    (h : Shape.Concatenates [S512x1, S512x1, S512x1, S512x1] S512x4 1) (r : Fin 512) :
    concatenate S512x4 1 [⟨S512x1, x0⟩, ⟨S512x1, x1⟩, ⟨S512x1, x2⟩, ⟨S512x1, x3⟩] h (ix2 r (2 : Fin 4))
      = x2 (ix2 r (0 : Fin 1)) :=
  concatenate_apply_piece (1 : Fin S512x4.rank) [⟨S512x1, x0⟩, ⟨S512x1, x1⟩, ⟨S512x1, x2⟩, ⟨S512x1, x3⟩] h (ix2 r (2 : Fin 4)) 2 (by simp) S512x1 x2 rfl rfl 2 rfl
    (ix2 r (0 : Fin 1)) (fun b hb => match b, hb with | ⟨0, _⟩, _ => rfl | ⟨1, _⟩, hb => absurd (Fin.ext rfl) hb) rfl

/-- Column 3 is the fourth piece. -/
theorem concat4_col3 (x0 x1 x2 x3 : FVec Ideal S512x1 .f32)
    (h : Shape.Concatenates [S512x1, S512x1, S512x1, S512x1] S512x4 1) (r : Fin 512) :
    concatenate S512x4 1 [⟨S512x1, x0⟩, ⟨S512x1, x1⟩, ⟨S512x1, x2⟩, ⟨S512x1, x3⟩] h (ix2 r (3 : Fin 4))
      = x3 (ix2 r (0 : Fin 1)) :=
  concatenate_apply_piece (1 : Fin S512x4.rank) [⟨S512x1, x0⟩, ⟨S512x1, x1⟩, ⟨S512x1, x2⟩, ⟨S512x1, x3⟩] h (ix2 r (3 : Fin 4)) 3 (by simp) S512x1 x3 rfl rfl 3 rfl
    (ix2 r (0 : Fin 1)) (fun b hb => match b, hb with | ⟨0, _⟩, _ => rfl | ⟨1, _⟩, hb => absurd (Fin.ext rfl) hb) rfl

/-- The exponentiated, scaled similarity as the kernel spells it (both operands under an identity cast). -/
theorem simexp_read (v3 : FVec Ideal S512x256 .f32) (v5 : FVec Ideal S1024x256 .f32)
    (h3 : S512x256.ShapeCasts S512x256) (h5 : S1024x256.ShapeCasts S1024x256)
    (hT : S1024x256.Transposes [1, 0] S256x1024) (r : Fin 512) (s : Fin 1024) :
    (exp (F := Ideal) (mulf (matmul dot_S512x256_S256x1024_S512x1024_1_0_0_1_n_n none (shapeCast S512x256 v3 h3)
        (transpose S256x1024 [1, 0] (shapeCast S1024x256 v5 h5) hT) (constant (F := Ideal) S512x1024 .f32 0x00000000#32))
        (broadcast S512x1024 (Scalar.ofBits (F := Ideal) .f32 0x40000000#32)))) (ix2 r s)
      = simExp v3 v5 r s :=
  (simexp_apply _ _ hT r s).trans
    (congrArg₂ (fun (a : FVec Ideal S512x256 .f32) (b : FVec Ideal S1024x256 .f32) => simExp a b r s)
      (shapeCast_self v3 h3) (shapeCast_self v5 h5))

/-- The converted mask as the kernel spells it, at (r, s). -/
theorem mask_read (v24 : FVec Ideal S512x1024 .f32) (h : 1 < 32) (r : Fin 512) (s : Fin 1024) :
    (sitofp (F := Ideal) .f32 (extui 32 (cmpf .ogt v24
        (broadcast S512x1024 (Scalar.ofBits (F := Ideal) .f32 0x3F666666#32))) h)) (ix2 r s)
      = maskAt v24 r s := rfl

/-- Column 0 of a step of the contrastive kernel at row r: the carried value plus the row sum of the exponentials. -/
theorem k1_pay3_col0 (v3 : FVec Ideal S512x256 .f32) (v5 : FVec Ideal S1024x256 .f32)
    (v14 v19 v24 : FVec Ideal S512x1024 .f32) (v32 : FVec Ideal S512x4 .f32) (r : Fin 512) :
    k1_pay3 (F := Ideal) v3 v5 v14 v19 v24 v32 (ix2 r (0 : Fin 4))
      = v32 (ix2 r (0 : Fin 4)) + ∑ s : Fin 1024, simExp v3 v5 r s := by
  unfold k1_pay3
  refine (addf_apply _ _ _).trans ?_
  refine congrArg (fun z : EReal => v32 (ix2 r (0 : Fin 4)) + z) ?_
  refine (concat4_col0 _ _ _ _ _ r).trans ?_
  refine (col_apply _ _ _ rfl r 0).trans ?_
  refine Finset.sum_congr rfl fun s _ => ?_
  exact simexp_read v3 v5 _ _ _ r s

/-- Column 1: the carried value plus the row sum of the exponentials weighted by the first weight array. -/
theorem k1_pay3_col1 (v3 : FVec Ideal S512x256 .f32) (v5 : FVec Ideal S1024x256 .f32)
    (v14 v19 v24 : FVec Ideal S512x1024 .f32) (v32 : FVec Ideal S512x4 .f32) (r : Fin 512) :
    k1_pay3 (F := Ideal) v3 v5 v14 v19 v24 v32 (ix2 r (1 : Fin 4))
      = v32 (ix2 r (1 : Fin 4)) + ∑ s : Fin 1024, simExp v3 v5 r s * v14 (ix2 r s) := by
  unfold k1_pay3
  refine (addf_apply _ _ _).trans ?_
  refine congrArg (fun z : EReal => v32 (ix2 r (1 : Fin 4)) + z) ?_
  refine (concat4_col1 _ _ _ _ _ r).trans ?_
  refine (col_apply _ _ _ rfl r 0).trans ?_
  refine Finset.sum_congr rfl fun s _ => ?_
  refine (mulf_apply _ _ (ix2 r s)).trans ?_
  exact congrArg₂ (fun a b : EReal => a * b) (simexp_read v3 v5 _ _ _ r s) (congrFun (shapeCast_self v14 _) (ix2 r s))

/-- Column 2: the carried value plus the row sum of the exponentials weighted by the second weight array. -/
theorem k1_pay3_col2 (v3 : FVec Ideal S512x256 .f32) (v5 : FVec Ideal S1024x256 .f32)
    (v14 v19 v24 : FVec Ideal S512x1024 .f32) (v32 : FVec Ideal S512x4 .f32) (r : Fin 512) :
    k1_pay3 (F := Ideal) v3 v5 v14 v19 v24 v32 (ix2 r (2 : Fin 4))
      = v32 (ix2 r (2 : Fin 4)) + ∑ s : Fin 1024, simExp v3 v5 r s * v19 (ix2 r s) := by
  unfold k1_pay3
  refine (addf_apply _ _ _).trans ?_
  refine congrArg (fun z : EReal => v32 (ix2 r (2 : Fin 4)) + z) ?_
  refine (concat4_col2 _ _ _ _ _ r).trans ?_
  refine (col_apply _ _ _ rfl r 0).trans ?_
  refine Finset.sum_congr rfl fun s _ => ?_
  refine (mulf_apply _ _ (ix2 r s)).trans ?_
  exact congrArg₂ (fun a b : EReal => a * b) (simexp_read v3 v5 _ _ _ r s) (congrFun (shapeCast_self v19 _) (ix2 r s))

/-- Column 3: the carried value plus the row sum of the exponentials weighted by the 0/1 mask. -/
theorem k1_pay3_col3 (v3 : FVec Ideal S512x256 .f32) (v5 : FVec Ideal S1024x256 .f32)
    (v14 v19 v24 : FVec Ideal S512x1024 .f32) (v32 : FVec Ideal S512x4 .f32) (r : Fin 512) :
    k1_pay3 (F := Ideal) v3 v5 v14 v19 v24 v32 (ix2 r (3 : Fin 4))
      = v32 (ix2 r (3 : Fin 4)) + ∑ s : Fin 1024, simExp v3 v5 r s * maskAt v24 r s := by
  unfold k1_pay3
  refine (addf_apply _ _ _).trans ?_
  refine congrArg (fun z : EReal => v32 (ix2 r (3 : Fin 4)) + z) ?_
  refine (concat4_col3 _ _ _ _ _ r).trans ?_
  refine (col_apply _ _ _ rfl r 0).trans ?_
  refine Finset.sum_congr rfl fun s _ => ?_
  refine (mulf_apply _ _ (ix2 r s)).trans ?_
  exact congrArg₂ (fun a b : EReal => a * b) (simexp_read v3 v5 _ _ _ r s) (mask_read v24 _ r s)

end Cert.Pay

end
-- ==== Proof.RefSpec.lean ====
/- The reference's own sub-computations that the kernel's program does not share with it operation for operation:
   the similarity kernel, the two masked row sums, the threshold mask and the reconstruction error. Each is
   the reference program's operations in the program's order, over the reference's shape records. -/
import proofs.«117839_j20658792694235_1_alg».proof.Proof.Gen.ReferenceIdeal
import proofs.«117839_j20658792694235_1_alg».proof.Proof.Spec
import Idealize.ShloMosaic.PureOps

noncomputable section

namespace Cert.RefSpec

open Idealize.ShloMosaic Cert.ReferenceIdeal Cert.ReferenceIdeal.Gen

variable {F : FTy → Type} [FloatOps F]

/-- The similarity kernel: exp of (hn·hnᵀ)/0.5. -/
def eOf (hn : FVec F S4096x256 .f32) : FVec F S4096x4096 .f32 :=
  Host.exp (Host.divf (Host.dotGeneral dot_S4096x256_S256x4096_S4096x4096_1_0_0_1_n_n none hn (transpose S256x4096 [1, 0] hn transposes_S4096x256_S256x4096_1_0)) (broadcastInDim S4096x4096 ![] bcast_S_S4096x4096 (constant S_ .f32 0x3F000000#32)))

/-- The masked row sums: each row's sum, from zero, of e·mask. -/
def posOf (e : FVec F S4096x4096 .f32) (mask : FVec F S4096x4096 .f32) : FVec F S4096 .f32 :=
  Host.reduceAdd (mulf e mask) (constant S_ .f32 0x00000000#32) reducesTo_S4096x4096_S4096_d1 h_S_

/-- The complementary row sums: each row's sum, from zero, of e·(1 − mask). -/
def negOf (e : FVec F S4096x4096 .f32) (mask : FVec F S4096x4096 .f32) : FVec F S4096 .f32 :=
  Host.reduceAdd (mulf e (subf (broadcastInDim S4096x4096 ![] bcast_S_S4096x4096 (constant S_ .f32 0x3F800000#32)) mask)) (constant S_ .f32 0x00000000#32) reducesTo_S4096x4096_S4096_d1 h_S_

/-- The 0/1 mask of the entries above 0.9 (the word 0x3F666666), as floats. -/
def simMaskR (sim : FVec F S4096x4096 .f32) : FVec F S4096x4096 .f32 :=
  uitofp .f32 (cmpf .ogt sim (broadcastInDim S4096x4096 ![] bcast_S_S4096x4096 (constant S_ .f32 0x3F666666#32)))

/-- The squared reconstruction error, summed over both axes from zero: with d = a0 − ((a1·a2)·a3)·a4, the sum of d·d. -/
def loss1R (a0 : FVec F S4096x4096 .f32) (a1 : FVec F S4096x256 .f32) (a2 : FVec F S256x128 .f32) (a3 : FVec F S128x64 .f32) (a4 : FVec F S64x4096 .f32) : FVec F S_ .f32 :=
  Host.reduceAdd (mulf (subf a0 (Host.dotGeneral dot_S4096x64_S64x4096_S4096x4096_1_0_0_1_n_n none (Host.dotGeneral dot_S4096x128_S128x64_S4096x64_1_0_0_1_n_n none (Host.dotGeneral dot_S4096x256_S256x128_S4096x128_1_0_0_1_n_n none a1 a2) a3) a4)) (subf a0 (Host.dotGeneral dot_S4096x64_S64x4096_S4096x4096_1_0_0_1_n_n none (Host.dotGeneral dot_S4096x128_S128x64_S4096x64_1_0_0_1_n_n none (Host.dotGeneral dot_S4096x256_S256x128_S4096x128_1_0_0_1_n_n none a1 a2) a3) a4))) (constant S_ .f32 0x00000000#32) reducesTo_S4096x4096_S_d0_1 h_S_

/-- The reconstruction error over the shared factor chain (a1·a2)·a3: the same term, the chain named. -/
theorem loss1R_eq [Cert.KernelIdeal.Facts₀] (a0 : FVec F S4096x4096 .f32) (a1 : FVec F S4096x256 .f32) (a2 : FVec F S256x128 .f32)
    (a3 : FVec F S128x64 .f32) (a4 : FVec F S64x4096 .f32) :
    loss1R a0 a1 a2 a3 a4
      = Host.reduceAdd
          (mulf (subf a0 (Host.dotGeneral dot_S4096x64_S64x4096_S4096x4096_1_0_0_1_n_n none (Cert.Spec.Mof a1 a2 a3) a4))
                (subf a0 (Host.dotGeneral dot_S4096x64_S64x4096_S4096x4096_1_0_0_1_n_n none (Cert.Spec.Mof a1 a2 a3) a4)))
          (constant S_ .f32 0x00000000#32) reducesTo_S4096x4096_S_d0_1 h_S_ := rfl

end Cert.RefSpec

end
-- ==== Proof.Bridge0.lean ====
import proofs.«117839_j20658792694235_1_alg».proof.Proof.KIReg0Value
import proofs.«117839_j20658792694235_1_alg».proof.Proof.Payloads
import proofs.«117839_j20658792694235_1_alg».proof.Proof.Algebra
import proofs.«117839_j20658792694235_1_alg».proof.Proof.LibDotRead
import proofs.«117839_j20658792694235_1_alg».proof.Proof.Spec
import proofs.«117839_j20658792694235_1_alg».proof.Proof.RefSpec
import proofs.«117839_j20658792694235_1_alg».proof.ReferenceIdeal
import proofs.«117839_j20658792694235_1_alg».proof.Proof.Gen.ReferenceIdeal
import Idealize.ShloMosaic.PureOps.Ideal.Laws
import Idealize.ShloMosaic.Lib.ValueIdx
import Idealize.ShloMosaic.Lib.Pipeline.Value

set_option maxRecDepth 16384

noncomputable section

namespace Cert.Bridge0

open scoped BigOperators
open Idealize.ShloMosaic Idealize.ShloMosaic.ValueIdx Idealize.SL.Sem
open Cert.KernelIdeal Cert.KernelIdeal.Gen Cert.KernelIdeal.Reg0

/-! ## The host's product of a 4096 x 64 by a 64 x 4096 matrix, read at an entry -/

/-- The reference's dimension record is a plain row-by-column product. -/
theorem plain_ref : Cert.DotRead.Plain Cert.ReferenceIdeal.dot_S4096x64_S64x4096_S4096x4096_1_0_0_1_n_n where
  rank := rfl
  size := rfl
  lhs0 := fun i q => by simp [DotDims.lhsIdx, Cert.ReferenceIdeal.dot_S4096x64_S64x4096_S4096x4096_1_0_0_1_n_n]; rfl
  lhs1 := fun i q => DotDims.lhsIdx_val_of_single _ rfl i q
  rhs0 := fun i q => DotDims.rhsIdx_val_of_single _ rfl i q
  rhs1 := fun i q => by simp [DotDims.rhsIdx, Cert.ReferenceIdeal.dot_S4096x64_S64x4096_S4096x4096_1_0_0_1_n_n]; rfl

/-- Entry (r, k) of the host's plain product is Σ j, lhs (r, j) · rhs (j, k). -/
theorem hostDot_apply {m n p : ℕ} {φ₁ φ₂ : FTy} (d : DotDims ⟨2, ![m, n]⟩ ⟨2, ![n, p]⟩ ⟨2, ![m, p]⟩) (hd : Cert.DotRead.Plain d)
    (prec : Option ContractPrecision) (lhs : FVec Ideal ⟨2, ![m, n]⟩ φ₁) (rhs : FVec Ideal ⟨2, ![n, p]⟩ φ₂) (r : Fin m) (k : Fin p) :
    Host.dotGeneral d prec lhs rhs (ix2 r k) = ∑ j : Fin n, lhs (ix2 r j) * rhs (ix2 j k) := by
  simp only [Host.dotGeneral]
  rw [Ideal.dotGeneral_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

/-! ## The squared residual -/

/-- The squared residual at (R, k): (A − M · W)(R, k) squared. -/
def sq (A : FVec Ideal S4096x4096 .f32) (M : FVec Ideal S4096x64 .f32) (W : FVec Ideal S64x4096 .f32) (R : Fin 4096) (k : Fin 4096) : EReal :=
  (A (ix2 R k) - ∑ i : Fin 64, M (ix2 R i) * W (ix2 i k)) * (A (ix2 R k) - ∑ i : Fin 64, M (ix2 R i) * W (ix2 i k))

/-- The reference's total: from zero, the sum over both axes of the squared residual, as the host computes it. -/
def loss1Ref (A : FVec Ideal S4096x4096 .f32) (M : FVec Ideal S4096x64 .f32) (W : FVec Ideal S64x4096 .f32) : FVec Ideal S_ .f32 :=
  Host.reduceAdd
    (mulf (subf A (Host.dotGeneral Cert.ReferenceIdeal.dot_S4096x64_S64x4096_S4096x4096_1_0_0_1_n_n none M W))
          (subf A (Host.dotGeneral Cert.ReferenceIdeal.dot_S4096x64_S64x4096_S4096x4096_1_0_0_1_n_n none M W)))
    (constant S_ .f32 0x00000000#32) Cert.ReferenceIdeal.Gen.reducesTo_S4096x4096_S_d0_1 Cert.ReferenceIdeal.Gen.h_S_

/-- It is zero plus the double sum of the squared residuals. -/
theorem loss1Ref_apply (A : FVec Ideal S4096x4096 .f32) (M : FVec Ideal S4096x64 .f32) (W : FVec Ideal S64x4096 .f32) (j : S_.Idx) :
    loss1Ref A M W j = 0 + ∑ R : Fin 4096, ∑ k : Fin 4096, sq A M W R k := by
  unfold loss1Ref Host.reduceAdd
  rw [Ideal.hostReduceAdd_def]
  refine (Ideal.hostReduceAdd_total _ (fun b => b.elim0) _ _ j).trans ?_
  refine congrArg₂ (fun a b : EReal => a + b) Ideal.ofBits_zero_f32 ?_
  refine (sum_idx2 _).trans ?_
  refine Finset.sum_congr rfl fun R _ => Finset.sum_congr rfl fun k _ => ?_
  have hd : (subf A (Host.dotGeneral Cert.ReferenceIdeal.dot_S4096x64_S64x4096_S4096x4096_1_0_0_1_n_n none M W)) (ix2 R k)
      = A (ix2 R k) - ∑ i : Fin 64, M (ix2 R i) * W (ix2 i k) :=
    (subf_apply _ _ (ix2 R k)).trans (congrArg (fun z : EReal => A (ix2 R k) - z) (hostDot_apply _ plain_ref none M W R k))
  exact (mulf_apply _ _ (ix2 R k)).trans (congrArg₂ (fun a b : EReal => a * b) hd hd)

/-! ## The kernel's side: eight row tiles accumulated in point order -/

variable (V : Dev nD → Valuation τ sig (Elt Ideal))

/-- A point of the grid as a tile number. -/
def t8 (t : Fin cfg0.N) : Fin 8 := ⟨t.val, by have := t.isLt; have : cfg0.N = 8 := N_0; omega⟩

/-- One step at point `t`: what the accumulator held plus the sum of the squared residuals over row tile `t`. -/
theorem tile_step (c : Dev nD) (A : FVec Ideal S4096x4096 .f32) (M : FVec Ideal S4096x64 .f32) (W : FVec Ideal S64x4096 .f32)
    (hA : V c (Proc.devRef .tc main_arg0) = A) (hM : V c (Proc.devRef .tc main_v1) = M) (hW : V c (Proc.devRef .tc main_arg4) = W)
    (t : Fin cfg0.N) (v9 : FVec Ideal S1x1 .f32) (j : S1x1.Idx) :
    k0_pay2 (F := Ideal) (blkM V c t) (blkV V c t) (blkA V c t) v9 j = v9 j + Cert.Alg.tileSum (sq A M W) (t8 t) := by
  refine (Cert.Pay.k0_pay2_apply _ _ _ _ j).trans ?_
  refine congrArg (fun z : EReal => v9 j + z) ?_
  unfold Cert.Alg.tileSum
  refine Finset.sum_congr rfl fun r _ => Finset.sum_congr rfl fun k _ => ?_
  have eA : blkA V c t (ix2 r k) = A (ix2 (⟨512 * (t8 t).val + r.val, by have := (t8 t).isLt; have := r.isLt; omega⟩ : Fin 4096) k) :=
    (blkA_apply V c t r k).trans (congrFun hA _)
  have eM : ∀ i : Fin 64, blkM V c t (ix2 r i) = M (ix2 (⟨512 * (t8 t).val + r.val, by have := (t8 t).isLt; have := r.isLt; omega⟩ : Fin 4096) i) :=
    fun i => (blkM_apply V c t r i).trans (congrFun hM _)
  have eW : ∀ i : Fin 64, blkV V c t (ix2 i k) = W (ix2 i k) := fun i => (blkV_apply V c t i k).trans (congrFun hW _)
  have hd : blkA V c t (ix2 r k) - ∑ i : Fin 64, blkM V c t (ix2 r i) * blkV V c t (ix2 i k)
      = A (ix2 (⟨512 * (t8 t).val + r.val, by have := (t8 t).isLt; have := r.isLt; omega⟩ : Fin 4096) k)
        - ∑ i : Fin 64, M (ix2 (⟨512 * (t8 t).val + r.val, by have := (t8 t).isLt; have := r.isLt; omega⟩ : Fin 4096) i) * W (ix2 i k) :=
    congrArg₂ (fun a b : EReal => a - b) eA (Finset.sum_congr rfl fun i _ => congrArg₂ (fun a b : EReal => a * b) (eM i) (eW i))
  exact congrArg₂ (fun a b : EReal => a * b) hd hd

/-- The fold after position `n` is the tiles' sums accumulated from zero, one after another. -/
theorem acc_accum (c : Dev nD) (A : FVec Ideal S4096x4096 .f32) (M : FVec Ideal S4096x64 .f32) (W : FVec Ideal S64x4096 .f32)
    (hA : V c (Proc.devRef .tc main_arg0) = A) (hM : V c (Proc.devRef .tc main_v1) = M) (hW : V c (Proc.devRef .tc main_arg4) = W)
    (j : S1x1.Idx) : ∀ n : ℕ, acc V c n j = Cert.Alg.accum (fun m => Cert.Alg.tileSum (sq A M W) (t8 (pt m))) n
  | 0 => by
    show k0_pay2 (F := Ideal) (blkM V c (pt 0)) (blkV V c (pt 0)) (blkA V c (pt 0)) (k0_pay1 (F := Ideal)) j = 0 + _
    rw [tile_step V c A M W hA hM hW (pt 0) (k0_pay1 (F := Ideal)) j, Cert.Pay.k0_pay1_apply]
  | n + 1 => by
    show k0_pay2 (F := Ideal) (blkM V c (pt (n + 1))) (blkV V c (pt (n + 1))) (blkA V c (pt (n + 1))) (acc V c n) j
      = Cert.Alg.accum (fun m => Cert.Alg.tileSum (sq A M W) (t8 (pt m))) n + _
    rw [tile_step V c A M W hA hM hW (pt (n + 1)) (acc V c n) j, acc_accum c A M W hA hM hW j n]

/-- So the result's one element is zero plus the sum over the whole array of the squared residuals. -/
theorem result_apply (c : Dev nD) (A : FVec Ideal S4096x4096 .f32) (M : FVec Ideal S4096x64 .f32) (W : FVec Ideal S64x4096 .f32)
    (hA : V c (Proc.devRef .tc main_arg0) = A) (hM : V c (Proc.devRef .tc main_v1) = M) (hW : V c (Proc.devRef .tc main_arg4) = W)
    (j : S1x1.Idx) : result V c j = 0 + ∑ R : Fin 4096, ∑ k : Fin 4096, sq A M W R k := by
  show acc V c 7 j = _
  rw [acc_accum V c A M W hA hM hW j 7, Cert.Alg.accum_eq, ← Cert.Alg.sum_tileSeq]
  refine congrArg (fun z : EReal => 0 + z) (Finset.sum_congr rfl fun m hm => ?_)
  have hm' : m < 8 := Finset.mem_range.mp hm
  have ht : t8 (pt m) = (⟨m, hm'⟩ : Fin 8) := Fin.ext (by show min m 7 = m; omega)
  show Cert.Alg.tileSum (sq A M W) (t8 (pt m)) = _
  rw [ht]
  exact (Cert.Alg.tileSeq_lt (sq A M W) ⟨m, hm'⟩).symm

/-! ## The bridge -/

/-- The kernel's first result, read as a scalar, is the reference's total over any left factor `M`. -/
theorem loss1_core (c : Dev nD) (A : FVec Ideal S4096x4096 .f32) (M : FVec Ideal S4096x64 .f32) (W : FVec Ideal S64x4096 .f32)
    (hA : V c (Proc.devRef .tc main_arg0) = A) (hM : V c (Proc.devRef .tc main_v1) = M) (hW : V c (Proc.devRef .tc main_arg4) = W) :
    Cert.Spec.scalarOf (result V c) = loss1Ref A M W := by
  funext j
  have hk : (S1x1.rowMajor (ix2 (0 : Fin 1) (0 : Fin 1))).val = (S_.rowMajor j).val := by
    have h1 : (S1x1.rowMajor (ix2 (0 : Fin 1) (0 : Fin 1))).val < 1 := (S1x1.rowMajor _).isLt
    have h2 : (S_.rowMajor j).val < 1 := (S_.rowMajor j).isLt
    omega
  unfold Cert.Spec.scalarOf
  exact (shapeCast_apply _ _ j (ix2 (0 : Fin 1) (0 : Fin 1)) hk).trans
    ((result_apply V c A M W hA hM hW _).trans (loss1Ref_apply A M W j).symm)

/-- THE FIRST BRIDGE: region 0's result array, read as a scalar, is the reference's squared reconstruction error of the
    five arguments, the left factor being the shared chain (a1 · a2) · a3. -/
theorem loss1_eq (c : Dev nD) (U0 : FVec Ideal S4096x4096 .f32) (U1 : FVec Ideal S4096x256 .f32) (U2 : FVec Ideal S256x128 .f32)
    (U3 : FVec Ideal S128x64 .f32) (U4 : FVec Ideal S64x4096 .f32)
    (hA : V c (Proc.devRef .tc main_arg0) = U0) (hM : V c (Proc.devRef .tc main_v1) = Cert.Spec.Mof U1 U2 U3)
    (hW : V c (Proc.devRef .tc main_arg4) = U4) :
    Cert.Spec.scalarOf (result V c) = Cert.RefSpec.loss1R U0 U1 U2 U3 U4 :=
  (loss1_core V c U0 (Cert.Spec.Mof U1 U2 U3) U4 hA hM hW).trans (Cert.RefSpec.loss1R_eq U0 U1 U2 U3 U4).symm

end Cert.Bridge0

end
-- ==== Proof.KIReg1Value.lean ====
import proofs.«117839_j20658792694235_1_alg».proof.Proof.KIReg1
import Idealize.ShloMosaic.Lib.Pipeline.Value
import Idealize.ShloMosaic.Lib.ValueIdx
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

variable (V : Dev nD → Valuation τ sig (Elt F))

theorem hz : (![0, 0] : Fin 2 → Nat) = fun _ => 0 := funext fun a => by fin_cases a <;> rfl

/-! ## What each case's stores amount to -/

/-- A middle point leaves in the accumulator its one covering store: the contribution of the five blocks added to what
    the accumulator held. -/
theorem soutB_eq (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : ¬condL i) (x0 : Vec F S512x256 .f32) (x1 : Vec F S1024x256 .f32) (x2 x3 x4 : Vec F S512x1024 .f32) (xs : Vec F S512x4 .f32) :
    soutB c i a2 h2 a3 h3 a4 h4 a5 h5 a6 h6 a7 h7 a8 h8 hF hL x0 x1 x2 x3 x4 xs = k1_pay1 (k1_pay3 x0 x1 x2 x3 x4 xs) := by
  unfold soutB
  rw [View.read_writes_eq_canon _ _ _ (scoverB c i a2 h2 a3 h3 a4 h4 a5 h5 a6 h6 a7 h7 a8 h8 hF hL x0 x1 x2 x3 x4 xs)]
  unfold runB
  dsimp only
  rw [View.canon_unit_zero hz]
  simp only [View.readAt_eq_ld, h2.read_unread, h3.read_unread, h4.read_unread, h5.read_unread, h6.read_unread, h8.read_unread, View.ld_unit_zero (S := S512x256) hz, View.ld_unit_zero (S := S1024x256) hz, View.ld_unit_zero (S := S512x1024) hz, View.ld_unit_zero (S := S512x4) hz]

/-- A last point leaves the same in the accumulator, -/
theorem soutC_eq (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i) (x0 : Vec F S512x256 .f32) (x1 : Vec F S1024x256 .f32) (x2 x3 x4 : Vec F S512x1024 .f32) (xs : Vec F S512x4 .f32) :
    soutC c i a2 h2 a3 h3 a4 h4 a5 h5 a6 h6 a7 h7 a8 h8 hF hL x0 x1 x2 x3 x4 xs = k1_pay1 (k1_pay3 x0 x1 x2 x3 x4 xs) := by
  unfold soutC
  rw [View.read_writes_eq_canon _ _ _ (scoverC c i a2 h2 a3 h3 a4 h4 a5 h5 a6 h6 a7 h7 a8 h8 hF hL x0 x1 x2 x3 x4 xs)]
  unfold runC
  dsimp only
  sl_unfold_words
  rw [View.canon_unit_zero hz]
  simp only [View.readAt_eq_ld, h2.read_unread, h3.read_unread, h4.read_unread, h5.read_unread, h6.read_unread, h8.read_unread, View.ld_unit_zero (S := S512x256) hz, View.ld_unit_zero (S := S1024x256) hz, View.ld_unit_zero (S := S512x1024) hz, View.ld_unit_zero (S := S512x4) hz]

/-- and copies it into the output's buffer: the accumulator read back after its store. -/
theorem outC_eq (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : ¬condF i) (hL : condL i) (x0 : Vec F S512x256 .f32) (x1 : Vec F S1024x256 .f32) (x2 x3 x4 : Vec F S512x1024 .f32) (xs : Vec F S512x4 .f32) :
    outC c i a2 h2 a3 h3 a4 h4 a5 h5 a6 h6 a7 h7 a8 h8 hF hL x0 x1 x2 x3 x4 xs = k1_pay1 (k1_pay3 x0 x1 x2 x3 x4 xs) := by
  unfold outC
  rw [View.read_writes_eq_canon _ _ _ (coverC c i a2 h2 a3 h3 a4 h4 a5 h5 a6 h6 a7 h7 a8 h8 hF hL x0 x1 x2 x3 x4 xs)]
  unfold runC
  dsimp only
  sl_unfold_words
  rw [View.canon_unit_zero hz]
  rw [View.readCov_unit_zero (S := S512x4) _ hz]
  simp only [View.readAt_eq_ld, h2.read_unread, h3.read_unread, h4.read_unread, h5.read_unread, h6.read_unread, h8.read_unread, View.ld_unit_zero (S := S512x256) hz, View.ld_unit_zero (S := S1024x256) hz, View.ld_unit_zero (S := S512x1024) hz, View.ld_unit_zero (S := S512x4) hz]

/-- A first point zeroes the accumulator, reads the zero back, and leaves the five blocks' contribution added to it. -/
theorem soutA_eq (c : Dev nD) (i : grid1.Coords) (a2 : Memref sig .tc .vmem S512x256 .f32) (h2 : a2.IsWhole) (a3 : Memref sig .tc .vmem S1024x256 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x4 .f32) (h7 : a7.IsWhole) (a8 : Memref sig .tc .vmem S512x4 .f32) (h8 : a8.IsWhole) (hF : condF i) (hL : ¬condL i) (x0 : Vec F S512x256 .f32) (x1 : Vec F S1024x256 .f32) (x2 x3 x4 : Vec F S512x1024 .f32) :
    soutA c i a2 h2 a3 h3 a4 h4 a5 h5 a6 h6 a7 h7 a8 h8 hF hL x0 x1 x2 x3 x4 = k1_pay1 (k1_pay3 x0 x1 x2 x3 x4 (k1_pay2 (F := F))) := by
  unfold soutA
  rw [View.read_writes_eq_canon _ _ _ (scoverA c i a2 h2 a3 h3 a4 h4 a5 h5 a6 h6 a7 h7 a8 h8 hF hL x0 x1 x2 x3 x4)]
  unfold runA
  dsimp only
  sl_unfold_words
  rw [View.canon_cons_unit_zero (S := S512x4) hz, View.readCov_unit_zero (S := S512x4) _ hz]
  simp only [View.readAt_eq_ld, h2.read_unread, h3.read_unread, h4.read_unread, h5.read_unread, h6.read_unread, h8.read_unread, View.ld_unit_zero (S := S512x256) hz, View.ld_unit_zero (S := S1024x256) hz, View.ld_unit_zero (S := S512x1024) hz, View.ld_unit_zero (S := S512x4) hz]

/-! ## The accumulation in closed form -/

/-- Position `n` as a point of the grid (a position past the grid wraps around; none is consulted). -/
def pt (n : ℕ) : Fin cfg1.N := ⟨n % 32, lt_of_lt_of_eq (Nat.mod_lt _ (by decide)) N_1.symm⟩

theorem pt_val (n : ℕ) (hn : n < 32) : (pt n).val = n := Nat.mod_eq_of_lt hn

theorem pt_eq (n : ℕ) (hn : n < cfg1.N) : pt n = ⟨n, hn⟩ := Fin.ext (Nat.mod_eq_of_lt (lt_of_lt_of_eq hn N_1))

/-- One point's step: the contribution of the five blocks at point `t` added to `v`, as the body stores it. -/
def step (c : Dev nD) (t : Fin cfg1.N) (v : Vec F S512x4 .f32) : FVec F S512x4 .f32 :=
  k1_pay1 (k1_pay3 (blk V c 0 t) (blk V c 1 t) (blk V c 2 t) (blk V c 3 t) (blk V c 4 t) v)

theorem step_eq (c : Dev nD) (t : Fin cfg1.N) (v : Vec F S512x4 .f32) :
    step V c t v = k1_pay1 (k1_pay3 (blk V c 0 t) (blk V c 1 t) (blk V c 2 t) (blk V c 3 t) (blk V c 4 t) v) := rfl

/-- What the accumulator holds after position `n`: at a first point of the reduction axis one step from the zero block,
    elsewhere one step from what the position before left. -/
def acc (c : Dev nD) : ℕ → FVec F S512x4 .f32
  | 0 => step V c (pt 0) (k1_pay2 (F := F))
  | n + 1 => if (n + 1) % 4 = 0 then step V c (pt (n + 1)) (k1_pay2 (F := F)) else step V c (pt (n + 1)) (acc c n)

theorem acc_first (c : Dev nD) (n : ℕ) (h : n % 4 = 0) : acc V c n = step V c (pt n) (k1_pay2 (F := F)) := by
  cases n with
  | zero => rfl
  | succ n => exact if_pos h

theorem acc_next (c : Dev nD) (n : ℕ) (h : ¬n % 4 = 0) : acc V c n = step V c (pt n) (acc V c (n - 1)) := by
  cases n with
  | zero => exact absurd (Nat.zero_mod _) h
  | succ n => exact if_neg h

theorem acc_congr (c : Dev nD) (n n' : ℕ) (hn : n = n') (y y' : S512x4.Idx) (hy : y = y') : acc V c n y = acc V c n' y' := by
  subst hn; subst hy; rfl

/-- The accumulator's contents point by point are that closed form: by induction on the position. -/
theorem accAt_eq (c : Dev nD) : ∀ (n : ℕ) (hn : n < cfg1.N), accAt V c n hn = acc V c n
  | 0, hn =>
    (accAt_A V c ⟨0, hn⟩ (Nat.zero_mod _) (by dsimp only; omega)).trans
      ((soutA_eq c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) _ _ (blk V c 0 ⟨0, hn⟩) (blk V c 1 ⟨0, hn⟩) (blk V c 2 ⟨0, hn⟩) (blk V c 3 ⟨0, hn⟩) (blk V c 4 ⟨0, hn⟩)).trans
        (by rw [acc_first V c 0 (Nat.zero_mod _), pt_eq 0 hn]; rfl))
  | n + 1, hn => by
    by_cases h0 : (n + 1) % 4 = 0
    · exact (accAt_A V c ⟨n + 1, hn⟩ h0 (by dsimp only; omega)).trans
        ((soutA_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) _ _ (blk V c 0 ⟨n + 1, hn⟩) (blk V c 1 ⟨n + 1, hn⟩) (blk V c 2 ⟨n + 1, hn⟩) (blk V c 3 ⟨n + 1, hn⟩) (blk V c 4 ⟨n + 1, hn⟩)).trans
          (by rw [acc_first V c (n + 1) h0, pt_eq (n + 1) hn]; rfl))
    · by_cases h1 : (n + 1) % 4 = 3
      · exact (accAt_C V c ⟨n + 1, hn⟩ h0 h1).trans
          ((soutC_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) _ _ (blk V c 0 ⟨n + 1, hn⟩) (blk V c 1 ⟨n + 1, hn⟩) (blk V c 2 ⟨n + 1, hn⟩) (blk V c 3 ⟨n + 1, hn⟩) (blk V c 4 ⟨n + 1, hn⟩) _).trans
            (by rw [acc_next V c (n + 1) h0, pt_eq (n + 1) hn]
                show k1_pay1 (k1_pay3 _ _ _ _ _ (accAt V c n _)) = step V c _ (acc V c n)
                rw [accAt_eq c n]; rfl))
      · exact (accAt_B V c ⟨n + 1, hn⟩ h0 h1).trans
          ((soutB_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) _ _ (blk V c 0 ⟨n + 1, hn⟩) (blk V c 1 ⟨n + 1, hn⟩) (blk V c 2 ⟨n + 1, hn⟩) (blk V c 3 ⟨n + 1, hn⟩) (blk V c 4 ⟨n + 1, hn⟩) _).trans
            (by rw [acc_next V c (n + 1) h0, pt_eq (n + 1) hn]
                show k1_pay1 (k1_pay3 _ _ _ _ _ (accAt V c n _)) = step V c _ (acc V c n)
                rw [accAt_eq c n]; rfl))

/-- At a last point of the reduction axis the output's buffer holds the accumulator. -/
theorem outAt_eq (c : Dev nD) (t : Fin cfg1.N) (h1 : t.val % 4 = 3) : outAt V c t.val t.isLt = acc V c t.val := by
  have h0 : ¬t.val % 4 = 0 := by omega
  have hz' : t.val ≠ 0 := fun e => by rw [e] at h1; exact absurd h1 (by decide)
  refine (outAt_C V c t h0 h1).trans ((outC_eq c (grid1.coords t) (ms0 t) (hs0 t) (ms1 t) (hs1 t) (ms2 t) (hs2 t) (ms3 t) (hs3 t) (ms4 t) (hs4 t) (ms5 t) (hs5 t) scM (Memref.isWhole_whole _) _ _ (blk V c 0 t) (blk V c 1 t) (blk V c 2 t) (blk V c 3 t) (blk V c 4 t) _).trans ?_)
  rw [acc_next V c t.val h0, pt_eq t.val t.isLt, accAt_eq V c (t.val - 1)]
  rfl

/-! ## The windows' blocks, element by element -/

theorem idx0 : ∀ t : Fin cfg1.N, win1_0.index t (0 : Fin 2) = t.val / 4 ∧ win1_0.index t (1 : Fin 2) = 0 :=
  (by decide +kernel : ∀ t : Fin grid1.N, win1_0.index t (0 : Fin 2) = t.val / 4 ∧ win1_0.index t (1 : Fin 2) = 0)
theorem idx1 : ∀ t : Fin cfg1.N, win1_1.index t (0 : Fin 2) = t.val % 4 ∧ win1_1.index t (1 : Fin 2) = 0 :=
  (by decide +kernel : ∀ t : Fin grid1.N, win1_1.index t (0 : Fin 2) = t.val % 4 ∧ win1_1.index t (1 : Fin 2) = 0)
theorem idx2 : ∀ t : Fin cfg1.N, win1_2.index t (0 : Fin 2) = t.val / 4 ∧ win1_2.index t (1 : Fin 2) = t.val % 4 :=
  (by decide +kernel : ∀ t : Fin grid1.N, win1_2.index t (0 : Fin 2) = t.val / 4 ∧ win1_2.index t (1 : Fin 2) = t.val % 4)
theorem idx3 : ∀ t : Fin cfg1.N, win1_3.index t (0 : Fin 2) = t.val / 4 ∧ win1_3.index t (1 : Fin 2) = t.val % 4 :=
  (by decide +kernel : ∀ t : Fin grid1.N, win1_3.index t (0 : Fin 2) = t.val / 4 ∧ win1_3.index t (1 : Fin 2) = t.val % 4)
theorem idx4 : ∀ t : Fin cfg1.N, win1_4.index t (0 : Fin 2) = t.val / 4 ∧ win1_4.index t (1 : Fin 2) = t.val % 4 :=
  (by decide +kernel : ∀ t : Fin grid1.N, win1_4.index t (0 : Fin 2) = t.val / 4 ∧ win1_4.index t (1 : Fin 2) = t.val % 4)
theorem idx5 : ∀ t : Fin cfg1.N, win1_5.index t (0 : Fin 2) = t.val / 4 ∧ win1_5.index t (1 : Fin 2) = 0 :=
  (by decide +kernel : ∀ t : Fin grid1.N, win1_5.index t (0 : Fin 2) = t.val / 4 ∧ win1_5.index t (1 : Fin 2) = 0)

/-- Window 0's block at point `t`, element by element: the block index times the block's extent plus the coordinate inside. -/
theorem blk0_apply (c : Dev nD) (t : Fin cfg1.N) (r : Fin 512) (k : Fin 256) :
    (blk V c 0 t : Vec F S512x256 .f32) (ix2 r k)
      = (V c (Proc.devRef .tc main_v20) : S4096x256.Idx → Elt F .f32) (ix2 ⟨512 * (t.val / 4) + r.val, by have := r.isLt; have := lt_of_lt_of_eq t.isLt N_1; omega⟩ k) := by
  obtain ⟨e0, e1⟩ := idx0 t
  unfold blk
  rw [View.read_apply]
  show (V c (Proc.devRef .tc main_v20) : S4096x256.Idx → Elt F .f32) _ = (V c (Proc.devRef .tc main_v20) : S4096x256.Idx → Elt F .f32) _
  congr 1
  funext a
  apply Fin.ext
  match a with
  | ⟨0, _⟩ => show win1_0.index t (0 : Fin 2) * 512 + 1 * r.val = 512 * (t.val / 4) + r.val; rw [e0]; omega
  | ⟨1, _⟩ => show win1_0.index t (1 : Fin 2) * 256 + 1 * k.val = (k.val); rw [e1]; omega

/-- Window 1's block at point `t`, element by element: the block index times the block's extent plus the coordinate inside. -/
theorem blk1_apply (c : Dev nD) (t : Fin cfg1.N) (r : Fin 1024) (k : Fin 256) :
    (blk V c 1 t : Vec F S1024x256 .f32) (ix2 r k)
      = (V c (Proc.devRef .tc main_v20) : S4096x256.Idx → Elt F .f32) (ix2 ⟨1024 * (t.val % 4) + r.val, by have := r.isLt; have := lt_of_lt_of_eq t.isLt N_1; omega⟩ k) := by
  obtain ⟨e0, e1⟩ := idx1 t
  unfold blk
  rw [View.read_apply]
  show (V c (Proc.devRef .tc main_v20) : S4096x256.Idx → Elt F .f32) _ = (V c (Proc.devRef .tc main_v20) : S4096x256.Idx → Elt F .f32) _
  congr 1
  funext a
  apply Fin.ext
  match a with
  | ⟨0, _⟩ => show win1_1.index t (0 : Fin 2) * 1024 + 1 * r.val = 1024 * (t.val % 4) + r.val; rw [e0]; omega
  | ⟨1, _⟩ => show win1_1.index t (1 : Fin 2) * 256 + 1 * k.val = (k.val); rw [e1]; omega

/-- Window 2's block at point `t`, element by element: the block index times the block's extent plus the coordinate inside. -/
theorem blk2_apply (c : Dev nD) (t : Fin cfg1.N) (r : Fin 512) (k : Fin 1024) :
    (blk V c 2 t : Vec F S512x1024 .f32) (ix2 r k)
      = (V c (Proc.devRef .tc main_v39) : S4096x4096.Idx → Elt F .f32) (ix2 ⟨512 * (t.val / 4) + r.val, by have := r.isLt; have := lt_of_lt_of_eq t.isLt N_1; omega⟩ ⟨1024 * (t.val % 4) + k.val, by have := k.isLt; have := lt_of_lt_of_eq t.isLt N_1; omega⟩) := by
  obtain ⟨e0, e1⟩ := idx2 t
  unfold blk
  rw [View.read_apply]
  show (V c (Proc.devRef .tc main_v39) : S4096x4096.Idx → Elt F .f32) _ = (V c (Proc.devRef .tc main_v39) : S4096x4096.Idx → Elt F .f32) _
  congr 1
  funext a
  apply Fin.ext
  match a with
  | ⟨0, _⟩ => show win1_2.index t (0 : Fin 2) * 512 + 1 * r.val = 512 * (t.val / 4) + r.val; rw [e0]; omega
  | ⟨1, _⟩ => show win1_2.index t (1 : Fin 2) * 1024 + 1 * k.val = 1024 * (t.val % 4) + k.val; rw [e1]; omega

/-- Window 3's block at point `t`, element by element: the block index times the block's extent plus the coordinate inside. -/
theorem blk3_apply (c : Dev nD) (t : Fin cfg1.N) (r : Fin 512) (k : Fin 1024) :
    (blk V c 3 t : Vec F S512x1024 .f32) (ix2 r k)
      = (V c (Proc.devRef .tc main_v58) : S4096x4096.Idx → Elt F .f32) (ix2 ⟨512 * (t.val / 4) + r.val, by have := r.isLt; have := lt_of_lt_of_eq t.isLt N_1; omega⟩ ⟨1024 * (t.val % 4) + k.val, by have := k.isLt; have := lt_of_lt_of_eq t.isLt N_1; omega⟩) := by
  obtain ⟨e0, e1⟩ := idx3 t
  unfold blk
  rw [View.read_apply]
  show (V c (Proc.devRef .tc main_v58) : S4096x4096.Idx → Elt F .f32) _ = (V c (Proc.devRef .tc main_v58) : S4096x4096.Idx → Elt F .f32) _
  congr 1
  funext a
  apply Fin.ext
  match a with
  | ⟨0, _⟩ => show win1_3.index t (0 : Fin 2) * 512 + 1 * r.val = 512 * (t.val / 4) + r.val; rw [e0]; omega
  | ⟨1, _⟩ => show win1_3.index t (1 : Fin 2) * 1024 + 1 * k.val = 1024 * (t.val % 4) + k.val; rw [e1]; omega

/-- Window 4's block at point `t`, element by element: the block index times the block's extent plus the coordinate inside. -/
theorem blk4_apply (c : Dev nD) (t : Fin cfg1.N) (r : Fin 512) (k : Fin 1024) :
    (blk V c 4 t : Vec F S512x1024 .f32) (ix2 r k)
      = (V c (Proc.devRef .tc main_arg9) : S4096x4096.Idx → Elt F .f32) (ix2 ⟨512 * (t.val / 4) + r.val, by have := r.isLt; have := lt_of_lt_of_eq t.isLt N_1; omega⟩ ⟨1024 * (t.val % 4) + k.val, by have := k.isLt; have := lt_of_lt_of_eq t.isLt N_1; omega⟩) := by
  obtain ⟨e0, e1⟩ := idx4 t
  unfold blk
  rw [View.read_apply]
  show (V c (Proc.devRef .tc main_arg9) : S4096x4096.Idx → Elt F .f32) _ = (V c (Proc.devRef .tc main_arg9) : S4096x4096.Idx → Elt F .f32) _
  congr 1
  funext a
  apply Fin.ext
  match a with
  | ⟨0, _⟩ => show win1_4.index t (0 : Fin 2) * 512 + 1 * r.val = 512 * (t.val / 4) + r.val; rw [e0]; omega
  | ⟨1, _⟩ => show win1_4.index t (1 : Fin 2) * 1024 + 1 * k.val = 1024 * (t.val % 4) + k.val; rw [e1]; omega

/-! ## The output array after the region -/

/-- The output array's final contents: row block `i` is the accumulator after the last point of that row block. -/
def G (c : Dev nD) : S4096x4.Idx → Elt F .f32 := fun y =>
  acc V c (4 * ((y 0).val / 512) + 3) (ix2 (⟨(y 0).val % 512, Nat.mod_lt _ (by decide)⟩ : Fin 512) (⟨(y 1).val, (y 1).isLt⟩ : Fin 4))

/-- What a write-back writes is its block of `G`. -/
theorem flushed_eq (c : Dev nD) (t : Fin cfg1.N) (hf : (cfg1.win 5).flush t = true) :
    (dat V c).flushed 5 t = ((cfg1.win 5).blk t).view.read (Elt F) (G V c) := by
  have h1 : t.val % 4 = 3 := (flush1_5 t).mp hf
  have hN : t.val < 32 := lt_of_lt_of_eq t.isLt N_1
  obtain ⟨e0, e1⟩ := idx5 t
  show (cfg1.win 5).cut (grid1.coords t) ((dat V c).after 5 t) = _
  rw [after_5, outAt_eq V c t h1]
  funext j
  rw [View.read_apply]
  show acc V c t.val j = G V c (((cfg1.win 5).blk t).view.emb j)
  have hj0 : (j 0).val < 512 := (j 0).isLt
  have k0 : ((((cfg1.win 5).blk t).view.emb j) 0).val = t.val / 4 * 512 + (j 0).val := by
    show win1_5.index t (0 : Fin 2) * 512 + 1 * (j 0).val = _; rw [e0]; omega
  have k1 : ((((cfg1.win 5).blk t).view.emb j) 1).val = (j 1).val := by
    show win1_5.index t (1 : Fin 2) * 4 + 1 * (j 1).val = _; rw [e1]; omega
  unfold G
  refine acc_congr V c _ _ (by rw [k0]; omega) _ _ (funext fun a => Fin.ext ?_)
  match a with
  | ⟨0, _⟩ => show (j 0).val = ((((cfg1.win 5).blk t).view.emb j) 0).val % 512; rw [k0]; omega
  | ⟨1, _⟩ => show (j 1).val = ((((cfg1.win 5).blk t).view.emb j) 1).val; rw [k1]

/-- An index of the output array is in point `t`'s block iff each coordinate is in the block's range on its axis. -/
theorem mem_blk5 (t : Fin cfg1.N) (y : S4096x4.Idx) :
    y ∈ ((cfg1.win 5).blk t).view.set ↔ ∀ a : Fin 2, win1_5.index t a * S512x4.size a ≤ (y a).val ∧ (y a).val < win1_5.index t a * S512x4.size a + S512x4.size a := by
  show y ∈ ((View.whole main_v59).slice (win1_5.rect t)).set ↔ _
  rw [View.set_slice_whole, Rect.mem_set_unit]
  exact Iff.rfl

/-- THE OUTPUT after the region: row `512·i + r` holds row `r` of the accumulator after the last point of row block `i`. -/
theorem final (c : Dev nD) (i : Fin 8) (r : Fin 512) (q : Fin 4) :
    ((dat V c).arrAt 5 cfg1.N : S4096x4.Idx → Elt F .f32) (ix2 (⟨512 * i.val + r.val, by have := i.isLt; have := r.isLt; omega⟩ : Fin 4096) q)
      = acc V c (4 * i.val + 3) (ix2 r q) := by
  have hi := i.isLt
  have hr := r.isLt
  have ht : 4 * i.val + 3 < cfg1.N := by rw [show cfg1.N = 32 from N_1]; omega
  obtain ⟨e0, e1⟩ := idx5 ⟨4 * i.val + 3, ht⟩
  have hmem : (ix2 (⟨512 * i.val + r.val, by omega⟩ : Fin 4096) q : S4096x4.Idx) ∈ ((cfg1.win 5).blk ⟨4 * i.val + 3, ht⟩).view.set := by
    rw [mem_blk5]
    intro a
    match a with
    | ⟨0, _⟩ => show win1_5.index ⟨4 * i.val + 3, ht⟩ (0 : Fin 2) * 512 ≤ 512 * i.val + r.val ∧ 512 * i.val + r.val < win1_5.index ⟨4 * i.val + 3, ht⟩ (0 : Fin 2) * 512 + 512
                rw [e0]; dsimp only; omega
    | ⟨1, _⟩ => show win1_5.index ⟨4 * i.val + 3, ht⟩ (1 : Fin 2) * 4 ≤ q.val ∧ q.val < win1_5.index ⟨4 * i.val + 3, ht⟩ (1 : Fin 2) * 4 + 4
                rw [e1]; have := q.isLt; omega
  refine ((dat V c).arrAt_apply_of_mem 5 (G V c) (flushed_eq V c) cfg1.N ⟨4 * i.val + 3, ht⟩ _ ht ((flush1_5 _).mpr (by dsimp only; omega)) hmem).trans ?_
  unfold G
  refine acc_congr V c _ _ (by show 4 * ((512 * i.val + r.val) / 512) + 3 = 4 * i.val + 3; omega) _ _ (funext fun a => Fin.ext ?_)
  match a with
  | ⟨0, _⟩ => show (512 * i.val + r.val) % 512 = r.val; omega
  | ⟨1, _⟩ => rfl

end Cert.KernelIdeal.Reg1

end
-- ==== Proof.RefTail.lean ====
/- The reference's result read as a pure function of its arguments. The operations are folded stretch by stretch
   (the stretches of the operation list, the last one cut before its closing concatenation); after each stretch every
   buffer a later stretch still reads is stated as a pure term of the contents of the arguments, built from the shared
   sub-computations and the reference's own; the result buffer is the six-entry vector of the total loss and its parts. -/
import proofs.«117839_j20658792694235_1_alg».proof.Proof.RefRun
import proofs.«117839_j20658792694235_1_alg».proof.Proof.RefSpec
import Idealize.ShloMosaic.Lib.StableHlo.Run

noncomputable section

namespace Cert.ReferenceIdeal.RefTail

open Idealize.ShloMosaic Idealize.ShloMosaic.TcCoe Idealize.SL.Sem Cert.ReferenceIdeal Cert.ReferenceIdeal.Gen
open Cert.ReferenceIdeal.RefRun Idealize.ShloMosaic.StableHlo

variable {F : FTy → Type} [FloatOps F] [Cert.KernelIdeal.Facts₀]

/-! ## The last stretch, cut before the concatenation -/

/-- The last stretch without its closing operation: the weighted total and the six one-element vectors. -/
abbrev w3s0a : List (HloOp τ sig (Elt F)) :=
  [ StableHlo.nullary main_cst_44 (constant S_ .f32 0x3F800000#32),
    StableHlo.binary main_cst_44 main_v5 main_v134 (mulf : (⟨S_, .f32⟩ : BufTy).Contents (Elt F) → (⟨S_, .f32⟩ : BufTy).Contents (Elt F) → (⟨S_, .f32⟩ : BufTy).Contents (Elt F)),
    StableHlo.nullary main_cst_45 (constant S_ .f32 0x3DCCCCCD#32),
    StableHlo.binary main_cst_45 main_v61 main_v135 (mulf : (⟨S_, .f32⟩ : BufTy).Contents (Elt F) → (⟨S_, .f32⟩ : BufTy).Contents (Elt F) → (⟨S_, .f32⟩ : BufTy).Contents (Elt F)),
    StableHlo.binary main_v134 main_v135 main_v136 (addf : (⟨S_, .f32⟩ : BufTy).Contents (Elt F) → (⟨S_, .f32⟩ : BufTy).Contents (Elt F) → (⟨S_, .f32⟩ : BufTy).Contents (Elt F)),
    StableHlo.nullary main_cst_46 (constant S_ .f32 0x3DCCCCCD#32),
    StableHlo.binary main_cst_46 main_v95 main_v137 (mulf : (⟨S_, .f32⟩ : BufTy).Contents (Elt F) → (⟨S_, .f32⟩ : BufTy).Contents (Elt F) → (⟨S_, .f32⟩ : BufTy).Contents (Elt F)),
    StableHlo.binary main_v136 main_v137 main_v138 (addf : (⟨S_, .f32⟩ : BufTy).Contents (Elt F) → (⟨S_, .f32⟩ : BufTy).Contents (Elt F) → (⟨S_, .f32⟩ : BufTy).Contents (Elt F)),
    StableHlo.nullary main_cst_47 (constant S_ .f32 0x3DCCCCCD#32),
    StableHlo.binary main_cst_47 main_v113 main_v139 (mulf : (⟨S_, .f32⟩ : BufTy).Contents (Elt F) → (⟨S_, .f32⟩ : BufTy).Contents (Elt F) → (⟨S_, .f32⟩ : BufTy).Contents (Elt F)),
    StableHlo.binary main_v138 main_v139 main_v140 (addf : (⟨S_, .f32⟩ : BufTy).Contents (Elt F) → (⟨S_, .f32⟩ : BufTy).Contents (Elt F) → (⟨S_, .f32⟩ : BufTy).Contents (Elt F)),
    StableHlo.nullary main_cst_48 (constant S_ .f32 0x3F800000#32),
    StableHlo.binary main_cst_48 main_v133 main_v141 (mulf : (⟨S_, .f32⟩ : BufTy).Contents (Elt F) → (⟨S_, .f32⟩ : BufTy).Contents (Elt F) → (⟨S_, .f32⟩ : BufTy).Contents (Elt F)),
    StableHlo.binary main_v140 main_v141 main_v142 (addf : (⟨S_, .f32⟩ : BufTy).Contents (Elt F) → (⟨S_, .f32⟩ : BufTy).Contents (Elt F) → (⟨S_, .f32⟩ : BufTy).Contents (Elt F)),
    StableHlo.unary main_v142 main_v143 (broadcastInDim S1 ![] bcast_S_S1 : (⟨S_, .f32⟩ : BufTy).Contents (Elt F) → (⟨S1, .f32⟩ : BufTy).Contents (Elt F)),
    StableHlo.unary main_v5 main_v144 (broadcastInDim S1 ![] bcast_S_S1 : (⟨S_, .f32⟩ : BufTy).Contents (Elt F) → (⟨S1, .f32⟩ : BufTy).Contents (Elt F)),
    StableHlo.unary main_v61 main_v145 (broadcastInDim S1 ![] bcast_S_S1 : (⟨S_, .f32⟩ : BufTy).Contents (Elt F) → (⟨S1, .f32⟩ : BufTy).Contents (Elt F)),
    StableHlo.unary main_v95 main_v146 (broadcastInDim S1 ![] bcast_S_S1 : (⟨S_, .f32⟩ : BufTy).Contents (Elt F) → (⟨S1, .f32⟩ : BufTy).Contents (Elt F)),
    StableHlo.unary main_v113 main_v147 (broadcastInDim S1 ![] bcast_S_S1 : (⟨S_, .f32⟩ : BufTy).Contents (Elt F) → (⟨S1, .f32⟩ : BufTy).Contents (Elt F)),
    StableHlo.unary main_v133 main_v148 (broadcastInDim S1 ![] bcast_S_S1 : (⟨S_, .f32⟩ : BufTy).Contents (Elt F) → (⟨S1, .f32⟩ : BufTy).Contents (Elt F)) ]

/-- The closing operation: the concatenation of the six one-element vectors. -/
abbrev w3s0b : List (HloOp τ sig (Elt F)) :=
  [ StableHlo.nary ![main_v143, main_v144, main_v145, main_v146, main_v147, main_v148] main_v149 (fun u => concatenate S6 0 [⟨S1, u 0⟩, ⟨S1, u 1⟩, ⟨S1, u 2⟩, ⟨S1, u 3⟩, ⟨S1, u 4⟩, ⟨S1, u 5⟩] concatenates_S1_S1_S1_S1_S1_S1_S6_d0) ]

theorem w3s0_split : (w3s0 : List (HloOp τ sig (Elt F))) = w3s0a ++ w3s0b := rfl

/-- Six one-element vectors end to end. -/
def sixOf (x0 x1 x2 x3 x4 x5 : FVec F S1 .f32) : FVec F S6 .f32 :=
  concatenate S6 0 [⟨S1, x0⟩, ⟨S1, x1⟩, ⟨S1, x2⟩, ⟨S1, x3⟩, ⟨S1, x4⟩, ⟨S1, x5⟩] concatenates_S1_S1_S1_S1_S1_S1_S6_d0

/-! ## The contents after each stretch -/

/-- The contents before the first stretch. -/
def u0 (V : Valuation τ sig (Elt F)) : Valuation τ sig (Elt F) := V
theorem u0_main_arg0 (V : Valuation τ sig (Elt F)) : u0 V (no_index (Proc.devRef .tc main_arg0)) = V (Proc.devRef .tc main_arg0) := rfl
theorem u0_main_arg1 (V : Valuation τ sig (Elt F)) : u0 V (no_index (Proc.devRef .tc main_arg1)) = V (Proc.devRef .tc main_arg1) := rfl
theorem u0_main_arg2 (V : Valuation τ sig (Elt F)) : u0 V (no_index (Proc.devRef .tc main_arg2)) = V (Proc.devRef .tc main_arg2) := rfl
theorem u0_main_arg3 (V : Valuation τ sig (Elt F)) : u0 V (no_index (Proc.devRef .tc main_arg3)) = V (Proc.devRef .tc main_arg3) := rfl
theorem u0_main_arg4 (V : Valuation τ sig (Elt F)) : u0 V (no_index (Proc.devRef .tc main_arg4)) = V (Proc.devRef .tc main_arg4) := rfl
theorem u0_main_arg5 (V : Valuation τ sig (Elt F)) : u0 V (no_index (Proc.devRef .tc main_arg5)) = V (Proc.devRef .tc main_arg5) := rfl
theorem u0_main_arg6 (V : Valuation τ sig (Elt F)) : u0 V (no_index (Proc.devRef .tc main_arg6)) = V (Proc.devRef .tc main_arg6) := rfl
theorem u0_main_arg7 (V : Valuation τ sig (Elt F)) : u0 V (no_index (Proc.devRef .tc main_arg7)) = V (Proc.devRef .tc main_arg7) := rfl
theorem u0_main_arg8 (V : Valuation τ sig (Elt F)) : u0 V (no_index (Proc.devRef .tc main_arg8)) = V (Proc.devRef .tc main_arg8) := rfl
theorem u0_main_arg9 (V : Valuation τ sig (Elt F)) : u0 V (no_index (Proc.devRef .tc main_arg9)) = V (Proc.devRef .tc main_arg9) := rfl
theorem u0_main_arg10 (V : Valuation τ sig (Elt F)) : u0 V (no_index (Proc.devRef .tc main_arg10)) = V (Proc.devRef .tc main_arg10) := rfl
theorem u0_main_arg11 (V : Valuation τ sig (Elt F)) : u0 V (no_index (Proc.devRef .tc main_arg11)) = V (Proc.devRef .tc main_arg11) := rfl

/-- The contents after the first 1 stretch. -/
def u1 (V : Valuation τ sig (Elt F)) : Valuation τ sig (Elt F) := after w0s0 (u0 V)
/-- The buffers stretch 1 writes. -/
abbrev w0s0_W : List (Ref sig .tc) := [main_v0, main_v1, main_v2, main_v3, main_v4, main_cst, main_v5, main_v6, main_v7, main_v8, main_v9, main_v10, main_v11]
theorem w0s0_writesW : (w0s0 : List (HloOp τ sig (Elt F))).Forall fun op => op.writes ⊆ (w0s0_W.map (Proc.devRef (τ := τ) .tc)).toFinset :=
  ⟨writes_sub_of_mem main_v0 rfl (by decide), writes_sub_of_mem main_v1 rfl (by decide), writes_sub_of_mem main_v2 rfl (by decide), writes_sub_of_mem main_v3 rfl (by decide), writes_sub_of_mem main_v4 rfl (by decide), writes_sub_of_mem main_cst rfl (by decide), writes_sub_of_mem main_v5 rfl (by decide), writes_sub_of_mem main_v6 rfl (by decide), writes_sub_of_mem main_v7 rfl (by decide), writes_sub_of_mem main_v8 rfl (by decide), writes_sub_of_mem main_v9 rfl (by decide), writes_sub_of_mem main_v10 rfl (by decide), writes_sub_of_mem main_v11 rfl (by decide)⟩
/-- A buffer stretch 1 does not write keeps its contents through it. -/
theorem u1_keep (V : Valuation τ sig (Elt F)) (r : Ref sig .tc) (h : r ∉ w0s0_W) :
    u1 V (Proc.devRef .tc r) = u0 V (Proc.devRef .tc r) :=
  after_of_writes_sub w0s0 _ w0s0_writesW h
theorem u1_main_arg1 (V : Valuation τ sig (Elt F)) : u1 V (no_index (Proc.devRef .tc main_arg1)) = (V (Proc.devRef .tc main_arg1)) :=
  (u1_keep V main_arg1 (by decide)).trans (u0_main_arg1 V)
theorem u1_main_arg2 (V : Valuation τ sig (Elt F)) : u1 V (no_index (Proc.devRef .tc main_arg2)) = (V (Proc.devRef .tc main_arg2)) :=
  (u1_keep V main_arg2 (by decide)).trans (u0_main_arg2 V)
theorem u1_main_arg3 (V : Valuation τ sig (Elt F)) : u1 V (no_index (Proc.devRef .tc main_arg3)) = (V (Proc.devRef .tc main_arg3)) :=
  (u1_keep V main_arg3 (by decide)).trans (u0_main_arg3 V)
theorem u1_main_arg4 (V : Valuation τ sig (Elt F)) : u1 V (no_index (Proc.devRef .tc main_arg4)) = (V (Proc.devRef .tc main_arg4)) :=
  (u1_keep V main_arg4 (by decide)).trans (u0_main_arg4 V)
theorem u1_main_arg7 (V : Valuation τ sig (Elt F)) : u1 V (no_index (Proc.devRef .tc main_arg7)) = (V (Proc.devRef .tc main_arg7)) :=
  (u1_keep V main_arg7 (by decide)).trans (u0_main_arg7 V)
theorem u1_main_arg8 (V : Valuation τ sig (Elt F)) : u1 V (no_index (Proc.devRef .tc main_arg8)) = (V (Proc.devRef .tc main_arg8)) :=
  (u1_keep V main_arg8 (by decide)).trans (u0_main_arg8 V)
theorem u1_main_arg9 (V : Valuation τ sig (Elt F)) : u1 V (no_index (Proc.devRef .tc main_arg9)) = (V (Proc.devRef .tc main_arg9)) :=
  (u1_keep V main_arg9 (by decide)).trans (u0_main_arg9 V)
theorem u1_main_arg10 (V : Valuation τ sig (Elt F)) : u1 V (no_index (Proc.devRef .tc main_arg10)) = (V (Proc.devRef .tc main_arg10)) :=
  (u1_keep V main_arg10 (by decide)).trans (u0_main_arg10 V)
theorem u1_main_arg11 (V : Valuation τ sig (Elt F)) : u1 V (no_index (Proc.devRef .tc main_arg11)) = (V (Proc.devRef .tc main_arg11)) :=
  (u1_keep V main_arg11 (by decide)).trans (u0_main_arg11 V)
set_option maxHeartbeats 1300000 in
theorem u1_main_v5 (V : Valuation τ sig (Elt F)) : u1 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) := by
  unfold u1
  simp only [w0s0]
  after_results_simp
  (try simp only [u0_main_arg4, u0_main_arg3, u0_main_arg2, u0_main_arg1, u0_main_arg0]) <;> (try rfl)
set_option maxHeartbeats 1300000 in
theorem u1_main_v11 (V : Valuation τ sig (Elt F)) : u1 V (no_index (Proc.devRef .tc main_v11)) = Spec.lin1 ((V (Proc.devRef .tc main_arg4))) ((V (Proc.devRef .tc main_arg5))) ((V (Proc.devRef .tc main_arg6))) := by
  unfold u1
  simp only [w0s0]
  after_results_simp
  (try simp only [u0_main_arg6, u0_main_arg5, u0_main_arg4]) <;> (try rfl)

/-- The contents after the first 2 stretches. -/
def u2 (V : Valuation τ sig (Elt F)) : Valuation τ sig (Elt F) := after w0s1 (u1 V)
/-- The buffers stretch 2 writes. -/
abbrev w0s1_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v12]
theorem w0s1_writesW : (w0s1 : List (HloOp τ sig (Elt F))).Forall fun op => op.writes ⊆ (w0s1_W.map (Proc.devRef (τ := τ) .tc)).toFinset :=
  ⟨writes_sub_of_mem main_call0_cst rfl (by decide), writes_sub_of_mem main_call0_v0 rfl (by decide), writes_sub_of_mem main_call0_v1 rfl (by decide), writes_sub_of_mem main_call0_cst_0 rfl (by decide), writes_sub_of_mem main_call0_v2 rfl (by decide), writes_sub_of_mem main_call0_v3 rfl (by decide), writes_sub_of_mem main_call0_cst_1 rfl (by decide), writes_sub_of_mem main_call0_call0_v0 rfl (by decide), writes_sub_of_mem main_call0_call0_v1 rfl (by decide), writes_sub_of_mem main_call0_v4 rfl (by decide), writes_sub_of_mem main_call0_v5 rfl (by decide), writes_sub_of_mem main_call0_cst_2 rfl (by decide), writes_sub_of_mem main_call0_v6 rfl (by decide), writes_sub_of_mem main_call0_v7 rfl (by decide), writes_sub_of_mem main_v12 rfl (by decide)⟩
/-- A buffer stretch 2 does not write keeps its contents through it. -/
theorem u2_keep (V : Valuation τ sig (Elt F)) (r : Ref sig .tc) (h : r ∉ w0s1_W) :
    u2 V (Proc.devRef .tc r) = u1 V (Proc.devRef .tc r) :=
  after_of_writes_sub w0s1 _ w0s1_writesW h
theorem u2_main_arg1 (V : Valuation τ sig (Elt F)) : u2 V (no_index (Proc.devRef .tc main_arg1)) = (V (Proc.devRef .tc main_arg1)) :=
  (u2_keep V main_arg1 (by decide)).trans (u1_main_arg1 V)
theorem u2_main_arg2 (V : Valuation τ sig (Elt F)) : u2 V (no_index (Proc.devRef .tc main_arg2)) = (V (Proc.devRef .tc main_arg2)) :=
  (u2_keep V main_arg2 (by decide)).trans (u1_main_arg2 V)
theorem u2_main_arg3 (V : Valuation τ sig (Elt F)) : u2 V (no_index (Proc.devRef .tc main_arg3)) = (V (Proc.devRef .tc main_arg3)) :=
  (u2_keep V main_arg3 (by decide)).trans (u1_main_arg3 V)
theorem u2_main_arg4 (V : Valuation τ sig (Elt F)) : u2 V (no_index (Proc.devRef .tc main_arg4)) = (V (Proc.devRef .tc main_arg4)) :=
  (u2_keep V main_arg4 (by decide)).trans (u1_main_arg4 V)
theorem u2_main_arg7 (V : Valuation τ sig (Elt F)) : u2 V (no_index (Proc.devRef .tc main_arg7)) = (V (Proc.devRef .tc main_arg7)) :=
  (u2_keep V main_arg7 (by decide)).trans (u1_main_arg7 V)
theorem u2_main_arg8 (V : Valuation τ sig (Elt F)) : u2 V (no_index (Proc.devRef .tc main_arg8)) = (V (Proc.devRef .tc main_arg8)) :=
  (u2_keep V main_arg8 (by decide)).trans (u1_main_arg8 V)
theorem u2_main_arg9 (V : Valuation τ sig (Elt F)) : u2 V (no_index (Proc.devRef .tc main_arg9)) = (V (Proc.devRef .tc main_arg9)) :=
  (u2_keep V main_arg9 (by decide)).trans (u1_main_arg9 V)
theorem u2_main_arg10 (V : Valuation τ sig (Elt F)) : u2 V (no_index (Proc.devRef .tc main_arg10)) = (V (Proc.devRef .tc main_arg10)) :=
  (u2_keep V main_arg10 (by decide)).trans (u1_main_arg10 V)
theorem u2_main_arg11 (V : Valuation τ sig (Elt F)) : u2 V (no_index (Proc.devRef .tc main_arg11)) = (V (Proc.devRef .tc main_arg11)) :=
  (u2_keep V main_arg11 (by decide)).trans (u1_main_arg11 V)
theorem u2_main_v5 (V : Valuation τ sig (Elt F)) : u2 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u2_keep V main_v5 (by decide)).trans (u1_main_v5 V)
set_option maxHeartbeats 1500000 in
theorem u2_main_v12 (V : Valuation τ sig (Elt F)) : u2 V (no_index (Proc.devRef .tc main_v12)) = Spec.elu (Spec.lin1 ((V (Proc.devRef .tc main_arg4))) ((V (Proc.devRef .tc main_arg5))) ((V (Proc.devRef .tc main_arg6)))) := by
  unfold u2
  simp only [w0s1]
  after_results_simp
  (try simp only [u1_main_v11]) <;> (try rfl)

/-- The contents after the first 3 stretches. -/
def u3 (V : Valuation τ sig (Elt F)) : Valuation τ sig (Elt F) := after w0s2 (u2 V)
/-- The buffers stretch 3 writes. -/
abbrev w0s2_W : List (Ref sig .tc) := [main_v13, main_v14, main_v15, main_v16, main_v17]
theorem w0s2_writesW : (w0s2 : List (HloOp τ sig (Elt F))).Forall fun op => op.writes ⊆ (w0s2_W.map (Proc.devRef (τ := τ) .tc)).toFinset :=
  ⟨writes_sub_of_mem main_v13 rfl (by decide), writes_sub_of_mem main_v14 rfl (by decide), writes_sub_of_mem main_v15 rfl (by decide), writes_sub_of_mem main_v16 rfl (by decide), writes_sub_of_mem main_v17 rfl (by decide)⟩
/-- A buffer stretch 3 does not write keeps its contents through it. -/
theorem u3_keep (V : Valuation τ sig (Elt F)) (r : Ref sig .tc) (h : r ∉ w0s2_W) :
    u3 V (Proc.devRef .tc r) = u2 V (Proc.devRef .tc r) :=
  after_of_writes_sub w0s2 _ w0s2_writesW h
theorem u3_main_arg1 (V : Valuation τ sig (Elt F)) : u3 V (no_index (Proc.devRef .tc main_arg1)) = (V (Proc.devRef .tc main_arg1)) :=
  (u3_keep V main_arg1 (by decide)).trans (u2_main_arg1 V)
theorem u3_main_arg2 (V : Valuation τ sig (Elt F)) : u3 V (no_index (Proc.devRef .tc main_arg2)) = (V (Proc.devRef .tc main_arg2)) :=
  (u3_keep V main_arg2 (by decide)).trans (u2_main_arg2 V)
theorem u3_main_arg3 (V : Valuation τ sig (Elt F)) : u3 V (no_index (Proc.devRef .tc main_arg3)) = (V (Proc.devRef .tc main_arg3)) :=
  (u3_keep V main_arg3 (by decide)).trans (u2_main_arg3 V)
theorem u3_main_arg4 (V : Valuation τ sig (Elt F)) : u3 V (no_index (Proc.devRef .tc main_arg4)) = (V (Proc.devRef .tc main_arg4)) :=
  (u3_keep V main_arg4 (by decide)).trans (u2_main_arg4 V)
theorem u3_main_arg9 (V : Valuation τ sig (Elt F)) : u3 V (no_index (Proc.devRef .tc main_arg9)) = (V (Proc.devRef .tc main_arg9)) :=
  (u3_keep V main_arg9 (by decide)).trans (u2_main_arg9 V)
theorem u3_main_arg10 (V : Valuation τ sig (Elt F)) : u3 V (no_index (Proc.devRef .tc main_arg10)) = (V (Proc.devRef .tc main_arg10)) :=
  (u3_keep V main_arg10 (by decide)).trans (u2_main_arg10 V)
theorem u3_main_arg11 (V : Valuation τ sig (Elt F)) : u3 V (no_index (Proc.devRef .tc main_arg11)) = (V (Proc.devRef .tc main_arg11)) :=
  (u3_keep V main_arg11 (by decide)).trans (u2_main_arg11 V)
theorem u3_main_v5 (V : Valuation τ sig (Elt F)) : u3 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u3_keep V main_v5 (by decide)).trans (u2_main_v5 V)
set_option maxHeartbeats 500000 in
theorem u3_main_v17 (V : Valuation τ sig (Elt F)) : u3 V (no_index (Proc.devRef .tc main_v17)) = Spec.lin2 (Spec.elu (Spec.lin1 ((V (Proc.devRef .tc main_arg4))) ((V (Proc.devRef .tc main_arg5))) ((V (Proc.devRef .tc main_arg6))))) ((V (Proc.devRef .tc main_arg7))) ((V (Proc.devRef .tc main_arg8))) := by
  unfold u3
  simp only [w0s2]
  after_results_simp
  (try simp only [u2_main_arg8, u2_main_arg7, u2_main_v12]) <;> (try rfl)

/-- The contents after the first 4 stretches. -/
def u4 (V : Valuation τ sig (Elt F)) : Valuation τ sig (Elt F) := after w0s3 (u3 V)
/-- The buffers stretch 4 writes. -/
abbrev w0s3_W : List (Ref sig .tc) := [main_call1_v0, main_call1_cst, main_call1_v1, main_call1_v2, main_v18]
theorem w0s3_writesW : (w0s3 : List (HloOp τ sig (Elt F))).Forall fun op => op.writes ⊆ (w0s3_W.map (Proc.devRef (τ := τ) .tc)).toFinset :=
  ⟨writes_sub_of_mem main_call1_v0 rfl (by decide), writes_sub_of_mem main_call1_cst rfl (by decide), writes_sub_of_mem main_call1_v1 rfl (by decide), writes_sub_of_mem main_call1_v2 rfl (by decide), writes_sub_of_mem main_v18 rfl (by decide)⟩
/-- A buffer stretch 4 does not write keeps its contents through it. -/
theorem u4_keep (V : Valuation τ sig (Elt F)) (r : Ref sig .tc) (h : r ∉ w0s3_W) :
    u4 V (Proc.devRef .tc r) = u3 V (Proc.devRef .tc r) :=
  after_of_writes_sub w0s3 _ w0s3_writesW h
theorem u4_main_arg1 (V : Valuation τ sig (Elt F)) : u4 V (no_index (Proc.devRef .tc main_arg1)) = (V (Proc.devRef .tc main_arg1)) :=
  (u4_keep V main_arg1 (by decide)).trans (u3_main_arg1 V)
theorem u4_main_arg2 (V : Valuation τ sig (Elt F)) : u4 V (no_index (Proc.devRef .tc main_arg2)) = (V (Proc.devRef .tc main_arg2)) :=
  (u4_keep V main_arg2 (by decide)).trans (u3_main_arg2 V)
theorem u4_main_arg3 (V : Valuation τ sig (Elt F)) : u4 V (no_index (Proc.devRef .tc main_arg3)) = (V (Proc.devRef .tc main_arg3)) :=
  (u4_keep V main_arg3 (by decide)).trans (u3_main_arg3 V)
theorem u4_main_arg4 (V : Valuation τ sig (Elt F)) : u4 V (no_index (Proc.devRef .tc main_arg4)) = (V (Proc.devRef .tc main_arg4)) :=
  (u4_keep V main_arg4 (by decide)).trans (u3_main_arg4 V)
theorem u4_main_arg9 (V : Valuation τ sig (Elt F)) : u4 V (no_index (Proc.devRef .tc main_arg9)) = (V (Proc.devRef .tc main_arg9)) :=
  (u4_keep V main_arg9 (by decide)).trans (u3_main_arg9 V)
theorem u4_main_arg10 (V : Valuation τ sig (Elt F)) : u4 V (no_index (Proc.devRef .tc main_arg10)) = (V (Proc.devRef .tc main_arg10)) :=
  (u4_keep V main_arg10 (by decide)).trans (u3_main_arg10 V)
theorem u4_main_arg11 (V : Valuation τ sig (Elt F)) : u4 V (no_index (Proc.devRef .tc main_arg11)) = (V (Proc.devRef .tc main_arg11)) :=
  (u4_keep V main_arg11 (by decide)).trans (u3_main_arg11 V)
theorem u4_main_v5 (V : Valuation τ sig (Elt F)) : u4 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u4_keep V main_v5 (by decide)).trans (u3_main_v5 V)
theorem u4_main_v17 (V : Valuation τ sig (Elt F)) : u4 V (no_index (Proc.devRef .tc main_v17)) = Spec.lin2 (Spec.elu (Spec.lin1 ((V (Proc.devRef .tc main_arg4))) ((V (Proc.devRef .tc main_arg5))) ((V (Proc.devRef .tc main_arg6))))) ((V (Proc.devRef .tc main_arg7))) ((V (Proc.devRef .tc main_arg8))) :=
  (u4_keep V main_v17 (by decide)).trans (u3_main_v17 V)
set_option maxHeartbeats 500000 in
theorem u4_main_v18 (V : Valuation τ sig (Elt F)) : u4 V (no_index (Proc.devRef .tc main_v18)) = Spec.rowNorm (Spec.lin2 (Spec.elu (Spec.lin1 ((V (Proc.devRef .tc main_arg4))) ((V (Proc.devRef .tc main_arg5))) ((V (Proc.devRef .tc main_arg6))))) ((V (Proc.devRef .tc main_arg7))) ((V (Proc.devRef .tc main_arg8)))) := by
  unfold u4
  simp only [w0s3]
  after_results_simp
  (try simp only [u3_main_v17]) <;> (try rfl)

/-- The contents after the first 5 stretches. -/
def u5 (V : Valuation τ sig (Elt F)) : Valuation τ sig (Elt F) := after w0s4 (u4 V)
/-- The buffers stretch 5 writes. -/
abbrev w0s4_W : List (Ref sig .tc) := [main_cst_0, main_v19, main_v20, main_v21, main_v22, main_v23, main_v24, main_cst_1, main_v25, main_v26, main_v27, main_v28, main_v29, main_cst_2, main_v30, main_c, main_v31, main_v32, main_c_3, main_v33, main_v34, main_v35, main_c_4, main_v36, main_v37, main_c_5, main_v38, main_v39, main_v40, main_v41, main_v42, main_v43, main_v44, main_cst_6, main_v45, main_v46, main_v47, main_cst_7, main_v48, main_cst_8]
theorem w0s4_writesW : (w0s4 : List (HloOp τ sig (Elt F))).Forall fun op => op.writes ⊆ (w0s4_W.map (Proc.devRef (τ := τ) .tc)).toFinset :=
  ⟨writes_sub_of_mem main_cst_0 rfl (by decide), writes_sub_of_mem main_v19 rfl (by decide), writes_sub_of_mem main_v20 rfl (by decide), writes_sub_of_mem main_v21 rfl (by decide), writes_sub_of_mem main_v22 rfl (by decide), writes_sub_of_mem main_v23 rfl (by decide), writes_sub_of_mem main_v24 rfl (by decide), writes_sub_of_mem main_cst_1 rfl (by decide), writes_sub_of_mem main_v25 rfl (by decide), writes_sub_of_mem main_v26 rfl (by decide), writes_sub_of_mem main_v27 rfl (by decide), writes_sub_of_mem main_v28 rfl (by decide), writes_sub_of_mem main_v29 rfl (by decide), writes_sub_of_mem main_cst_2 rfl (by decide), writes_sub_of_mem main_v30 rfl (by decide), writes_sub_of_mem main_c rfl (by decide), writes_sub_of_mem main_v31 rfl (by decide), writes_sub_of_mem main_v32 rfl (by decide), writes_sub_of_mem main_c_3 rfl (by decide), writes_sub_of_mem main_v33 rfl (by decide), writes_sub_of_mem main_v34 rfl (by decide), writes_sub_of_mem main_v35 rfl (by decide), writes_sub_of_mem main_c_4 rfl (by decide), writes_sub_of_mem main_v36 rfl (by decide), writes_sub_of_mem main_v37 rfl (by decide), writes_sub_of_mem main_c_5 rfl (by decide), writes_sub_of_mem main_v38 rfl (by decide), writes_sub_of_mem main_v39 rfl (by decide), writes_sub_of_mem main_v40 rfl (by decide), writes_sub_of_mem main_v41 rfl (by decide), writes_sub_of_mem main_v42 rfl (by decide), writes_sub_of_mem main_v43 rfl (by decide), writes_sub_of_mem main_v44 rfl (by decide), writes_sub_of_mem main_cst_6 rfl (by decide), writes_sub_of_mem main_v45 rfl (by decide), writes_sub_of_mem main_v46 rfl (by decide), writes_sub_of_mem main_v47 rfl (by decide), writes_sub_of_mem main_cst_7 rfl (by decide), writes_sub_of_mem main_v48 rfl (by decide), writes_sub_of_mem main_cst_8 rfl (by decide)⟩
/-- A buffer stretch 5 does not write keeps its contents through it. -/
theorem u5_keep (V : Valuation τ sig (Elt F)) (r : Ref sig .tc) (h : r ∉ w0s4_W) :
    u5 V (Proc.devRef .tc r) = u4 V (Proc.devRef .tc r) :=
  after_of_writes_sub w0s4 _ w0s4_writesW h
theorem u5_main_arg1 (V : Valuation τ sig (Elt F)) : u5 V (no_index (Proc.devRef .tc main_arg1)) = (V (Proc.devRef .tc main_arg1)) :=
  (u5_keep V main_arg1 (by decide)).trans (u4_main_arg1 V)
theorem u5_main_arg2 (V : Valuation τ sig (Elt F)) : u5 V (no_index (Proc.devRef .tc main_arg2)) = (V (Proc.devRef .tc main_arg2)) :=
  (u5_keep V main_arg2 (by decide)).trans (u4_main_arg2 V)
theorem u5_main_arg3 (V : Valuation τ sig (Elt F)) : u5 V (no_index (Proc.devRef .tc main_arg3)) = (V (Proc.devRef .tc main_arg3)) :=
  (u5_keep V main_arg3 (by decide)).trans (u4_main_arg3 V)
theorem u5_main_arg4 (V : Valuation τ sig (Elt F)) : u5 V (no_index (Proc.devRef .tc main_arg4)) = (V (Proc.devRef .tc main_arg4)) :=
  (u5_keep V main_arg4 (by decide)).trans (u4_main_arg4 V)
theorem u5_main_arg9 (V : Valuation τ sig (Elt F)) : u5 V (no_index (Proc.devRef .tc main_arg9)) = (V (Proc.devRef .tc main_arg9)) :=
  (u5_keep V main_arg9 (by decide)).trans (u4_main_arg9 V)
theorem u5_main_arg11 (V : Valuation τ sig (Elt F)) : u5 V (no_index (Proc.devRef .tc main_arg11)) = (V (Proc.devRef .tc main_arg11)) :=
  (u5_keep V main_arg11 (by decide)).trans (u4_main_arg11 V)
theorem u5_main_v5 (V : Valuation τ sig (Elt F)) : u5 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u5_keep V main_v5 (by decide)).trans (u4_main_v5 V)
set_option maxHeartbeats 4000000 in
theorem u5_main_v27 (V : Valuation τ sig (Elt F)) : u5 V (no_index (Proc.devRef .tc main_v27)) = RefSpec.eOf (Spec.hnOf ((V (Proc.devRef .tc main_arg4))) ((V (Proc.devRef .tc main_arg5))) ((V (Proc.devRef .tc main_arg6))) ((V (Proc.devRef .tc main_arg7))) ((V (Proc.devRef .tc main_arg8)))) := by
  unfold u5
  simp only [w0s4]
  after_results_simp
  (try simp only [u4_main_v18, u4_main_v17]) <;> (try rfl)
set_option maxHeartbeats 4000000 in
theorem u5_main_v46 (V : Valuation τ sig (Elt F)) : u5 V (no_index (Proc.devRef .tc main_v46)) = Spec.maskOf8 ((V (Proc.devRef .tc main_arg10))) := by
  unfold u5
  simp only [w0s4]
  after_results_simp
  (try simp only [u4_main_arg10]) <;> (try rfl)
set_option maxHeartbeats 4000000 in
theorem u5_main_v48 (V : Valuation τ sig (Elt F)) : u5 V (no_index (Proc.devRef .tc main_v48)) = RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10)))) := by
  unfold u5
  simp only [w0s4]
  after_results_simp
  (try simp only [u4_main_arg10, u4_main_v18, u4_main_v17]) <;> (try rfl)
set_option maxHeartbeats 4000000 in
theorem u5_main_cst_8 (V : Valuation τ sig (Elt F)) : u5 V (no_index (Proc.devRef .tc main_cst_8)) = constant S_ .f32 0x3F800000#32 := by
  unfold u5
  simp only [w0s4]
  after_results_simp
  all_goals rfl

/-- The contents after the first 6 stretches. -/
def u6 (V : Valuation τ sig (Elt F)) : Valuation τ sig (Elt F) := after w1s0 (u5 V)
/-- The buffers stretch 6 writes. -/
abbrev w1s0_W : List (Ref sig .tc) := [main_v49, main_v50, main_v51, main_cst_9, main_v52, main_v53, main_v54, main_cst_10, main_v55, main_v56, main_cst_11]
theorem w1s0_writesW : (w1s0 : List (HloOp τ sig (Elt F))).Forall fun op => op.writes ⊆ (w1s0_W.map (Proc.devRef (τ := τ) .tc)).toFinset :=
  ⟨writes_sub_of_mem main_v49 rfl (by decide), writes_sub_of_mem main_v50 rfl (by decide), writes_sub_of_mem main_v51 rfl (by decide), writes_sub_of_mem main_cst_9 rfl (by decide), writes_sub_of_mem main_v52 rfl (by decide), writes_sub_of_mem main_v53 rfl (by decide), writes_sub_of_mem main_v54 rfl (by decide), writes_sub_of_mem main_cst_10 rfl (by decide), writes_sub_of_mem main_v55 rfl (by decide), writes_sub_of_mem main_v56 rfl (by decide), writes_sub_of_mem main_cst_11 rfl (by decide)⟩
/-- A buffer stretch 6 does not write keeps its contents through it. -/
theorem u6_keep (V : Valuation τ sig (Elt F)) (r : Ref sig .tc) (h : r ∉ w1s0_W) :
    u6 V (Proc.devRef .tc r) = u5 V (Proc.devRef .tc r) :=
  after_of_writes_sub w1s0 _ w1s0_writesW h
theorem u6_main_arg1 (V : Valuation τ sig (Elt F)) : u6 V (no_index (Proc.devRef .tc main_arg1)) = (V (Proc.devRef .tc main_arg1)) :=
  (u6_keep V main_arg1 (by decide)).trans (u5_main_arg1 V)
theorem u6_main_arg2 (V : Valuation τ sig (Elt F)) : u6 V (no_index (Proc.devRef .tc main_arg2)) = (V (Proc.devRef .tc main_arg2)) :=
  (u6_keep V main_arg2 (by decide)).trans (u5_main_arg2 V)
theorem u6_main_arg3 (V : Valuation τ sig (Elt F)) : u6 V (no_index (Proc.devRef .tc main_arg3)) = (V (Proc.devRef .tc main_arg3)) :=
  (u6_keep V main_arg3 (by decide)).trans (u5_main_arg3 V)
theorem u6_main_arg4 (V : Valuation τ sig (Elt F)) : u6 V (no_index (Proc.devRef .tc main_arg4)) = (V (Proc.devRef .tc main_arg4)) :=
  (u6_keep V main_arg4 (by decide)).trans (u5_main_arg4 V)
theorem u6_main_arg9 (V : Valuation τ sig (Elt F)) : u6 V (no_index (Proc.devRef .tc main_arg9)) = (V (Proc.devRef .tc main_arg9)) :=
  (u6_keep V main_arg9 (by decide)).trans (u5_main_arg9 V)
theorem u6_main_arg11 (V : Valuation τ sig (Elt F)) : u6 V (no_index (Proc.devRef .tc main_arg11)) = (V (Proc.devRef .tc main_arg11)) :=
  (u6_keep V main_arg11 (by decide)).trans (u5_main_arg11 V)
theorem u6_main_v5 (V : Valuation τ sig (Elt F)) : u6 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u6_keep V main_v5 (by decide)).trans (u5_main_v5 V)
theorem u6_main_v27 (V : Valuation τ sig (Elt F)) : u6 V (no_index (Proc.devRef .tc main_v27)) = RefSpec.eOf (Spec.hnOf ((V (Proc.devRef .tc main_arg4))) ((V (Proc.devRef .tc main_arg5))) ((V (Proc.devRef .tc main_arg6))) ((V (Proc.devRef .tc main_arg7))) ((V (Proc.devRef .tc main_arg8)))) :=
  (u6_keep V main_v27 (by decide)).trans (u5_main_v27 V)
set_option maxHeartbeats 1100000 in
theorem u6_main_v54 (V : Valuation τ sig (Elt F)) : u6 V (no_index (Proc.devRef .tc main_v54)) = Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10)))))) := by
  unfold u6
  simp only [w1s0]
  after_results_simp
  (try simp only [u5_main_v46, u5_main_cst_8, u5_main_v27, u5_main_v48]) <;> (try rfl)
set_option maxHeartbeats 1100000 in
theorem u6_main_v56 (V : Valuation τ sig (Elt F)) : u6 V (no_index (Proc.devRef .tc main_v56)) = cmpf .oeq (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) (broadcastInDim S4096 ![] bcast_S_S4096 (constant S_ .f32 0x00000000#32)) := by
  unfold u6
  simp only [w1s0]
  after_results_simp
  (try simp only [u5_main_v46, u5_main_cst_8, u5_main_v27, u5_main_v48]) <;> (try rfl)
set_option maxHeartbeats 1100000 in
theorem u6_main_cst_11 (V : Valuation τ sig (Elt F)) : u6 V (no_index (Proc.devRef .tc main_cst_11)) = constant S_ .f32 0x3F800000#32 := by
  unfold u6
  simp only [w1s0]
  after_results_simp
  all_goals rfl

/-- The contents after the first 7 stretches. -/
def u7 (V : Valuation τ sig (Elt F)) : Valuation τ sig (Elt F) := after w1s1 (u6 V)
/-- The buffers stretch 7 writes. -/
abbrev w1s1_W : List (Ref sig .tc) := [main_call2_v0, main_call2_v1, main_v57]
theorem w1s1_writesW : (w1s1 : List (HloOp τ sig (Elt F))).Forall fun op => op.writes ⊆ (w1s1_W.map (Proc.devRef (τ := τ) .tc)).toFinset :=
  ⟨writes_sub_of_mem main_call2_v0 rfl (by decide), writes_sub_of_mem main_call2_v1 rfl (by decide), writes_sub_of_mem main_v57 rfl (by decide)⟩
/-- A buffer stretch 7 does not write keeps its contents through it. -/
theorem u7_keep (V : Valuation τ sig (Elt F)) (r : Ref sig .tc) (h : r ∉ w1s1_W) :
    u7 V (Proc.devRef .tc r) = u6 V (Proc.devRef .tc r) :=
  after_of_writes_sub w1s1 _ w1s1_writesW h
theorem u7_main_arg1 (V : Valuation τ sig (Elt F)) : u7 V (no_index (Proc.devRef .tc main_arg1)) = (V (Proc.devRef .tc main_arg1)) :=
  (u7_keep V main_arg1 (by decide)).trans (u6_main_arg1 V)
theorem u7_main_arg2 (V : Valuation τ sig (Elt F)) : u7 V (no_index (Proc.devRef .tc main_arg2)) = (V (Proc.devRef .tc main_arg2)) :=
  (u7_keep V main_arg2 (by decide)).trans (u6_main_arg2 V)
theorem u7_main_arg3 (V : Valuation τ sig (Elt F)) : u7 V (no_index (Proc.devRef .tc main_arg3)) = (V (Proc.devRef .tc main_arg3)) :=
  (u7_keep V main_arg3 (by decide)).trans (u6_main_arg3 V)
theorem u7_main_arg4 (V : Valuation τ sig (Elt F)) : u7 V (no_index (Proc.devRef .tc main_arg4)) = (V (Proc.devRef .tc main_arg4)) :=
  (u7_keep V main_arg4 (by decide)).trans (u6_main_arg4 V)
theorem u7_main_arg9 (V : Valuation τ sig (Elt F)) : u7 V (no_index (Proc.devRef .tc main_arg9)) = (V (Proc.devRef .tc main_arg9)) :=
  (u7_keep V main_arg9 (by decide)).trans (u6_main_arg9 V)
theorem u7_main_arg11 (V : Valuation τ sig (Elt F)) : u7 V (no_index (Proc.devRef .tc main_arg11)) = (V (Proc.devRef .tc main_arg11)) :=
  (u7_keep V main_arg11 (by decide)).trans (u6_main_arg11 V)
theorem u7_main_v5 (V : Valuation τ sig (Elt F)) : u7 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u7_keep V main_v5 (by decide)).trans (u6_main_v5 V)
theorem u7_main_v27 (V : Valuation τ sig (Elt F)) : u7 V (no_index (Proc.devRef .tc main_v27)) = RefSpec.eOf (Spec.hnOf ((V (Proc.devRef .tc main_arg4))) ((V (Proc.devRef .tc main_arg5))) ((V (Proc.devRef .tc main_arg6))) ((V (Proc.devRef .tc main_arg7))) ((V (Proc.devRef .tc main_arg8)))) :=
  (u7_keep V main_v27 (by decide)).trans (u6_main_v27 V)
set_option maxHeartbeats 400000 in
theorem u7_main_v57 (V : Valuation τ sig (Elt F)) : u7 V (no_index (Proc.devRef .tc main_v57)) = select (cmpf .oeq (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) (broadcastInDim S4096 ![] bcast_S_S4096 (constant S_ .f32 0x00000000#32))) (broadcastInDim S4096 ![] bcast_S_S4096 (id (constant S_ .f32 0x3F800000#32))) (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) := by
  unfold u7
  simp only [w1s1]
  after_results_simp
  (try simp only [u6_main_v54, u6_main_cst_11, u6_main_v56]) <;> (try rfl)

/-- The contents after the first 8 stretches. -/
def u8 (V : Valuation τ sig (Elt F)) : Valuation τ sig (Elt F) := after w1s2 (u7 V)
/-- The buffers stretch 8 writes. -/
abbrev w1s2_W : List (Ref sig .tc) := [main_v58, main_cst_12, main_v59, main_v60, main_cst_13, main_v61, main_v62, main_v63, main_cst_14, main_v64, main_c_15, main_v65, main_v66, main_c_16, main_v67, main_v68, main_v69, main_c_17, main_v70, main_v71, main_c_18, main_v72, main_v73, main_v74, main_v75, main_v76, main_v77, main_v78, main_cst_19, main_v79, main_v80, main_v81, main_cst_20, main_v82, main_cst_21, main_v83, main_v84, main_v85, main_cst_22, main_v86, main_v87, main_v88, main_cst_23, main_v89, main_v90, main_cst_24]
theorem w1s2_writesW : (w1s2 : List (HloOp τ sig (Elt F))).Forall fun op => op.writes ⊆ (w1s2_W.map (Proc.devRef (τ := τ) .tc)).toFinset :=
  ⟨writes_sub_of_mem main_v58 rfl (by decide), writes_sub_of_mem main_cst_12 rfl (by decide), writes_sub_of_mem main_v59 rfl (by decide), writes_sub_of_mem main_v60 rfl (by decide), writes_sub_of_mem main_cst_13 rfl (by decide), writes_sub_of_mem main_v61 rfl (by decide), writes_sub_of_mem main_v62 rfl (by decide), writes_sub_of_mem main_v63 rfl (by decide), writes_sub_of_mem main_cst_14 rfl (by decide), writes_sub_of_mem main_v64 rfl (by decide), writes_sub_of_mem main_c_15 rfl (by decide), writes_sub_of_mem main_v65 rfl (by decide), writes_sub_of_mem main_v66 rfl (by decide), writes_sub_of_mem main_c_16 rfl (by decide), writes_sub_of_mem main_v67 rfl (by decide), writes_sub_of_mem main_v68 rfl (by decide), writes_sub_of_mem main_v69 rfl (by decide), writes_sub_of_mem main_c_17 rfl (by decide), writes_sub_of_mem main_v70 rfl (by decide), writes_sub_of_mem main_v71 rfl (by decide), writes_sub_of_mem main_c_18 rfl (by decide), writes_sub_of_mem main_v72 rfl (by decide), writes_sub_of_mem main_v73 rfl (by decide), writes_sub_of_mem main_v74 rfl (by decide), writes_sub_of_mem main_v75 rfl (by decide), writes_sub_of_mem main_v76 rfl (by decide), writes_sub_of_mem main_v77 rfl (by decide), writes_sub_of_mem main_v78 rfl (by decide), writes_sub_of_mem main_cst_19 rfl (by decide), writes_sub_of_mem main_v79 rfl (by decide), writes_sub_of_mem main_v80 rfl (by decide), writes_sub_of_mem main_v81 rfl (by decide), writes_sub_of_mem main_cst_20 rfl (by decide), writes_sub_of_mem main_v82 rfl (by decide), writes_sub_of_mem main_cst_21 rfl (by decide), writes_sub_of_mem main_v83 rfl (by decide), writes_sub_of_mem main_v84 rfl (by decide), writes_sub_of_mem main_v85 rfl (by decide), writes_sub_of_mem main_cst_22 rfl (by decide), writes_sub_of_mem main_v86 rfl (by decide), writes_sub_of_mem main_v87 rfl (by decide), writes_sub_of_mem main_v88 rfl (by decide), writes_sub_of_mem main_cst_23 rfl (by decide), writes_sub_of_mem main_v89 rfl (by decide), writes_sub_of_mem main_v90 rfl (by decide), writes_sub_of_mem main_cst_24 rfl (by decide)⟩
/-- A buffer stretch 8 does not write keeps its contents through it. -/
theorem u8_keep (V : Valuation τ sig (Elt F)) (r : Ref sig .tc) (h : r ∉ w1s2_W) :
    u8 V (Proc.devRef .tc r) = u7 V (Proc.devRef .tc r) :=
  after_of_writes_sub w1s2 _ w1s2_writesW h
theorem u8_main_arg1 (V : Valuation τ sig (Elt F)) : u8 V (no_index (Proc.devRef .tc main_arg1)) = (V (Proc.devRef .tc main_arg1)) :=
  (u8_keep V main_arg1 (by decide)).trans (u7_main_arg1 V)
theorem u8_main_arg2 (V : Valuation τ sig (Elt F)) : u8 V (no_index (Proc.devRef .tc main_arg2)) = (V (Proc.devRef .tc main_arg2)) :=
  (u8_keep V main_arg2 (by decide)).trans (u7_main_arg2 V)
theorem u8_main_arg3 (V : Valuation τ sig (Elt F)) : u8 V (no_index (Proc.devRef .tc main_arg3)) = (V (Proc.devRef .tc main_arg3)) :=
  (u8_keep V main_arg3 (by decide)).trans (u7_main_arg3 V)
theorem u8_main_arg4 (V : Valuation τ sig (Elt F)) : u8 V (no_index (Proc.devRef .tc main_arg4)) = (V (Proc.devRef .tc main_arg4)) :=
  (u8_keep V main_arg4 (by decide)).trans (u7_main_arg4 V)
theorem u8_main_arg9 (V : Valuation τ sig (Elt F)) : u8 V (no_index (Proc.devRef .tc main_arg9)) = (V (Proc.devRef .tc main_arg9)) :=
  (u8_keep V main_arg9 (by decide)).trans (u7_main_arg9 V)
theorem u8_main_v5 (V : Valuation τ sig (Elt F)) : u8 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u8_keep V main_v5 (by decide)).trans (u7_main_v5 V)
theorem u8_main_v27 (V : Valuation τ sig (Elt F)) : u8 V (no_index (Proc.devRef .tc main_v27)) = RefSpec.eOf (Spec.hnOf ((V (Proc.devRef .tc main_arg4))) ((V (Proc.devRef .tc main_arg5))) ((V (Proc.devRef .tc main_arg6))) ((V (Proc.devRef .tc main_arg7))) ((V (Proc.devRef .tc main_arg8)))) :=
  (u8_keep V main_v27 (by decide)).trans (u7_main_v27 V)
set_option maxHeartbeats 4000000 in
theorem u8_main_v61 (V : Valuation τ sig (Elt F)) : u8 V (no_index (Proc.devRef .tc main_v61)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) := by
  unfold u8
  simp only [w1s2]
  after_results_simp
  (try simp only [u7_main_v57]) <;> (try rfl)
set_option maxHeartbeats 4000000 in
theorem u8_main_v88 (V : Valuation τ sig (Elt F)) : u8 V (no_index (Proc.devRef .tc main_v88)) = Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11)))))) := by
  unfold u8
  simp only [w1s2]
  after_results_simp
  (try simp only [u7_main_arg11, u7_main_v27]) <;> (try rfl)
set_option maxHeartbeats 4000000 in
theorem u8_main_v90 (V : Valuation τ sig (Elt F)) : u8 V (no_index (Proc.devRef .tc main_v90)) = cmpf .oeq (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))))) (broadcastInDim S4096 ![] bcast_S_S4096 (constant S_ .f32 0x00000000#32)) := by
  unfold u8
  simp only [w1s2]
  after_results_simp
  (try simp only [u7_main_arg11, u7_main_v27]) <;> (try rfl)
set_option maxHeartbeats 4000000 in
theorem u8_main_cst_24 (V : Valuation τ sig (Elt F)) : u8 V (no_index (Proc.devRef .tc main_cst_24)) = constant S_ .f32 0x3F800000#32 := by
  unfold u8
  simp only [w1s2]
  after_results_simp
  all_goals rfl

/-- The contents after the first 9 stretches. -/
def u9 (V : Valuation τ sig (Elt F)) : Valuation τ sig (Elt F) := after w1s3 (u8 V)
/-- The buffers stretch 9 writes. -/
abbrev w1s3_W : List (Ref sig .tc) := [main_call3_v0, main_call3_v1, main_v91]
theorem w1s3_writesW : (w1s3 : List (HloOp τ sig (Elt F))).Forall fun op => op.writes ⊆ (w1s3_W.map (Proc.devRef (τ := τ) .tc)).toFinset :=
  ⟨writes_sub_of_mem main_call3_v0 rfl (by decide), writes_sub_of_mem main_call3_v1 rfl (by decide), writes_sub_of_mem main_v91 rfl (by decide)⟩
/-- A buffer stretch 9 does not write keeps its contents through it. -/
theorem u9_keep (V : Valuation τ sig (Elt F)) (r : Ref sig .tc) (h : r ∉ w1s3_W) :
    u9 V (Proc.devRef .tc r) = u8 V (Proc.devRef .tc r) :=
  after_of_writes_sub w1s3 _ w1s3_writesW h
theorem u9_main_arg1 (V : Valuation τ sig (Elt F)) : u9 V (no_index (Proc.devRef .tc main_arg1)) = (V (Proc.devRef .tc main_arg1)) :=
  (u9_keep V main_arg1 (by decide)).trans (u8_main_arg1 V)
theorem u9_main_arg2 (V : Valuation τ sig (Elt F)) : u9 V (no_index (Proc.devRef .tc main_arg2)) = (V (Proc.devRef .tc main_arg2)) :=
  (u9_keep V main_arg2 (by decide)).trans (u8_main_arg2 V)
theorem u9_main_arg3 (V : Valuation τ sig (Elt F)) : u9 V (no_index (Proc.devRef .tc main_arg3)) = (V (Proc.devRef .tc main_arg3)) :=
  (u9_keep V main_arg3 (by decide)).trans (u8_main_arg3 V)
theorem u9_main_arg4 (V : Valuation τ sig (Elt F)) : u9 V (no_index (Proc.devRef .tc main_arg4)) = (V (Proc.devRef .tc main_arg4)) :=
  (u9_keep V main_arg4 (by decide)).trans (u8_main_arg4 V)
theorem u9_main_arg9 (V : Valuation τ sig (Elt F)) : u9 V (no_index (Proc.devRef .tc main_arg9)) = (V (Proc.devRef .tc main_arg9)) :=
  (u9_keep V main_arg9 (by decide)).trans (u8_main_arg9 V)
theorem u9_main_v5 (V : Valuation τ sig (Elt F)) : u9 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u9_keep V main_v5 (by decide)).trans (u8_main_v5 V)
theorem u9_main_v27 (V : Valuation τ sig (Elt F)) : u9 V (no_index (Proc.devRef .tc main_v27)) = RefSpec.eOf (Spec.hnOf ((V (Proc.devRef .tc main_arg4))) ((V (Proc.devRef .tc main_arg5))) ((V (Proc.devRef .tc main_arg6))) ((V (Proc.devRef .tc main_arg7))) ((V (Proc.devRef .tc main_arg8)))) :=
  (u9_keep V main_v27 (by decide)).trans (u8_main_v27 V)
theorem u9_main_v61 (V : Valuation τ sig (Elt F)) : u9 V (no_index (Proc.devRef .tc main_v61)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) :=
  (u9_keep V main_v61 (by decide)).trans (u8_main_v61 V)
set_option maxHeartbeats 400000 in
theorem u9_main_v91 (V : Valuation τ sig (Elt F)) : u9 V (no_index (Proc.devRef .tc main_v91)) = select (cmpf .oeq (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))))) (broadcastInDim S4096 ![] bcast_S_S4096 (constant S_ .f32 0x00000000#32))) (broadcastInDim S4096 ![] bcast_S_S4096 (id (constant S_ .f32 0x3F800000#32))) (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))))) := by
  unfold u9
  simp only [w1s3]
  after_results_simp
  (try simp only [u8_main_v88, u8_main_cst_24, u8_main_v90]) <;> (try rfl)

/-- The contents after the first 10 stretches. -/
def u10 (V : Valuation τ sig (Elt F)) : Valuation τ sig (Elt F) := after w1s4 (u9 V)
/-- The buffers stretch 10 writes. -/
abbrev w1s4_W : List (Ref sig .tc) := [main_v92]
theorem w1s4_writesW : (w1s4 : List (HloOp τ sig (Elt F))).Forall fun op => op.writes ⊆ (w1s4_W.map (Proc.devRef (τ := τ) .tc)).toFinset :=
  writes_sub_of_mem main_v92 rfl (by decide)
/-- A buffer stretch 10 does not write keeps its contents through it. -/
theorem u10_keep (V : Valuation τ sig (Elt F)) (r : Ref sig .tc) (h : r ∉ w1s4_W) :
    u10 V (Proc.devRef .tc r) = u9 V (Proc.devRef .tc r) :=
  after_of_writes_sub w1s4 _ w1s4_writesW h
theorem u10_main_arg1 (V : Valuation τ sig (Elt F)) : u10 V (no_index (Proc.devRef .tc main_arg1)) = (V (Proc.devRef .tc main_arg1)) :=
  (u10_keep V main_arg1 (by decide)).trans (u9_main_arg1 V)
theorem u10_main_arg2 (V : Valuation τ sig (Elt F)) : u10 V (no_index (Proc.devRef .tc main_arg2)) = (V (Proc.devRef .tc main_arg2)) :=
  (u10_keep V main_arg2 (by decide)).trans (u9_main_arg2 V)
theorem u10_main_arg3 (V : Valuation τ sig (Elt F)) : u10 V (no_index (Proc.devRef .tc main_arg3)) = (V (Proc.devRef .tc main_arg3)) :=
  (u10_keep V main_arg3 (by decide)).trans (u9_main_arg3 V)
theorem u10_main_arg4 (V : Valuation τ sig (Elt F)) : u10 V (no_index (Proc.devRef .tc main_arg4)) = (V (Proc.devRef .tc main_arg4)) :=
  (u10_keep V main_arg4 (by decide)).trans (u9_main_arg4 V)
theorem u10_main_arg9 (V : Valuation τ sig (Elt F)) : u10 V (no_index (Proc.devRef .tc main_arg9)) = (V (Proc.devRef .tc main_arg9)) :=
  (u10_keep V main_arg9 (by decide)).trans (u9_main_arg9 V)
theorem u10_main_v5 (V : Valuation τ sig (Elt F)) : u10 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u10_keep V main_v5 (by decide)).trans (u9_main_v5 V)
theorem u10_main_v27 (V : Valuation τ sig (Elt F)) : u10 V (no_index (Proc.devRef .tc main_v27)) = RefSpec.eOf (Spec.hnOf ((V (Proc.devRef .tc main_arg4))) ((V (Proc.devRef .tc main_arg5))) ((V (Proc.devRef .tc main_arg6))) ((V (Proc.devRef .tc main_arg7))) ((V (Proc.devRef .tc main_arg8)))) :=
  (u10_keep V main_v27 (by decide)).trans (u9_main_v27 V)
theorem u10_main_v61 (V : Valuation τ sig (Elt F)) : u10 V (no_index (Proc.devRef .tc main_v61)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) :=
  (u10_keep V main_v61 (by decide)).trans (u9_main_v61 V)
set_option maxHeartbeats 400000 in
theorem u10_main_v92 (V : Valuation τ sig (Elt F)) : u10 V (no_index (Proc.devRef .tc main_v92)) = Host.log (select (cmpf .oeq (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))))) (broadcastInDim S4096 ![] bcast_S_S4096 (constant S_ .f32 0x00000000#32))) (broadcastInDim S4096 ![] bcast_S_S4096 (id (constant S_ .f32 0x3F800000#32))) (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11)))))))) := by
  unfold u10
  simp only [w1s4]
  after_results_simp
  (try simp only [u9_main_v91]) <;> (try rfl)

/-- The contents after the first 11 stretches. -/
def u11 (V : Valuation τ sig (Elt F)) : Valuation τ sig (Elt F) := after w2s0 (u10 V)
/-- The buffers stretch 11 writes. -/
abbrev w2s0_W : List (Ref sig .tc) := [main_cst_25, main_v93, main_v94, main_cst_26, main_v95, main_cst_27, main_v96, main_v97, main_v98, main_v99, main_cst_28, main_v100, main_cst_29, main_v101, main_v102, main_v103, main_cst_30, main_v104, main_v105, main_v106, main_cst_31, main_v107, main_v108, main_cst_32]
theorem w2s0_writesW : (w2s0 : List (HloOp τ sig (Elt F))).Forall fun op => op.writes ⊆ (w2s0_W.map (Proc.devRef (τ := τ) .tc)).toFinset :=
  ⟨writes_sub_of_mem main_cst_25 rfl (by decide), writes_sub_of_mem main_v93 rfl (by decide), writes_sub_of_mem main_v94 rfl (by decide), writes_sub_of_mem main_cst_26 rfl (by decide), writes_sub_of_mem main_v95 rfl (by decide), writes_sub_of_mem main_cst_27 rfl (by decide), writes_sub_of_mem main_v96 rfl (by decide), writes_sub_of_mem main_v97 rfl (by decide), writes_sub_of_mem main_v98 rfl (by decide), writes_sub_of_mem main_v99 rfl (by decide), writes_sub_of_mem main_cst_28 rfl (by decide), writes_sub_of_mem main_v100 rfl (by decide), writes_sub_of_mem main_cst_29 rfl (by decide), writes_sub_of_mem main_v101 rfl (by decide), writes_sub_of_mem main_v102 rfl (by decide), writes_sub_of_mem main_v103 rfl (by decide), writes_sub_of_mem main_cst_30 rfl (by decide), writes_sub_of_mem main_v104 rfl (by decide), writes_sub_of_mem main_v105 rfl (by decide), writes_sub_of_mem main_v106 rfl (by decide), writes_sub_of_mem main_cst_31 rfl (by decide), writes_sub_of_mem main_v107 rfl (by decide), writes_sub_of_mem main_v108 rfl (by decide), writes_sub_of_mem main_cst_32 rfl (by decide)⟩
/-- A buffer stretch 11 does not write keeps its contents through it. -/
theorem u11_keep (V : Valuation τ sig (Elt F)) (r : Ref sig .tc) (h : r ∉ w2s0_W) :
    u11 V (Proc.devRef .tc r) = u10 V (Proc.devRef .tc r) :=
  after_of_writes_sub w2s0 _ w2s0_writesW h
theorem u11_main_arg1 (V : Valuation τ sig (Elt F)) : u11 V (no_index (Proc.devRef .tc main_arg1)) = (V (Proc.devRef .tc main_arg1)) :=
  (u11_keep V main_arg1 (by decide)).trans (u10_main_arg1 V)
theorem u11_main_arg2 (V : Valuation τ sig (Elt F)) : u11 V (no_index (Proc.devRef .tc main_arg2)) = (V (Proc.devRef .tc main_arg2)) :=
  (u11_keep V main_arg2 (by decide)).trans (u10_main_arg2 V)
theorem u11_main_arg3 (V : Valuation τ sig (Elt F)) : u11 V (no_index (Proc.devRef .tc main_arg3)) = (V (Proc.devRef .tc main_arg3)) :=
  (u11_keep V main_arg3 (by decide)).trans (u10_main_arg3 V)
theorem u11_main_arg4 (V : Valuation τ sig (Elt F)) : u11 V (no_index (Proc.devRef .tc main_arg4)) = (V (Proc.devRef .tc main_arg4)) :=
  (u11_keep V main_arg4 (by decide)).trans (u10_main_arg4 V)
theorem u11_main_v5 (V : Valuation τ sig (Elt F)) : u11 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u11_keep V main_v5 (by decide)).trans (u10_main_v5 V)
theorem u11_main_v61 (V : Valuation τ sig (Elt F)) : u11 V (no_index (Proc.devRef .tc main_v61)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) :=
  (u11_keep V main_v61 (by decide)).trans (u10_main_v61 V)
set_option maxHeartbeats 2400000 in
theorem u11_main_v95 (V : Valuation τ sig (Elt F)) : u11 V (no_index (Proc.devRef .tc main_v95)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))))) := by
  unfold u11
  simp only [w2s0]
  after_results_simp
  (try simp only [u10_main_v92]) <;> (try rfl)
set_option maxHeartbeats 2400000 in
theorem u11_main_v106 (V : Valuation τ sig (Elt F)) : u11 V (no_index (Proc.devRef .tc main_v106)) = Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9)))))) := by
  unfold u11
  simp only [w2s0]
  after_results_simp
  (try simp only [u10_main_arg9, u10_main_v27]) <;> (try rfl)
set_option maxHeartbeats 2400000 in
theorem u11_main_v108 (V : Valuation τ sig (Elt F)) : u11 V (no_index (Proc.devRef .tc main_v108)) = cmpf .oeq (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))))) (broadcastInDim S4096 ![] bcast_S_S4096 (constant S_ .f32 0x00000000#32)) := by
  unfold u11
  simp only [w2s0]
  after_results_simp
  (try simp only [u10_main_arg9, u10_main_v27]) <;> (try rfl)
set_option maxHeartbeats 2400000 in
theorem u11_main_cst_32 (V : Valuation τ sig (Elt F)) : u11 V (no_index (Proc.devRef .tc main_cst_32)) = constant S_ .f32 0x3F800000#32 := by
  unfold u11
  simp only [w2s0]
  after_results_simp
  all_goals rfl

/-- The contents after the first 12 stretches. -/
def u12 (V : Valuation τ sig (Elt F)) : Valuation τ sig (Elt F) := after w2s1 (u11 V)
/-- The buffers stretch 12 writes. -/
abbrev w2s1_W : List (Ref sig .tc) := [main_call4_v0, main_call4_v1, main_v109]
theorem w2s1_writesW : (w2s1 : List (HloOp τ sig (Elt F))).Forall fun op => op.writes ⊆ (w2s1_W.map (Proc.devRef (τ := τ) .tc)).toFinset :=
  ⟨writes_sub_of_mem main_call4_v0 rfl (by decide), writes_sub_of_mem main_call4_v1 rfl (by decide), writes_sub_of_mem main_v109 rfl (by decide)⟩
/-- A buffer stretch 12 does not write keeps its contents through it. -/
theorem u12_keep (V : Valuation τ sig (Elt F)) (r : Ref sig .tc) (h : r ∉ w2s1_W) :
    u12 V (Proc.devRef .tc r) = u11 V (Proc.devRef .tc r) :=
  after_of_writes_sub w2s1 _ w2s1_writesW h
theorem u12_main_arg1 (V : Valuation τ sig (Elt F)) : u12 V (no_index (Proc.devRef .tc main_arg1)) = (V (Proc.devRef .tc main_arg1)) :=
  (u12_keep V main_arg1 (by decide)).trans (u11_main_arg1 V)
theorem u12_main_arg2 (V : Valuation τ sig (Elt F)) : u12 V (no_index (Proc.devRef .tc main_arg2)) = (V (Proc.devRef .tc main_arg2)) :=
  (u12_keep V main_arg2 (by decide)).trans (u11_main_arg2 V)
theorem u12_main_arg3 (V : Valuation τ sig (Elt F)) : u12 V (no_index (Proc.devRef .tc main_arg3)) = (V (Proc.devRef .tc main_arg3)) :=
  (u12_keep V main_arg3 (by decide)).trans (u11_main_arg3 V)
theorem u12_main_arg4 (V : Valuation τ sig (Elt F)) : u12 V (no_index (Proc.devRef .tc main_arg4)) = (V (Proc.devRef .tc main_arg4)) :=
  (u12_keep V main_arg4 (by decide)).trans (u11_main_arg4 V)
theorem u12_main_v5 (V : Valuation τ sig (Elt F)) : u12 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u12_keep V main_v5 (by decide)).trans (u11_main_v5 V)
theorem u12_main_v61 (V : Valuation τ sig (Elt F)) : u12 V (no_index (Proc.devRef .tc main_v61)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) :=
  (u12_keep V main_v61 (by decide)).trans (u11_main_v61 V)
theorem u12_main_v95 (V : Valuation τ sig (Elt F)) : u12 V (no_index (Proc.devRef .tc main_v95)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))))) :=
  (u12_keep V main_v95 (by decide)).trans (u11_main_v95 V)
set_option maxHeartbeats 400000 in
theorem u12_main_v109 (V : Valuation τ sig (Elt F)) : u12 V (no_index (Proc.devRef .tc main_v109)) = select (cmpf .oeq (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))))) (broadcastInDim S4096 ![] bcast_S_S4096 (constant S_ .f32 0x00000000#32))) (broadcastInDim S4096 ![] bcast_S_S4096 (id (constant S_ .f32 0x3F800000#32))) (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))))) := by
  unfold u12
  simp only [w2s1]
  after_results_simp
  (try simp only [u11_main_v106, u11_main_cst_32, u11_main_v108]) <;> (try rfl)

/-- The contents after the first 13 stretches. -/
def u13 (V : Valuation τ sig (Elt F)) : Valuation τ sig (Elt F) := after w2s2 (u12 V)
/-- The buffers stretch 13 writes. -/
abbrev w2s2_W : List (Ref sig .tc) := [main_v110, main_cst_33, main_v111, main_v112, main_cst_34, main_v113, main_cst_35, main_v114, main_v115, main_v116, main_cst_36, main_v117, main_cst_37, main_v118, main_cst_38, main_v119, main_v120, main_v121, main_cst_39, main_v122, main_v123, main_cst_40, main_v124, main_v125, main_v126, main_cst_41, main_v127, main_v128, main_cst_42, main_v129, main_v130, main_v131, main_cst_43, main_v132, main_v133]
theorem w2s2_writesW : (w2s2 : List (HloOp τ sig (Elt F))).Forall fun op => op.writes ⊆ (w2s2_W.map (Proc.devRef (τ := τ) .tc)).toFinset :=
  ⟨writes_sub_of_mem main_v110 rfl (by decide), writes_sub_of_mem main_cst_33 rfl (by decide), writes_sub_of_mem main_v111 rfl (by decide), writes_sub_of_mem main_v112 rfl (by decide), writes_sub_of_mem main_cst_34 rfl (by decide), writes_sub_of_mem main_v113 rfl (by decide), writes_sub_of_mem main_cst_35 rfl (by decide), writes_sub_of_mem main_v114 rfl (by decide), writes_sub_of_mem main_v115 rfl (by decide), writes_sub_of_mem main_v116 rfl (by decide), writes_sub_of_mem main_cst_36 rfl (by decide), writes_sub_of_mem main_v117 rfl (by decide), writes_sub_of_mem main_cst_37 rfl (by decide), writes_sub_of_mem main_v118 rfl (by decide), writes_sub_of_mem main_cst_38 rfl (by decide), writes_sub_of_mem main_v119 rfl (by decide), writes_sub_of_mem main_v120 rfl (by decide), writes_sub_of_mem main_v121 rfl (by decide), writes_sub_of_mem main_cst_39 rfl (by decide), writes_sub_of_mem main_v122 rfl (by decide), writes_sub_of_mem main_v123 rfl (by decide), writes_sub_of_mem main_cst_40 rfl (by decide), writes_sub_of_mem main_v124 rfl (by decide), writes_sub_of_mem main_v125 rfl (by decide), writes_sub_of_mem main_v126 rfl (by decide), writes_sub_of_mem main_cst_41 rfl (by decide), writes_sub_of_mem main_v127 rfl (by decide), writes_sub_of_mem main_v128 rfl (by decide), writes_sub_of_mem main_cst_42 rfl (by decide), writes_sub_of_mem main_v129 rfl (by decide), writes_sub_of_mem main_v130 rfl (by decide), writes_sub_of_mem main_v131 rfl (by decide), writes_sub_of_mem main_cst_43 rfl (by decide), writes_sub_of_mem main_v132 rfl (by decide), writes_sub_of_mem main_v133 rfl (by decide)⟩
/-- A buffer stretch 13 does not write keeps its contents through it. -/
theorem u13_keep (V : Valuation τ sig (Elt F)) (r : Ref sig .tc) (h : r ∉ w2s2_W) :
    u13 V (Proc.devRef .tc r) = u12 V (Proc.devRef .tc r) :=
  after_of_writes_sub w2s2 _ w2s2_writesW h
theorem u13_main_v5 (V : Valuation τ sig (Elt F)) : u13 V (no_index (Proc.devRef .tc main_v5)) = RefSpec.loss1R ((V (Proc.devRef .tc main_arg0))) ((V (Proc.devRef .tc main_arg1))) ((V (Proc.devRef .tc main_arg2))) ((V (Proc.devRef .tc main_arg3))) ((V (Proc.devRef .tc main_arg4))) :=
  (u13_keep V main_v5 (by decide)).trans (u12_main_v5 V)
theorem u13_main_v61 (V : Valuation τ sig (Elt F)) : u13 V (no_index (Proc.devRef .tc main_v61)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))))) :=
  (u13_keep V main_v61 (by decide)).trans (u12_main_v61 V)
theorem u13_main_v95 (V : Valuation τ sig (Elt F)) : u13 V (no_index (Proc.devRef .tc main_v95)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))))) :=
  (u13_keep V main_v95 (by decide)).trans (u12_main_v95 V)
set_option maxHeartbeats 3500000 in
theorem u13_main_v113 (V : Valuation τ sig (Elt F)) : u13 V (no_index (Proc.devRef .tc main_v113)) = Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))))) := by
  unfold u13
  simp only [w2s2]
  after_results_simp
  (try simp only [u12_main_v109]) <;> (try rfl)
set_option maxHeartbeats 3500000 in
theorem u13_main_v133 (V : Valuation τ sig (Elt F)) : u13 V (no_index (Proc.devRef .tc main_v133)) = Spec.loss5Of ((V (Proc.devRef .tc main_arg1))) ((V (Proc.devRef .tc main_arg2))) ((V (Proc.devRef .tc main_arg3))) ((V (Proc.devRef .tc main_arg4))) := by
  unfold u13
  simp only [w2s2]
  after_results_simp
  (try simp only [u12_main_arg4, u12_main_arg3, u12_main_arg2, u12_main_arg1]) <;> (try rfl)

/-- The contents after the first 14 stretches. -/
def u14 (V : Valuation τ sig (Elt F)) : Valuation τ sig (Elt F) := after w3s0a (u13 V)
/-- The buffers stretch 14 writes. -/
abbrev w3s0a_W : List (Ref sig .tc) := [main_cst_44, main_v134, main_cst_45, main_v135, main_v136, main_cst_46, main_v137, main_v138, main_cst_47, main_v139, main_v140, main_cst_48, main_v141, main_v142, main_v143, main_v144, main_v145, main_v146, main_v147, main_v148]
theorem w3s0a_writesW : (w3s0a : List (HloOp τ sig (Elt F))).Forall fun op => op.writes ⊆ (w3s0a_W.map (Proc.devRef (τ := τ) .tc)).toFinset :=
  ⟨writes_sub_of_mem main_cst_44 rfl (by decide), writes_sub_of_mem main_v134 rfl (by decide), writes_sub_of_mem main_cst_45 rfl (by decide), writes_sub_of_mem main_v135 rfl (by decide), writes_sub_of_mem main_v136 rfl (by decide), writes_sub_of_mem main_cst_46 rfl (by decide), writes_sub_of_mem main_v137 rfl (by decide), writes_sub_of_mem main_v138 rfl (by decide), writes_sub_of_mem main_cst_47 rfl (by decide), writes_sub_of_mem main_v139 rfl (by decide), writes_sub_of_mem main_v140 rfl (by decide), writes_sub_of_mem main_cst_48 rfl (by decide), writes_sub_of_mem main_v141 rfl (by decide), writes_sub_of_mem main_v142 rfl (by decide), writes_sub_of_mem main_v143 rfl (by decide), writes_sub_of_mem main_v144 rfl (by decide), writes_sub_of_mem main_v145 rfl (by decide), writes_sub_of_mem main_v146 rfl (by decide), writes_sub_of_mem main_v147 rfl (by decide), writes_sub_of_mem main_v148 rfl (by decide)⟩
/-- A buffer stretch 14 does not write keeps its contents through it. -/
theorem u14_keep (V : Valuation τ sig (Elt F)) (r : Ref sig .tc) (h : r ∉ w3s0a_W) :
    u14 V (Proc.devRef .tc r) = u13 V (Proc.devRef .tc r) :=
  after_of_writes_sub w3s0a _ w3s0a_writesW h
set_option maxHeartbeats 2000000 in
theorem u14_main_v143 (V : Valuation τ sig (Elt F)) : u14 V (no_index (Proc.devRef .tc main_v143)) = broadcastInDim S1 ![] bcast_S_S1 (addf (addf (addf (addf (mulf (constant S_ .f32 0x3F800000#32) (RefSpec.loss1R ((V (Proc.devRef .tc main_arg0))) ((V (Proc.devRef .tc main_arg1))) ((V (Proc.devRef .tc main_arg2))) ((V (Proc.devRef .tc main_arg3))) ((V (Proc.devRef .tc main_arg4))))) (mulf (constant S_ .f32 0x3DCCCCCD#32) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10)))))))))) (mulf (constant S_ .f32 0x3DCCCCCD#32) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11)))))))))) (mulf (constant S_ .f32 0x3DCCCCCD#32) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9)))))))))) (mulf (constant S_ .f32 0x3F800000#32) (Spec.loss5Of ((V (Proc.devRef .tc main_arg1))) ((V (Proc.devRef .tc main_arg2))) ((V (Proc.devRef .tc main_arg3))) ((V (Proc.devRef .tc main_arg4)))))) := by
  unfold u14
  simp only [w3s0a]
  after_results_simp
  (try simp only [u13_main_v133, u13_main_v113, u13_main_v95, u13_main_v61, u13_main_v5]) <;> (try rfl)
set_option maxHeartbeats 2000000 in
theorem u14_main_v144 (V : Valuation τ sig (Elt F)) : u14 V (no_index (Proc.devRef .tc main_v144)) = broadcastInDim S1 ![] bcast_S_S1 (RefSpec.loss1R ((V (Proc.devRef .tc main_arg0))) ((V (Proc.devRef .tc main_arg1))) ((V (Proc.devRef .tc main_arg2))) ((V (Proc.devRef .tc main_arg3))) ((V (Proc.devRef .tc main_arg4)))) := by
  unfold u14
  simp only [w3s0a]
  after_results_simp
  (try simp only [u13_main_v5]) <;> (try rfl)
set_option maxHeartbeats 2000000 in
theorem u14_main_v145 (V : Valuation τ sig (Elt F)) : u14 V (no_index (Proc.devRef .tc main_v145)) = broadcastInDim S1 ![] bcast_S_S1 (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10)))))))) := by
  unfold u14
  simp only [w3s0a]
  after_results_simp
  (try simp only [u13_main_v61]) <;> (try rfl)
set_option maxHeartbeats 2000000 in
theorem u14_main_v146 (V : Valuation τ sig (Elt F)) : u14 V (no_index (Proc.devRef .tc main_v146)) = broadcastInDim S1 ![] bcast_S_S1 (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11)))))))) := by
  unfold u14
  simp only [w3s0a]
  after_results_simp
  (try simp only [u13_main_v95]) <;> (try rfl)
set_option maxHeartbeats 2000000 in
theorem u14_main_v147 (V : Valuation τ sig (Elt F)) : u14 V (no_index (Proc.devRef .tc main_v147)) = broadcastInDim S1 ![] bcast_S_S1 (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9)))))))) := by
  unfold u14
  simp only [w3s0a]
  after_results_simp
  (try simp only [u13_main_v113]) <;> (try rfl)
set_option maxHeartbeats 2000000 in
theorem u14_main_v148 (V : Valuation τ sig (Elt F)) : u14 V (no_index (Proc.devRef .tc main_v148)) = broadcastInDim S1 ![] bcast_S_S1 (Spec.loss5Of ((V (Proc.devRef .tc main_arg1))) ((V (Proc.devRef .tc main_arg2))) ((V (Proc.devRef .tc main_arg3))) ((V (Proc.devRef .tc main_arg4)))) := by
  unfold u14
  simp only [w3s0a]
  after_results_simp
  (try simp only [u13_main_v133]) <;> (try rfl)

/-- The contents after the first 15 stretches. -/
def u15 (V : Valuation τ sig (Elt F)) : Valuation τ sig (Elt F) := after w3s0b (u14 V)
/-- The buffers stretch 15 writes. -/
abbrev w3s0b_W : List (Ref sig .tc) := [main_v149]
theorem w3s0b_writesW : (w3s0b : List (HloOp τ sig (Elt F))).Forall fun op => op.writes ⊆ (w3s0b_W.map (Proc.devRef (τ := τ) .tc)).toFinset :=
  writes_sub_of_mem main_v149 rfl (by decide)
/-- A buffer stretch 15 does not write keeps its contents through it. -/
theorem u15_keep (V : Valuation τ sig (Elt F)) (r : Ref sig .tc) (h : r ∉ w3s0b_W) :
    u15 V (Proc.devRef .tc r) = u14 V (Proc.devRef .tc r) :=
  after_of_writes_sub w3s0b _ w3s0b_writesW h
theorem u15_main_v149 (V : Valuation τ sig (Elt F)) : u15 V (no_index (Proc.devRef .tc main_v149)) = Spec.combine (RefSpec.loss1R ((V (Proc.devRef .tc main_arg0))) ((V (Proc.devRef .tc main_arg1))) ((V (Proc.devRef .tc main_arg2))) ((V (Proc.devRef .tc main_arg3))) ((V (Proc.devRef .tc main_arg4)))) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10)))))))) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11)))))))) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9)))))))) (Spec.loss5Of ((V (Proc.devRef .tc main_arg1))) ((V (Proc.devRef .tc main_arg2))) ((V (Proc.devRef .tc main_arg3))) ((V (Proc.devRef .tc main_arg4)))) := by
  have e : u15 V (Proc.devRef .tc main_v149) = sixOf (u14 V (Proc.devRef .tc main_v143)) (u14 V (Proc.devRef .tc main_v144)) (u14 V (Proc.devRef .tc main_v145)) (u14 V (Proc.devRef .tc main_v146)) (u14 V (Proc.devRef .tc main_v147)) (u14 V (Proc.devRef .tc main_v148)) := by
    unfold u15
    simp only [w3s0b]
    after_results_simp
    try dsimp only [Matrix.cons_val]
    all_goals rfl
  rw [e, u14_main_v143, u14_main_v144, u14_main_v145, u14_main_v146, u14_main_v147, u14_main_v148]
  rfl

/-! ## The result -/

/-- The fold of the whole list is the last stretch's contents. -/
theorem after_ops_eq_u (V : Valuation τ sig (Elt F)) : after ops V = u15 V := by
  rw [RefRun.after_ops, w3s0_split, after_append]; rfl

/-- The result buffer after all the operations, as a pure term of the contents of the arguments before them. -/
theorem result_eqV (V : Valuation τ sig (Elt F)) :
    after ops V (Proc.devRef .tc main_v149) = Spec.combine (RefSpec.loss1R ((V (Proc.devRef .tc main_arg0))) ((V (Proc.devRef .tc main_arg1))) ((V (Proc.devRef .tc main_arg2))) ((V (Proc.devRef .tc main_arg3))) ((V (Proc.devRef .tc main_arg4)))) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf8 ((V (Proc.devRef .tc main_arg10)))))))) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (Spec.maskOf16 ((V (Proc.devRef .tc main_arg11)))))))) (Spec.finish (Host.divf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (addf (RefSpec.posOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9))))) (RefSpec.negOf (RefSpec.eOf (Spec.hnOf ((V (Proc.devRef .tc main_arg4))) ((V (Proc.devRef .tc main_arg5))) ((V (Proc.devRef .tc main_arg6))) ((V (Proc.devRef .tc main_arg7))) ((V (Proc.devRef .tc main_arg8))))) (RefSpec.simMaskR ((V (Proc.devRef .tc main_arg9)))))))) (Spec.loss5Of ((V (Proc.devRef .tc main_arg1))) ((V (Proc.devRef .tc main_arg2))) ((V (Proc.devRef .tc main_arg3))) ((V (Proc.devRef .tc main_arg4)))) := by
  rw [after_ops_eq_u]; exact u15_main_v149 V

/-- The same from a launch memory, on any device: the total and the five losses from the launch contents of the arguments. -/
theorem result_eq (m : (ℓ : Loc nD τ sig) → Buf (Elt F) ℓ) (c : Dev nD) :
    after ops (fun b => m (c, b)) (Proc.devRef .tc main_v149) = Spec.combine (RefSpec.loss1R ((m ((c.tc : Thread nD τ).loc main_arg0))) ((m ((c.tc : Thread nD τ).loc main_arg1))) ((m ((c.tc : Thread nD τ).loc main_arg2))) ((m ((c.tc : Thread nD τ).loc main_arg3))) ((m ((c.tc : Thread nD τ).loc main_arg4)))) (Spec.finish (Host.divf (RefSpec.posOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (Spec.maskOf8 ((m ((c.tc : Thread nD τ).loc main_arg10))))) (addf (RefSpec.posOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (Spec.maskOf8 ((m ((c.tc : Thread nD τ).loc main_arg10))))) (RefSpec.negOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (Spec.maskOf8 ((m ((c.tc : Thread nD τ).loc main_arg10)))))))) (Spec.finish (Host.divf (RefSpec.posOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (Spec.maskOf16 ((m ((c.tc : Thread nD τ).loc main_arg11))))) (addf (RefSpec.posOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (Spec.maskOf16 ((m ((c.tc : Thread nD τ).loc main_arg11))))) (RefSpec.negOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (Spec.maskOf16 ((m ((c.tc : Thread nD τ).loc main_arg11)))))))) (Spec.finish (Host.divf (RefSpec.posOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (RefSpec.simMaskR ((m ((c.tc : Thread nD τ).loc main_arg9))))) (addf (RefSpec.posOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (RefSpec.simMaskR ((m ((c.tc : Thread nD τ).loc main_arg9))))) (RefSpec.negOf (RefSpec.eOf (Spec.hnOf ((m ((c.tc : Thread nD τ).loc main_arg4))) ((m ((c.tc : Thread nD τ).loc main_arg5))) ((m ((c.tc : Thread nD τ).loc main_arg6))) ((m ((c.tc : Thread nD τ).loc main_arg7))) ((m ((c.tc : Thread nD τ).loc main_arg8))))) (RefSpec.simMaskR ((m ((c.tc : Thread nD τ).loc main_arg9)))))))) (Spec.loss5Of ((m ((c.tc : Thread nD τ).loc main_arg1))) ((m ((c.tc : Thread nD τ).loc main_arg2))) ((m ((c.tc : Thread nD τ).loc main_arg3))) ((m ((c.tc : Thread nD τ).loc main_arg4)))) :=
  result_eqV (fun b => m (c, b))

end Cert.ReferenceIdeal.RefTail

end
-- ==== Proof.Bridge1K.lean ====
import proofs.«117839_j20658792694235_1_alg».proof.Proof.KIReg1Value
import proofs.«117839_j20658792694235_1_alg».proof.Proof.Payloads

set_option maxRecDepth 16384

noncomputable section

namespace Cert.Bridge1K

open scoped BigOperators
open Idealize.ShloMosaic Idealize.ShloMosaic.TcCoe Idealize.ShloMosaic.ValueIdx
open Idealize.ShloMosaic.Pipeline (Dat)
open Cert.KernelIdeal Cert.KernelIdeal.Gen Cert.KernelIdeal.Reg1 Cert.Pay

/-! ## The entries of the closed form -/

/-- The exponential of twice the inner product of rows `R` and `c'` of one [4096, 256] array. -/
def E (hn : FVec Ideal S4096x256 .f32) (R c' : Fin 4096) : EReal :=
  Ideal.exp ((∑ k : Fin 256, hn (ix2 R k) * hn (ix2 c' k)) * Ideal.ofBits .f32 0x40000000#32)

/-- The 0/1 weight of entry (R, c'): whether the array's entry exceeds the threshold, read as a float. -/
def simW (sim : FVec Ideal S4096x4096 .f32) (R c' : Fin 4096) : EReal :=
  FloatOps.sitofp (F := Ideal) .f32 ((FloatOps.cmpf (F := Ideal) (φ := .f32) .ogt (sim (ix2 R c')) (Ideal.ofBits .f32 0x3F666666#32)).setWidth 32)

variable (V : Dev nD → Valuation τ sig (Elt Ideal)) (c : Dev nD)

/-! ## One step of the accumulation, column by column

A step adds to the carried value, at row `r`, the row sum over the block's 1024 columns of the exponentials (column 0),
of the exponentials times a weight block's entries (columns 1 and 2) or times the 0/1 mask (column 3). -/

theorem step_col0 (t : Fin cfg1.N) (v : FVec Ideal S512x4 .f32) (r : Fin 512) :
    step V c t v (ix2 r (0 : Fin 4)) = v (ix2 r (0 : Fin 4)) + ∑ s : Fin 1024, simExp (blk V c 0 t) (blk V c 1 t) r s :=
  (congrFun (k1_pay1_apply (k1_pay3 (F := Ideal) (blk V c 0 t) (blk V c 1 t) (blk V c 2 t) (blk V c 3 t) (blk V c 4 t) v)) (ix2 r (0 : Fin 4))).trans
    (k1_pay3_col0 (blk V c 0 t) (blk V c 1 t) (blk V c 2 t) (blk V c 3 t) (blk V c 4 t) v r)

theorem step_col1 (t : Fin cfg1.N) (v : FVec Ideal S512x4 .f32) (r : Fin 512) :
    step V c t v (ix2 r (1 : Fin 4)) = v (ix2 r (1 : Fin 4)) + ∑ s : Fin 1024, simExp (blk V c 0 t) (blk V c 1 t) r s * (blk V c 2 t : FVec Ideal S512x1024 .f32) (ix2 r s) :=
  (congrFun (k1_pay1_apply (k1_pay3 (F := Ideal) (blk V c 0 t) (blk V c 1 t) (blk V c 2 t) (blk V c 3 t) (blk V c 4 t) v)) (ix2 r (1 : Fin 4))).trans
    (k1_pay3_col1 (blk V c 0 t) (blk V c 1 t) (blk V c 2 t) (blk V c 3 t) (blk V c 4 t) v r)

theorem step_col2 (t : Fin cfg1.N) (v : FVec Ideal S512x4 .f32) (r : Fin 512) :
    step V c t v (ix2 r (2 : Fin 4)) = v (ix2 r (2 : Fin 4)) + ∑ s : Fin 1024, simExp (blk V c 0 t) (blk V c 1 t) r s * (blk V c 3 t : FVec Ideal S512x1024 .f32) (ix2 r s) :=
  (congrFun (k1_pay1_apply (k1_pay3 (F := Ideal) (blk V c 0 t) (blk V c 1 t) (blk V c 2 t) (blk V c 3 t) (blk V c 4 t) v)) (ix2 r (2 : Fin 4))).trans
    (k1_pay3_col2 (blk V c 0 t) (blk V c 1 t) (blk V c 2 t) (blk V c 3 t) (blk V c 4 t) v r)

theorem step_col3 (t : Fin cfg1.N) (v : FVec Ideal S512x4 .f32) (r : Fin 512) :
    step V c t v (ix2 r (3 : Fin 4)) = v (ix2 r (3 : Fin 4)) + ∑ s : Fin 1024, simExp (blk V c 0 t) (blk V c 1 t) r s * maskAt (blk V c 4 t) r s :=
  (congrFun (k1_pay1_apply (k1_pay3 (F := Ideal) (blk V c 0 t) (blk V c 1 t) (blk V c 2 t) (blk V c 3 t) (blk V c 4 t) v)) (ix2 r (3 : Fin 4))).trans
    (k1_pay3_col3 (blk V c 0 t) (blk V c 1 t) (blk V c 2 t) (blk V c 3 t) (blk V c 4 t) v r)

/-! ## A row block's four steps -/

/-- If a step adds `W t r` to the carried value at column `q`, the accumulator after the last point of row block `i` is
    the four points' additions onto zero, in the order of the reduction axis. -/
theorem unroll (q : Fin 4) (W : Fin cfg1.N → Fin 512 → EReal)
    (hstep : ∀ (t : Fin cfg1.N) (v : FVec Ideal S512x4 .f32) (r : Fin 512), step V c t v (ix2 r q) = v (ix2 r q) + W t r)
    (i : Fin 8) (r : Fin 512) :
    acc V c (4 * i.val + 3) (ix2 r q)
      = (((0 + W (pt (4 * i.val + 0)) r) + W (pt (4 * i.val + 1)) r) + W (pt (4 * i.val + 2)) r) + W (pt (4 * i.val + 3)) r := by
  have hi := i.isLt
  have e3 : acc V c (4 * i.val + 3) (ix2 r q) = acc V c (4 * i.val + 2) (ix2 r q) + W (pt (4 * i.val + 3)) r :=
    (congrFun (acc_next V c (4 * i.val + 3) (by omega)) (ix2 r q)).trans (hstep _ _ r)
  have e2 : acc V c (4 * i.val + 2) (ix2 r q) = acc V c (4 * i.val + 1) (ix2 r q) + W (pt (4 * i.val + 2)) r :=
    (congrFun (acc_next V c (4 * i.val + 2) (by omega)) (ix2 r q)).trans (hstep _ _ r)
  have e1 : acc V c (4 * i.val + 1) (ix2 r q) = acc V c (4 * i.val + 0) (ix2 r q) + W (pt (4 * i.val + 1)) r :=
    (congrFun (acc_next V c (4 * i.val + 1) (by omega)) (ix2 r q)).trans (hstep _ _ r)
  have e0 : acc V c (4 * i.val + 0) (ix2 r q) = 0 + W (pt (4 * i.val + 0)) r :=
    (congrFun (acc_first V c (4 * i.val + 0) (by omega)) (ix2 r q)).trans
      ((hstep _ _ r).trans (congrArg (fun z : EReal => z + W (pt (4 * i.val + 0)) r) (k1_pay2_apply (ix2 r q))))
  rw [e3, e2, e1, e0]

/-! ## The blocks' entries as the arrays' entries -/

/-- The exponential at (r, s) of the blocks at the point of row block `i` and column block `j` is the one at
    (512·i + r, 1024·j + s) of the whole array: both windows read the same array, one by row block, one by column block. -/
theorem E_blk (hn : FVec Ideal S4096x256 .f32) (h20 : (V c (Proc.devRef .tc main_v20) : S4096x256.Idx → Elt Ideal .f32) = hn)
    (t : Fin cfg1.N) (i : Fin 8) (j : Fin 4) (ht : t.val = 4 * i.val + j.val) (r : Fin 512) (s : Fin 1024) :
    simExp (blk V c 0 t) (blk V c 1 t) r s = E hn (⟨512 * i.val + r.val, by have := i.isLt; have := r.isLt; omega⟩ : Fin 4096) (⟨1024 * j.val + s.val, by have := j.isLt; have := s.isLt; omega⟩ : Fin 4096) := by
  have hj := j.isLt
  unfold simExp E
  refine congrArg (fun z : EReal => Ideal.exp (z * Ideal.ofBits .f32 0x40000000#32)) (Finset.sum_congr rfl fun k _ => ?_)
  refine congrArg₂ (fun a b : EReal => a * b) ?_ ?_
  · refine ((blk0_apply V c t r k).trans (congrFun h20 _)).trans (congrArg (fun a : Fin 4096 => hn (ix2 a k)) (Fin.ext ?_))
    show 512 * (t.val / 4) + r.val = 512 * i.val + r.val
    omega
  · refine ((blk1_apply V c t s k).trans (congrFun h20 _)).trans (congrArg (fun a : Fin 4096 => hn (ix2 a k)) (Fin.ext ?_))
    show 1024 * (t.val % 4) + s.val = 1024 * j.val + s.val
    omega

/-- An entry of window 2's block at the point of row block `i` and column block `j` is the array's entry at
    row `512·i + r`, column `1024·j + s`. -/
theorem ent2 (m1 : FVec Ideal S4096x4096 .f32) (h39 : (V c (Proc.devRef .tc main_v39) : S4096x4096.Idx → Elt Ideal .f32) = m1)
    (t : Fin cfg1.N) (i : Fin 8) (j : Fin 4) (ht : t.val = 4 * i.val + j.val) (r : Fin 512) (s : Fin 1024) :
    (blk V c 2 t : FVec Ideal S512x1024 .f32) (ix2 r s) = m1 (ix2 (⟨512 * i.val + r.val, by have := i.isLt; have := r.isLt; omega⟩ : Fin 4096) (⟨1024 * j.val + s.val, by have := j.isLt; have := s.isLt; omega⟩ : Fin 4096)) := by
  have hj := j.isLt
  refine ((blk2_apply V c t r s).trans (congrFun h39 _)).trans (congrArg₂ (fun a b : Fin 4096 => m1 (ix2 a b)) (Fin.ext ?_) (Fin.ext ?_))
  · show 512 * (t.val / 4) + r.val = 512 * i.val + r.val
    omega
  · show 1024 * (t.val % 4) + s.val = 1024 * j.val + s.val
    omega

/-- An entry of window 3's block at the point of row block `i` and column block `j` is the array's entry at
    row `512·i + r`, column `1024·j + s`. -/
theorem ent3 (m2 : FVec Ideal S4096x4096 .f32) (h58 : (V c (Proc.devRef .tc main_v58) : S4096x4096.Idx → Elt Ideal .f32) = m2)
    (t : Fin cfg1.N) (i : Fin 8) (j : Fin 4) (ht : t.val = 4 * i.val + j.val) (r : Fin 512) (s : Fin 1024) :
    (blk V c 3 t : FVec Ideal S512x1024 .f32) (ix2 r s) = m2 (ix2 (⟨512 * i.val + r.val, by have := i.isLt; have := r.isLt; omega⟩ : Fin 4096) (⟨1024 * j.val + s.val, by have := j.isLt; have := s.isLt; omega⟩ : Fin 4096)) := by
  have hj := j.isLt
  refine ((blk3_apply V c t r s).trans (congrFun h58 _)).trans (congrArg₂ (fun a b : Fin 4096 => m2 (ix2 a b)) (Fin.ext ?_) (Fin.ext ?_))
  · show 512 * (t.val / 4) + r.val = 512 * i.val + r.val
    omega
  · show 1024 * (t.val % 4) + s.val = 1024 * j.val + s.val
    omega

/-- An entry of window 4's block at the point of row block `i` and column block `j` is the array's entry at
    row `512·i + r`, column `1024·j + s`. -/
theorem ent4 (sim : FVec Ideal S4096x4096 .f32) (h9 : (V c (Proc.devRef .tc main_arg9) : S4096x4096.Idx → Elt Ideal .f32) = sim)
    (t : Fin cfg1.N) (i : Fin 8) (j : Fin 4) (ht : t.val = 4 * i.val + j.val) (r : Fin 512) (s : Fin 1024) :
    (blk V c 4 t : FVec Ideal S512x1024 .f32) (ix2 r s) = sim (ix2 (⟨512 * i.val + r.val, by have := i.isLt; have := r.isLt; omega⟩ : Fin 4096) (⟨1024 * j.val + s.val, by have := j.isLt; have := s.isLt; omega⟩ : Fin 4096)) := by
  have hj := j.isLt
  refine ((blk4_apply V c t r s).trans (congrFun h9 _)).trans (congrArg₂ (fun a b : Fin 4096 => sim (ix2 a b)) (Fin.ext ?_) (Fin.ext ?_))
  · show 512 * (t.val / 4) + r.val = 512 * i.val + r.val
    omega
  · show 1024 * (t.val % 4) + s.val = 1024 * j.val + s.val
    omega

/-- The mask entry of the block is the 0/1 weight of the array's entry. -/
theorem entMask (sim : FVec Ideal S4096x4096 .f32) (h9 : (V c (Proc.devRef .tc main_arg9) : S4096x4096.Idx → Elt Ideal .f32) = sim)
    (t : Fin cfg1.N) (i : Fin 8) (j : Fin 4) (ht : t.val = 4 * i.val + j.val) (r : Fin 512) (s : Fin 1024) :
    maskAt (blk V c 4 t) r s = simW sim (⟨512 * i.val + r.val, by have := i.isLt; have := r.isLt; omega⟩ : Fin 4096) (⟨1024 * j.val + s.val, by have := j.isLt; have := s.isLt; omega⟩ : Fin 4096) := by
  unfold maskAt simW
  exact congrArg (fun z : EReal => FloatOps.sitofp (F := Ideal) .f32 ((FloatOps.cmpf (F := Ideal) (φ := .f32) .ogt z (Ideal.ofBits .f32 0x3F666666#32)).setWidth 32))
    (ent4 V c sim h9 t i j ht r s)

/-! ## Each column of the result as one sum over all 4096 columns -/

/-- Column 0 of the second pallas_call's result: at row `R` the sum over all 4096 columns of the exponentials — the four column blocks
    of 1024, accumulated from zero in order along the reduction axis. -/
theorem kcol0 (hn : FVec Ideal S4096x256 .f32) (h20 : (V c (Proc.devRef .tc main_v20) : S4096x256.Idx → Elt Ideal .f32) = hn) (R : Fin 4096) :
    ((dat V c).arrAt 5 cfg1.N : S4096x4.Idx → Elt Ideal .f32) (ix2 R (0 : Fin 4)) = ∑ c' : Fin 4096, E hn R c' := by
  obtain ⟨i, r, rfl⟩ : ∃ (i : Fin 8) (r : Fin 512), R = (⟨512 * i.val + r.val, by have := i.isLt; have := r.isLt; omega⟩ : Fin 4096) :=
    ⟨⟨R.val / 512, by have := R.isLt; omega⟩, ⟨R.val % 512, Nat.mod_lt _ (by decide)⟩, Fin.ext (by dsimp only; omega)⟩
  have hi := i.isLt
  refine (final V c i r (0 : Fin 4)).trans ?_
  refine (unroll V c (0 : Fin 4) (fun t r => ∑ s : Fin 1024, simExp (blk V c 0 t) (blk V c 1 t) r s) (step_col0 V c) i r).trans ?_
  refine Cert.Alg.blocks4_of (fun c' => E hn (⟨512 * i.val + r.val, by have := i.isLt; have := r.isLt; omega⟩ : Fin 4096) c')
    (fun j => ∑ s : Fin 1024, simExp (blk V c 0 (pt (4 * i.val + j.val))) (blk V c 1 (pt (4 * i.val + j.val))) r s) (fun j => ?_)
  have hj := j.isLt
  have ht : (pt (4 * i.val + j.val)).val = 4 * i.val + j.val := pt_val _ (by omega)
  exact Finset.sum_congr rfl fun s _ => E_blk V c hn h20 (pt (4 * i.val + j.val)) i j ht r s

/-- Column 1 of the second pallas_call's result: at row `R` the sum over all 4096 columns of the exponentials times the column's weight — the four column blocks
    of 1024, accumulated from zero in order along the reduction axis. -/
theorem kcol1 (hn : FVec Ideal S4096x256 .f32) (m1 : FVec Ideal S4096x4096 .f32) (h20 : (V c (Proc.devRef .tc main_v20) : S4096x256.Idx → Elt Ideal .f32) = hn) (h39 : (V c (Proc.devRef .tc main_v39) : S4096x4096.Idx → Elt Ideal .f32) = m1) (R : Fin 4096) :
    ((dat V c).arrAt 5 cfg1.N : S4096x4.Idx → Elt Ideal .f32) (ix2 R (1 : Fin 4)) = ∑ c' : Fin 4096, E hn R c' * m1 (ix2 R c') := by
  obtain ⟨i, r, rfl⟩ : ∃ (i : Fin 8) (r : Fin 512), R = (⟨512 * i.val + r.val, by have := i.isLt; have := r.isLt; omega⟩ : Fin 4096) :=
    ⟨⟨R.val / 512, by have := R.isLt; omega⟩, ⟨R.val % 512, Nat.mod_lt _ (by decide)⟩, Fin.ext (by dsimp only; omega)⟩
  have hi := i.isLt
  refine (final V c i r (1 : Fin 4)).trans ?_
  refine (unroll V c (1 : Fin 4) (fun t r => ∑ s : Fin 1024, simExp (blk V c 0 t) (blk V c 1 t) r s * (blk V c 2 t : FVec Ideal S512x1024 .f32) (ix2 r s)) (step_col1 V c) i r).trans ?_
  refine Cert.Alg.blocks4_of (fun c' => E hn (⟨512 * i.val + r.val, by have := i.isLt; have := r.isLt; omega⟩ : Fin 4096) c' * m1 (ix2 (⟨512 * i.val + r.val, by have := i.isLt; have := r.isLt; omega⟩ : Fin 4096) c'))
    (fun j => ∑ s : Fin 1024, simExp (blk V c 0 (pt (4 * i.val + j.val))) (blk V c 1 (pt (4 * i.val + j.val))) r s * (blk V c 2 (pt (4 * i.val + j.val)) : FVec Ideal S512x1024 .f32) (ix2 r s)) (fun j => ?_)
  have hj := j.isLt
  have ht : (pt (4 * i.val + j.val)).val = 4 * i.val + j.val := pt_val _ (by omega)
  exact Finset.sum_congr rfl fun s _ => congrArg₂ (fun a b : EReal => a * b) (E_blk V c hn h20 (pt (4 * i.val + j.val)) i j ht r s) (ent2 V c m1 h39 (pt (4 * i.val + j.val)) i j ht r s)

/-- Column 2 of the second pallas_call's result: at row `R` the sum over all 4096 columns of the exponentials times the column's weight — the four column blocks
    of 1024, accumulated from zero in order along the reduction axis. -/
theorem kcol2 (hn : FVec Ideal S4096x256 .f32) (m2 : FVec Ideal S4096x4096 .f32) (h20 : (V c (Proc.devRef .tc main_v20) : S4096x256.Idx → Elt Ideal .f32) = hn) (h58 : (V c (Proc.devRef .tc main_v58) : S4096x4096.Idx → Elt Ideal .f32) = m2) (R : Fin 4096) :
    ((dat V c).arrAt 5 cfg1.N : S4096x4.Idx → Elt Ideal .f32) (ix2 R (2 : Fin 4)) = ∑ c' : Fin 4096, E hn R c' * m2 (ix2 R c') := by
  obtain ⟨i, r, rfl⟩ : ∃ (i : Fin 8) (r : Fin 512), R = (⟨512 * i.val + r.val, by have := i.isLt; have := r.isLt; omega⟩ : Fin 4096) :=
    ⟨⟨R.val / 512, by have := R.isLt; omega⟩, ⟨R.val % 512, Nat.mod_lt _ (by decide)⟩, Fin.ext (by dsimp only; omega)⟩
  have hi := i.isLt
  refine (final V c i r (2 : Fin 4)).trans ?_
  refine (unroll V c (2 : Fin 4) (fun t r => ∑ s : Fin 1024, simExp (blk V c 0 t) (blk V c 1 t) r s * (blk V c 3 t : FVec Ideal S512x1024 .f32) (ix2 r s)) (step_col2 V c) i r).trans ?_
  refine Cert.Alg.blocks4_of (fun c' => E hn (⟨512 * i.val + r.val, by have := i.isLt; have := r.isLt; omega⟩ : Fin 4096) c' * m2 (ix2 (⟨512 * i.val + r.val, by have := i.isLt; have := r.isLt; omega⟩ : Fin 4096) c'))
    (fun j => ∑ s : Fin 1024, simExp (blk V c 0 (pt (4 * i.val + j.val))) (blk V c 1 (pt (4 * i.val + j.val))) r s * (blk V c 3 (pt (4 * i.val + j.val)) : FVec Ideal S512x1024 .f32) (ix2 r s)) (fun j => ?_)
  have hj := j.isLt
  have ht : (pt (4 * i.val + j.val)).val = 4 * i.val + j.val := pt_val _ (by omega)
  exact Finset.sum_congr rfl fun s _ => congrArg₂ (fun a b : EReal => a * b) (E_blk V c hn h20 (pt (4 * i.val + j.val)) i j ht r s) (ent3 V c m2 h58 (pt (4 * i.val + j.val)) i j ht r s)

/-- Column 3 of the second pallas_call's result: at row `R` the sum over all 4096 columns of the exponentials times the column's weight — the four column blocks
    of 1024, accumulated from zero in order along the reduction axis. -/
theorem kcol3 (hn : FVec Ideal S4096x256 .f32) (sim : FVec Ideal S4096x4096 .f32) (h20 : (V c (Proc.devRef .tc main_v20) : S4096x256.Idx → Elt Ideal .f32) = hn) (h9 : (V c (Proc.devRef .tc main_arg9) : S4096x4096.Idx → Elt Ideal .f32) = sim) (R : Fin 4096) :
    ((dat V c).arrAt 5 cfg1.N : S4096x4.Idx → Elt Ideal .f32) (ix2 R (3 : Fin 4)) = ∑ c' : Fin 4096, E hn R c' * simW sim R c' := by
  obtain ⟨i, r, rfl⟩ : ∃ (i : Fin 8) (r : Fin 512), R = (⟨512 * i.val + r.val, by have := i.isLt; have := r.isLt; omega⟩ : Fin 4096) :=
    ⟨⟨R.val / 512, by have := R.isLt; omega⟩, ⟨R.val % 512, Nat.mod_lt _ (by decide)⟩, Fin.ext (by dsimp only; omega)⟩
  have hi := i.isLt
  refine (final V c i r (3 : Fin 4)).trans ?_
  refine (unroll V c (3 : Fin 4) (fun t r => ∑ s : Fin 1024, simExp (blk V c 0 t) (blk V c 1 t) r s * maskAt (blk V c 4 t) r s) (step_col3 V c) i r).trans ?_
  refine Cert.Alg.blocks4_of (fun c' => E hn (⟨512 * i.val + r.val, by have := i.isLt; have := r.isLt; omega⟩ : Fin 4096) c' * simW sim (⟨512 * i.val + r.val, by have := i.isLt; have := r.isLt; omega⟩ : Fin 4096) c')
    (fun j => ∑ s : Fin 1024, simExp (blk V c 0 (pt (4 * i.val + j.val))) (blk V c 1 (pt (4 * i.val + j.val))) r s * maskAt (blk V c 4 (pt (4 * i.val + j.val))) r s) (fun j => ?_)
  have hj := j.isLt
  have ht : (pt (4 * i.val + j.val)).val = 4 * i.val + j.val := pt_val _ (by omega)
  exact Finset.sum_congr rfl fun s _ => congrArg₂ (fun a b : EReal => a * b) (E_blk V c hn h20 (pt (4 * i.val + j.val)) i j ht r s) (entMask V c sim h9 (pt (4 * i.val + j.val)) i j ht r s)

end Cert.Bridge1K

end
-- ==== Proof.LibScatterRead.lean ====
/-
  A host scatter that overwrites with one constant, read at an index.

  The host scatter is a left fold over the update positions in row-major order: each position whose result index
  lies inside the operand replaces the operand's element there, and a position whose result index falls outside is
  dropped. When the combining function keeps the update and every update element is the same constant c, the order
  of the fold and repeated hits do not matter: the result at an index i is c if SOME update position lands on i, and
  the operand's element at i otherwise.

  Two index layouts are read here, both with one start index per update row, stored as a column [M, 1] of signed
  integers, and both scattering along the operand's leading axis: a vector [N] receiving scalars, and a matrix [N, B]
  receiving whole rows of B elements. In both, update row k lands on operand row r exactly when the signed start
  index of k equals r; so the set of rows that are hit is the same for the two layouts.
-/
import Idealize.ShloMosaic.PureOps
import Idealize.ShloMosaic.Lib.ValueIdx

noncomputable section

namespace Cert.ScatterRead

open Idealize.ShloMosaic Idealize.ShloMosaic.ValueIdx
open scoped Classical

variable {α : Type}

/-! ## The fold -/

/-- A left fold of steps, each of which either overwrites ONE index (the one `g n` names) with the constant `c` or
    does nothing, read at `i`: `c` if some step of the list names `i`, the initial function's value otherwise. -/
theorem foldl_overwrite {ι β : Type} (g : ι → Option β) (c : α) (step : (β → α) → ι → (β → α))
    (hstep : ∀ r n i, step r n i = if g n = some i then c else r i) (L : List ι) (x : β → α) (i : β) :
    (L.foldl step x) i = if ∃ n ∈ L, g n = some i then c else x i := by
  induction L generalizing x with
  | nil => simp
  | cons n L ih =>
    rw [List.foldl_cons, ih, hstep]
    by_cases h1 : ∃ n' ∈ L, g n' = some i
    · rw [if_pos h1, if_pos]
      obtain ⟨n', hn', e⟩ := h1
      exact ⟨n', List.mem_cons_of_mem _ hn', e⟩
    · rw [if_neg h1]
      by_cases h2 : g n = some i
      · rw [if_pos h2, if_pos]
        exact ⟨n, List.mem_cons_self, h2⟩
      · rw [if_neg h2, if_neg]
        rintro ⟨n', hn', e⟩
        rcases List.mem_cons.mp hn' with rfl | hn'
        · exact h2 e
        · exact h1 ⟨n', hn', e⟩

/-- THE SCATTER OF ONE CONSTANT READ AT AN INDEX: with the update kept and every update element `c`, the result at
    `i` is `c` where some update position's result index is `i`, and the operand's element elsewhere. -/
theorem scatter_const_apply {s si u : Shape} {w : ℕ} (d : ScatterDims s si u) (x : s.Idx → α) (idx : IVec si w)
    (upd : u.Idx → α) (c : α) (hupd : ∀ j, upd j = c) (i : s.Idx) :
    Host.scatter d (fun _ b => b) x idx upd i = if ∃ j : u.Idx, d.resultIdx? j idx = some i then c else x i := by
  unfold Host.scatter
  refine (foldl_overwrite (fun n => d.resultIdx? (u.rowMajor.symm n) idx) c _ ?_ _ x i).trans ?_
  · intro r n i'
    dsimp only
    cases h : d.resultIdx? (u.rowMajor.symm n) idx with
    | none => simp
    | some i0 =>
      dsimp only
      by_cases hi : i' = i0
      · subst hi; rw [if_pos rfl, if_pos rfl, hupd]
      · rw [if_neg hi, if_neg]
        intro e
        exact hi (Option.some.inj e).symm
  · by_cases h : ∃ j : u.Idx, d.resultIdx? j idx = some i
    · rw [if_pos h, if_pos]
      obtain ⟨j, hj⟩ := h
      exact ⟨u.rowMajor j, List.mem_finRange _, by rw [Equiv.symm_apply_apply]; exact hj⟩
    · rw [if_neg h, if_neg]
      rintro ⟨n, _, e⟩
      exact h ⟨_, e⟩

/-! ## When an update position lands on an index -/

/-- An update position's result index is `i` exactly when, on every axis of the operand, the window's start plus the
    coordinate inside the window is `i`'s coordinate (which, being a coordinate, is inside the operand). -/
theorem resultIdx?_eq_some_iff {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e1 := congrArg Fin.val (congrFun (Option.some.inj e) a)
      have := h a
      simp only at e1
      omega
    · intro e
      refine congrArg some (funext fun a => Fin.ext ?_)
      have := e a
      have := h a
      simp only
      omega
  · rename_i h
    constructor
    · intro e; cases e
    · intro e
      exfalso
      apply h
      intro a
      have := e a
      have := (i a).isLt
      omega

/-! ## A column of start indices scattering scalars into a vector -/

/-- The dimension numbers of `x.at[idx].set(v)` on a vector `[N]` with `M` scalar updates, the start indices a
    column `[M, 1]`: no window axis in the updates, the operand's one axis inserted and scattered. -/
abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vecDims_start {N M w : ℕ} (wf) (j : (⟨1, ![M]⟩ : Shape).Idx) (idx : IVec ⟨2, ![M, 1]⟩ w) :
    (vecDims N M wf).start j idx 0 = (idx (ix2 (j 0) (0 : Fin 1))).toInt := by
  unfold ScatterDims.start
  rw [dif_pos (show (0 : Fin 1) ∈ (vecDims N M wf).scatterDimsToOperandDims from List.mem_singleton.mpr rfl)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem vecDims_window {N M : ℕ} (wf) (j : (⟨1, ![M]⟩ : Shape).Idx) : (vecDims N M wf).window j 0 = 0 := by
  unfold ScatterDims.window
  rw [dif_neg (show ¬ (0 : Fin 1) ∈ (vecDims N M wf).sKept by
    show ¬ (0 : Fin 1) ∈ ([] : List (Fin 1)); simp)]

/-- Update `j` lands on element `i` of the vector exactly when its signed start index is `i`. -/
theorem vecDims_lands {N M w : ℕ} (wf) (j : (⟨1, ![M]⟩ : Shape).Idx) (idx : IVec ⟨2, ![M, 1]⟩ w) (i : (⟨1, ![N]⟩ : Shape).Idx) :
    (vecDims N M wf).resultIdx? j idx = some i ↔ (idx (ix2 (j 0) (0 : Fin 1))).toInt = ((i 0).val : ℤ) := by
  rw [resultIdx?_eq_some_iff]
  constructor
  · intro h
    have := h 0
    rw [vecDims_start, vecDims_window] at this
    simpa using this
  · intro h a
    obtain rfl : a = 0 := Subsingleton.elim _ _
    rw [vecDims_start, vecDims_window]
    simpa using h

/-! ## The same column scattering whole rows into a matrix -/

/-- The dimension numbers of `x.at[idx].set(v)` on a matrix `[N, B]` with `M` row updates `[M, B]`, the start
    indices a column `[M, 1]`: the updates' lane axis is the window, the operand's row axis inserted and scattered. -/
abbrev rowDims (N M B : ℕ) (wf : ScatterDims.WF ⟨2, ![N, B]⟩ ⟨2, ![M, 1]⟩ ⟨2, ![M, B]⟩ [1] [0] [0] 1) :
    ScatterDims ⟨2, ![N, B]⟩ ⟨2, ![M, 1]⟩ ⟨2, ![M, B]⟩ where
  updateWindowDims := [1]
  insertedWindowDims := [0]
  scatterDimsToOperandDims := [0]
  indexVectorDim := 1
  wf := wf

theorem rowDims_start0 {N M B w : ℕ} (wf) (j : (⟨2, ![M, B]⟩ : Shape).Idx) (idx : IVec ⟨2, ![M, 1]⟩ w) :
    (rowDims N M B wf).start j idx 0 = (idx (ix2 (j 0) (0 : Fin 1))).toInt := by
  unfold ScatterDims.start
  rw [dif_pos (show (0 : Fin 2) ∈ (rowDims N M B wf).scatterDimsToOperandDims from List.mem_singleton.mpr rfl)]
  have hsi : (rowDims N M B wf).siIdx j ⟨List.idxOf (0 : Fin 2) (rowDims N M B wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowDims_start1 {N M B w : ℕ} (wf) (j : (⟨2, ![M, B]⟩ : Shape).Idx) (idx : IVec ⟨2, ![M, 1]⟩ w) :
    (rowDims N M B wf).start j idx 1 = 0 := by
  unfold ScatterDims.start
  rw [dif_neg (show ¬ (1 : Fin 2) ∈ (rowDims N M B wf).scatterDimsToOperandDims by
    show ¬ (1 : Fin 2) ∈ ([0] : List (Fin 2)); decide)]

theorem rowDims_window0 {N M B : ℕ} (wf) (j : (⟨2, ![M, B]⟩ : Shape).Idx) : (rowDims N M B wf).window j 0 = 0 := by
  unfold ScatterDims.window
  rw [dif_neg (show ¬ (0 : Fin 2) ∈ (rowDims N M B wf).sKept by
    show ¬ (0 : Fin 2) ∈ ([1] : List (Fin 2)); decide)]

theorem rowDims_window1 {N M B : ℕ} (wf) (j : (⟨2, ![M, B]⟩ : Shape).Idx) : (rowDims N M B wf).window j 1 = (j 1).val := by
  unfold ScatterDims.window
  rw [dif_pos (show (1 : Fin 2) ∈ (rowDims N M B wf).sKept by
    show (1 : Fin 2) ∈ ([1] : List (Fin 2)); decide)]
  rfl

/-- Update element `(k, q)` lands on element `(r, q')` of the matrix exactly when the signed start index of row `k`
    is `r` and the lanes agree. -/
theorem rowDims_lands {N M B w : ℕ} (wf) (j : (⟨2, ![M, B]⟩ : Shape).Idx) (idx : IVec ⟨2, ![M, 1]⟩ w) (i : (⟨2, ![N, B]⟩ : Shape).Idx) :
    (rowDims N M B wf).resultIdx? j idx = some i
      ↔ (idx (ix2 (j 0) (0 : Fin 1))).toInt = ((i 0).val : ℤ) ∧ (j 1).val = (i 1).val := by
  rw [resultIdx?_eq_some_iff]
  constructor
  · intro h
    have h0 := h 0
    have h1 := h 1
    rw [rowDims_start0, rowDims_window0] at h0
    rw [rowDims_start1, rowDims_window1] at h1
    exact ⟨by simpa using h0, by simpa using h1⟩
  · rintro ⟨h0, h1⟩ a
    match a with
    | ⟨0, _⟩ =>
      show (rowDims N M B wf).start j idx 0 + ((rowDims N M B wf).window j 0 : ℤ) = ((i 0).val : ℤ)
      rw [rowDims_start0, rowDims_window0]; simpa using h0
    | ⟨1, _⟩ =>
      show (rowDims N M B wf).start j idx 1 + ((rowDims N M B wf).window j 1 : ℤ) = ((i 1).val : ℤ)
      rw [rowDims_start1, rowDims_window1]; simpa using h1

/-! ## The rows that are hit, and the two scatters read by them -/

/-- Row `r` is hit by the column of start indices: some update row's signed start index is `r`. -/
def Hit {M w : ℕ} (idx : IVec ⟨2, ![M, 1]⟩ w) (r : ℕ) : Prop :=
  ∃ k : Fin M, (idx (ix2 k (0 : Fin 1))).toInt = (r : ℤ)

/-- The vector scatter of one constant, at `r`: the constant if row `r` is hit, the operand's element otherwise. -/
theorem scatter_vec_apply {N M w : ℕ} (wf) (x : (⟨1, ![N]⟩ : Shape).Idx → α) (idx : IVec ⟨2, ![M, 1]⟩ w)
    (upd : (⟨1, ![M]⟩ : Shape).Idx → α) (c : α) (hupd : ∀ j, upd j = c) (r : Fin N) :
    Host.scatter (vecDims N M wf) (fun _ b => b) x idx upd (ix1 r) = if Hit idx r.val then c else x (ix1 r) := by
  rw [scatter_const_apply _ _ _ _ c hupd]
  by_cases h : Hit idx r.val
  · rw [if_pos h, if_pos]
    obtain ⟨k, hk⟩ := h
    exact ⟨ix1 k, (vecDims_lands wf _ idx _).mpr hk⟩
  · rw [if_neg h, if_neg]
    rintro ⟨j, hj⟩
    exact h ⟨j 0, (vecDims_lands wf j idx _).mp hj⟩

/-- The row scatter of one constant, at `(r, q)`: the constant if row `r` is hit, the operand's element otherwise. -/
theorem scatter_row_apply {N M B w : ℕ} (wf) (x : (⟨2, ![N, B]⟩ : Shape).Idx → α) (idx : IVec ⟨2, ![M, 1]⟩ w)
    (upd : (⟨2, ![M, B]⟩ : Shape).Idx → α) (c : α) (hupd : ∀ j, upd j = c) (r : Fin N) (q : Fin B) :
    Host.scatter (rowDims N M B wf) (fun _ b => b) x idx upd (ix2 r q) = if Hit idx r.val then c else x (ix2 r q) := by
  rw [scatter_const_apply _ _ _ _ c hupd]
  by_cases h : Hit idx r.val
  · rw [if_pos h, if_pos]
    obtain ⟨k, hk⟩ := h
    exact ⟨ix2 k q, (rowDims_lands wf _ idx _).mpr ⟨hk, rfl⟩⟩
  · rw [if_neg h, if_neg]
    rintro ⟨j, hj⟩
    exact h ⟨j 0, ((rowDims_lands wf j idx _).mp hj).1⟩

end Cert.ScatterRead

end
-- ==== Proof.Bridge1.lean ====
/-
  The quotient of accumulated row sums is the reference's pos / (pos + neg), on the extended reals.

  For a 0/1 mask m and the similarity e(R, c') = exp of the inner product of rows R and c' divided by one half, the
  reference forms pos(R) = 0 + Σ c', e · m and neg(R) = 0 + Σ c', e · (1 − m) and the ratio pos / (pos + neg). The two
  sums add up to Σ c', e (a 0/1 mask splits every term, at the infinities too), so the ratio is (Σ e · m) / (Σ e):
  column q over column 0 of the statistics array, whose entries are those row sums with e written as the exponential of
  twice the inner product (scaling by two is dividing by one half). The three masks: two index masks (ones written into
  an array of zeros, so 0 or 1), and a threshold mask (a one-bit comparison read as a float, signed after widening on
  one side and unsigned on the other: the same 0 or 1).
-/
import proofs.«117839_j20658792694235_1_alg».proof.Proof.Gen.KernelIdeal
import proofs.«117839_j20658792694235_1_alg».proof.Proof.Bridge1K
import proofs.«117839_j20658792694235_1_alg».proof.Proof.RefSpec
import proofs.«117839_j20658792694235_1_alg».proof.Proof.Spec
import proofs.«117839_j20658792694235_1_alg».proof.Proof.Algebra
import proofs.«117839_j20658792694235_1_alg».proof.Proof.LibDotRead
import proofs.«117839_j20658792694235_1_alg».proof.Proof.LibLayoutRead
import proofs.«117839_j20658792694235_1_alg».proof.Proof.LibScatterRead
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.Bridge1

open scoped BigOperators
open Idealize.ShloMosaic Idealize.ShloMosaic.ValueIdx Cert.KernelIdeal Cert.KernelIdeal.Gen

/-! ### Words, masks -/

/-- A scalar word spread over any shape reads that word's value everywhere. -/
theorem bcast_word {T : Shape} (h : (⟨0, ![]⟩ : Shape).BroadcastsInDim T ![]) (b : BitVec 32) (j : T.Idx) :
    broadcastInDim T ![] h (constant (F := Ideal) S_ .f32 b) j = Ideal.ofBits .f32 b :=
  broadcastInDim_scalar_apply h _ j

/-- The eight-column index mask is 0 or 1 everywhere: ones written into an array of zeros. -/
theorem maskOf8_bit (idx : IVec S4096x8 32) (i : S4096x4096.Idx) :
    Cert.Spec.maskOf8 (F := Ideal) idx i = 0 ∨ Cert.Spec.maskOf8 (F := Ideal) idx i = 1 := by
  unfold Cert.Spec.maskOf8
  rw [Cert.ScatterRead.scatter_const_apply _ _ _ _ (1 : EReal)
    (fun j => (bcast_word _ _ j).trans Ideal.ofBits_one_f32)]
  split
  · exact Or.inr rfl
  · exact Or.inl ((bcast_word _ _ i).trans Ideal.ofBits_zero_f32)

/-- The sixteen-column index mask is 0 or 1 everywhere. -/
theorem maskOf16_bit (idx : IVec S4096x16 32) (i : S4096x4096.Idx) :
    Cert.Spec.maskOf16 (F := Ideal) idx i = 0 ∨ Cert.Spec.maskOf16 (F := Ideal) idx i = 1 := by
  unfold Cert.Spec.maskOf16
  rw [Cert.ScatterRead.scatter_const_apply _ _ _ _ (1 : EReal)
    (fun j => (bcast_word _ _ j).trans Ideal.ofBits_one_f32)]
  split
  · exact Or.inr rfl
  · exact Or.inl ((bcast_word _ _ i).trans Ideal.ofBits_zero_f32)

/-- The threshold mask at an entry: the unsigned reading of the one-bit answer of "the entry exceeds the threshold
    word". -/
theorem simMaskR_apply (sim : FVec Ideal S4096x4096 .f32) (i : S4096x4096.Idx) :
    Cert.RefSpec.simMaskR (F := Ideal) sim i
      = FloatOps.uitofp (F := Ideal) .f32
          (FloatOps.cmpf (F := Ideal) (φ := .f32) .ogt (sim i) (Ideal.ofBits .f32 0x3F666666#32)) := by
  unfold Cert.RefSpec.simMaskR
  exact congrArg (fun z : EReal => FloatOps.uitofp (F := Ideal) .f32
    (FloatOps.cmpf (F := Ideal) (φ := .f32) .ogt (sim i) z)) (bcast_word _ _ i)

/-- The threshold mask is 0 or 1 everywhere. -/
theorem simMaskR_bit (sim : FVec Ideal S4096x4096 .f32) (i : S4096x4096.Idx) :
    Cert.RefSpec.simMaskR (F := Ideal) sim i = 0 ∨ Cert.RefSpec.simMaskR (F := Ideal) sim i = 1 := by
  rw [simMaskR_apply]
  exact Cert.Alg.uitofp_bit _

/-! ### A column of the statistics array as a vector -/

/-- Column q of a [4096, 4] array, cut out as a [4096, 1] column and seen as a vector, reads at R the array at (R, q). -/
theorem col_read (q : ℕ) (st : FVec Ideal S4096x4 .f32) (hs : S4096x4.Slices ![0, q] S4096x1)
    (hc : S4096x1.ShapeCasts S4096) (R : Fin 4096) (qq : Fin 4) (hq : qq.val = q) :
    shapeCast S4096 (extractStridedSlice S4096x1 ![0, q] st hs) hc (ix1 R) = st (ix2 R qq) :=
  (shapeCast_apply _ hc (ix1 R) (ix2 R (0 : Fin 1)) (by
      rw [Shape.rowMajor_val_two, Shape.rowMajor_val_one]
      show R.val * 1 + 0 = R.val
      omega)).trans
    (slice2_axis1_apply q st hs R (0 : Fin 1) qq (by rw [hq]; rfl))

theorem col0_apply (st : FVec Ideal S4096x4 .f32) (R : Fin 4096) :
    Cert.Spec.col0 (F := Ideal) st (ix1 R) = st (ix2 R (0 : Fin 4)) := by
  unfold Cert.Spec.col0; exact col_read 0 st _ _ R 0 rfl
theorem col1_apply (st : FVec Ideal S4096x4 .f32) (R : Fin 4096) :
    Cert.Spec.col1 (F := Ideal) st (ix1 R) = st (ix2 R (1 : Fin 4)) := by
  unfold Cert.Spec.col1; exact col_read 1 st _ _ R 1 rfl
theorem col2_apply (st : FVec Ideal S4096x4 .f32) (R : Fin 4096) :
    Cert.Spec.col2 (F := Ideal) st (ix1 R) = st (ix2 R (2 : Fin 4)) := by
  unfold Cert.Spec.col2; exact col_read 2 st _ _ R 2 rfl
theorem col3_apply (st : FVec Ideal S4096x4 .f32) (R : Fin 4096) :
    Cert.Spec.col3 (F := Ideal) st (ix1 R) = st (ix2 R (3 : Fin 4)) := by
  unfold Cert.Spec.col3; exact col_read 3 st _ _ R 3 rfl

/-! ### The reference's similarity, and its masked row sums, at a row -/

/-- The reference's similarity product is a plain row-by-column product. -/
theorem plain_ref : Cert.DotRead.Plain Cert.ReferenceIdeal.dot_S4096x256_S256x4096_S4096x4096_1_0_0_1_n_n where
  rank := rfl
  size := rfl
  lhs0 := fun i q => by
    simp [DotDims.lhsIdx, Cert.ReferenceIdeal.dot_S4096x256_S256x4096_S4096x4096_1_0_0_1_n_n]; rfl
  lhs1 := fun i q => DotDims.lhsIdx_val_of_single _ rfl i q
  rhs0 := fun i q => DotDims.rhsIdx_val_of_single _ rfl i q
  rhs1 := fun i q => by
    simp [DotDims.rhsIdx, Cert.ReferenceIdeal.dot_S4096x256_S256x4096_S4096x4096_1_0_0_1_n_n]; rfl

/-- Entry (r, k) of a plain host product is Σ j, lhs (r, j) · rhs (j, k): the same contraction as the product into a
    zero accumulator. -/
theorem hostDot_apply {m n p : ℕ} {φ₁ φ₂ : FTy} (d : DotDims ⟨2, ![m, n]⟩ ⟨2, ![n, p]⟩ ⟨2, ![m, p]⟩)
    (hd : Cert.DotRead.Plain d) (prec : Option ContractPrecision) (lhs : FVec Ideal ⟨2, ![m, n]⟩ φ₁)
    (rhs : FVec Ideal ⟨2, ![n, p]⟩ φ₂) (r : Fin m) (k : Fin p) :
    Host.dotGeneral d prec lhs rhs (ix2 r k) = ∑ j : Fin n, lhs (ix2 r j) * rhs (ix2 j k) :=
  (Ideal.dotGeneral_apply d prec .single lhs rhs (ix2 r k)).trans
    ((Ideal.matmul_constant_zero_apply d prec lhs rhs (ix2 r k)).symm.trans
      (Cert.DotRead.matmul_zero_apply d hd prec lhs rhs r k))

/-- The reference's similarity kernel at (R, c'): the exponential of the inner product of rows R and c' divided by the
    word one half. -/
theorem eOf_apply (hn : FVec Ideal S4096x256 .f32) (R c' : Fin 4096) :
    Cert.RefSpec.eOf (F := Ideal) hn (ix2 R c')
      = Ideal.exp (Ideal.div (∑ k : Fin 256, hn (ix2 R k) * hn (ix2 c' k)) (Ideal.ofBits .f32 0x3F000000#32)) := by
  unfold Cert.RefSpec.eOf
  refine congrArg Ideal.exp ?_
  refine (hostDivf_apply _ _ _).trans ?_
  refine congrArg₂ Ideal.div ?_ (bcast_word _ _ _)
  refine (hostDot_apply _ plain_ref none hn _ R c').trans ?_
  exact Finset.sum_congr rfl fun k _ =>
    congrArg (fun z : EReal => hn (ix2 R k) * z) (transpose_ix2_apply hn _ k c')

/-- The masked row sum at row R: zero plus the sum over the row of e · mask. -/
theorem posOf_apply (e m : FVec Ideal S4096x4096 .f32) (R : Fin 4096) :
    Cert.RefSpec.posOf (F := Ideal) e m (ix1 R) = 0 + ∑ c' : Fin 4096, e (ix2 R c') * m (ix2 R c') := by
  unfold Cert.RefSpec.posOf
  refine (Cert.LayoutRead.hostsum_row (mulf e m) _ _
    (by decide : (⟨2, ![4096, 4096]⟩ : Shape).Reduces [1] ⟨1, ![4096]⟩) _ R).trans ?_
  exact congrArg (fun z : EReal => z + ∑ c' : Fin 4096, e (ix2 R c') * m (ix2 R c')) Ideal.ofBits_zero_f32

/-- The complementary row sum at row R: zero plus the sum over the row of e · (1 − mask). -/
theorem negOf_apply (e m : FVec Ideal S4096x4096 .f32) (R : Fin 4096) :
    Cert.RefSpec.negOf (F := Ideal) e m (ix1 R) = 0 + ∑ c' : Fin 4096, e (ix2 R c') * (1 - m (ix2 R c')) := by
  unfold Cert.RefSpec.negOf
  refine (Cert.LayoutRead.hostsum_row _ _ _
    (by decide : (⟨2, ![4096, 4096]⟩ : Shape).Reduces [1] ⟨1, ![4096]⟩) _ R).trans ?_
  refine congrArg₂ (fun a b : EReal => a + b) Ideal.ofBits_zero_f32 (Finset.sum_congr rfl fun c' _ => ?_)
  exact congrArg (fun z : EReal => e (ix2 R c') * (z - m (ix2 R c'))) ((bcast_word _ _ _).trans Ideal.ofBits_one_f32)

/-! ### The two forms of the similarity agree, and the ratio at a row -/

/-- Scaling by two is dividing by one half: the product form is the reference's similarity kernel. -/
theorem E_eq_eOf (hn : FVec Ideal S4096x256 .f32) (R c' : Fin 4096) :
    Cert.Bridge1K.E hn R c' = Cert.RefSpec.eOf (F := Ideal) hn (ix2 R c') :=
  (congrArg Ideal.exp (Cert.Alg.scale_two_eq_div_half _)).trans (eOf_apply hn R c').symm

/-- The reference's ratio at row R is the masked row sum over the plain row sum, for a 0/1 mask. -/
theorem refRatio_apply (hn : FVec Ideal S4096x256 .f32) (m : FVec Ideal S4096x4096 .f32)
    (hm : ∀ i, m i = 0 ∨ m i = 1) (R : Fin 4096) :
    Host.divf (Cert.RefSpec.posOf (F := Ideal) (Cert.RefSpec.eOf hn) m)
        (addf (Cert.RefSpec.posOf (F := Ideal) (Cert.RefSpec.eOf hn) m)
          (Cert.RefSpec.negOf (F := Ideal) (Cert.RefSpec.eOf hn) m)) (ix1 R)
      = Ideal.div (∑ c' : Fin 4096, Cert.RefSpec.eOf (F := Ideal) hn (ix2 R c') * m (ix2 R c'))
          (∑ c' : Fin 4096, Cert.RefSpec.eOf (F := Ideal) hn (ix2 R c')) := by
  refine (hostDivf_apply _ _ _).trans ?_
  refine (congrArg₂ Ideal.div (posOf_apply _ m R)
    ((addf_apply _ _ _).trans (congrArg₂ (fun a b : EReal => a + b) (posOf_apply _ m R) (negOf_apply _ m R)))).trans ?_
  exact Cert.Alg.ratio_eq (n := 4096) (fun c' => Cert.RefSpec.eOf (F := Ideal) hn (ix2 R c'))
    (fun c' => m (ix2 R c')) (fun c' => hm _)

/-- THE RATIO BRIDGE, for any statistics array st whose column 0 holds the plain row sums of the similarity and whose
    column q holds the row sums weighted by a 0/1 mask m: the quotient of the two columns is the reference's
    pos / (pos + neg). -/
theorem ratio_of_cols (st : FVec Ideal S4096x4 .f32) (hn : FVec Ideal S4096x256 .f32) (m : FVec Ideal S4096x4096 .f32)
    (hm : ∀ i, m i = 0 ∨ m i = 1) (colq : FVec Ideal S4096 .f32) (q : Fin 4)
    (hcol : ∀ R : Fin 4096, colq (ix1 R) = st (ix2 R q))
    (k0 : ∀ R : Fin 4096, st (ix2 R (0 : Fin 4)) = ∑ c' : Fin 4096, Cert.Bridge1K.E hn R c')
    (kq : ∀ R : Fin 4096, st (ix2 R q) = ∑ c' : Fin 4096, Cert.Bridge1K.E hn R c' * m (ix2 R c')) :
    Host.divf colq (Cert.Spec.col0 (F := Ideal) st)
      = Host.divf (Cert.RefSpec.posOf (F := Ideal) (Cert.RefSpec.eOf hn) m)
          (addf (Cert.RefSpec.posOf (F := Ideal) (Cert.RefSpec.eOf hn) m)
            (Cert.RefSpec.negOf (F := Ideal) (Cert.RefSpec.eOf hn) m)) := by
  funext j
  obtain ⟨R, rfl⟩ : ∃ R : Fin 4096, j = ix1 R := ⟨j 0, eq_ix1 j⟩
  refine (hostDivf_apply _ _ _).trans ((congrArg₂ Ideal.div ?_ ?_).trans (refRatio_apply hn m hm R).symm)
  · exact ((hcol R).trans (kq R)).trans
      (Finset.sum_congr rfl fun c' _ => congrArg (fun z : EReal => z * m (ix2 R c')) (E_eq_eOf hn R c'))
  · exact ((col0_apply st R).trans (k0 R)).trans (Finset.sum_congr rfl fun c' _ => E_eq_eOf hn R c')

/-! ### The three ratios of the kernel's result array -/

section Ratios

open Idealize.ShloMosaic.TcCoe
open Idealize.ShloMosaic.Pipeline (Dat)
open Cert.KernelIdeal.Reg1

variable (V : Dev nD → Valuation τ sig (Elt Ideal)) (c : Dev nD)

/-- The first index mask: column 1 over column 0 of the result array is the reference's pos / (pos + neg). -/
theorem ratio1 (hn : FVec Ideal S4096x256 .f32) (m1 : FVec Ideal S4096x4096 .f32)
    (h20 : (V c (Proc.devRef .tc main_v20) : S4096x256.Idx → Elt Ideal .f32) = hn)
    (h39 : (V c (Proc.devRef .tc main_v39) : S4096x4096.Idx → Elt Ideal .f32) = m1)
    (hb1 : ∀ i, m1 i = 0 ∨ m1 i = 1) :
    Host.divf (Cert.Spec.col1 (F := Ideal) ((dat V c).arrAt 5 cfg1.N : S4096x4.Idx → Elt Ideal .f32))
        (Cert.Spec.col0 (F := Ideal) ((dat V c).arrAt 5 cfg1.N : S4096x4.Idx → Elt Ideal .f32))
      = Host.divf (Cert.RefSpec.posOf (F := Ideal) (Cert.RefSpec.eOf hn) m1)
          (addf (Cert.RefSpec.posOf (F := Ideal) (Cert.RefSpec.eOf hn) m1)
            (Cert.RefSpec.negOf (F := Ideal) (Cert.RefSpec.eOf hn) m1)) :=
  ratio_of_cols _ hn m1 hb1 _ 1 (col1_apply _) (Cert.Bridge1K.kcol0 V c hn h20) (Cert.Bridge1K.kcol1 V c hn m1 h20 h39)

/-- The second index mask: column 2 over column 0. -/
theorem ratio2 (hn : FVec Ideal S4096x256 .f32) (m2 : FVec Ideal S4096x4096 .f32)
    (h20 : (V c (Proc.devRef .tc main_v20) : S4096x256.Idx → Elt Ideal .f32) = hn)
    (h58 : (V c (Proc.devRef .tc main_v58) : S4096x4096.Idx → Elt Ideal .f32) = m2)
    (hb2 : ∀ i, m2 i = 0 ∨ m2 i = 1) :
    Host.divf (Cert.Spec.col2 (F := Ideal) ((dat V c).arrAt 5 cfg1.N : S4096x4.Idx → Elt Ideal .f32))
        (Cert.Spec.col0 (F := Ideal) ((dat V c).arrAt 5 cfg1.N : S4096x4.Idx → Elt Ideal .f32))
      = Host.divf (Cert.RefSpec.posOf (F := Ideal) (Cert.RefSpec.eOf hn) m2)
          (addf (Cert.RefSpec.posOf (F := Ideal) (Cert.RefSpec.eOf hn) m2)
            (Cert.RefSpec.negOf (F := Ideal) (Cert.RefSpec.eOf hn) m2)) :=
  ratio_of_cols _ hn m2 hb2 _ 2 (col2_apply _) (Cert.Bridge1K.kcol0 V c hn h20) (Cert.Bridge1K.kcol2 V c hn m2 h20 h58)

/-- Column 3 of the result array with the weight written as the reference writes it: the signed reading of the widened
    one-bit answer is the unsigned reading of it. -/
theorem kcol3_ref (hn : FVec Ideal S4096x256 .f32) (sim : FVec Ideal S4096x4096 .f32)
    (h20 : (V c (Proc.devRef .tc main_v20) : S4096x256.Idx → Elt Ideal .f32) = hn)
    (h9 : (V c (Proc.devRef .tc main_arg9) : S4096x4096.Idx → Elt Ideal .f32) = sim) (R : Fin 4096) :
    ((dat V c).arrAt 5 cfg1.N : S4096x4.Idx → Elt Ideal .f32) (ix2 R (3 : Fin 4))
      = ∑ c' : Fin 4096, Cert.Bridge1K.E hn R c' * Cert.RefSpec.simMaskR (F := Ideal) sim (ix2 R c') := by
  have hw : ∀ c' : Fin 4096, Cert.Bridge1K.simW sim R c' = Cert.RefSpec.simMaskR (F := Ideal) sim (ix2 R c') :=
    fun c' => (Cert.Alg.sitofp_extui_eq_uitofp _).trans (simMaskR_apply sim (ix2 R c')).symm
  have hs : (∑ c' : Fin 4096, Cert.Bridge1K.E hn R c' * Cert.Bridge1K.simW sim R c' : EReal)
      = ∑ c' : Fin 4096, Cert.Bridge1K.E hn R c' * Cert.RefSpec.simMaskR (F := Ideal) sim (ix2 R c') :=
    Finset.sum_congr rfl fun c' _ => congrArg (fun z : EReal => Cert.Bridge1K.E hn R c' * z) (hw c')
  exact (Cert.Bridge1K.kcol3 V c hn sim h20 h9 R).trans hs

/-- The threshold mask: column 3 over column 0, the kernel's signed reading of the widened one-bit answer being the
    reference's unsigned reading of it. -/
theorem ratio3 (hn : FVec Ideal S4096x256 .f32) (sim : FVec Ideal S4096x4096 .f32)
    (h20 : (V c (Proc.devRef .tc main_v20) : S4096x256.Idx → Elt Ideal .f32) = hn)
    (h9 : (V c (Proc.devRef .tc main_arg9) : S4096x4096.Idx → Elt Ideal .f32) = sim) :
    Host.divf (Cert.Spec.col3 (F := Ideal) ((dat V c).arrAt 5 cfg1.N : S4096x4.Idx → Elt Ideal .f32))
        (Cert.Spec.col0 (F := Ideal) ((dat V c).arrAt 5 cfg1.N : S4096x4.Idx → Elt Ideal .f32))
      = Host.divf (Cert.RefSpec.posOf (F := Ideal) (Cert.RefSpec.eOf hn) (Cert.RefSpec.simMaskR sim))
          (addf (Cert.RefSpec.posOf (F := Ideal) (Cert.RefSpec.eOf hn) (Cert.RefSpec.simMaskR sim))
            (Cert.RefSpec.negOf (F := Ideal) (Cert.RefSpec.eOf hn) (Cert.RefSpec.simMaskR sim))) :=
  ratio_of_cols _ hn (Cert.RefSpec.simMaskR (F := Ideal) sim) (simMaskR_bit sim) _ 3 (col3_apply _)
    (Cert.Bridge1K.kcol0 V c hn h20) (kcol3_ref V c hn sim h20 h9)

end Ratios

end Cert.Bridge1

end
-- ==== Proof.Final.lean ====
import proofs.«117839_j20658792694235_1_alg».proof.Proof.KITail
import proofs.«117839_j20658792694235_1_alg».proof.Proof.Bridge0
import proofs.«117839_j20658792694235_1_alg».proof.Proof.KIReg1Value
import proofs.«117839_j20658792694235_1_alg».proof.Proof.RefRun
import proofs.«117839_j20658792694235_1_alg».proof.Proof.RefSpec
import proofs.«117839_j20658792694235_1_alg».proof.Proof.RefTail
import proofs.«117839_j20658792694235_1_alg».proof.Proof.Bridge1
import proofs.«117839_j20658792694235_1_alg».proof.Proof.KIRegions

/-! The final equation: with the two launch memories agreeing on the twelve arguments, the
reference's result buffer after its operations holds what the kernel program's last valuation
holds at its result buffer.  Both sides are first read as the same pure function of the arguments:
the reference's directly, the kernel program's through what its two regions leave behind. -/

set_option maxRecDepth 16384
set_option pp.maxSteps 5000
set_option pp.deepTerms false

noncomputable section

namespace Cert.Final

open Idealize.ShloMosaic Idealize.ShloMosaic.TcCoe Idealize.ShloMosaic.StableHlo
open Cert.KernelIdeal Cert.KernelIdeal.Gen

/-- The equation from its ingredients: the reference's result as a pure function of its arguments, what
    the two regions leave as the valuations name it, and the three ratios of the second region's columns. -/
theorem result_eq_core
    (m : (ℓ : Loc nD τ sig) → Buf (Elt Ideal) ℓ)
    (m' : (ℓ : Loc Cert.ReferenceIdeal.nD Cert.ReferenceIdeal.τ Cert.ReferenceIdeal.sig) → Buf (Elt Ideal) ℓ)
    (c : Dev nD)
    (outs : Outs (F := Ideal)) (ent1 : Dev nD → Valuation τ sig (Elt Ideal))
    (hv2 : outs 2 main_v2 c = (Reg0.dat (fun c => V1 m c) c).arrAt 3 cfg0.N)
    (hv59 : outs 8 main_v59 c = (Reg1.dat ent1 c).arrAt 5 cfg1.N)
    (hent1 : V7 m outs c = ent1 c)
    (href : (after Cert.ReferenceIdeal.RefRun.ops (fun b => m' (c, b)) (Proc.devRef .tc Cert.ReferenceIdeal.main_v149) : FVec Ideal S6 .f32)
      = Spec.combine (F := Ideal) (RefSpec.loss1R (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)))
          (Spec.finish (Host.divf (RefSpec.posOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (Spec.maskOf8 (m' ((c.tc : Thread Cert.ReferenceIdeal.nD Cert.ReferenceIdeal.τ).loc Cert.ReferenceIdeal.main_arg10)))) (addf (RefSpec.posOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (Spec.maskOf8 (m' ((c.tc : Thread Cert.ReferenceIdeal.nD Cert.ReferenceIdeal.τ).loc Cert.ReferenceIdeal.main_arg10)))) (RefSpec.negOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (Spec.maskOf8 (m' ((c.tc : Thread Cert.ReferenceIdeal.nD Cert.ReferenceIdeal.τ).loc Cert.ReferenceIdeal.main_arg10)))))))
          (Spec.finish (Host.divf (RefSpec.posOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (Spec.maskOf16 (m' ((c.tc : Thread Cert.ReferenceIdeal.nD Cert.ReferenceIdeal.τ).loc Cert.ReferenceIdeal.main_arg11)))) (addf (RefSpec.posOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (Spec.maskOf16 (m' ((c.tc : Thread Cert.ReferenceIdeal.nD Cert.ReferenceIdeal.τ).loc Cert.ReferenceIdeal.main_arg11)))) (RefSpec.negOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (Spec.maskOf16 (m' ((c.tc : Thread Cert.ReferenceIdeal.nD Cert.ReferenceIdeal.τ).loc Cert.ReferenceIdeal.main_arg11)))))))
          (Spec.finish (Host.divf (RefSpec.posOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (RefSpec.simMaskR (m' ((c.tc : Thread Cert.ReferenceIdeal.nD Cert.ReferenceIdeal.τ).loc Cert.ReferenceIdeal.main_arg9)))) (addf (RefSpec.posOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (RefSpec.simMaskR (m' ((c.tc : Thread Cert.ReferenceIdeal.nD Cert.ReferenceIdeal.τ).loc Cert.ReferenceIdeal.main_arg9)))) (RefSpec.negOf (RefSpec.eOf (Spec.hnOf (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (RefSpec.simMaskR (m' ((c.tc : Thread Cert.ReferenceIdeal.nD Cert.ReferenceIdeal.τ).loc Cert.ReferenceIdeal.main_arg9)))))))
          (Spec.loss5Of (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))))
    (hr1 : ∀ (hn : FVec Ideal S4096x256 .f32) (m1 : FVec Ideal S4096x4096 .f32),
      (ent1 c (Proc.devRef .tc main_v20) : S4096x256.Idx → Elt Ideal .f32) = hn → (ent1 c (Proc.devRef .tc main_v39) : S4096x4096.Idx → Elt Ideal .f32) = m1 → (∀ i, m1 i = 0 ∨ m1 i = 1) →
      Host.divf (Spec.col1 (F := Ideal) ((Reg1.dat ent1 c).arrAt 5 cfg1.N : S4096x4.Idx → Elt Ideal .f32)) (Spec.col0 (F := Ideal) ((Reg1.dat ent1 c).arrAt 5 cfg1.N : S4096x4.Idx → Elt Ideal .f32))
        = Host.divf (RefSpec.posOf (F := Ideal) (RefSpec.eOf hn) m1)
            (addf (RefSpec.posOf (F := Ideal) (RefSpec.eOf hn) m1) (RefSpec.negOf (F := Ideal) (RefSpec.eOf hn) m1)))
    (hr2 : ∀ (hn : FVec Ideal S4096x256 .f32) (m2 : FVec Ideal S4096x4096 .f32),
      (ent1 c (Proc.devRef .tc main_v20) : S4096x256.Idx → Elt Ideal .f32) = hn → (ent1 c (Proc.devRef .tc main_v58) : S4096x4096.Idx → Elt Ideal .f32) = m2 → (∀ i, m2 i = 0 ∨ m2 i = 1) →
      Host.divf (Spec.col2 (F := Ideal) ((Reg1.dat ent1 c).arrAt 5 cfg1.N : S4096x4.Idx → Elt Ideal .f32)) (Spec.col0 (F := Ideal) ((Reg1.dat ent1 c).arrAt 5 cfg1.N : S4096x4.Idx → Elt Ideal .f32))
        = Host.divf (RefSpec.posOf (F := Ideal) (RefSpec.eOf hn) m2)
            (addf (RefSpec.posOf (F := Ideal) (RefSpec.eOf hn) m2) (RefSpec.negOf (F := Ideal) (RefSpec.eOf hn) m2)))
    (hr3 : ∀ (hn : FVec Ideal S4096x256 .f32) (sim : FVec Ideal S4096x4096 .f32),
      (ent1 c (Proc.devRef .tc main_v20) : S4096x256.Idx → Elt Ideal .f32) = hn → (ent1 c (Proc.devRef .tc main_arg9) : S4096x4096.Idx → Elt Ideal .f32) = sim →
      Host.divf (Spec.col3 (F := Ideal) ((Reg1.dat ent1 c).arrAt 5 cfg1.N : S4096x4.Idx → Elt Ideal .f32)) (Spec.col0 (F := Ideal) ((Reg1.dat ent1 c).arrAt 5 cfg1.N : S4096x4.Idx → Elt Ideal .f32))
        = Host.divf (RefSpec.posOf (F := Ideal) (RefSpec.eOf hn) (RefSpec.simMaskR sim))
            (addf (RefSpec.posOf (F := Ideal) (RefSpec.eOf hn) (RefSpec.simMaskR sim)) (RefSpec.negOf (F := Ideal) (RefSpec.eOf hn) (RefSpec.simMaskR sim))))
    (hb8 : ∀ (idx : IVec S4096x8 32) (i : S4096x4096.Idx), Spec.maskOf8 (F := Ideal) idx i = 0 ∨ Spec.maskOf8 (F := Ideal) idx i = 1)
    (hb16 : ∀ (idx : IVec S4096x16 32) (i : S4096x4096.Idx), Spec.maskOf16 (F := Ideal) idx i = 0 ∨ Spec.maskOf16 (F := Ideal) idx i = 1)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)) :
    (after Cert.ReferenceIdeal.RefRun.ops (fun b => m' (c, b)) (Proc.devRef .tc Cert.ReferenceIdeal.main_v149) : FVec Ideal S6 .f32)
      = V15 m outs c main_v127 := by
  obtain ⟨g0, g1, g2, g3, g4, g5, g6, g7, g8, g9, g10, g11⟩ := hagree
  have h20 : (ent1 c (Proc.devRef .tc main_v20) : S4096x256.Idx → Elt Ideal .f32)
      = Spec.hnOf (F := Ideal) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
    rw [← hent1]; exact Tail.V7_v20 m outs c
  have h39 : (ent1 c (Proc.devRef .tc main_v39) : S4096x4096.Idx → Elt Ideal .f32) = Spec.maskOf8 (F := Ideal) (m ((c.tc : Thread nD τ).loc main_arg10)) := by
    rw [← hent1]; exact Tail.V7_v39 m outs c
  have h58 : (ent1 c (Proc.devRef .tc main_v58) : S4096x4096.Idx → Elt Ideal .f32) = Spec.maskOf16 (F := Ideal) (m ((c.tc : Thread nD τ).loc main_arg11)) := by
    rw [← hent1]; exact Tail.V7_v58 m outs c
  have h9 : (ent1 c (Proc.devRef .tc main_arg9) : S4096x4096.Idx → Elt Ideal .f32) = (m ((c.tc : Thread nD τ).loc main_arg9)) := by
    rw [← hent1]; exact Tail.V7_arg9 m outs c
  have e1 := Cert.Bridge0.loss1_eq (fun c => V1 m c) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (Tail.V1_arg0 m c) (Tail.V1_v1 m c) (Tail.V1_arg4 m c)
  have e2 := hr1 _ _ h20 h39 (hb8 _)
  have e3 := hr2 _ _ h20 h58 (hb16 _)
  have e4 := hr3 _ _ h20 h9
  rw [href, g0, g1, g2, g3, g4, g5, g6, g7, g8, g9, g10, g11]
  rw [show (V15 m outs c main_v127 : FVec Ideal S6 .f32) = _ from Tail.V15_v127 m outs c, hv2, hv59,
    Cert.KernelIdeal.Reg0.final (fun c => V1 m c) c, e1, e2, e3, e4]

/-- With the two launch memories agreeing on the twelve arguments, the reference's result buffer after its
    operations is the kernel program's last valuation at its result buffer. -/
theorem result_eq
    (m : (ℓ : Loc nD τ sig) → Buf (Elt Ideal) ℓ)
    (m' : (ℓ : Loc Cert.ReferenceIdeal.nD Cert.ReferenceIdeal.τ Cert.ReferenceIdeal.sig) → Buf (Elt Ideal) ℓ)
    (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)) :
    (after Cert.ReferenceIdeal.RefRun.ops (fun b => m' (c, b)) (Proc.devRef .tc Cert.ReferenceIdeal.main_v149) : FVec Ideal S6 .f32)
      = V15 m (Cert.KernelIdeal.Main.outs m) c main_v127 :=
  result_eq_core m m' c (Cert.KernelIdeal.Main.outs m) (Cert.KernelIdeal.Main.ent1 m)
    ((Cert.KernelIdeal.Main.outs_v2 m 2 c).trans rfl)
    ((Cert.KernelIdeal.Main.outs_v59 m 8 c).trans rfl)
    (Cert.KernelIdeal.Main.V7_eq m c)
    (Cert.ReferenceIdeal.RefTail.result_eq m' c)
    (fun hn m1 h20 h39 hb => Cert.Bridge1.ratio1 (Cert.KernelIdeal.Main.ent1 m) c hn m1 h20 h39 hb)
    (fun hn m2 h20 h58 hb => Cert.Bridge1.ratio2 (Cert.KernelIdeal.Main.ent1 m) c hn m2 h20 h58 hb)
    (fun hn sim h20 h9 => Cert.Bridge1.ratio3 (Cert.KernelIdeal.Main.ent1 m) c hn sim h20 h9)
    Cert.Bridge1.maskOf8_bit Cert.Bridge1.maskOf16_bit hagree

end Cert.Final
-- ==== Proof.lean ====
/-
  The certificate of one fused loss: a factorisation residual summed over a 4096x4096 matrix, three contrastive
  terms over exp(2·⟨hₙ(r), hₙ(c)⟩) weighted by 0/1 masks, and a nonnegativity penalty, combined into six numbers.

  The kernel's program computes the residual sum tile by tile (eight row tiles, accumulated in a scratch cell) and,
  for every row, four column-blocked sums — of e, and of e times each of three masks — accumulated over four column
  blocks; its host code divides each masked sum by the plain sum. The reference computes the residual sum in one
  reduction and, per mask, pos = Σ e·m, neg = Σ e·(1 − m) and pos / (pos + neg). On the extended reals the two agree:
  a sum over consecutive blocks is the one sum (addition is commutative and associative there); for a mask entry that
  is 0 or 1, e·m + e·(1 − m) = e, even when e is infinite, so pos + neg = Σ e; and the kernel's scaling by 2 is the
  reference's division by 1/2. No finiteness of the inputs is used. Everything else — the normalised rows, the masks
  scattered from the index arrays, the logarithmic means, the penalty, the final combination — is the same chain of
  operations in both programs and is carried as one function of the arguments.

  The frames: each program runs to the end, faults nowhere and leaves its arguments unchanged. For the kernel's program
  (two kernel regions between host stretches) the run is assembled region by region: each region's body is run at every
  grid point in its three control cases (first, middle, last point of the reduction axis), the scratch accumulator
  carried from point to point; the second region reads one array through two windows, whose share of that array is
  dealt at the entry and rejoined at the exit. The ideal pass rewrote nothing, so the idealization claim is trivial.
-/
import proofs.«117839_j20658792694235_1_alg».proof.Defs
import proofs.«117839_j20658792694235_1_alg».proof.Proof.Gen.Kernel
import proofs.«117839_j20658792694235_1_alg».proof.Proof.Gen.KernelIdeal
import proofs.«117839_j20658792694235_1_alg».proof.Proof.Gen.ReferenceIdeal
import proofs.«117839_j20658792694235_1_alg».proof.Proof.Gen.Pre_finite_inputs
import proofs.«117839_j20658792694235_1_alg».proof.Proof.KRegions
import proofs.«117839_j20658792694235_1_alg».proof.Proof.KIRun
import proofs.«117839_j20658792694235_1_alg».proof.Proof.RefRun
import proofs.«117839_j20658792694235_1_alg».proof.Proof.Final

noncomputable section

namespace Cert.Proof

open Idealize.ShloMosaic Idealize.SL.Sem

/-- The word-level program runs and keeps its arguments. -/
theorem frame_k : Cert.frame_Kernel (hKernel := Cert.Kernel.Gen.facts) (hPre_finite_inputs := Cert.Pre_finite_inputs.Gen.facts) := fun m ρ _ => Cert.Kernel.Main.frame m ρ

/-- So does the idealized program. -/
theorem frame_ki : Cert.frame_KernelIdeal (hKernelIdeal := Cert.KernelIdeal.Gen.facts) (hPre_finite_inputs := Cert.Pre_finite_inputs.Gen.facts) := fun m ρ _ => Cert.KernelIdeal.Main.frame m ρ

/-- And the reference: its run with the result dropped. -/
theorem frame_ri : Cert.frame_ReferenceIdeal (hReferenceIdeal := Cert.ReferenceIdeal.Gen.facts) (hPre_finite_inputs := Cert.Pre_finite_inputs.Gen.facts) := fun m ρ _ => Cert.ReferenceIdeal.RefRun.frame m ρ

/-- The ideal pass rewrote no operation. -/
theorem preserves : Cert.preserves_Kernel_KernelIdeal := trivial

/-- From memories that agree on the arguments both programs end with the same six numbers: the kernel's program at its
    last valuation's result, the reference at its operations' composed term, and the two are equal. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.V15 m (Cert.KernelIdeal.Main.outs m) c (Proc.devRef .tc Cert.KernelIdeal.main_v127),
    Cert.KernelIdeal.Main.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  exact Cert.Final.result_eq m m' c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
